-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.truncf_extf.Statement Cert.KernelIdeal.S32x32x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x256 : Shape := ⟨4, ![4, 64, 64, 256]⟩
abbrev S4x32x32x512 : Shape := ⟨4, ![4, 32, 32, 512]⟩
abbrev S4x16x16x1024 : Shape := ⟨4, ![4, 16, 16, 1024]⟩
abbrev S1024x128 : Shape := ⟨2, ![1024, 128]⟩
abbrev S128 : Shape := ⟨1, ![128]⟩
abbrev S3x3x128x128 : Shape := ⟨4, ![3, 3, 128, 128]⟩
abbrev S512x128 : Shape := ⟨2, ![512, 128]⟩
abbrev S256x128 : Shape := ⟨2, ![256, 128]⟩
abbrev S_ : Shape := ⟨0, ![]⟩

class Facts : Prop where
  bcast_S_S4x64x64x256 : S_.BroadcastsInDim S4x64x64x256 (![] : Fin 0 → Fin S4x64x64x256.rank)
  reducesTo_S4x64x64x256_S_d0_1_2_3 : S4x64x64x256.ReducesTo [0, 1, 2, 3] S_
  h_S_ : 0 < S_.numel
  bcast_S_S4x32x32x512 : S_.BroadcastsInDim S4x32x32x512 (![] : Fin 0 → Fin S4x32x32x512.rank)
  reducesTo_S4x32x32x512_S_d0_1_2_3 : S4x32x32x512.ReducesTo [0, 1, 2, 3] S_
  bcast_S_S4x16x16x1024 : S_.BroadcastsInDim S4x16x16x1024 (![] : Fin 0 → Fin S4x16x16x1024.rank)
  reducesTo_S4x16x16x1024_S_d0_1_2_3 : S4x16x16x1024.ReducesTo [0, 1, 2, 3] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S512x128 : S_.BroadcastsInDim S512x128 (![] : Fin 0 → Fin S512x128.rank)
  reducesTo_S512x128_S_d0_1 : S512x128.ReducesTo [0, 1] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S256x128 .f32) (main_arg12 : FVec F S128 .f32) (main_arg13 : FVec F S3x3x128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg11
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S3x3x128x128 .f32 := Host.absf main_arg13
  let main_cst_24 : FVec F S_ .f32 := constant S_ .f32 0x7F800000#32
  let main_v65 : FVec F S3x3x128x128 .f32 := broadcastInDim S3x3x128x128 ![] bcast_S_S3x3x128x128 main_cst_24
  let main_v66 : IVec S3x3x128x128 1 := cmpf .olt main_v64 main_v65
  let main_c_25 : IVec S_ 1 := constantI S_ 1 1#1
  let main_v67 : IVec S_ 1 := (fun x v => Host.reduce IntOp.andi x v reducesTo_S3x3x128x128_S_d0_1_2_3 h_S_) main_v66 main_c_25
  fn_part4 (F := F) main_arg14 main_v63 main_v67

def fn_part2 {F : FTy → Type} [FloatOps F] (main_arg7 : FVec F S512x128 .f32) (main_arg8 : FVec F S128 .f32) (main_arg9 : FVec F S3x3x128x128 .f32) (main_arg10 : FVec F S128 .f32) (main_arg11 : FVec F S256x128 .f32) (main_arg12 : FVec F S128 .f32) (main_arg13 : FVec F S3x3x128x128 .f32) (main_arg14 : FVec F S128 .f32) (main_v33 : IVec S_ 1) : IVec S_ 1 :=
  let main_v34 : FVec F S512x128 .f32 := Host.absf main_arg7
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S3x3x128x128 .f32 := Host.absf main_arg9
  let main_cst_16 : FVec F S_ .f32 := constant S_ .f32 0x7F800000#32
  let main_v45 : FVec F S3x3x128x128 .f32 := broadcastInDim S3x3x128x128 ![] bcast_S_S3x3x128x128 main_cst_16
  let main_v46 : IVec S3x3x128x128 1 := cmpf .olt main_v44 main_v45
  let main_c_17 : IVec S_ 1 := constantI S_ 1 1#1
  let main_v47 : IVec S_ 1 := (fun x v => Host.reduce IntOp.andi x v reducesTo_S3x3x128x128_S_d0_1_2_3 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S128 .f32) (main_arg5 : FVec F S3x3x128x128 .f32) (main_arg6 : FVec F S128 .f32) (main_arg7 : FVec F S512x128 .f32) (main_arg8 : FVec F S128 .f32) (main_arg9 : FVec F S3x3x128x128 .f32) (main_arg10 : FVec F S128 .f32) (main_arg11 : FVec F S256x128 .f32) (main_arg12 : FVec F S128 .f32) (main_arg13 : FVec F S3x3x128x128 .f32) (main_arg14 : FVec F S128 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x3x128x128 .f32 := Host.absf main_arg5
  let main_cst_8 : FVec F S_ .f32 := constant S_ .f32 0x7F800000#32
  let main_v25 : FVec F S3x3x128x128 .f32 := broadcastInDim S3x3x128x128 ![] bcast_S_S3x3x128x128 main_cst_8
  let main_v26 : IVec S3x3x128x128 1 := cmpf .olt main_v24 main_v25
  let main_c_9 : IVec S_ 1 := constantI S_ 1 1#1
  let main_v27 : IVec S_ 1 := (fun x v => Host.reduce IntOp.andi x v reducesTo_S3x3x128x128_S_d0_1_2_3 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4x64x64x256 .f32) (main_arg1 : FVec F S4x32x32x512 .f32) (main_arg2 : FVec F S4x16x16x1024 .f32) (main_arg3 : FVec F S1024x128 .f32) (main_arg4 : FVec F S128 .f32) (main_arg5 : FVec F S3x3x128x128 .f32) (main_arg6 : FVec F S128 .f32) (main_arg7 : FVec F S512x128 .f32) (main_arg8 : FVec F S128 .f32) (main_arg9 : FVec F S3x3x128x128 .f32) (main_arg10 : FVec F S128 .f32) (main_arg11 : FVec F S256x128 .f32) (main_arg12 : FVec F S128 .f32) (main_arg13 : FVec F S3x3x128x128 .f32) (main_arg14 : FVec F S128 .f32) : IVec S_ 1 :=
  let main_v0 : FVec F S4x64x64x256 .f32 := Host.absf main_arg0
  let main_cst : FVec F S_ .f32 := constant S_ .f32 0x7F800000#32
  let main_v1 : FVec F S4x64x64x256 .f32 := broadcastInDim S4x64x64x256 ![] bcast_S_S4x64x64x256 main_cst
  let main_v2 : IVec S4x64x64x256 1 := cmpf .olt main_v0 main_v1
  let main_c : IVec S_ 1 := constantI S_ 1 1#1
  let main_v3 : IVec S_ 1 := (fun x v => Host.reduce IntOp.andi x v reducesTo_S4x64x64x256_S_d0_1_2_3 h_S_) main_v2 main_c
  let main_v4 : FVec F S4x32x32x512 .f32 := Host.absf main_arg1
  let main_cst_0 : FVec F S_ .f32 := constant S_ .f32 0x7F800000#32
  let main_v5 : FVec F S4x32x32x512 .f32 := broadcastInDim S4x32x32x512 ![] bcast_S_S4x32x32x512 main_cst_0
  let main_v6 : IVec S4x32x32x512 1 := cmpf .olt main_v4 main_v5
  let main_c_1 : IVec S_ 1 := constantI S_ 1 1#1
  let main_v7 : IVec S_ 1 := (fun x v => Host.reduce IntOp.andi x v reducesTo_S4x32x32x512_S_d0_1_2_3 h_S_) main_v6 main_c_1
  let main_v8 : IVec S_ 1 := andi main_v3 main_v7
  let main_v9 : FVec F S4x16x16x1024 .f32 := Host.absf main_arg2
  let main_cst_2 : FVec F S_ .f32 := constant S_ .f32 0x7F800000#32
  let main_v10 : FVec F S4x16x16x1024 .f32 := broadcastInDim S4x16x16x1024 ![] bcast_S_S4x16x16x1024 main_cst_2
  let main_v11 : IVec S4x16x16x1024 1 := cmpf .olt main_v9 main_v10
  let main_c_3 : IVec S_ 1 := constantI S_ 1 1#1
  let main_v12 : IVec S_ 1 := (fun x v => Host.reduce IntOp.andi x v reducesTo_S4x16x16x1024_S_d0_1_2_3 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4x64x64x256 : Shape := ⟨4, ![4, 64, 64, 256]⟩
abbrev S4x32x32x512 : Shape := ⟨4, ![4, 32, 32, 512]⟩
abbrev S4x16x16x1024 : Shape := ⟨4, ![4, 16, 16, 1024]⟩
abbrev S1024x128 : Shape := ⟨2, ![1024, 128]⟩
abbrev S128 : Shape := ⟨1, ![128]⟩
abbrev S3x3x128x128 : Shape := ⟨4, ![3, 3, 128, 128]⟩
abbrev S512x128 : Shape := ⟨2, ![512, 128]⟩
abbrev S256x128 : Shape := ⟨2, ![256, 128]⟩
abbrev S3x384x128 : Shape := ⟨3, ![3, 384, 128]⟩
abbrev S1x128 : Shape := ⟨2, ![1, 128]⟩
abbrev S4x64x64x128 : Shape := ⟨4, ![4, 64, 64, 128]⟩
abbrev S4x32x32x128 : Shape := ⟨4, ![4, 32, 32, 128]⟩
abbrev S4x16x16x128 : Shape := ⟨4, ![4, 16, 16, 128]⟩
abbrev S1x64x64x256 : Shape := ⟨4, ![1, 64, 64, 256]⟩
abbrev S1x32x32x512 : Shape := ⟨4, ![1, 32, 32, 512]⟩
abbrev S1x16x16x1024 : Shape := ⟨4, ![1, 16, 16, 1024]⟩
abbrev S1x64x64x128 : Shape := ⟨4, ![1, 64, 64, 128]⟩
abbrev S1x32x32x128 : Shape := ⟨4, ![1, 32, 32, 128]⟩
abbrev S1x16x16x128 : Shape := ⟨4, ![1, 16, 16, 128]⟩
abbrev S16x16x1024 : Shape := ⟨3, ![16, 16, 1024]⟩
abbrev S256x1024 : Shape := ⟨2, ![256, 1024]⟩
abbrev S16x16x128 : Shape := ⟨3, ![16, 16, 128]⟩
abbrev S16x1x128 : Shape := ⟨3, ![16, 1, 128]⟩
abbrev S16x15x128 : Shape := ⟨3, ![16, 15, 128]⟩
abbrev S16x16x384 : Shape := ⟨3, ![16, 16, 384]⟩
abbrev S256x384 : Shape := ⟨2, ![256, 384]⟩
abbrev S1x384x128 : Shape := ⟨3, ![1, 384, 128]⟩
abbrev S384x128 : Shape := ⟨2, ![384, 128]⟩
abbrev S1x16x128 : Shape := ⟨3, ![1, 16, 128]⟩
abbrev S15x16x128 : Shape := ⟨3, ![15, 16, 128]⟩
abbrev S1x1x128 : Shape := ⟨3, ![1, 1, 128]⟩
abbrev S32x32x512 : Shape := ⟨3, ![32, 32, 512]⟩
abbrev S1024x512 : Shape := ⟨2, ![1024, 512]⟩
abbrev S32x32x128 : Shape := ⟨3, ![32, 32, 128]⟩
abbrev S16x1x16x128 : Shape := ⟨4, ![16, 1, 16, 128]⟩
abbrev S16x2x16x128 : Shape := ⟨4, ![16, 2, 16, 128]⟩
abbrev S32x16x128 : Shape := ⟨3, ![32, 16, 128]⟩
abbrev S32x16x1x128 : Shape := ⟨4, ![32, 16, 1, 128]⟩
abbrev S32x16x2x128 : Shape := ⟨4, ![32, 16, 2, 128]⟩
abbrev S32x1x128 : Shape := ⟨3, ![32, 1, 128]⟩
abbrev S32x31x128 : Shape := ⟨3, ![32, 31, 128]⟩
abbrev S32x32x384 : Shape := ⟨3, ![32, 32, 384]⟩
abbrev S1024x384 : Shape := ⟨2, ![1024, 384]⟩
abbrev S1x32x128 : Shape := ⟨3, ![1, 32, 128]⟩
abbrev S31x32x128 : Shape := ⟨3, ![31, 32, 128]⟩
abbrev S64x64x256 : Shape := ⟨3, ![64, 64, 256]⟩
abbrev S4096x256 : Shape := ⟨2, ![4096, 256]⟩
abbrev S4096x128 : Shape := ⟨2, ![4096, 128]⟩
abbrev S64x64x128 : Shape := ⟨3, ![64, 64, 128]⟩
abbrev S32x1x32x128 : Shape := ⟨4, ![32, 1, 32, 128]⟩
abbrev S32x2x32x128 : Shape := ⟨4, ![32, 2, 32, 128]⟩
abbrev S64x32x128 : Shape := ⟨3, ![64, 32, 128]⟩
abbrev S64x32x1x128 : Shape := ⟨4, ![64, 32, 1, 128]⟩
abbrev S64x32x2x128 : Shape := ⟨4, ![64, 32, 2, 128]⟩
abbrev S64x1x128 : Shape := ⟨3, ![64, 1, 128]⟩
abbrev S64x63x128 : Shape := ⟨3, ![64, 63, 128]⟩
abbrev S64x64x384 : Shape := ⟨3, ![64, 64, 384]⟩
abbrev S4096x384 : Shape := ⟨2, ![4096, 384]⟩
abbrev S1x64x128 : Shape := ⟨3, ![1, 64, 128]⟩
abbrev S63x64x128 : Shape := ⟨3, ![63, 64, 128]⟩

abbrev nBuf : Space → Nat
  | .hbm => 33
  | .vmem => 24
  | .smem => 0
  | _ => 0

abbrev bufTy : (tb : Table) → Fin (tcTables nBuf tb) → BufTy
  | .hbm, ⟨0, _⟩ => ⟨S4x64x64x256, .f32⟩
  | .hbm, ⟨1, _⟩ => ⟨S4x32x32x512, .f32⟩
  | .hbm, ⟨2, _⟩ => ⟨S4x16x16x1024, .f32⟩
  | .hbm, ⟨3, _⟩ => ⟨S1024x128, .f32⟩
  | .hbm, ⟨4, _⟩ => ⟨S128, .f32⟩
  | .hbm, ⟨5, _⟩ => ⟨S3x3x128x128, .f32⟩
  | .hbm, ⟨6, _⟩ => ⟨S128, .f32⟩
  | .hbm, ⟨7, _⟩ => ⟨S512x128, .f32⟩
  | .hbm, ⟨8, _⟩ => ⟨S128, .f32⟩
  | .hbm, ⟨9, _⟩ => ⟨S3x3x128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S3x3x128x128, .f32⟩
  | .hbm, ⟨14, _⟩ => ⟨S128, .f32⟩
  | .hbm, ⟨15, _⟩ => ⟨S1024x128, .bf16⟩
  | .hbm, ⟨16, _⟩ => ⟨S512x128, .bf16⟩
  | .hbm, ⟨17, _⟩ => ⟨S256x128, .bf16⟩
  | .hbm, ⟨18, _⟩ => ⟨S3x384x128, .f32⟩
  | .hbm, ⟨19, _⟩ => ⟨S3x384x128, .bf16⟩
  | .hbm, ⟨20, _⟩ => ⟨S3x384x128, .f32⟩
  | .hbm, ⟨21, _⟩ => ⟨S3x384x128, .bf16⟩
  | .hbm, ⟨22, _⟩ => ⟨S3x384x128, .f32⟩
  | .hbm, ⟨23, _⟩ => ⟨S3x384x128, .bf16⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S4x64x64x128, .f32⟩
  | .hbm, ⟨31, _⟩ => ⟨S4x32x32x128, .f32⟩
  | .hbm, ⟨32, _⟩ => ⟨S4x16x16x128, .f32⟩
  | .local _ .vmem, ⟨0, _⟩ => ⟨S1x64x64x256, .f32⟩
  | .local _ .vmem, ⟨1, _⟩ => ⟨S1x64x64x256, .f32⟩
  | .local _ .vmem, ⟨2, _⟩ => ⟨S1x32x32x512, .f32⟩
  | .local _ .vmem, ⟨3, _⟩ => ⟨S1x32x32x512, .f32⟩
  | .local _ .vmem, ⟨4, _⟩ => ⟨S1x16x16x1024, .f32⟩
  | .local _ .vmem, ⟨5, _⟩ => ⟨S1x16x16x1024, .f32⟩
  | .local _ .vmem, ⟨6, _⟩ => ⟨S1024x128, .bf16⟩
  | .local _ .vmem, ⟨7, _⟩ => ⟨S1x128, .f32⟩
  | .local _ .vmem, ⟨8, _⟩ => ⟨S3x384x128, .bf16⟩
  | .local _ .vmem, ⟨9, _⟩ => ⟨S1x128, .f32⟩
  | .local _ .vmem, ⟨10, _⟩ => ⟨S512x128, .bf16⟩
  | .local _ .vmem, ⟨11, _⟩ => ⟨S1x128, .f32⟩
  | .local _ .vmem, ⟨12, _⟩ => ⟨S3x384x128, .bf16⟩
  | .local _ .vmem, ⟨13, _⟩ => ⟨S1x128, .f32⟩
  | .local _ .vmem, ⟨14, _⟩ => ⟨S256x128, .bf16⟩
  | .local _ .vmem, ⟨15, _⟩ => ⟨S1x128, .f32⟩
  | .local _ .vmem, ⟨16, _⟩ => ⟨S3x384x128, .bf16⟩
  | .local _ .vmem, ⟨17, _⟩ => ⟨S1x128, .f32⟩
  | .local _ .vmem, ⟨18, _⟩ => ⟨S1x64x64x128, .f32⟩
  | .local _ .vmem, ⟨19, _⟩ => ⟨S1x64x64x128, .f32⟩
  | .local _ .vmem, ⟨20, _⟩ => ⟨S1x32x32x128, .f32⟩
  | .local _ .vmem, ⟨21, _⟩ => ⟨S1x32x32x128, .f32⟩
  | .local _ .vmem, ⟨22, _⟩ => ⟨S1x16x16x128, .f32⟩
  | .local _ .vmem, ⟨23, _⟩ => ⟨S1x16x16x128, .f32⟩
  | _, _ => ⟨S4x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x384x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x384x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x384x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x64x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x32x32x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x16x16x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bitsLt_bf16_f32 : FTy.bits .bf16 < FTy.bits .f32
  shapeCasts_S3x3x128x128_S3x384x128 : S3x3x128x128.ShapeCasts S3x384x128
  shapeCasts_S128_S1x128 : S128.ShapeCasts S1x128
  inb_S1x16x16x1024_S1x16x16x1024_0_0_0_0 : ∀ a, (![0, 0, 0, 0] : Fin 4 → Nat) a + S1x16x16x1024.size a ≤ S1x16x16x1024.size a
  h_S1x16x16x1024 : 0 < S1x16x16x1024.numel
  shapeCasts_S1x16x16x1024_S16x16x1024 : S1x16x16x1024.ShapeCasts S16x16x1024
  shapeCasts_S16x16x1024_S256x1024 : S16x16x1024.ShapeCasts S256x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  shapeCasts_S256x128_S16x16x128 : S256x128.ShapeCasts S16x16x128
  slices_S16x16x128_o0_0_0_S16x15x128 : S16x16x128.Slices ![0, 0, 0] S16x15x128
  concatenates_S16x1x128_S16x15x128_S16x16x128_d1 : Shape.Concatenates [S16x1x128, S16x15x128] S16x16x128 1
  slices_S16x16x128_o0_1_0_S16x15x128 : S16x16x128.Slices ![0, 1, 0] S16x15x128
  concatenates_S16x15x128_S16x1x128_S16x16x128_d1 : Shape.Concatenates [S16x15x128, S16x1x128] S16x16x128 1
  concatenates_S16x16x128_S16x16x128_S16x16x128_S16x16x384_d2 : Shape.Concatenates [S16x16x128, S16x16x128, S16x16x128] S16x16x384 2
  shapeCasts_S16x16x384_S256x384 : S16x16x384.ShapeCasts S256x384
  inb_S3x384x128_S1x384x128_0_0_0 : ∀ a, (![0, 0, 0] : Fin 3 → Nat) a + S1x384x128.size a ≤ S3x384x128.size a
  h_S1x384x128 : 0 < S1x384x128.numel
  shapeCasts_S1x384x128_S384x128 : S1x384x128.ShapeCasts S384x128
  inb_S3x384x128_S1x384x128_1_0_0 : ∀ a, (![1, 0, 0] : Fin 3 → Nat) a + S1x384x128.size a ≤ S3x384x128.size a
  inb_S3x384x128_S1x384x128_2_0_0 : ∀ a, (![2, 0, 0] : Fin 3 → Nat) a + S1x384x128.size a ≤ S3x384x128.size a
  slices_S16x16x128_o0_0_0_S15x16x128 : S16x16x128.Slices ![0, 0, 0] S15x16x128
  concatenates_S1x16x128_S15x16x128_S16x16x128_d0 : Shape.Concatenates [S1x16x128, S15x16x128] S16x16x128 0
  slices_S16x16x128_o1_0_0_S15x16x128 : S16x16x128.Slices ![1, 0, 0] S15x16x128
  concatenates_S15x16x128_S1x16x128_S16x16x128_d0 : Shape.Concatenates [S15x16x128, S1x16x128] S16x16x128 0
  shapeCasts_S1x128_S1x1x128 : S1x128.ShapeCasts S1x1x128
  broadcasts_S1x1x128_S16x16x128 : S1x1x128.Broadcasts S16x16x128
  shapeCasts_S16x16x128_S1x16x16x128 : S16x16x128.ShapeCasts S1x16x16x128
  inb_S1x16x16x128_S1x16x16x128_0_0_0_0 : ∀ a, (![0, 0, 0, 0] : Fin 4 → Nat) a + S1x16x16x128.size a ≤ S1x16x16x128.size a
  h_S1x16x16x128 : 0 < S1x16x16x128.numel
  inb_S1x32x32x512_S1x32x32x512_0_0_0_0 : ∀ a, (![0, 0, 0, 0] : Fin 4 → Nat) a + S1x32x32x512.size a ≤ S1x32x32x512.size a
  h_S1x32x32x512 : 0 < S1x32x32x512.numel
  shapeCasts_S1x32x32x512_S32x32x512 : S1x32x32x512.ShapeCasts S32x32x512
  shapeCasts_S32x32x512_S1024x512 : S32x32x512.ShapeCasts S1024x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S1024x128 : S1x128.Broadcasts S1024x128
  shapeCasts_S1024x128_S32x32x128 : S1024x128.ShapeCasts S32x32x128
  shapeCasts_S16x16x128_S16x1x16x128 : S16x16x128.ShapeCasts S16x1x16x128
  shapeCasts_S16x1x16x128_S16x1x16x128 : S16x1x16x128.ShapeCasts S16x1x16x128
  broadcasts_S16x1x16x128_S16x2x16x128 : S16x1x16x128.Broadcasts S16x2x16x128
  shapeCasts_S16x2x16x128_S32x16x128 : S16x2x16x128.ShapeCasts S32x16x128
  shapeCasts_S32x16x128_S32x16x1x128 : S32x16x128.ShapeCasts S32x16x1x128
  shapeCasts_S32x16x1x128_S32x16x1x128 : S32x16x1x128.ShapeCasts S32x16x1x128
  broadcasts_S32x16x1x128_S32x16x2x128 : S32x16x1x128.Broadcasts S32x16x2x128
  shapeCasts_S32x16x2x128_S32x32x128 : S32x16x2x128.ShapeCasts S32x32x128
  slices_S32x32x128_o0_0_0_S32x31x128 : S32x32x128.Slices ![0, 0, 0] S32x31x128
  concatenates_S32x1x128_S32x31x128_S32x32x128_d1 : Shape.Concatenates [S32x1x128, S32x31x128] S32x32x128 1
  slices_S32x32x128_o0_1_0_S32x31x128 : S32x32x128.Slices ![0, 1, 0] S32x31x128
  concatenates_S32x31x128_S32x1x128_S32x32x128_d1 : Shape.Concatenates [S32x31x128, S32x1x128] S32x32x128 1
  concatenates_S32x32x128_S32x32x128_S32x32x128_S32x32x384_d2 : Shape.Concatenates [S32x32x128, S32x32x128, S32x32x128] S32x32x384 2
  shapeCasts_S32x32x384_S1024x384 : S32x32x384.ShapeCasts S1024x384
  slices_S32x32x128_o0_0_0_S31x32x128 : S32x32x128.Slices ![0, 0, 0] S31x32x128
  concatenates_S1x32x128_S31x32x128_S32x32x128_d0 : Shape.Concatenates [S1x32x128, S31x32x128] S32x32x128 0
  slices_S32x32x128_o1_0_0_S31x32x128 : S32x32x128.Slices ![1, 0, 0] S31x32x128
  concatenates_S31x32x128_S1x32x128_S32x32x128_d0 : Shape.Concatenates [S31x32x128, S1x32x128] S32x32x128 0
  broadcasts_S1x1x128_S32x32x128 : S1x1x128.Broadcasts S32x32x128
  shapeCasts_S32x32x128_S1x32x32x128 : S32x32x128.ShapeCasts S1x32x32x128
  inb_S1x32x32x128_S1x32x32x128_0_0_0_0 : ∀ a, (![0, 0, 0, 0] : Fin 4 → Nat) a + S1x32x32x128.size a ≤ S1x32x32x128.size a
  h_S1x32x32x128 : 0 < S1x32x32x128.numel
  inb_S1x64x64x256_S1x64x64x256_0_0_0_0 : ∀ a, (![0, 0, 0, 0] : Fin 4 → Nat) a + S1x64x64x256.size a ≤ S1x64x64x256.size a
  h_S1x64x64x256 : 0 < S1x64x64x256.numel
  shapeCasts_S1x64x64x256_S64x64x256 : S1x64x64x256.ShapeCasts S64x64x256
  shapeCasts_S64x64x256_S4096x256 : S64x64x256.ShapeCasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S4096x128 : S1x128.Broadcasts S4096x128
  shapeCasts_S4096x128_S64x64x128 : S4096x128.ShapeCasts S64x64x128
  shapeCasts_S32x32x128_S32x1x32x128 : S32x32x128.ShapeCasts S32x1x32x128
  shapeCasts_S32x1x32x128_S32x1x32x128 : S32x1x32x128.ShapeCasts S32x1x32x128
  broadcasts_S32x1x32x128_S32x2x32x128 : S32x1x32x128.Broadcasts S32x2x32x128
  shapeCasts_S32x2x32x128_S64x32x128 : S32x2x32x128.ShapeCasts S64x32x128
  shapeCasts_S64x32x128_S64x32x1x128 : S64x32x128.ShapeCasts S64x32x1x128
  shapeCasts_S64x32x1x128_S64x32x1x128 : S64x32x1x128.ShapeCasts S64x32x1x128
  broadcasts_S64x32x1x128_S64x32x2x128 : S64x32x1x128.Broadcasts S64x32x2x128
  shapeCasts_S64x32x2x128_S64x64x128 : S64x32x2x128.ShapeCasts S64x64x128
  slices_S64x64x128_o0_0_0_S64x63x128 : S64x64x128.Slices ![0, 0, 0] S64x63x128
  concatenates_S64x1x128_S64x63x128_S64x64x128_d1 : Shape.Concatenates [S64x1x128, S64x63x128] S64x64x128 1
  slices_S64x64x128_o0_1_0_S64x63x128 : S64x64x128.Slices ![0, 1, 0] S64x63x128
  concatenates_S64x63x128_S64x1x128_S64x64x128_d1 : Shape.Concatenates [S64x63x128, S64x1x128] S64x64x128 1
  concatenates_S64x64x128_S64x64x128_S64x64x128_S64x64x384_d2 : Shape.Concatenates [S64x64x128, S64x64x128, S64x64x128] S64x64x384 2
  shapeCasts_S64x64x384_S4096x384 : S64x64x384.ShapeCasts S4096x384
  slices_S64x64x128_o0_0_0_S63x64x128 : S64x64x128.Slices ![0, 0, 0] S63x64x128
  concatenates_S1x64x128_S63x64x128_S64x64x128_d0 : Shape.Concatenates [S1x64x128, S63x64x128] S64x64x128 0
  slices_S64x64x128_o1_0_0_S63x64x128 : S64x64x128.Slices ![1, 0, 0] S63x64x128
  concatenates_S63x64x128_S1x64x128_S64x64x128_d0 : Shape.Concatenates [S63x64x128, S1x64x128] S64x64x128 0
  broadcasts_S1x1x128_S64x64x128 : S1x1x128.Broadcasts S64x64x128
  shapeCasts_S64x64x128_S1x64x64x128 : S64x64x128.ShapeCasts S1x64x64x128
  inb_S1x64x64x128_S1x64x64x128_0_0_0_0 : ∀ a, (![0, 0, 0, 0] : Fin 4 → Nat) a + S1x64x64x128.size a ≤ S1x64x64x128.size a
  h_S1x64x64x128 : 0 < S1x64x64x128.numel
  dot_S256x1024_S1024x128_S256x128_1_0_0_1_n_n_wf : DotDims.WF S256x1024 S1024x128 S256x128 [1] [0] [0] [1] [] []
  dot_S256x384_S384x128_S256x128_1_0_0_1_n_n_wf : DotDims.WF S256x384 S384x128 S256x128 [1] [0] [0] [1] [] []
  dot_S1024x512_S512x128_S1024x128_1_0_0_1_n_n_wf : DotDims.WF S1024x512 S512x128 S1024x128 [1] [0] [0] [1] [] []
  dot_S1024x384_S384x128_S1024x128_1_0_0_1_n_n_wf : DotDims.WF S1024x384 S384x128 S1024x128 [1] [0] [0] [1] [] []
  dot_S4096x256_S256x128_S4096x128_1_0_0_1_n_n_wf : DotDims.WF S4096x256 S256x128 S4096x128 [1] [0] [0] [1] [] []
  dot_S4096x384_S384x128_S4096x128_1_0_0_1_n_n_wf : DotDims.WF S4096x384 S384x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x256.size a ≤ S4x64x64x256.size a
  hwx0_0 : ∀ i : grid0.Coords, EltTy.bits .f32 = 32 ∨ (Rect.block (s := S4x64x64x256) S1x64x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32x512.size a ≤ S4x32x32x512.size a
  hwx0_1 : ∀ i : grid0.Coords, EltTy.bits .f32 = 32 ∨ (Rect.block (s := S4x32x32x512) S1x32x32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x16x1024.size a ≤ S4x16x16x1024.size a
  hwx0_2 : ∀ i : grid0.Coords, EltTy.bits .f32 = 32 ∨ (Rect.block (s := S4x16x16x1024) S1x16x16x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .bf16 = 32 ∨ (Rect.block (s := S1024x128) S1024x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x384x128.size a ≤ S3x384x128.size a
  hwx0_5 : ∀ i : grid0.Coords, EltTy.bits .bf16 = 32 ∨ (Rect.block (s := S3x384x128) S3x384x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .bf16 = 32 ∨ (Rect.block (s := S512x128) S512x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x384x128.size a ≤ S3x384x128.size a
  hwx0_9 : ∀ i : grid0.Coords, EltTy.bits .bf16 = 32 ∨ (Rect.block (s := S3x384x128) S3x384x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S256x128.size a
  hwx0_11 : ∀ i : grid0.Coords, EltTy.bits .bf16 = 32 ∨ (Rect.block (s := S256x128) S256x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S3x384x128.size a ≤ S3x384x128.size a
  hwx0_13 : ∀ i : grid0.Coords, EltTy.bits .bf16 = 32 ∨ (Rect.block (s := S3x384x128) S3x384x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x64x64x128.size a ≤ S4x64x64x128.size a
  hwx0_15 : ∀ i : grid0.Coords, EltTy.bits .f32 = 32 ∨ (Rect.block (s := S4x64x64x128) S1x64x64x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x32x32x128.size a ≤ S4x32x32x128.size a
  hwx0_16 : ∀ i : grid0.Coords, EltTy.bits .f32 = 32 ∨ (Rect.block (s := S4x32x32x128) S1x32x32x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x16x16x128.size a ≤ S4x16x16x128.size a
  hwx0_17 : ∀ i : grid0.Coords, EltTy.bits .f32 = 32 ∨ (Rect.block (s := S4x16x16x128) S1x16x16x128.size (cc0_transform_17 i) (hinb0_17 i)).WholeWords (EltTy.packing .f32)

variable [Facts₀]

def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x384_S384x128_S256x128_1_0_0_1_n_n : DotDims S256x384 S384x128 S256x128 where
  lhsContracting := [1]
  rhsContracting := [0]
  lhsNonContracting := [0]
  rhsNonContracting := [1]
  lhsBatch := []
  rhsBatch := []
  wf := dot_S256x384_S384x128_S256x128_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x384_S384x128_S1024x128_1_0_0_1_n_n : DotDims S1024x384 S384x128 S1024x128 where
  lhsContracting := [1]
  rhsContracting := [0]
  lhsNonContracting := [0]
  rhsNonContracting := [1]
  lhsBatch := []
  rhsBatch := []
  wf := dot_S1024x384_S384x128_S1024x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x384_S384x128_S4096x128_1_0_0_1_n_n : DotDims S4096x384 S384x128 S4096x128 where
  lhsContracting := [1]
  rhsContracting := [0]
  lhsNonContracting := [0]
  rhsNonContracting := [1]
  lhsBatch := []
  rhsBatch := []
  wf := dot_S4096x384_S384x128_S4096x128_1_0_0_1_n_n_wf

abbrev win0_0 : Pipeline.Window sig grid0 :=
  Pipeline.Window.ofSpec (Memref.whole main_arg0) S1x64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S3x384x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S512x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S3x384x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S256x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S3x384x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15_0) S1x64x64x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v15_1) S1x32x32x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v15_2) S1x16x16x128.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S4x64x64x256 : Shape := ⟨4, ![4, 64, 64, 256]⟩
abbrev S4x32x32x512 : Shape := ⟨4, ![4, 32, 32, 512]⟩
abbrev S4x16x16x1024 : Shape := ⟨4, ![4, 16, 16, 1024]⟩
abbrev S1024x128 : Shape := ⟨2, ![1024, 128]⟩
abbrev S128 : Shape := ⟨1, ![128]⟩
abbrev S3x3x128x128 : Shape := ⟨4, ![3, 3, 128, 128]⟩
abbrev S512x128 : Shape := ⟨2, ![512, 128]⟩
abbrev S256x128 : Shape := ⟨2, ![256, 128]⟩
abbrev S1024x1024 : Shape := ⟨2, ![1024, 1024]⟩
abbrev S1x128 : Shape := ⟨2, ![1, 128]⟩
abbrev S4x16x16x128 : Shape := ⟨4, ![4, 16, 16, 128]⟩
abbrev S3x384x128 : Shape := ⟨3, ![3, 384, 128]⟩
abbrev S1x16x16x128 : Shape := ⟨4, ![1, 16, 16, 128]⟩
abbrev S16x16x384 : Shape := ⟨3, ![16, 16, 384]⟩
abbrev S16x1x128 : Shape := ⟨3, ![16, 1, 128]⟩
abbrev S1x16x384 : Shape := ⟨3, ![1, 16, 384]⟩
abbrev S1x15x16x128 : Shape := ⟨4, ![1, 15, 16, 128]⟩
abbrev S15x16x128 : Shape := ⟨3, ![15, 16, 128]⟩
abbrev S15x15x128 : Shape := ⟨3, ![15, 15, 128]⟩
abbrev S256x384 : Shape := ⟨2, ![256, 384]⟩
abbrev S1x384x128 : Shape := ⟨3, ![1, 384, 128]⟩
abbrev S384x128 : Shape := ⟨2, ![384, 128]⟩
abbrev S16x16x128 : Shape := ⟨3, ![16, 16, 128]⟩
abbrev S16x15x128 : Shape := ⟨3, ![16, 15, 128]⟩
abbrev S32 : Shape := ⟨1, ![32]⟩
abbrev S_ : Shape := ⟨0, ![]⟩
abbrev S32x1 : Shape := ⟨2, ![32, 1]⟩
abbrev S4x16x32x128 : Shape := ⟨4, ![4, 16, 32, 128]⟩
abbrev S64x32x128 : Shape := ⟨3, ![64, 32, 128]⟩
abbrev S4096x512 : Shape := ⟨2, ![4096, 512]⟩
abbrev S4096x128 : Shape := ⟨2, ![4096, 128]⟩
abbrev S1024x512 : Shape := ⟨2, ![1024, 512]⟩
abbrev S16x32x128 : Shape := ⟨3, ![16, 32, 128]⟩
abbrev S16x1x32x128 : Shape := ⟨4, ![16, 1, 32, 128]⟩
abbrev S16x2x32x128 : Shape := ⟨4, ![16, 2, 32, 128]⟩
abbrev S4x32x32x128 : Shape := ⟨4, ![4, 32, 32, 128]⟩
abbrev S1x32x32x128 : Shape := ⟨4, ![1, 32, 32, 128]⟩
abbrev S32x32x384 : Shape := ⟨3, ![32, 32, 384]⟩
abbrev S32x1x128 : Shape := ⟨3, ![32, 1, 128]⟩
abbrev S1x32x384 : Shape := ⟨3, ![1, 32, 384]⟩
abbrev S1x31x32x128 : Shape := ⟨4, ![1, 31, 32, 128]⟩
abbrev S31x32x128 : Shape := ⟨3, ![31, 32, 128]⟩
abbrev S31x31x128 : Shape := ⟨3, ![31, 31, 128]⟩
abbrev S1024x384 : Shape := ⟨2, ![1024, 384]⟩
abbrev S32x32x128 : Shape := ⟨3, ![32, 32, 128]⟩
abbrev S32x31x128 : Shape := ⟨3, ![32, 31, 128]⟩
abbrev S64 : Shape := ⟨1, ![64]⟩
abbrev S64x1 : Shape := ⟨2, ![64, 1]⟩
abbrev S4x32x64x128 : Shape := ⟨4, ![4, 32, 64, 128]⟩
abbrev S128x64x128 : Shape := ⟨3, ![128, 64, 128]⟩
abbrev S16384x256 : Shape := ⟨2, ![16384, 256]⟩
abbrev S16384x128 : Shape := ⟨2, ![16384, 128]⟩
abbrev S1024x256 : Shape := ⟨2, ![1024, 256]⟩
abbrev S8x64x128 : Shape := ⟨3, ![8, 64, 128]⟩
abbrev S8x1x64x128 : Shape := ⟨4, ![8, 1, 64, 128]⟩
abbrev S8x2x64x128 : Shape := ⟨4, ![8, 2, 64, 128]⟩
abbrev S4x64x64x128 : Shape := ⟨4, ![4, 64, 64, 128]⟩
abbrev S1x64x64x128 : Shape := ⟨4, ![1, 64, 64, 128]⟩
abbrev S64x64x384 : Shape := ⟨3, ![64, 64, 384]⟩
abbrev S64x1x128 : Shape := ⟨3, ![64, 1, 128]⟩
abbrev S1x64x384 : Shape := ⟨3, ![1, 64, 384]⟩
abbrev S1x63x64x128 : Shape := ⟨4, ![1, 63, 64, 128]⟩
abbrev S63x64x128 : Shape := ⟨3, ![63, 64, 128]⟩
abbrev S63x63x128 : Shape := ⟨3, ![63, 63, 128]⟩
abbrev S4096x384 : Shape := ⟨2, ![4096, 384]⟩
abbrev S64x64x128 : Shape := ⟨3, ![64, 64, 128]⟩
abbrev S64x63x128 : Shape := ⟨3, ![64, 63, 128]⟩

abbrev nBuf : Space → Nat
  | .hbm => 103
  | .vmem => 41
  | .smem => 0
  | _ => 0

abbrev bufTy : (tb : Table) → Fin (tcTables nBuf tb) → BufTy
  | .hbm, ⟨0, _⟩ => ⟨S4x64x64x256, .f32⟩
  | .hbm, ⟨1, _⟩ => ⟨S4x32x32x512, .f32⟩
  | .hbm, ⟨2, _⟩ => ⟨S4x16x16x1024, .f32⟩
  | .hbm, ⟨3, _⟩ => ⟨S1024x128, .f32⟩
  | .hbm, ⟨4, _⟩ => ⟨S128, .f32⟩
  | .hbm, ⟨5, _⟩ => ⟨S3x3x128x128, .f32⟩
  | .hbm, ⟨6, _⟩ => ⟨S128, .f32⟩
  | .hbm, ⟨7, _⟩ => ⟨S512x128, .f32⟩
  | .hbm, ⟨8, _⟩ => ⟨S128, .f32⟩
  | .hbm, ⟨9, _⟩ => ⟨S3x3x128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S3x3x128x128, .f32⟩
  | .hbm, ⟨14, _⟩ => ⟨S128, .f32⟩
  | .hbm, ⟨15, _⟩ => ⟨S1024x1024, .f32⟩
  | .hbm, ⟨16, _⟩ => ⟨S1x128, .f32⟩
  | .hbm, ⟨17, _⟩ => ⟨S1024x128, .bf16⟩
  | .hbm, ⟨18, _⟩ => ⟨S4x16x16x128, .bf16⟩
  | .hbm, ⟨19, _⟩ => ⟨S3x384x128, .f32⟩
  | .hbm, ⟨20, _⟩ => ⟨S3x384x128, .bf16⟩
  | .hbm, ⟨21, _⟩ => ⟨S1x128, .f32⟩
  | .hbm, ⟨22, _⟩ => ⟨S4x16x16x128, .f32⟩
  | .hbm, ⟨23, _⟩ => ⟨S32, .i32⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S_, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i1⟩
  | .hbm, ⟨35, _⟩ => ⟨S32, .i32⟩
  | .hbm, ⟨36, _⟩ => ⟨S32, .i32⟩
  | .hbm, ⟨37, _⟩ => ⟨S_, .i32⟩
  | .hbm, ⟨38, _⟩ => ⟨S32, .i32⟩
  | .hbm, ⟨39, _⟩ => ⟨S32, .i1⟩
  | .hbm, ⟨40, _⟩ => ⟨S32, .i1⟩
  | .hbm, ⟨41, _⟩ => ⟨S_, .i32⟩
  | .hbm, ⟨42, _⟩ => ⟨S32, .i32⟩
  | .hbm, ⟨43, _⟩ => ⟨S32, .i32⟩
  | .hbm, ⟨44, _⟩ => ⟨S32, .i32⟩
  | .hbm, ⟨45, _⟩ => ⟨S_, .i32⟩
  | .hbm, ⟨46, _⟩ => ⟨S32, .i32⟩
  | .hbm, ⟨47, _⟩ => ⟨S32, .i1⟩
  | .hbm, ⟨48, _⟩ => ⟨S_, .i32⟩
  | .hbm, ⟨49, _⟩ => ⟨S32, .i32⟩
  | .hbm, ⟨50, _⟩ => ⟨S32, .i32⟩
  | .hbm, ⟨51, _⟩ => ⟨S32, .i32⟩
  | .hbm, ⟨52, _⟩ => ⟨S32x1, .i32⟩
  | .hbm, ⟨53, _⟩ => ⟨S4x16x32x128, .bf16⟩
  | .hbm, ⟨54, _⟩ => ⟨S64x32x128, .bf16⟩
  | .hbm, ⟨55, _⟩ => ⟨S4096x512, .f32⟩
  | .hbm, ⟨56, _⟩ => ⟨S1x128, .f32⟩
  | .hbm, ⟨57, _⟩ => ⟨S4096x128, .bf16⟩
  | .hbm, ⟨58, _⟩ => ⟨S4x32x32x128, .bf16⟩
  | .hbm, ⟨59, _⟩ => ⟨S3x384x128, .f32⟩
  | .hbm, ⟨60, _⟩ => ⟨S3x384x128, .bf16⟩
  | .hbm, ⟨61, _⟩ => ⟨S1x128, .f32⟩
  | .hbm, ⟨62, _⟩ => ⟨S4x32x32x128, .f32⟩
  | .hbm, ⟨63, _⟩ => ⟨S64, .i32⟩
  | .hbm, ⟨64, _⟩ => ⟨S_, .i32⟩
  | .hbm, ⟨65, _⟩ => ⟨S64, .i32⟩
  | .hbm, ⟨66, _⟩ => ⟨S64, .i32⟩
  | .hbm, ⟨67, _⟩ => ⟨S_, .i32⟩
  | .hbm, ⟨68, _⟩ => ⟨S_, .i32⟩
  | .hbm, ⟨69, _⟩ => ⟨S64, .i32⟩
  | .hbm, ⟨70, _⟩ => ⟨S64, .i32⟩
  | .hbm, ⟨71, _⟩ => ⟨S64, .i32⟩
  | .hbm, ⟨72, _⟩ => ⟨S_, .i32⟩
  | .hbm, ⟨73, _⟩ => ⟨S64, .i32⟩
  | .hbm, ⟨74, _⟩ => ⟨S64, .i1⟩
  | .hbm, ⟨75, _⟩ => ⟨S64, .i32⟩
  | .hbm, ⟨76, _⟩ => ⟨S64, .i32⟩
  | .hbm, ⟨77, _⟩ => ⟨S_, .i32⟩
  | .hbm, ⟨78, _⟩ => ⟨S64, .i32⟩
  | .hbm, ⟨79, _⟩ => ⟨S64, .i1⟩
  | .hbm, ⟨80, _⟩ => ⟨S64, .i1⟩
  | .hbm, ⟨81, _⟩ => ⟨S_, .i32⟩
  | .hbm, ⟨82, _⟩ => ⟨S64, .i32⟩
  | .hbm, ⟨83, _⟩ => ⟨S64, .i32⟩
  | .hbm, ⟨84, _⟩ => ⟨S64, .i32⟩
  | .hbm, ⟨85, _⟩ => ⟨S_, .i32⟩
  | .hbm, ⟨86, _⟩ => ⟨S64, .i32⟩
  | .hbm, ⟨87, _⟩ => ⟨S64, .i1⟩
  | .hbm, ⟨88, _⟩ => ⟨S_, .i32⟩
  | .hbm, ⟨89, _⟩ => ⟨S64, .i32⟩
  | .hbm, ⟨90, _⟩ => ⟨S64, .i32⟩
  | .hbm, ⟨91, _⟩ => ⟨S64, .i32⟩
  | .hbm, ⟨92, _⟩ => ⟨S64x1, .i32⟩
  | .hbm, ⟨93, _⟩ => ⟨S4x32x64x128, .bf16⟩
  | .hbm, ⟨94, _⟩ => ⟨S128x64x128, .bf16⟩
  | .hbm, ⟨95, _⟩ => ⟨S16384x256, .f32⟩
  | .hbm, ⟨96, _⟩ => ⟨S1x128, .f32⟩
  | .hbm, ⟨97, _⟩ => ⟨S16384x128, .bf16⟩
  | .hbm, ⟨98, _⟩ => ⟨S4x64x64x128, .bf16⟩
  | .hbm, ⟨99, _⟩ => ⟨S3x384x128, .f32⟩
  | .hbm, ⟨100, _⟩ => ⟨S3x384x128, .bf16⟩
  | .hbm, ⟨101, _⟩ => ⟨S1x128, .f32⟩
  | .hbm, ⟨102, _⟩ => ⟨S4x64x64x128, .f32⟩
  | .local _ .vmem, ⟨0, _⟩ => ⟨S1024x1024, .f32⟩
  | .local _ .vmem, ⟨1, _⟩ => ⟨S1024x128, .f32⟩
  | .local _ .vmem, ⟨2, _⟩ => ⟨S1x128, .f32⟩
  | .local _ .vmem, ⟨3, _⟩ => ⟨S1024x128, .bf16⟩
  | .local _ .vmem, ⟨4, _⟩ => ⟨S1x16x16x128, .bf16⟩
  | .local _ .vmem, ⟨5, _⟩ => ⟨S1x16x16x128, .bf16⟩
  | .local _ .vmem, ⟨6, _⟩ => ⟨S3x384x128, .bf16⟩
  | .local _ .vmem, ⟨7, _⟩ => ⟨S1x128, .f32⟩
  | .local _ .vmem, ⟨8, _⟩ => ⟨S1x16x16x128, .f32⟩
  | .local _ .vmem, ⟨9, _⟩ => ⟨S1x16x16x128, .f32⟩
  | .local _ .vmem, ⟨10, _⟩ => ⟨S16x16x384, .f32⟩
  | .local _ .vmem, ⟨11, _⟩ => ⟨S1024x512, .f32⟩
  | .local _ .vmem, ⟨12, _⟩ => ⟨S1024x512, .f32⟩
  | .local _ .vmem, ⟨13, _⟩ => ⟨S512x128, .f32⟩
  | .local _ .vmem, ⟨14, _⟩ => ⟨S1x128, .f32⟩
  | .local _ .vmem, ⟨15, _⟩ => ⟨S16x32x128, .bf16⟩
  | .local _ .vmem, ⟨16, _⟩ => ⟨S16x32x128, .bf16⟩
  | .local _ .vmem, ⟨17, _⟩ => ⟨S1024x128, .bf16⟩
  | .local _ .vmem, ⟨18, _⟩ => ⟨S1024x128, .bf16⟩
  | .local _ .vmem, ⟨19, _⟩ => ⟨S1x32x32x128, .bf16⟩
  | .local _ .vmem, ⟨20, _⟩ => ⟨S1x32x32x128, .bf16⟩
  | .local _ .vmem, ⟨21, _⟩ => ⟨S3x384x128, .bf16⟩
  | .local _ .vmem, ⟨22, _⟩ => ⟨S1x128, .f32⟩
  | .local _ .vmem, ⟨23, _⟩ => ⟨S1x32x32x128, .f32⟩
  | .local _ .vmem, ⟨24, _⟩ => ⟨S1x32x32x128, .f32⟩
  | .local _ .vmem, ⟨25, _⟩ => ⟨S32x32x384, .f32⟩
  | .local _ .vmem, ⟨26, _⟩ => ⟨S1024x256, .f32⟩
  | .local _ .vmem, ⟨27, _⟩ => ⟨S1024x256, .f32⟩
  | .local _ .vmem, ⟨28, _⟩ => ⟨S256x128, .f32⟩
  | .local _ .vmem, ⟨29, _⟩ => ⟨S1x128, .f32⟩
  | .local _ .vmem, ⟨30, _⟩ => ⟨S8x64x128, .bf16⟩
  | .local _ .vmem, ⟨31, _⟩ => ⟨S8x64x128, .bf16⟩
  | .local _ .vmem, ⟨32, _⟩ => ⟨S1024x128, .bf16⟩
  | .local _ .vmem, ⟨33, _⟩ => ⟨S1024x128, .bf16⟩
  | .local _ .vmem, ⟨34, _⟩ => ⟨S1x64x64x128, .bf16⟩
  | .local _ .vmem, ⟨35, _⟩ => ⟨S1x64x64x128, .bf16⟩
  | .local _ .vmem, ⟨36, _⟩ => ⟨S3x384x128, .bf16⟩
  | .local _ .vmem, ⟨37, _⟩ => ⟨S1x128, .f32⟩
  | .local _ .vmem, ⟨38, _⟩ => ⟨S1x64x64x128, .f32⟩
  | .local _ .vmem, ⟨39, _⟩ => ⟨S1x64x64x128, .f32⟩
  | .local _ .vmem, ⟨40, _⟩ => ⟨S64x64x384, .f32⟩
  | _, _ => ⟨S4x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v11 : Ref sig .tc := ⟨.hbm, 44, rfl⟩
abbrev main_c_1 : Ref sig .tc := ⟨.hbm, 45, rfl⟩
abbrev main_v12 : Ref sig .tc := ⟨.hbm, 46, rfl⟩
abbrev main_v13 : Ref sig .tc := ⟨.hbm, 47, rfl⟩
abbrev main_c_2 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_c_3 : Ref sig .tc := ⟨.hbm, 64, rfl⟩
abbrev main_v29 : Ref sig .tc := ⟨.hbm, 65, rfl⟩
abbrev main_v30 : Ref sig .tc := ⟨.hbm, 66, rfl⟩
abbrev main_c_4 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_c : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_0 : Ref sig .tc := ⟨.hbm, 81, rfl⟩
abbrev main_call1_v12 : Ref sig .tc := ⟨.hbm, 82, rfl⟩
abbrev main_call1_v13 : Ref sig .tc := ⟨.hbm, 83, rfl⟩
abbrev main_v31 : Ref sig .tc := ⟨.hbm, 84, rfl⟩
abbrev main_c_5 : Ref sig .tc := ⟨.hbm, 85, rfl⟩
abbrev main_v32 : Ref sig .tc := ⟨.hbm, 86, rfl⟩
abbrev main_v33 : Ref sig .tc := ⟨.hbm, 87, rfl⟩
abbrev main_c_6 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc5_scratch0 : Ref sig .tc := ⟨.vmem, 40, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc4_sem4_0 : DmaSem sig := 30
abbrev cc4_sem4_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x16x16x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x384x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x16x16x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S512x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S16x32x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨1, ![4], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x32x32x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S3x384x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x32x32x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![4, 4], ![false, false]⟩

def cc4_transform_0 (i : grid4.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage4_0 : Fin 2 → Memref sig .tc .vmem S1024x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S8x64x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1024x128 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨1, ![4], ![false]⟩

def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage5_0 : Fin 2 → Memref sig .tc .vmem S1x64x64x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S3x384x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1x64x64x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  shapeCasts_S4x16x16x1024_S1024x1024 : S4x16x16x1024.ShapeCasts S1024x1024
  shapeCasts_S128_S1x128 : S128.ShapeCasts S1x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  bitsLt_bf16_f32 : FTy.bits .bf16 < FTy.bits .f32
  packedbf16_S1024x128_S1024x128_0_0 : (Rect.unit (s := S1024x128) ![0, 0] S1024x128.size inb_S1024x128_S1024x128_0_0).PackedRows (EltTy.packing .bf16)
  shapeCasts_S1024x128_S4x16x16x128 : S1024x128.ShapeCasts S4x16x16x128
  shapeCasts_S3x3x128x128_S3x384x128 : S3x3x128x128.ShapeCasts S3x384x128
  inb_S16x16x384_S16x1x128_0_0_0 : ∀ a, (![0, 0, 0] : Fin 3 → Nat) a + S16x1x128.size a ≤ S16x16x384.size a
  h_S16x1x128 : 0 < S16x1x128.numel
  shapeCasts_S16x1x128_S16x1x128 : S16x1x128.ShapeCasts S16x1x128
  inb_S16x16x384_S16x1x128_0_15_256 : ∀ a, (![0, 15, 256] : Fin 3 → Nat) a + S16x1x128.size a ≤ S16x16x384.size a
  inb_S16x16x384_S1x16x384_0_0_0 : ∀ a, (![0, 0, 0] : Fin 3 → Nat) a + S1x16x384.size a ≤ S16x16x384.size a
  h_S1x16x384 : 0 < S1x16x384.numel
  shapeCasts_S1x16x384_S1x16x384 : S1x16x384.ShapeCasts S1x16x384
  inb_S1x16x16x128_S1x15x16x128_0_0_0_0 : ∀ a, (![0, 0, 0, 0] : Fin 4 → Nat) a + S1x15x16x128.size a ≤ S1x16x16x128.size a
  h_S1x15x16x128 : 0 < S1x15x16x128.numel
  shapeCasts_S1x15x16x128_S15x16x128 : S1x15x16x128.ShapeCasts S15x16x128
  slices_S15x16x128_o0_0_0_S15x15x128 : S15x16x128.Slices ![0, 0, 0] S15x15x128
  inb_S16x16x384_S15x15x128_1_1_0 : ∀ a, (![1, 1, 0] : Fin 3 → Nat) a + S15x15x128.size a ≤ S16x16x384.size a
  h_S15x15x128 : 0 < S15x15x128.numel
  shapeCasts_S15x15x128_S15x15x128 : S15x15x128.ShapeCasts S15x15x128
  inb_S16x16x384_S15x16x128_1_0_128 : ∀ a, (![1, 0, 128] : Fin 3 → Nat) a + S15x16x128.size a ≤ S16x16x384.size a
  h_S15x16x128 : 0 < S15x16x128.numel
  shapeCasts_S15x16x128_S15x16x128 : S15x16x128.ShapeCasts S15x16x128
  slices_S15x16x128_o0_1_0_S15x15x128 : S15x16x128.Slices ![0, 1, 0] S15x15x128
  inb_S16x16x384_S15x15x128_1_0_256 : ∀ a, (![1, 0, 256] : Fin 3 → Nat) a + S15x15x128.size a ≤ S16x16x384.size a
  inb_S16x16x384_S16x16x384_0_0_0 : ∀ a, (![0, 0, 0] : Fin 3 → Nat) a + S16x16x384.size a ≤ S16x16x384.size a
  h_S16x16x384 : 0 < S16x16x384.numel
  shapeCasts_S16x16x384_S256x384 : S16x16x384.ShapeCasts S256x384
  inb_S3x384x128_S1x384x128_0_0_0 : ∀ a, (![0, 0, 0] : Fin 3 → Nat) a + S1x384x128.size a ≤ S3x384x128.size a
  h_S1x384x128 : 0 < S1x384x128.numel
  shapeCasts_S1x384x128_S384x128 : S1x384x128.ShapeCasts S384x128
  inb_S1x16x16x128_S1x16x16x128_0_0_0_0 : ∀ a, (![0, 0, 0, 0] : Fin 4 → Nat) a + S1x16x16x128.size a ≤ S1x16x16x128.size a
  h_S1x16x16x128 : 0 < S1x16x16x128.numel
  shapeCasts_S1x16x16x128_S16x16x128 : S1x16x16x128.ShapeCasts S16x16x128
  slices_S16x16x128_o0_0_0_S16x15x128 : S16x16x128.Slices ![0, 0, 0] S16x15x128
  inb_S16x16x384_S16x15x128_0_1_0 : ∀ a, (![0, 1, 0] : Fin 3 → Nat) a + S16x15x128.size a ≤ S16x16x384.size a
  h_S16x15x128 : 0 < S16x15x128.numel
  shapeCasts_S16x15x128_S16x15x128 : S16x15x128.ShapeCasts S16x15x128
  inb_S16x16x384_S16x16x128_0_0_128 : ∀ a, (![0, 0, 128] : Fin 3 → Nat) a + S16x16x128.size a ≤ S16x16x384.size a
  h_S16x16x128 : 0 < S16x16x128.numel
  shapeCasts_S16x16x128_S16x16x128 : S16x16x128.ShapeCasts S16x16x128
  slices_S16x16x128_o0_1_0_S16x15x128 : S16x16x128.Slices ![0, 1, 0] S16x15x128
  inb_S16x16x384_S16x15x128_0_0_256 : ∀ a, (![0, 0, 256] : Fin 3 → Nat) a + S16x15x128.size a ≤ S16x16x384.size a
  inb_S3x384x128_S1x384x128_1_0_0 : ∀ a, (![1, 0, 0] : Fin 3 → Nat) a + S1x384x128.size a ≤ S3x384x128.size a
  inb_S16x16x384_S1x16x384_15_0_0 : ∀ a, (![15, 0, 0] : Fin 3 → Nat) a + S1x16x384.size a ≤ S16x16x384.size a
  inb_S1x16x16x128_S1x15x16x128_0_1_0_0 : ∀ a, (![0, 1, 0, 0] : Fin 4 → Nat) a + S1x15x16x128.size a ≤ S1x16x16x128.size a
  inb_S16x16x384_S15x15x128_0_1_0 : ∀ a, (![0, 1, 0] : Fin 3 → Nat) a + S15x15x128.size a ≤ S16x16x384.size a
  inb_S16x16x384_S15x16x128_0_0_128 : ∀ a, (![0, 0, 128] : Fin 3 → Nat) a + S15x16x128.size a ≤ S16x16x384.size a
  inb_S16x16x384_S15x15x128_0_0_256 : ∀ a, (![0, 0, 256] : Fin 3 → Nat) a + S15x15x128.size a ≤ S16x16x384.size a
  inb_S3x384x128_S1x384x128_2_0_0 : ∀ a, (![2, 0, 0] : Fin 3 → Nat) a + S1x384x128.size a ≤ S3x384x128.size a
  broadcasts_S1x128_S256x128 : S1x128.Broadcasts S256x128
  shapeCasts_S256x128_S1x16x16x128 : S256x128.ShapeCasts S1x16x16x128
  bcast_S_S32 : S_.BroadcastsInDim S32 (![] : Fin 0 → Fin S32.rank)
  bcast_S32_S32x1_0 : S32.BroadcastsInDim S32x1 (![0] : Fin 1 → Fin S32x1.rank)
  shapeCasts_S4x16x32x128_S64x32x128 : S4x16x32x128.ShapeCasts S64x32x128
  shapeCasts_S4x32x32x512_S4096x512 : S4x32x32x512.ShapeCasts S4096x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x128_S512x128_0_0 : ∀ a, (![0, 0] : Fin 2 → Nat) a + S512x128.size a ≤ S512x128.size a
  h_S512x128 : 0 < S512x128.numel
  inb_S16x32x128_S16x32x128_0_0_0 : ∀ a, (![0, 0, 0] : Fin 3 → Nat) a + S16x32x128.size a ≤ S16x32x128.size a
  h_S16x32x128 : 0 < S16x32x128.numel
  shapeCasts_S16x32x128_S16x32x128 : S16x32x128.ShapeCasts S16x32x128
  shapeCasts_S16x32x128_S16x1x32x128 : S16x32x128.ShapeCasts S16x1x32x128
  shapeCasts_S16x1x32x128_S16x1x32x128 : S16x1x32x128.ShapeCasts S16x1x32x128
  broadcasts_S16x1x32x128_S16x2x32x128 : S16x1x32x128.Broadcasts S16x2x32x128
  shapeCasts_S16x2x32x128_S1024x128 : S16x2x32x128.ShapeCasts S1024x128
  shapeCasts_S4096x128_S4x32x32x128 : S4096x128.ShapeCasts S4x32x32x128
  inb_S32x32x384_S32x1x128_0_0_0 : ∀ a, (![0, 0, 0] : Fin 3 → Nat) a + S32x1x128.size a ≤ S32x32x384.size a
  h_S32x1x128 : 0 < S32x1x128.numel
  shapeCasts_S32x1x128_S32x1x128 : S32x1x128.ShapeCasts S32x1x128
  inb_S32x32x384_S32x1x128_0_31_256 : ∀ a, (![0, 31, 256] : Fin 3 → Nat) a + S32x1x128.size a ≤ S32x32x384.size a
  inb_S32x32x384_S1x32x384_0_0_0 : ∀ a, (![0, 0, 0] : Fin 3 → Nat) a + S1x32x384.size a ≤ S32x32x384.size a
  h_S1x32x384 : 0 < S1x32x384.numel
  shapeCasts_S1x32x384_S1x32x384 : S1x32x384.ShapeCasts S1x32x384
  inb_S1x32x32x128_S1x31x32x128_0_0_0_0 : ∀ a, (![0, 0, 0, 0] : Fin 4 → Nat) a + S1x31x32x128.size a ≤ S1x32x32x128.size a
  h_S1x31x32x128 : 0 < S1x31x32x128.numel
  shapeCasts_S1x31x32x128_S31x32x128 : S1x31x32x128.ShapeCasts S31x32x128
  slices_S31x32x128_o0_0_0_S31x31x128 : S31x32x128.Slices ![0, 0, 0] S31x31x128
  inb_S32x32x384_S31x31x128_1_1_0 : ∀ a, (![1, 1, 0] : Fin 3 → Nat) a + S31x31x128.size a ≤ S32x32x384.size a
  h_S31x31x128 : 0 < S31x31x128.numel
  shapeCasts_S31x31x128_S31x31x128 : S31x31x128.ShapeCasts S31x31x128
  inb_S32x32x384_S31x32x128_1_0_128 : ∀ a, (![1, 0, 128] : Fin 3 → Nat) a + S31x32x128.size a ≤ S32x32x384.size a
  h_S31x32x128 : 0 < S31x32x128.numel
  shapeCasts_S31x32x128_S31x32x128 : S31x32x128.ShapeCasts S31x32x128
  slices_S31x32x128_o0_1_0_S31x31x128 : S31x32x128.Slices ![0, 1, 0] S31x31x128
  inb_S32x32x384_S31x31x128_1_0_256 : ∀ a, (![1, 0, 256] : Fin 3 → Nat) a + S31x31x128.size a ≤ S32x32x384.size a
  inb_S32x32x384_S32x32x384_0_0_0 : ∀ a, (![0, 0, 0] : Fin 3 → Nat) a + S32x32x384.size a ≤ S32x32x384.size a
  h_S32x32x384 : 0 < S32x32x384.numel
  shapeCasts_S32x32x384_S1024x384 : S32x32x384.ShapeCasts S1024x384
  inb_S1x32x32x128_S1x32x32x128_0_0_0_0 : ∀ a, (![0, 0, 0, 0] : Fin 4 → Nat) a + S1x32x32x128.size a ≤ S1x32x32x128.size a
  h_S1x32x32x128 : 0 < S1x32x32x128.numel
  shapeCasts_S1x32x32x128_S32x32x128 : S1x32x32x128.ShapeCasts S32x32x128
  slices_S32x32x128_o0_0_0_S32x31x128 : S32x32x128.Slices ![0, 0, 0] S32x31x128
  inb_S32x32x384_S32x31x128_0_1_0 : ∀ a, (![0, 1, 0] : Fin 3 → Nat) a + S32x31x128.size a ≤ S32x32x384.size a
  h_S32x31x128 : 0 < S32x31x128.numel
  shapeCasts_S32x31x128_S32x31x128 : S32x31x128.ShapeCasts S32x31x128
  inb_S32x32x384_S32x32x128_0_0_128 : ∀ a, (![0, 0, 128] : Fin 3 → Nat) a + S32x32x128.size a ≤ S32x32x384.size a
  h_S32x32x128 : 0 < S32x32x128.numel
  shapeCasts_S32x32x128_S32x32x128 : S32x32x128.ShapeCasts S32x32x128
  slices_S32x32x128_o0_1_0_S32x31x128 : S32x32x128.Slices ![0, 1, 0] S32x31x128
  inb_S32x32x384_S32x31x128_0_0_256 : ∀ a, (![0, 0, 256] : Fin 3 → Nat) a + S32x31x128.size a ≤ S32x32x384.size a
  inb_S32x32x384_S1x32x384_31_0_0 : ∀ a, (![31, 0, 0] : Fin 3 → Nat) a + S1x32x384.size a ≤ S32x32x384.size a
  inb_S1x32x32x128_S1x31x32x128_0_1_0_0 : ∀ a, (![0, 1, 0, 0] : Fin 4 → Nat) a + S1x31x32x128.size a ≤ S1x32x32x128.size a
  inb_S32x32x384_S31x31x128_0_1_0 : ∀ a, (![0, 1, 0] : Fin 3 → Nat) a + S31x31x128.size a ≤ S32x32x384.size a
  inb_S32x32x384_S31x32x128_0_0_128 : ∀ a, (![0, 0, 128] : Fin 3 → Nat) a + S31x32x128.size a ≤ S32x32x384.size a
  inb_S32x32x384_S31x31x128_0_0_256 : ∀ a, (![0, 0, 256] : Fin 3 → Nat) a + S31x31x128.size a ≤ S32x32x384.size a
  shapeCasts_S1024x128_S1x32x32x128 : S1024x128.ShapeCasts S1x32x32x128
  bcast_S_S64 : S_.BroadcastsInDim S64 (![] : Fin 0 → Fin S64.rank)
  bcast_S64_S64x1_0 : S64.BroadcastsInDim S64x1 (![0] : Fin 1 → Fin S64x1.rank)
  shapeCasts_S4x32x64x128_S128x64x128 : S4x32x64x128.ShapeCasts S128x64x128
  shapeCasts_S4x64x64x256_S16384x256 : S4x64x64x256.ShapeCasts S16384x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  inb_S8x64x128_S8x64x128_0_0_0 : ∀ a, (![0, 0, 0] : Fin 3 → Nat) a + S8x64x128.size a ≤ S8x64x128.size a
  h_S8x64x128 : 0 < S8x64x128.numel
  shapeCasts_S8x64x128_S8x64x128 : S8x64x128.ShapeCasts S8x64x128
  shapeCasts_S8x64x128_S8x1x64x128 : S8x64x128.ShapeCasts S8x1x64x128
  shapeCasts_S8x1x64x128_S8x1x64x128 : S8x1x64x128.ShapeCasts S8x1x64x128
  broadcasts_S8x1x64x128_S8x2x64x128 : S8x1x64x128.Broadcasts S8x2x64x128
  shapeCasts_S8x2x64x128_S1024x128 : S8x2x64x128.ShapeCasts S1024x128
  shapeCasts_S16384x128_S4x64x64x128 : S16384x128.ShapeCasts S4x64x64x128
  inb_S64x64x384_S64x1x128_0_0_0 : ∀ a, (![0, 0, 0] : Fin 3 → Nat) a + S64x1x128.size a ≤ S64x64x384.size a
  h_S64x1x128 : 0 < S64x1x128.numel
  shapeCasts_S64x1x128_S64x1x128 : S64x1x128.ShapeCasts S64x1x128
  inb_S64x64x384_S64x1x128_0_63_256 : ∀ a, (![0, 63, 256] : Fin 3 → Nat) a + S64x1x128.size a ≤ S64x64x384.size a
  inb_S64x64x384_S1x64x384_0_0_0 : ∀ a, (![0, 0, 0] : Fin 3 → Nat) a + S1x64x384.size a ≤ S64x64x384.size a
  h_S1x64x384 : 0 < S1x64x384.numel
  shapeCasts_S1x64x384_S1x64x384 : S1x64x384.ShapeCasts S1x64x384
  inb_S1x64x64x128_S1x63x64x128_0_0_0_0 : ∀ a, (![0, 0, 0, 0] : Fin 4 → Nat) a + S1x63x64x128.size a ≤ S1x64x64x128.size a
  h_S1x63x64x128 : 0 < S1x63x64x128.numel
  shapeCasts_S1x63x64x128_S63x64x128 : S1x63x64x128.ShapeCasts S63x64x128
  slices_S63x64x128_o0_0_0_S63x63x128 : S63x64x128.Slices ![0, 0, 0] S63x63x128
  inb_S64x64x384_S63x63x128_1_1_0 : ∀ a, (![1, 1, 0] : Fin 3 → Nat) a + S63x63x128.size a ≤ S64x64x384.size a
  h_S63x63x128 : 0 < S63x63x128.numel
  shapeCasts_S63x63x128_S63x63x128 : S63x63x128.ShapeCasts S63x63x128
  inb_S64x64x384_S63x64x128_1_0_128 : ∀ a, (![1, 0, 128] : Fin 3 → Nat) a + S63x64x128.size a ≤ S64x64x384.size a
  h_S63x64x128 : 0 < S63x64x128.numel
  shapeCasts_S63x64x128_S63x64x128 : S63x64x128.ShapeCasts S63x64x128
  slices_S63x64x128_o0_1_0_S63x63x128 : S63x64x128.Slices ![0, 1, 0] S63x63x128
  inb_S64x64x384_S63x63x128_1_0_256 : ∀ a, (![1, 0, 256] : Fin 3 → Nat) a + S63x63x128.size a ≤ S64x64x384.size a
  inb_S64x64x384_S64x64x384_0_0_0 : ∀ a, (![0, 0, 0] : Fin 3 → Nat) a + S64x64x384.size a ≤ S64x64x384.size a
  h_S64x64x384 : 0 < S64x64x384.numel
  shapeCasts_S64x64x384_S4096x384 : S64x64x384.ShapeCasts S4096x384
  inb_S1x64x64x128_S1x64x64x128_0_0_0_0 : ∀ a, (![0, 0, 0, 0] : Fin 4 → Nat) a + S1x64x64x128.size a ≤ S1x64x64x128.size a
  h_S1x64x64x128 : 0 < S1x64x64x128.numel
  shapeCasts_S1x64x64x128_S64x64x128 : S1x64x64x128.ShapeCasts S64x64x128
  slices_S64x64x128_o0_0_0_S64x63x128 : S64x64x128.Slices ![0, 0, 0] S64x63x128
  inb_S64x64x384_S64x63x128_0_1_0 : ∀ a, (![0, 1, 0] : Fin 3 → Nat) a + S64x63x128.size a ≤ S64x64x384.size a
  h_S64x63x128 : 0 < S64x63x128.numel
  shapeCasts_S64x63x128_S64x63x128 : S64x63x128.ShapeCasts S64x63x128
  inb_S64x64x384_S64x64x128_0_0_128 : ∀ a, (![0, 0, 128] : Fin 3 → Nat) a + S64x64x128.size a ≤ S64x64x384.size a
  h_S64x64x128 : 0 < S64x64x128.numel
  shapeCasts_S64x64x128_S64x64x128 : S64x64x128.ShapeCasts S64x64x128
  slices_S64x64x128_o0_1_0_S64x63x128 : S64x64x128.Slices ![0, 1, 0] S64x63x128
  inb_S64x64x384_S64x63x128_0_0_256 : ∀ a, (![0, 0, 256] : Fin 3 → Nat) a + S64x63x128.size a ≤ S64x64x384.size a
  inb_S64x64x384_S1x64x384_63_0_0 : ∀ a, (![63, 0, 0] : Fin 3 → Nat) a + S1x64x384.size a ≤ S64x64x384.size a
  inb_S1x64x64x128_S1x63x64x128_0_1_0_0 : ∀ a, (![0, 1, 0, 0] : Fin 4 → Nat) a + S1x63x64x128.size a ≤ S1x64x64x128.size a
  inb_S64x64x384_S63x63x128_0_1_0 : ∀ a, (![0, 1, 0] : Fin 3 → Nat) a + S63x63x128.size a ≤ S64x64x384.size a
  inb_S64x64x384_S63x64x128_0_0_128 : ∀ a, (![0, 0, 128] : Fin 3 → Nat) a + S63x64x128.size a ≤ S64x64x384.size a
  inb_S64x64x384_S63x63x128_0_0_256 : ∀ a, (![0, 0, 256] : Fin 3 → Nat) a + S63x63x128.size a ≤ S64x64x384.size a
  broadcasts_S1x128_S4096x128 : S1x128.Broadcasts S4096x128
  shapeCasts_S4096x128_S1x64x64x128 : S4096x128.ShapeCasts S1x64x64x128
  dot_S1024x1024_S1024x128_S1024x128_1_0_0_1_n_n_wf : DotDims.WF S1024x1024 S1024x128 S1024x128 [1] [0] [0] [1] [] []
  dot_S256x384_S384x128_S256x128_1_0_0_1_n_n_wf : DotDims.WF S256x384 S384x128 S256x128 [1] [0] [0] [1] [] []
  gather_S4x16x16x128_S32x1_S4x16x32x128_013_2_n_n_2_1_4161128_wf : GatherDims.WF S4x16x16x128 S32x1 S4x16x32x128 [0, 1, 3] [2] [] [2] [] 1 ![4, 16, 1, 128]
  dot_S1024x512_S512x128_S1024x128_1_0_0_1_n_n_wf : DotDims.WF S1024x512 S512x128 S1024x128 [1] [0] [0] [1] [] []
  dot_S1024x384_S384x128_S1024x128_1_0_0_1_n_n_wf : DotDims.WF S1024x384 S384x128 S1024x128 [1] [0] [0] [1] [] []
  gather_S4x32x32x128_S64x1_S4x32x64x128_013_2_n_n_2_1_4321128_wf : GatherDims.WF S4x32x32x128 S64x1 S4x32x64x128 [0, 1, 3] [2] [] [2] [] 1 ![4, 32, 1, 128]
  dot_S1024x256_S256x128_S1024x128_1_0_0_1_n_n_wf : DotDims.WF S1024x256 S256x128 S1024x128 [1] [0] [0] [1] [] []
  dot_S4096x384_S384x128_S4096x128_1_0_0_1_n_n_wf : DotDims.WF S4096x384 S384x128 S4096x128 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .bf16 = 32 ∨ (Rect.block (s := S1024x128) S1024x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x16x128.size a ≤ S4x16x16x128.size a
  hwx1_0 : ∀ i : grid1.Coords, EltTy.bits .bf16 = 32 ∨ (Rect.block (s := S4x16x16x128) S1x16x16x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x384x128.size a ≤ S3x384x128.size a
  hwx1_1 : ∀ i : grid1.Coords, EltTy.bits .bf16 = 32 ∨ (Rect.block (s := S3x384x128) S3x384x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x16x128.size a ≤ S4x16x16x128.size a
  hwx1_3 : ∀ i : grid1.Coords, EltTy.bits .f32 = 32 ∨ (Rect.block (s := S4x16x16x128) S1x16x16x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x512.size a
  hwx2_0 : ∀ i : grid2.Coords, EltTy.bits .f32 = 32 ∨ (Rect.block (s := S4096x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S512x128.size a
  hwx2_1 : ∀ i : grid2.Coords, EltTy.bits .f32 = 32 ∨ (Rect.block (s := S512x128) S512x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S16x32x128.size a ≤ S64x32x128.size a
  hwx2_3 : ∀ i : grid2.Coords, EltTy.bits .bf16 = 32 ∨ (Rect.block (s := S64x32x128) S16x32x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x128.size a ≤ S4096x128.size a
  hwx2_4 : ∀ i : grid2.Coords, EltTy.bits .bf16 = 32 ∨ (Rect.block (s := S4096x128) S1024x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x32x32x128.size a ≤ S4x32x32x128.size a
  hwx3_0 : ∀ i : grid3.Coords, EltTy.bits .bf16 = 32 ∨ (Rect.block (s := S4x32x32x128) S1x32x32x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S3x384x128.size a ≤ S3x384x128.size a
  hwx3_1 : ∀ i : grid3.Coords, EltTy.bits .bf16 = 32 ∨ (Rect.block (s := S3x384x128) S3x384x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x32x32x128.size a ≤ S4x32x32x128.size a
  hwx3_3 : ∀ i : grid3.Coords, EltTy.bits .f32 = 32 ∨ (Rect.block (s := S4x32x32x128) S1x32x32x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x256.size a ≤ S16384x256.size a
  hwx4_0 : ∀ i : grid4.Coords, EltTy.bits .f32 = 32 ∨ (Rect.block (s := S16384x256) S1024x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8x64x128.size a ≤ S128x64x128.size a
  hwx4_3 : ∀ i : grid4.Coords, EltTy.bits .bf16 = 32 ∨ (Rect.block (s := S128x64x128) S8x64x128.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x128.size a ≤ S16384x128.size a
  hwx4_4 : ∀ i : grid4.Coords, EltTy.bits .bf16 = 32 ∨ (Rect.block (s := S16384x128) S1024x128.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x64x64x128.size a ≤ S4x64x64x128.size a
  hwx5_0 : ∀ i : grid5.Coords, EltTy.bits .bf16 = 32 ∨ (Rect.block (s := S4x64x64x128) S1x64x64x128.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S3x384x128.size a ≤ S3x384x128.size a
  hwx5_1 : ∀ i : grid5.Coords, EltTy.bits .bf16 = 32 ∨ (Rect.block (s := S3x384x128) S3x384x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x64x64x128.size a ≤ S4x64x64x128.size a
  hwx5_3 : ∀ i : grid5.Coords, EltTy.bits .f32 = 32 ∨ (Rect.block (s := S4x64x64x128) S1x64x64x128.size (cc5_transform_3 i) (hinb5_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S256x384_S384x128_S256x128_1_0_0_1_n_n : DotDims S256x384 S384x128 S256x128 where
  lhsContracting := [1]
  rhsContracting := [0]
  lhsNonContracting := [0]
  rhsNonContracting := [1]
  lhsBatch := []
  rhsBatch := []
  wf := dot_S256x384_S384x128_S256x128_1_0_0_1_n_n_wf
def gather_S4x16x16x128_S32x1_S4x16x32x128_013_2_n_n_2_1_4161128 : GatherDims S4x16x16x128 S32x1 S4x16x32x128 where
  offsetDims := [0, 1, 3]
  collapsedSliceDims := [2]
  operandBatchingDims := []
  startIndicesBatchingDims := []
  startIndexMap := [2]
  indexVectorDim := 1
  sliceSizes := ![4, 16, 1, 128]
  wf := gather_S4x16x16x128_S32x1_S4x16x32x128_013_2_n_n_2_1_4161128_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x384_S384x128_S1024x128_1_0_0_1_n_n : DotDims S1024x384 S384x128 S1024x128 where
  lhsContracting := [1]
  rhsContracting := [0]
  lhsNonContracting := [0]
  rhsNonContracting := [1]
  lhsBatch := []
  rhsBatch := []
  wf := dot_S1024x384_S384x128_S1024x128_1_0_0_1_n_n_wf
def gather_S4x32x32x128_S64x1_S4x32x64x128_013_2_n_n_2_1_4321128 : GatherDims S4x32x32x128 S64x1 S4x32x64x128 where
  offsetDims := [0, 1, 3]
  collapsedSliceDims := [2]
  operandBatchingDims := []
  startIndicesBatchingDims := []
  startIndexMap := [2]
  indexVectorDim := 1
  sliceSizes := ![4, 32, 1, 128]
  wf := gather_S4x32x32x128_S64x1_S4x32x64x128_013_2_n_n_2_1_4321128_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S4096x384_S384x128_S4096x128_1_0_0_1_n_n : DotDims S4096x384 S384x128 S4096x128 where
  lhsContracting := [1]
  rhsContracting := [0]
  lhsNonContracting := [0]
  rhsNonContracting := [1]
  lhsBatch := []
  rhsBatch := []
  wf := dot_S4096x384_S384x128_S4096x128_1_0_0_1_n_n_wf

abbrev win0_0 : Pipeline.Window sig grid0 :=
  Pipeline.Window.ofSpec (Memref.whole main_v0) S1024x1024.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x128.size cc0_transform_3 reads0_3 true false 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1x16x16x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S3x384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x16x16x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v20) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S16x32x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1024x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v23) S1x32x32x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S3x384x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v26) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v27) S1x32x32x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v40) S1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v41) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v39) S8x64x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v42) S1024x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v43) S1x64x64x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45) S3x384x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v46) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v47) S1x64x64x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== Proof.KernBlocks.lean ====
/-
  Between the arrays and the blocks of the fused pyramid kernel, on extended reals.

  The kernel runs once per image: its grid is one axis of four points, point `t` handling image `t`. The three
  image inputs and the three outputs are cut into blocks of one image each — block `t` of an array of shape
  [4, H, W, C] is its slice [t, :, :, :], so element (0, h, w, k) of the block is element (t, h, w, k) of the array.
  The twelve weight and bias operands are not cut at all: every point sees the whole buffer, and each of those buffers
  was written before the region from an argument, by a change of float format (the identity on extended reals), by a
  change of shape, or by both.

  Three families of statements:
  * `vJ_eq`    — what each of those twelve buffers holds when the region is entered, in terms of the arguments;
  * `blkJ_…`   — an input block read at an index (image inputs), or as a whole (weights and biases);
  * `arr15/16/17` — each output array after the run, read at (n, h, w, co), is what the body left in its output
    block for image `n`, read at (0, h, w, co): the output blocks of different images are disjoint, so nothing
    overwrites what point `n` wrote back.
-/
import proofs.«126699_g2000605867469428_pallasbulk_857_3_alg».proof.Proof.Gen.KernelIdeal.Value
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen Cert.KernelIdeal.Value

variable (m : (ℓ : Loc nD τ sig) → Buf (Elt Ideal) ℓ)

/-! ## The grid -/

/-- The grid point that handles image `n`: the grid is one axis of four points, one per image, in order. -/
def tOf (n : Fin 4) : Fin cfg0.N := ⟨n.val, by rw [show cfg0.N = 4 from N_0]; exact n.isLt⟩

theorem tOf_val (n : Fin 4) : (tOf n).val = n.val := rfl

/-- The block index of every cut operand at point `t` is (t, 0, 0, 0): blocks move along the image axis only.
    Four points, decided. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_15.index t (0 : Fin 4) = t.val ∧ win0_15.index t (1 : Fin 4) = 0 ∧ win0_15.index t (2 : Fin 4) = 0 ∧ win0_15.index t (3 : Fin 4) = 0)
    ∧ (win0_16.index t (0 : Fin 4) = t.val ∧ win0_16.index t (1 : Fin 4) = 0 ∧ win0_16.index t (2 : Fin 4) = 0 ∧ win0_16.index t (3 : Fin 4) = 0)
    ∧ (win0_17.index t (0 : Fin 4) = t.val ∧ win0_17.index t (1 : Fin 4) = 0 ∧ win0_17.index t (2 : Fin 4) = 0 ∧ win0_17.index t (3 : Fin 4) = 0) :=
  (by decide +kernel : ∀ t : Fin grid0.N, _)

/-! ## What the host wrote before the region

Each statement reads one buffer as the region finds it. A change of float format is the identity on extended reals, so the
three weight matrices of the 1x1 convolutions are the arguments themselves; the 3x3 weights are the argument re-laid
from [3, 3, 128, 128] to [3, 384, 128] (kept as that one re-laying, not opened); a bias is the argument re-laid from
[128] to [1, 128]. -/

/-- 1x1 weights of the coarsest level. -/
theorem v0_eq (c : Dev nD) :
    (Gen.V m c main_v0 : S1024x128.Idx → EReal) = fun i => (m ((c : Thread nD τ).loc main_arg3) : S1024x128.Idx → EReal) i := by
  dsimp only [Gen.V, Gen.hostOps0]
  after_results
  rfl

/-- 1x1 weights of the middle level. -/
theorem v1_eq (c : Dev nD) :
    (Gen.V m c main_v1 : S512x128.Idx → EReal) = fun i => (m ((c : Thread nD τ).loc main_arg7) : S512x128.Idx → EReal) i := by
  dsimp only [Gen.V, Gen.hostOps0]
  after_results
  rfl

/-- 1x1 weights of the finest level. -/
theorem v2_eq (c : Dev nD) :
    (Gen.V m c main_v2 : S256x128.Idx → EReal) = fun i => (m ((c : Thread nD τ).loc main_arg11) : S256x128.Idx → EReal) i := by
  dsimp only [Gen.V, Gen.hostOps0]
  after_results
  rfl

/-- 3x3 weights of the coarsest level: the three horizontal taps' channels side by side per vertical tap. -/
theorem v4_eq (c : Dev nD) :
    (Gen.V m c main_v4 : S3x384x128.Idx → EReal)
      = truncf (F := Ideal) .bf16 (shapeCast S3x384x128 (m ((c : Thread nD τ).loc main_arg5) : S3x3x128x128.Idx → EReal) shapeCasts_S3x3x128x128_S3x384x128) bitsLt_bf16_f32 := by
  dsimp only [Gen.V, Gen.hostOps0]
  after_results
  rfl

/-- The same with the change of format dropped: on extended reals it is the identity. -/
theorem v4_eq_cast (c : Dev nD) :
    (Gen.V m c main_v4 : S3x384x128.Idx → EReal)
      = shapeCast S3x384x128 (m ((c : Thread nD τ).loc main_arg5) : S3x3x128x128.Idx → EReal) shapeCasts_S3x3x128x128_S3x384x128 :=
  v4_eq m c

/-- 3x3 weights of the middle level. -/
theorem v6_eq (c : Dev nD) :
    (Gen.V m c main_v6 : S3x384x128.Idx → EReal)
      = truncf (F := Ideal) .bf16 (shapeCast S3x384x128 (m ((c : Thread nD τ).loc main_arg9) : S3x3x128x128.Idx → EReal) shapeCasts_S3x3x128x128_S3x384x128) bitsLt_bf16_f32 := by
  dsimp only [Gen.V, Gen.hostOps0]
  after_results
  rfl

/-- The same with the change of format dropped: on extended reals it is the identity. -/
theorem v6_eq_cast (c : Dev nD) :
    (Gen.V m c main_v6 : S3x384x128.Idx → EReal)
      = shapeCast S3x384x128 (m ((c : Thread nD τ).loc main_arg9) : S3x3x128x128.Idx → EReal) shapeCasts_S3x3x128x128_S3x384x128 :=
  v6_eq m c

/-- 3x3 weights of the finest level. -/
theorem v8_eq (c : Dev nD) :
    (Gen.V m c main_v8 : S3x384x128.Idx → EReal)
      = truncf (F := Ideal) .bf16 (shapeCast S3x384x128 (m ((c : Thread nD τ).loc main_arg13) : S3x3x128x128.Idx → EReal) shapeCasts_S3x3x128x128_S3x384x128) bitsLt_bf16_f32 := by
  dsimp only [Gen.V, Gen.hostOps0]
  after_results
  rfl

/-- The same with the change of format dropped: on extended reals it is the identity. -/
theorem v8_eq_cast (c : Dev nD) :
    (Gen.V m c main_v8 : S3x384x128.Idx → EReal)
      = shapeCast S3x384x128 (m ((c : Thread nD τ).loc main_arg13) : S3x3x128x128.Idx → EReal) shapeCasts_S3x3x128x128_S3x384x128 :=
  v8_eq m c

/-- Bias of the coarsest level's 1x1 convolution, as a row. -/
theorem v9_eq (c : Dev nD) :
    (Gen.V m c main_v9 : S1x128.Idx → EReal)
      = shapeCast S1x128 (m ((c : Thread nD τ).loc main_arg4) : S128.Idx → EReal) shapeCasts_S128_S1x128 := by
  dsimp only [Gen.V, Gen.hostOps0]
  after_results
  rfl

/-- Bias of the middle level's 1x1 convolution, as a row. -/
theorem v10_eq (c : Dev nD) :
    (Gen.V m c main_v10 : S1x128.Idx → EReal)
      = shapeCast S1x128 (m ((c : Thread nD τ).loc main_arg8) : S128.Idx → EReal) shapeCasts_S128_S1x128 := by
  dsimp only [Gen.V, Gen.hostOps0]
  after_results
  rfl

/-- Bias of the finest level's 1x1 convolution, as a row. -/
theorem v11_eq (c : Dev nD) :
    (Gen.V m c main_v11 : S1x128.Idx → EReal)
      = shapeCast S1x128 (m ((c : Thread nD τ).loc main_arg12) : S128.Idx → EReal) shapeCasts_S128_S1x128 := by
  dsimp only [Gen.V, Gen.hostOps0]
  after_results
  rfl

/-- Bias of the coarsest level's 3x3 convolution, as a row. -/
theorem v12_eq (c : Dev nD) :
    (Gen.V m c main_v12 : S1x128.Idx → EReal)
      = shapeCast S1x128 (m ((c : Thread nD τ).loc main_arg6) : S128.Idx → EReal) shapeCasts_S128_S1x128 := by
  dsimp only [Gen.V, Gen.hostOps0]
  after_results
  rfl

/-- Bias of the middle level's 3x3 convolution, as a row. -/
theorem v13_eq (c : Dev nD) :
    (Gen.V m c main_v13 : S1x128.Idx → EReal)
      = shapeCast S1x128 (m ((c : Thread nD τ).loc main_arg10) : S128.Idx → EReal) shapeCasts_S128_S1x128 := by
  dsimp only [Gen.V, Gen.hostOps0]
  after_results
  rfl

/-- Bias of the finest level's 3x3 convolution, as a row. -/
theorem v14_eq (c : Dev nD) :
    (Gen.V m c main_v14 : S1x128.Idx → EReal)
      = shapeCast S1x128 (m ((c : Thread nD τ).loc main_arg14) : S128.Idx → EReal) shapeCasts_S128_S1x128 := by
  dsimp only [Gen.V, Gen.hostOps0]
  after_results
  rfl

/-! ## The image inputs' blocks

Element (0, h, w, k) of image `n`'s block is element (n, h, w, k) of the array: on each axis the array coordinate is
the block index times the block's extent plus the coordinate inside the block, and the block index is (n, 0, 0, 0). -/

/-- The finest input (64 x 64 pixels, 256 channels). -/
theorem blk0_apply (c : Dev nD) (n : Fin 4) (h w : Fin 64) (k : Fin 256) :
    (Gen.iblk m c 0 (tOf n) : S1x64x64x256.Idx → EReal) (ix4 0 h w k)
      = (Gen.V m c main_arg0 : S4x64x64x256.Idx → EReal) (ix4 n h w k) := by
  obtain ⟨⟨e0, e1, e2, e3⟩, -, -, -, -, -⟩ := idx_facts (tOf n)
  unfold Gen.iblk
  rw [View.read_apply]
  show Gen.V m c main_arg0 _ = Gen.V m c main_arg0 _
  refine congrArg (Gen.V m c main_arg0) ?_
  funext a; apply Fin.ext
  match a with
  | ⟨0, _⟩ => show win0_0.index (tOf n) (0 : Fin 4) * 1 + 1 * 0 = n.val; rw [e0]; show n.val * 1 + 1 * 0 = n.val; omega
  | ⟨1, _⟩ => show win0_0.index (tOf n) (1 : Fin 4) * 64 + 1 * h.val = h.val; rw [e1]; omega
  | ⟨2, _⟩ => show win0_0.index (tOf n) (2 : Fin 4) * 64 + 1 * w.val = w.val; rw [e2]; omega
  | ⟨3, _⟩ => show win0_0.index (tOf n) (3 : Fin 4) * 256 + 1 * k.val = k.val; rw [e3]; omega

/-- The same element as the launch memory holds it: no host operation writes this argument before the region. -/
theorem blk0_apply_arg (c : Dev nD) (n : Fin 4) (h w : Fin 64) (k : Fin 256) :
    (Gen.iblk m c 0 (tOf n) : S1x64x64x256.Idx → EReal) (ix4 0 h w k)
      = (m ((c : Thread nD τ).loc main_arg0) : S4x64x64x256.Idx → EReal) (ix4 n h w k) :=
  (blk0_apply m c n h w k).trans (congrFun (Gen.V_main_arg0 m c) (ix4 n h w k))

/-- The middle input (32 x 32 pixels, 512 channels). -/
theorem blk1_apply (c : Dev nD) (n : Fin 4) (h w : Fin 32) (k : Fin 512) :
    (Gen.iblk m c 1 (tOf n) : S1x32x32x512.Idx → EReal) (ix4 0 h w k)
      = (Gen.V m c main_arg1 : S4x32x32x512.Idx → EReal) (ix4 n h w k) := by
  obtain ⟨-, ⟨e0, e1, e2, e3⟩, -, -, -, -⟩ := idx_facts (tOf n)
  unfold Gen.iblk
  rw [View.read_apply]
  show Gen.V m c main_arg1 _ = Gen.V m c main_arg1 _
  refine congrArg (Gen.V m c main_arg1) ?_
  funext a; apply Fin.ext
  match a with
  | ⟨0, _⟩ => show win0_1.index (tOf n) (0 : Fin 4) * 1 + 1 * 0 = n.val; rw [e0]; show n.val * 1 + 1 * 0 = n.val; omega
  | ⟨1, _⟩ => show win0_1.index (tOf n) (1 : Fin 4) * 32 + 1 * h.val = h.val; rw [e1]; omega
  | ⟨2, _⟩ => show win0_1.index (tOf n) (2 : Fin 4) * 32 + 1 * w.val = w.val; rw [e2]; omega
  | ⟨3, _⟩ => show win0_1.index (tOf n) (3 : Fin 4) * 512 + 1 * k.val = k.val; rw [e3]; omega

/-- The same element as the launch memory holds it: no host operation writes this argument before the region. -/
theorem blk1_apply_arg (c : Dev nD) (n : Fin 4) (h w : Fin 32) (k : Fin 512) :
    (Gen.iblk m c 1 (tOf n) : S1x32x32x512.Idx → EReal) (ix4 0 h w k)
      = (m ((c : Thread nD τ).loc main_arg1) : S4x32x32x512.Idx → EReal) (ix4 n h w k) :=
  (blk1_apply m c n h w k).trans (congrFun (Gen.V_main_arg1 m c) (ix4 n h w k))

/-- The coarsest input (16 x 16 pixels, 1024 channels). -/
theorem blk2_apply (c : Dev nD) (n : Fin 4) (h w : Fin 16) (k : Fin 1024) :
    (Gen.iblk m c 2 (tOf n) : S1x16x16x1024.Idx → EReal) (ix4 0 h w k)
      = (Gen.V m c main_arg2 : S4x16x16x1024.Idx → EReal) (ix4 n h w k) := by
  obtain ⟨-, -, ⟨e0, e1, e2, e3⟩, -, -, -⟩ := idx_facts (tOf n)
  unfold Gen.iblk
  rw [View.read_apply]
  show Gen.V m c main_arg2 _ = Gen.V m c main_arg2 _
  refine congrArg (Gen.V m c main_arg2) ?_
  funext a; apply Fin.ext
  match a with
  | ⟨0, _⟩ => show win0_2.index (tOf n) (0 : Fin 4) * 1 + 1 * 0 = n.val; rw [e0]; show n.val * 1 + 1 * 0 = n.val; omega
  | ⟨1, _⟩ => show win0_2.index (tOf n) (1 : Fin 4) * 16 + 1 * h.val = h.val; rw [e1]; omega
  | ⟨2, _⟩ => show win0_2.index (tOf n) (2 : Fin 4) * 16 + 1 * w.val = w.val; rw [e2]; omega
  | ⟨3, _⟩ => show win0_2.index (tOf n) (3 : Fin 4) * 1024 + 1 * k.val = k.val; rw [e3]; omega

/-- The same element as the launch memory holds it: no host operation writes this argument before the region. -/
theorem blk2_apply_arg (c : Dev nD) (n : Fin 4) (h w : Fin 16) (k : Fin 1024) :
    (Gen.iblk m c 2 (tOf n) : S1x16x16x1024.Idx → EReal) (ix4 0 h w k)
      = (m ((c : Thread nD τ).loc main_arg2) : S4x16x16x1024.Idx → EReal) (ix4 n h w k) :=
  (blk2_apply m c n h w k).trans (congrFun (Gen.V_main_arg2 m c) (ix4 n h w k))

/-! ## The weights' and biases' blocks

These operands' one block is the whole buffer at block index zero, whatever the point: the block IS the buffer. -/

theorem blk3_eq (c : Dev nD) (t : Fin cfg0.N) :
    (Gen.iblk m c 3 t : S1024x128.Idx → EReal) = (Gen.V m c main_v0 : S1024x128.Idx → EReal) := by
  funext y
  unfold Gen.iblk
  rw [View.read_apply]
  show Gen.V m c main_v0 _ = Gen.V m c main_v0 _
  refine congrArg (Gen.V m c main_v0) ?_
  funext a; apply Fin.ext
  match a with
  | ⟨0, _⟩ => show 0 * 1024 + 1 * (y 0).val = (y 0).val; omega
  | ⟨1, _⟩ => show 0 * 128 + 1 * (y 1).val = (y 1).val; omega

theorem blk4_eq (c : Dev nD) (t : Fin cfg0.N) :
    (Gen.iblk m c 4 t : S1x128.Idx → EReal) = (Gen.V m c main_v9 : S1x128.Idx → EReal) := by
  funext y
  unfold Gen.iblk
  rw [View.read_apply]
  show Gen.V m c main_v9 _ = Gen.V m c main_v9 _
  refine congrArg (Gen.V m c main_v9) ?_
  funext a; apply Fin.ext
  match a with
  | ⟨0, _⟩ => show 0 * 1 + 1 * (y 0).val = (y 0).val; omega
  | ⟨1, _⟩ => show 0 * 128 + 1 * (y 1).val = (y 1).val; omega

theorem blk5_eq (c : Dev nD) (t : Fin cfg0.N) :
    (Gen.iblk m c 5 t : S3x384x128.Idx → EReal) = (Gen.V m c main_v4 : S3x384x128.Idx → EReal) := by
  funext y
  unfold Gen.iblk
  rw [View.read_apply]
  show Gen.V m c main_v4 _ = Gen.V m c main_v4 _
  refine congrArg (Gen.V m c main_v4) ?_
  funext a; apply Fin.ext
  match a with
  | ⟨0, _⟩ => show 0 * 3 + 1 * (y 0).val = (y 0).val; omega
  | ⟨1, _⟩ => show 0 * 384 + 1 * (y 1).val = (y 1).val; omega
  | ⟨2, _⟩ => show 0 * 128 + 1 * (y 2).val = (y 2).val; omega

theorem blk6_eq (c : Dev nD) (t : Fin cfg0.N) :
    (Gen.iblk m c 6 t : S1x128.Idx → EReal) = (Gen.V m c main_v12 : S1x128.Idx → EReal) := by
  funext y
  unfold Gen.iblk
  rw [View.read_apply]
  show Gen.V m c main_v12 _ = Gen.V m c main_v12 _
  refine congrArg (Gen.V m c main_v12) ?_
  funext a; apply Fin.ext
  match a with
  | ⟨0, _⟩ => show 0 * 1 + 1 * (y 0).val = (y 0).val; omega
  | ⟨1, _⟩ => show 0 * 128 + 1 * (y 1).val = (y 1).val; omega

theorem blk7_eq (c : Dev nD) (t : Fin cfg0.N) :
    (Gen.iblk m c 7 t : S512x128.Idx → EReal) = (Gen.V m c main_v1 : S512x128.Idx → EReal) := by
  funext y
  unfold Gen.iblk
  rw [View.read_apply]
  show Gen.V m c main_v1 _ = Gen.V m c main_v1 _
  refine congrArg (Gen.V m c main_v1) ?_
  funext a; apply Fin.ext
  match a with
  | ⟨0, _⟩ => show 0 * 512 + 1 * (y 0).val = (y 0).val; omega
  | ⟨1, _⟩ => show 0 * 128 + 1 * (y 1).val = (y 1).val; omega

theorem blk8_eq (c : Dev nD) (t : Fin cfg0.N) :
    (Gen.iblk m c 8 t : S1x128.Idx → EReal) = (Gen.V m c main_v10 : S1x128.Idx → EReal) := by
  funext y
  unfold Gen.iblk
  rw [View.read_apply]
  show Gen.V m c main_v10 _ = Gen.V m c main_v10 _
  refine congrArg (Gen.V m c main_v10) ?_
  funext a; apply Fin.ext
  match a with
  | ⟨0, _⟩ => show 0 * 1 + 1 * (y 0).val = (y 0).val; omega
  | ⟨1, _⟩ => show 0 * 128 + 1 * (y 1).val = (y 1).val; omega

theorem blk9_eq (c : Dev nD) (t : Fin cfg0.N) :
    (Gen.iblk m c 9 t : S3x384x128.Idx → EReal) = (Gen.V m c main_v6 : S3x384x128.Idx → EReal) := by
  funext y
  unfold Gen.iblk
  rw [View.read_apply]
  show Gen.V m c main_v6 _ = Gen.V m c main_v6 _
  refine congrArg (Gen.V m c main_v6) ?_
  funext a; apply Fin.ext
  match a with
  | ⟨0, _⟩ => show 0 * 3 + 1 * (y 0).val = (y 0).val; omega
  | ⟨1, _⟩ => show 0 * 384 + 1 * (y 1).val = (y 1).val; omega
  | ⟨2, _⟩ => show 0 * 128 + 1 * (y 2).val = (y 2).val; omega

theorem blk10_eq (c : Dev nD) (t : Fin cfg0.N) :
    (Gen.iblk m c 10 t : S1x128.Idx → EReal) = (Gen.V m c main_v13 : S1x128.Idx → EReal) := by
  funext y
  unfold Gen.iblk
  rw [View.read_apply]
  show Gen.V m c main_v13 _ = Gen.V m c main_v13 _
  refine congrArg (Gen.V m c main_v13) ?_
  funext a; apply Fin.ext
  match a with
  | ⟨0, _⟩ => show 0 * 1 + 1 * (y 0).val = (y 0).val; omega
  | ⟨1, _⟩ => show 0 * 128 + 1 * (y 1).val = (y 1).val; omega

theorem blk11_eq (c : Dev nD) (t : Fin cfg0.N) :
    (Gen.iblk m c 11 t : S256x128.Idx → EReal) = (Gen.V m c main_v2 : S256x128.Idx → EReal) := by
  funext y
  unfold Gen.iblk
  rw [View.read_apply]
  show Gen.V m c main_v2 _ = Gen.V m c main_v2 _
  refine congrArg (Gen.V m c main_v2) ?_
  funext a; apply Fin.ext
  match a with
  | ⟨0, _⟩ => show 0 * 256 + 1 * (y 0).val = (y 0).val; omega
  | ⟨1, _⟩ => show 0 * 128 + 1 * (y 1).val = (y 1).val; omega

theorem blk12_eq (c : Dev nD) (t : Fin cfg0.N) :
    (Gen.iblk m c 12 t : S1x128.Idx → EReal) = (Gen.V m c main_v11 : S1x128.Idx → EReal) := by
  funext y
  unfold Gen.iblk
  rw [View.read_apply]
  show Gen.V m c main_v11 _ = Gen.V m c main_v11 _
  refine congrArg (Gen.V m c main_v11) ?_
  funext a; apply Fin.ext
  match a with
  | ⟨0, _⟩ => show 0 * 1 + 1 * (y 0).val = (y 0).val; omega
  | ⟨1, _⟩ => show 0 * 128 + 1 * (y 1).val = (y 1).val; omega

theorem blk13_eq (c : Dev nD) (t : Fin cfg0.N) :
    (Gen.iblk m c 13 t : S3x384x128.Idx → EReal) = (Gen.V m c main_v8 : S3x384x128.Idx → EReal) := by
  funext y
  unfold Gen.iblk
  rw [View.read_apply]
  show Gen.V m c main_v8 _ = Gen.V m c main_v8 _
  refine congrArg (Gen.V m c main_v8) ?_
  funext a; apply Fin.ext
  match a with
  | ⟨0, _⟩ => show 0 * 3 + 1 * (y 0).val = (y 0).val; omega
  | ⟨1, _⟩ => show 0 * 384 + 1 * (y 1).val = (y 1).val; omega
  | ⟨2, _⟩ => show 0 * 128 + 1 * (y 2).val = (y 2).val; omega

theorem blk14_eq (c : Dev nD) (t : Fin cfg0.N) :
    (Gen.iblk m c 14 t : S1x128.Idx → EReal) = (Gen.V m c main_v14 : S1x128.Idx → EReal) := by
  funext y
  unfold Gen.iblk
  rw [View.read_apply]
  show Gen.V m c main_v14 _ = Gen.V m c main_v14 _
  refine congrArg (Gen.V m c main_v14) ?_
  funext a; apply Fin.ext
  match a with
  | ⟨0, _⟩ => show 0 * 1 + 1 * (y 0).val = (y 0).val; omega
  | ⟨1, _⟩ => show 0 * 128 + 1 * (y 1).val = (y 1).val; omega

/-! ## The output arrays after the run

Point `n` writes its output block back over slice `n` of the array, and no other point's block meets that slice; so
after the last point the array at (n, h, w, co) still holds what the body left at (0, h, w, co) of its block when it ran
on image `n`'s input blocks. -/

/-- The finest level's output (64 x 64 pixels). -/
theorem arr15 (c : Dev nD) (n : Fin 4) (h w : Fin 64) (co : Fin 128) :
    ((Gen.dats (F := Ideal) m 0 c).arrAt 15 cfg0.N : S4x64x64x128.Idx → EReal) (ix4 n h w co)
      = (Gen.out0_15 (Gen.iblk m c 0 (tOf n)) (Gen.iblk m c 1 (tOf n)) (Gen.iblk m c 2 (tOf n)) (Gen.iblk m c 3 (tOf n)) (Gen.iblk m c 4 (tOf n)) (Gen.iblk m c 5 (tOf n)) (Gen.iblk m c 6 (tOf n)) (Gen.iblk m c 7 (tOf n)) (Gen.iblk m c 8 (tOf n)) (Gen.iblk m c 9 (tOf n)) (Gen.iblk m c 10 (tOf n)) (Gen.iblk m c 11 (tOf n)) (Gen.iblk m c 12 (tOf n)) (Gen.iblk m c 13 (tOf n)) (Gen.iblk m c 14 (tOf n)) : S1x64x64x128.Idx → EReal) (ix4 0 h w co) := by
  obtain ⟨-, -, -, ⟨e0, e1, e2, e3⟩, -, -⟩ := idx_facts (tOf n)
  have hb := congrFun (blocks15 m c (tOf n) (flush0_15 (tOf n))) (ix4 0 h w co)
  rw [flushed15, View.read_apply] at hb
  refine Eq.trans ?_ hb
  show _ = (Gen.dats m 0 c).arrAt 15 cfg0.N (((cfg0.win 15).blk (tOf n)).view.emb (ix4 0 h w co))
  refine congrArg ((Gen.dats m 0 c).arrAt 15 cfg0.N) ?_
  funext a; apply Fin.ext
  match a with
  | ⟨0, _⟩ => show n.val = win0_15.index (tOf n) (0 : Fin 4) * 1 + 1 * 0; rw [e0]; show n.val = n.val * 1 + 1 * 0; omega
  | ⟨1, _⟩ => show h.val = win0_15.index (tOf n) (1 : Fin 4) * 64 + 1 * h.val; rw [e1]; omega
  | ⟨2, _⟩ => show w.val = win0_15.index (tOf n) (2 : Fin 4) * 64 + 1 * w.val; rw [e2]; omega
  | ⟨3, _⟩ => show co.val = win0_15.index (tOf n) (3 : Fin 4) * 128 + 1 * co.val; rw [e3]; omega

/-- The middle level's output (32 x 32 pixels). -/
theorem arr16 (c : Dev nD) (n : Fin 4) (h w : Fin 32) (co : Fin 128) :
    ((Gen.dats (F := Ideal) m 0 c).arrAt 16 cfg0.N : S4x32x32x128.Idx → EReal) (ix4 n h w co)
      = (Gen.out0_16 (Gen.iblk m c 0 (tOf n)) (Gen.iblk m c 1 (tOf n)) (Gen.iblk m c 2 (tOf n)) (Gen.iblk m c 3 (tOf n)) (Gen.iblk m c 4 (tOf n)) (Gen.iblk m c 5 (tOf n)) (Gen.iblk m c 6 (tOf n)) (Gen.iblk m c 7 (tOf n)) (Gen.iblk m c 8 (tOf n)) (Gen.iblk m c 9 (tOf n)) (Gen.iblk m c 10 (tOf n)) (Gen.iblk m c 11 (tOf n)) (Gen.iblk m c 12 (tOf n)) (Gen.iblk m c 13 (tOf n)) (Gen.iblk m c 14 (tOf n)) : S1x32x32x128.Idx → EReal) (ix4 0 h w co) := by
  obtain ⟨-, -, -, -, ⟨e0, e1, e2, e3⟩, -⟩ := idx_facts (tOf n)
  have hb := congrFun (blocks16 m c (tOf n) (flush0_16 (tOf n))) (ix4 0 h w co)
  rw [flushed16, View.read_apply] at hb
  refine Eq.trans ?_ hb
  show _ = (Gen.dats m 0 c).arrAt 16 cfg0.N (((cfg0.win 16).blk (tOf n)).view.emb (ix4 0 h w co))
  refine congrArg ((Gen.dats m 0 c).arrAt 16 cfg0.N) ?_
  funext a; apply Fin.ext
  match a with
  | ⟨0, _⟩ => show n.val = win0_16.index (tOf n) (0 : Fin 4) * 1 + 1 * 0; rw [e0]; show n.val = n.val * 1 + 1 * 0; omega
  | ⟨1, _⟩ => show h.val = win0_16.index (tOf n) (1 : Fin 4) * 32 + 1 * h.val; rw [e1]; omega
  | ⟨2, _⟩ => show w.val = win0_16.index (tOf n) (2 : Fin 4) * 32 + 1 * w.val; rw [e2]; omega
  | ⟨3, _⟩ => show co.val = win0_16.index (tOf n) (3 : Fin 4) * 128 + 1 * co.val; rw [e3]; omega

/-- The coarsest level's output (16 x 16 pixels). -/
theorem arr17 (c : Dev nD) (n : Fin 4) (h w : Fin 16) (co : Fin 128) :
    ((Gen.dats (F := Ideal) m 0 c).arrAt 17 cfg0.N : S4x16x16x128.Idx → EReal) (ix4 n h w co)
      = (Gen.out0_17 (Gen.iblk m c 0 (tOf n)) (Gen.iblk m c 1 (tOf n)) (Gen.iblk m c 2 (tOf n)) (Gen.iblk m c 3 (tOf n)) (Gen.iblk m c 4 (tOf n)) (Gen.iblk m c 5 (tOf n)) (Gen.iblk m c 6 (tOf n)) (Gen.iblk m c 7 (tOf n)) (Gen.iblk m c 8 (tOf n)) (Gen.iblk m c 9 (tOf n)) (Gen.iblk m c 10 (tOf n)) (Gen.iblk m c 11 (tOf n)) (Gen.iblk m c 12 (tOf n)) (Gen.iblk m c 13 (tOf n)) (Gen.iblk m c 14 (tOf n)) : S1x16x16x128.Idx → EReal) (ix4 0 h w co) := by
  obtain ⟨-, -, -, -, -, ⟨e0, e1, e2, e3⟩⟩ := idx_facts (tOf n)
  have hb := congrFun (blocks17 m c (tOf n) (flush0_17 (tOf n))) (ix4 0 h w co)
  rw [flushed17, View.read_apply] at hb
  refine Eq.trans ?_ hb
  show _ = (Gen.dats m 0 c).arrAt 17 cfg0.N (((cfg0.win 17).blk (tOf n)).view.emb (ix4 0 h w co))
  refine congrArg ((Gen.dats m 0 c).arrAt 17 cfg0.N) ?_
  funext a; apply Fin.ext
  match a with
  | ⟨0, _⟩ => show n.val = win0_17.index (tOf n) (0 : Fin 4) * 1 + 1 * 0; rw [e0]; show n.val = n.val * 1 + 1 * 0; omega
  | ⟨1, _⟩ => show h.val = win0_17.index (tOf n) (1 : Fin 4) * 16 + 1 * h.val; rw [e1]; omega
  | ⟨2, _⟩ => show w.val = win0_17.index (tOf n) (2 : Fin 4) * 16 + 1 * w.val; rw [e2]; omega
  | ⟨3, _⟩ => show co.val = win0_17.index (tOf n) (3 : Fin 4) * 128 + 1 * co.val; rw [e3]; omega

end Cert.KernelIdeal.Hand

end
-- ==== Proof.Spec.lean ====
/-
  The mathematics both programs compute, stated once over curried functions of literal coordinates into the extended reals.

  A feature pyramid: three levels (16x16, 32x32, 64x64 pixels; 128 channels after the first stage). At each level
  * a 1x1 convolution of the level's input (a channel contraction plus a bias), to which, below the top level, the
    nearest-neighbour upsampling by two of the level above is added;
  * a 3x3 convolution (stride 1, zero padding 1) of that sum: for each of the three vertical taps the three horizontal
    neighbours' channels laid side by side (384 numbers, zero outside the image) contracted with that tap's 384 x 128
    weights; the tap above and the tap below contribute zero at the first and the last row; then the bias.
  Sums over a channel index are finite sums in the extended reals: addition there is commutative and associative and
  zero times anything is zero, which is all the two programs' different groupings need.
-/
import Idealize.ShloMosaic.PureOps.Ideal
import Idealize.ShloMosaic.Lib.ValueIdx

noncomputable section

namespace Cert.Spec

/-- One output channel of a 1x1 convolution at one pixel: the contraction of the pixel's `K` input channels with the
    weights, plus the bias. -/
def pw {K : ℕ} (x : Fin K → EReal) (wt : Fin K → Fin 128 → EReal) (b : Fin 128 → EReal) (co : Fin 128) : EReal :=
  (∑ k : Fin K, x k * wt k co) + b co

/-- Nearest-neighbour upsampling by two in both directions: pixel `(h, w)` of the fine image reads pixel
    `(h / 2, w / 2)` of the coarse one. -/
def up2 {H W H2 W2 : ℕ} (hH : H2 ≤ 2 * H) (hW : W2 ≤ 2 * W) (r : Fin H → Fin W → Fin 128 → EReal)
    (h : Fin H2) (w : Fin W2) (co : Fin 128) : EReal :=
  r ⟨h.val / 2, by have := h.isLt; omega⟩ ⟨w.val / 2, by have := w.isLt; omega⟩ co

/-- The column patch at a pixel: the channels of its left neighbour, of itself and of its right neighbour side by side
    (positions 0–127, 128–255, 256–383), zero where the neighbour is outside the image. -/
def patch {H W : ℕ} (x : Fin H → Fin W → Fin 128 → EReal) (h : Fin H) (w : Fin W) (k : Fin 384) : EReal :=
  if hk0 : k.val < 128 then
    (if hw : 0 < w.val then x h ⟨w.val - 1, by have := w.isLt; omega⟩ ⟨k.val, hk0⟩ else 0)
  else if hk1 : k.val < 256 then x h w ⟨k.val - 128, by omega⟩
  else (if hw : w.val + 1 < W then x h ⟨w.val + 1, hw⟩ ⟨k.val - 256, by have := k.isLt; omega⟩ else 0)

/-- One vertical tap at a pixel: the pixel's column patch contracted with that tap's weights. -/
def tap {H W : ℕ} (x : Fin H → Fin W → Fin 128 → EReal) (wt : Fin 384 → Fin 128 → EReal)
    (h : Fin H) (w : Fin W) (co : Fin 128) : EReal :=
  ∑ k : Fin 384, patch x h w k * wt k co

/-- The 3x3 convolution at a pixel: tap 0 of the row above (zero at the first row), tap 1 of the row itself, tap 2 of the
    row below (zero at the last row), and the bias — in this grouping. -/
def conv {H W : ℕ} (x : Fin H → Fin W → Fin 128 → EReal) (w3 : Fin 3 → Fin 384 → Fin 128 → EReal) (b : Fin 128 → EReal)
    (h : Fin H) (w : Fin W) (co : Fin 128) : EReal :=
  (((if hh : 0 < h.val then tap x (w3 0) ⟨h.val - 1, by have := h.isLt; omega⟩ w co else 0) + tap x (w3 1) h w co)
    + (if hh : h.val + 1 < H then tap x (w3 2) ⟨h.val + 1, hh⟩ w co else 0)) + b co

end Cert.Spec

end
-- ==== Proof.KernL5.lean ====
/-
  Level 5 of the pyramid (16 x 16 pixels) as the fused kernel computes it, read element by element at the ideal
  values.

  The 1x1 stage: the image's 256 pixels as rows, each row's 1024 channels contracted with the 1024 x 128 weights, plus
  the bias row; row `16 h + w` is pixel `(h, w)`. So an element of the stage is `Cert.Spec.pw` of the pixel's channels.

  The 3x3 stage: the column patch is laid out by concatenation (a zero column in front of the image shifted right, the
  image, the image shifted left with a zero column behind; the three side by side along the channels), which is
  `Cert.Spec.patch` element by element; as rows it is contracted with each vertical tap's 384 x 128 weights, which is
  `Cert.Spec.tap`; the three products are added with tap 0 moved down one row under a zero row and tap 2 moved up one
  row over a zero row, then the bias: `Cert.Spec.conv` up to the order of the first two summands.
-/
import proofs.«126699_g2000605867469428_pallasbulk_857_3_alg».proof.Proof.Gen.KernelIdeal.Skeleton
import proofs.«126699_g2000605867469428_pallasbulk_857_3_alg».proof.Proof.Spec
import Idealize.ShloMosaic.Lib.ValueLayout
import Idealize.ShloMosaic.Lib.IdealHost
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## A plain matrix product into a zero accumulator, read at an index -/

/-- A `tpu.matmul` of an `m x k` by a `k x n` matrix (contracting the left operand's columns with the right operand's
    rows, no batch axis) into the zero splat is, at `(a, b)`, the sum over the contracted coordinate of the products of
    the entries. -/
theorem matmul_zero_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The 1x1 stage -/

/-- Pixel `(h, w)` is row `16 h + w` of the image laid out as rows. -/
abbrev row5 (h w : Fin 16) : Fin 256 := ⟨h.val * 16 + w.val, by have := h.isLt; have := w.isLt; omega⟩

/-- An element of the 1x1 stage: the pixel's 1024 channels contracted with the weights, plus the bias. -/
theorem p5_apply (v0 : Vec Ideal S1x16x16x1024 .f32) (v4 : Vec Ideal S1024x128 .bf16) (v7 : Vec Ideal S1x128 .f32)
    (h w : Fin 16) (co : Fin 128) :
    k0_pay2 (F := Ideal) v0 v4 v7 (ix3 h w co)
      = Cert.Spec.pw (fun k : Fin 1024 => v0 (ix4 0 h w k)) (fun k c' => v4 (ix2 k c')) (fun c' => v7 (ix2 0 c')) co := by
  unfold k0_pay2 Cert.Spec.pw
  refine (shapeCast_apply _ _ (ix3 h w co) (ix2 (row5 h w) co) (by
    rw [Shape.rowMajor_val_two, Shape.rowMajor_val_three]; rfl)).trans ?_
  rw [truncf_apply, addf_apply]
  refine congrArg₂ (· + ·) ?_ ?_
  · refine (matmul_zero_plain_apply dot_S256x1024_S1024x128_S256x128_1_0_0_1_n_n_wf none _ _ (row5 h w) co).trans ?_
    refine Finset.sum_congr rfl fun k _ => ?_
    rw [truncf_apply, shapeCast_self]
    refine congrArg (· * v4 (ix2 k co)) ?_
    refine (shapeCast_apply _ _ (ix2 (row5 h w) k) (ix3 h w k) (by
      rw [Shape.rowMajor_val_two, Shape.rowMajor_val_three]; rfl)).trans ?_
    exact shapeCast_1abc_abc_apply v0 _ h w k
  · refine (broadcastTo_1b_ab_apply _ _ (row5 h w) co).trans ?_
    rw [shapeCast_self]

/-! ## The column patch -/

/-- The zero bf16 scalar splat over a one-column slab reads zero everywhere. -/
theorem zeroCol_apply (i : S16x1x128.Idx) :
    broadcast S16x1x128 (Scalar.ofBits (F := Ideal) .bf16 0x0000#16) i = (0 : EReal) :=
  Ideal.ofBits_zero_bf16

/-- Row `16 h + w` of the patch matrix is `Cert.Spec.patch` of the 1x1 stage at pixel `(h, w)`: positions 0–127 read the
    left neighbour (the image behind a zero column, so zero at `w = 0`), 128–255 the pixel, 256–383 the right neighbour
    (the image before a zero column, so zero at `w = 15`). -/
theorem patch5_apply (v0 : Vec Ideal S1x16x16x1024 .f32) (v4 : Vec Ideal S1024x128 .bf16) (v7 : Vec Ideal S1x128 .f32)
    (h w : Fin 16) (k : Fin 384) :
    k0_pay3 (F := Ideal) v0 v4 v7 (ix2 (row5 h w) k)
      = Cert.Spec.patch (fun h' w' c' => k0_pay2 (F := Ideal) v0 v4 v7 (ix3 h' w' c')) h w k := by
  unfold k0_pay3
  generalize k0_pay2 (F := Ideal) v0 v4 v7 = P
  refine (shapeCast_apply _ _ (ix2 (row5 h w) k) (ix3 h w k) (by
    rw [Shape.rowMajor_val_two, Shape.rowMajor_val_three]; rfl)).trans ?_
  unfold Cert.Spec.patch
  have hw16 := w.isLt
  have hk384 := k.isLt
  by_cases hk0 : k.val < 128
  · rw [dif_pos hk0]
    refine Eq.trans (concatenate_apply_piece (2 : Fin 3) _ _ (ix3 h w k) 0 (by simp) S16x16x128 _ rfl rfl 0 rfl
      (ix3 h w (⟨k.val, hk0⟩ : Fin 128)) (fun b hb => ?_) ?_) ?_
    · match b with
      | ⟨0, _⟩ => rfl
      | ⟨1, _⟩ => rfl
      | ⟨2, _⟩ => exact absurd (Fin.ext rfl) hb
    · show 0 + k.val = k.val
      omega
    · by_cases hw : 0 < w.val
      · rw [dif_pos hw]
        refine Eq.trans (concatenate_pair_apply_right (s₁ := S16x1x128) (s₂ := S16x15x128) (1 : Fin 3) _ _ _
          (ix3 h w (⟨k.val, hk0⟩ : Fin 128)) rfl rfl
          (ix3 h (⟨w.val - 1, by omega⟩ : Fin 15) (⟨k.val, hk0⟩ : Fin 128)) (fun b hb => ?_) ?_) ?_
        · match b with
          | ⟨0, _⟩ => rfl
          | ⟨1, _⟩ => exact absurd (Fin.ext rfl) hb
          | ⟨2, _⟩ => rfl
        · show (w.val - 1) + 1 = w.val
          omega
        · exact slice3_axis1_apply 0 P _ h _ _ _ (by show w.val - 1 = 0 + (w.val - 1); omega)
      · rw [dif_neg hw]
        refine Eq.trans (concatenate_pair_apply_left (s₁ := S16x1x128) (s₂ := S16x15x128) (1 : Fin 3) _ _ _
          (ix3 h w (⟨k.val, hk0⟩ : Fin 128)) rfl
          (ix3 h (0 : Fin 1) (⟨k.val, hk0⟩ : Fin 128)) (fun b => ?_)) ?_
        · match b with
          | ⟨0, _⟩ => rfl
          | ⟨1, _⟩ => show 0 = w.val; omega
          | ⟨2, _⟩ => rfl
        · exact zeroCol_apply _
  · rw [dif_neg hk0]
    by_cases hk1 : k.val < 256
    · rw [dif_pos hk1]
      exact concatenate_apply_piece (2 : Fin 3) _ _ (ix3 h w k) 1 (by simp) S16x16x128 P rfl rfl 128 rfl
        (ix3 h w (⟨k.val - 128, by omega⟩ : Fin 128)) (fun b hb => by
          match b with
          | ⟨0, _⟩ => rfl
          | ⟨1, _⟩ => rfl
          | ⟨2, _⟩ => exact absurd (Fin.ext rfl) hb) (by show 128 + (k.val - 128) = k.val; omega)
    · rw [dif_neg hk1]
      refine Eq.trans (concatenate_apply_piece (2 : Fin 3) _ _ (ix3 h w k) 2 (by simp) S16x16x128 _ rfl rfl 256 rfl
        (ix3 h w (⟨k.val - 256, by omega⟩ : Fin 128)) (fun b hb => ?_) ?_) ?_
      · match b with
        | ⟨0, _⟩ => rfl
        | ⟨1, _⟩ => rfl
        | ⟨2, _⟩ => exact absurd (Fin.ext rfl) hb
      · show 256 + (k.val - 256) = k.val
        omega
      · by_cases hw : w.val + 1 < 16
        · rw [dif_pos hw]
          refine Eq.trans (concatenate_pair_apply_left (s₁ := S16x15x128) (s₂ := S16x1x128) (1 : Fin 3) _ _ _
            (ix3 h w (⟨k.val - 256, by omega⟩ : Fin 128)) rfl
            (ix3 h (⟨w.val, by omega⟩ : Fin 15) (⟨k.val - 256, by omega⟩ : Fin 128)) (fun b => ?_)) ?_
          · match b with
            | ⟨0, _⟩ => rfl
            | ⟨1, _⟩ => rfl
            | ⟨2, _⟩ => rfl
          · exact slice3_axis1_apply 1 P _ h _ _ _ (by show w.val + 1 = 1 + w.val; omega)
        · rw [dif_neg hw]
          refine Eq.trans (concatenate_pair_apply_right (s₁ := S16x15x128) (s₂ := S16x1x128) (1 : Fin 3) _ _ _
            (ix3 h w (⟨k.val - 256, by omega⟩ : Fin 128)) rfl rfl
            (ix3 h (0 : Fin 1) (⟨k.val - 256, by omega⟩ : Fin 128)) (fun b hb => ?_) ?_) ?_
          · match b with
            | ⟨0, _⟩ => rfl
            | ⟨1, _⟩ => exact absurd (Fin.ext rfl) hb
            | ⟨2, _⟩ => rfl
          · show 0 + 15 = w.val
            omega
          · exact zeroCol_apply _

/-! ## One vertical tap -/

/-- The patch matrix contracted with one tap's 384 x 128 weights and laid back out as an image is, at pixel `(h, w)`,
    `Cert.Spec.tap` of the 1x1 stage with those weights. -/
theorem tap5_apply (v0 : Vec Ideal S1x16x16x1024 .f32) (v4 : Vec Ideal S1024x128 .bf16) (v7 : Vec Ideal S1x128 .f32)
    (W : Vec Ideal S1x384x128 .bf16) (h w : Fin 16) (co : Fin 128) :
    shapeCast S16x16x128
        (matmul dot_S256x384_S384x128_S256x128_1_0_0_1_n_n none (k0_pay3 (F := Ideal) v0 v4 v7)
          (shapeCast S384x128 W shapeCasts_S1x384x128_S384x128 : FVec Ideal S384x128 .bf16)
          (constant (F := Ideal) S256x128 .f32 0x00000000#32))
        shapeCasts_S256x128_S16x16x128 (ix3 h w co)
      = Cert.Spec.tap (fun h' w' c' => k0_pay2 (F := Ideal) v0 v4 v7 (ix3 h' w' c')) (fun k c' => W (ix3 0 k c')) h w co := by
  refine (shapeCast_apply _ _ (ix3 h w co) (ix2 (row5 h w) co) (by
    rw [Shape.rowMajor_val_two, Shape.rowMajor_val_three]; rfl)).trans ?_
  refine (matmul_zero_plain_apply dot_S256x384_S384x128_S256x128_1_0_0_1_n_n_wf none _ _ (row5 h w) co).trans ?_
  unfold Cert.Spec.tap
  refine Finset.sum_congr rfl fun k _ => ?_
  refine congrArg₂ (· * ·) (patch5_apply v0 v4 v7 h w k) ?_
  exact shapeCast_1ab_ab_apply W _ k co

/-! ## The 3x3 stage -/

/-- The zero f32 row reads zero everywhere. -/
theorem zeroRow_apply (i : S1x16x128.Idx) : k0_pay5 (F := Ideal) i = (0 : EReal) :=
  Ideal.ofBits_zero_f32

/-- An element of the level's output: tap 1 of the row, tap 0 of the row above (moved down one row under a zero row),
    tap 2 of the row below (moved up one row over a zero row) and the bias; `Cert.Spec.conv` adds the first two in the
    other order. -/
theorem o5_apply (v0 : Vec Ideal S1x16x16x1024 .f32) (v4 : Vec Ideal S1024x128 .bf16) (v7 : Vec Ideal S1x128 .f32)
    (v20 v23 v26 : Vec Ideal S1x384x128 .bf16) (v39 : Vec Ideal S1x128 .f32) (h w : Fin 16) (co : Fin 128) :
    k0_pay7 (F := Ideal) (k0_pay4 v0 v4 v7 v26) k0_pay5 (k0_pay6 v0 v4 v7 v20 v23) v39 (ix4 0 h w co)
      = Cert.Spec.conv (fun h' w' c' => k0_pay2 (F := Ideal) v0 v4 v7 (ix3 h' w' c'))
          (fun dy k c' => (match dy with | ⟨0, _⟩ => v20 | ⟨1, _⟩ => v23 | ⟨2, _⟩ => v26) (ix3 0 k c'))
          (fun c' => v39 (ix2 0 c')) h w co := by
  have hh16 := h.isLt
  unfold k0_pay7
  refine (shapeCast_abc_1abc_apply _ _ 0 h w co).trans ?_
  rw [addf_apply, addf_apply]
  unfold Cert.Spec.conv
  refine congrArg₂ (· + ·) (congrArg₂ (· + ·) ?_ ?_) ?_
  · -- the row's own tap and the tap of the row above
    unfold k0_pay6
    rw [addf_apply]
    refine (add_comm _ _).trans (congrArg₂ (· + ·) ?_ (tap5_apply v0 v4 v7 v23 h w co))
    by_cases hh : 0 < h.val
    · rw [dif_pos hh]
      refine Eq.trans (concatenate_pair_apply_right (s₁ := S1x16x128) (s₂ := S15x16x128) (0 : Fin 3) _ _ _
        (ix3 h w co) rfl rfl (ix3 (⟨h.val - 1, by omega⟩ : Fin 15) w co) (fun b hb => ?_) ?_) ?_
      · match b with
        | ⟨0, _⟩ => exact absurd (Fin.ext rfl) hb
        | ⟨1, _⟩ => rfl
        | ⟨2, _⟩ => rfl
      · show (h.val - 1) + 1 = h.val
        omega
      · refine Eq.trans (extractStridedSlice_apply _ _ _ (ix3 (⟨h.val - 1, by omega⟩ : Fin 15) w co)
          (ix3 (⟨h.val - 1, by omega⟩ : Fin 16) w co) (fun a => ?_)) ?_
        · match a with
          | ⟨0, _⟩ => exact (Nat.zero_add _).symm
          | ⟨1, _⟩ => exact (Nat.zero_add _).symm
          | ⟨2, _⟩ => exact (Nat.zero_add _).symm
        · exact tap5_apply v0 v4 v7 v20 ⟨h.val - 1, by omega⟩ w co
    · rw [dif_neg hh]
      refine Eq.trans (concatenate_pair_apply_left (s₁ := S1x16x128) (s₂ := S15x16x128) (0 : Fin 3) _ _ _
        (ix3 h w co) rfl (ix3 (0 : Fin 1) w co) (fun b => ?_)) ?_
      · match b with
        | ⟨0, _⟩ => show 0 = h.val; omega
        | ⟨1, _⟩ => rfl
        | ⟨2, _⟩ => rfl
      · exact zeroRow_apply _
  · -- the tap of the row below
    by_cases hh : h.val + 1 < 16
    · rw [dif_pos hh]
      refine Eq.trans (concatenate_pair_apply_left (s₁ := S15x16x128) (s₂ := S1x16x128) (0 : Fin 3) _ _ _
        (ix3 h w co) rfl (ix3 (⟨h.val, by omega⟩ : Fin 15) w co) (fun b => ?_)) ?_
      · match b with
        | ⟨0, _⟩ => rfl
        | ⟨1, _⟩ => rfl
        | ⟨2, _⟩ => rfl
      · refine Eq.trans (extractStridedSlice_apply _ _ _ (ix3 (⟨h.val, by omega⟩ : Fin 15) w co)
          (ix3 (⟨h.val + 1, hh⟩ : Fin 16) w co) (fun a => ?_)) ?_
        · match a with
          | ⟨0, _⟩ => show h.val + 1 = 1 + h.val; omega
          | ⟨1, _⟩ => exact (Nat.zero_add _).symm
          | ⟨2, _⟩ => exact (Nat.zero_add _).symm
        · unfold k0_pay4
          exact tap5_apply v0 v4 v7 v26 ⟨h.val + 1, hh⟩ w co
    · rw [dif_neg hh]
      refine Eq.trans (concatenate_pair_apply_right (s₁ := S15x16x128) (s₂ := S1x16x128) (0 : Fin 3) _ _ _
        (ix3 h w co) rfl rfl (ix3 (0 : Fin 1) w co) (fun b hb => ?_) ?_) ?_
      · match b with
        | ⟨0, _⟩ => exact absurd (Fin.ext rfl) hb
        | ⟨1, _⟩ => rfl
        | ⟨2, _⟩ => rfl
      · show 0 + 15 = h.val
        omega
      · exact zeroRow_apply _
  · -- the bias row
    refine Eq.trans (broadcastTo_apply _ _ (ix3 h w co) (ix3 (0 : Fin 1) (0 : Fin 1) co) (fun a => ?_)) ?_
    · match a with
      | ⟨0, _⟩ => rfl
      | ⟨1, _⟩ => rfl
      | ⟨2, _⟩ => rfl
    · refine (shapeCast_ab_1ab_apply _ _ 0 0 co).trans ?_
      rw [shapeCast_self]

end Cert.KernelIdeal.Hand

end
-- ==== Proof.KernL4.lean ====
/-
  Level 4 (32x32 pixels, 128 channels) of the fused pyramid kernel, read index by index at the ideal values, where a
  float is an extended real, a change of format is the identity and a zero literal is 0.

  * `p4_apply`: the level-4 sum at a pixel is the 1x1 convolution of the pixel's 512 input channels (the pixels are laid
    out one per row, 32 h + w, for the product with the 512x128 weights; the bias row is added to every row) plus the
    level above at (h / 2, w / 2) (each row, then each column, of the level above is written twice).
  * `patch_apply`: row 32 h + w of the patch matrix is the specification's column patch of that sum at (h, w): a zero
    column put before the image without its last column, the image, and the image without its first column followed by
    a zero column, side by side along the channels.
  * `stored_apply`, `o4_apply`: the stored value is the middle tap, plus the first tap moved down one row under a zero
    row, plus the last tap moved up one row over a zero row, plus the bias; each tap is the patch rows times that tap's
    384x128 weights. That is the specification's 3x3 convolution up to the order of the first two summands.

  Every layout operation is read at an index written by its literal coordinates: a shape cast by equal row-major
  positions, a slice by its offsets, a concatenation by the piece whose span holds the coordinate, a broadcast by
  dropping the copied coordinate; a product into a zero accumulator is the sum over the one contracted axis.
-/
import proofs.«126699_g2000605867469428_pallasbulk_857_3_alg».proof.Proof.Gen.KernelIdeal.Skeleton
import proofs.«126699_g2000605867469428_pallasbulk_857_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.KernelIdeal.Hand

open Cert.KernelIdeal Cert.KernelIdeal.Gen Idealize.ShloMosaic Idealize.ShloMosaic.ValueIdx
open scoped BigOperators

/-! Every auxiliary statement of this module lives in the namespace `L4`; the two results `p4_apply` and `o4_apply` do not. -/

namespace L4

/-- The left operand's row coordinate at an output index does not depend on the contraction position. -/
theorem mm512_lhs0 (i : S1024x128.Idx) (q : dot_S1024x512_S512x128_S1024x128_1_0_0_1_n_n.contr.Idx) : (dot_S1024x512_S512x128_S1024x128_1_0_0_1_n_n.lhsIdx i q 0).val = (i 0).val := by
  unfold DotDims.lhsIdx
  rw [dif_neg (show ¬(0 : Fin S1024x512.rank) ∈ dot_S1024x512_S512x128_S1024x128_1_0_0_1_n_n.lhsBatch by decide),
    dif_pos (show (0 : Fin S1024x512.rank) ∈ dot_S1024x512_S512x128_S1024x128_1_0_0_1_n_n.lhsNonContracting by decide)]
  rfl
/-- The left operand's column coordinate is the contraction position. -/
theorem mm512_lhs1 (i : S1024x128.Idx) (q : dot_S1024x512_S512x128_S1024x128_1_0_0_1_n_n.contr.Idx) : (dot_S1024x512_S512x128_S1024x128_1_0_0_1_n_n.lhsIdx i q 1).val = (q ⟨0, by decide⟩).val :=
  dot_S1024x512_S512x128_S1024x128_1_0_0_1_n_n.lhsIdx_val_of_single rfl i q
/-- The right operand's row coordinate is the contraction position. -/
theorem mm512_rhs0 (i : S1024x128.Idx) (q : dot_S1024x512_S512x128_S1024x128_1_0_0_1_n_n.contr.Idx) : (dot_S1024x512_S512x128_S1024x128_1_0_0_1_n_n.rhsIdx i q 0).val = (q ⟨0, by decide⟩).val :=
  dot_S1024x512_S512x128_S1024x128_1_0_0_1_n_n.rhsIdx_val_of_single rfl i q
/-- The right operand's column coordinate is the output's column. -/
theorem mm512_rhs1 (i : S1024x128.Idx) (q : dot_S1024x512_S512x128_S1024x128_1_0_0_1_n_n.contr.Idx) : (dot_S1024x512_S512x128_S1024x128_1_0_0_1_n_n.rhsIdx i q 1).val = (i 1).val := by
  unfold DotDims.rhsIdx
  rw [dif_neg (show ¬(1 : Fin S512x128.rank) ∈ dot_S1024x512_S512x128_S1024x128_1_0_0_1_n_n.rhsBatch by decide),
    dif_pos (show (1 : Fin S512x128.rank) ∈ dot_S1024x512_S512x128_S1024x128_1_0_0_1_n_n.rhsNonContracting by decide)]
  rfl

/-- The rows-by-512 times 512-by-channels product into a zero accumulator, read at a row and a channel: the sum over the 512 input channels. -/
theorem mm512_apply (a : FVec Ideal S1024x512 .bf16) (b : FVec Ideal S512x128 .bf16) (r : Fin 1024) (co : Fin 128) :
    matmul (F := Ideal) dot_S1024x512_S512x128_S1024x128_1_0_0_1_n_n none a b (constant S1024x128 .f32 0x00000000#32) (ix2 r co)
      = ∑ k : Fin 512, a (ix2 r k) * b (ix2 k co) := by
  refine (Ideal.matmul_constant_zero_apply dot_S1024x512_S512x128_S1024x128_1_0_0_1_n_n none a b (ix2 r co)).trans ?_
  rw [← Equiv.sum_comp (contrEquiv1 dot_S1024x512_S512x128_S1024x128_1_0_0_1_n_n 512 rfl rfl).symm]
  refine Finset.sum_congr rfl fun k _ => ?_
  have hk := contrEquiv1_symm_val dot_S1024x512_S512x128_S1024x128_1_0_0_1_n_n 512 rfl rfl k
  have el : dot_S1024x512_S512x128_S1024x128_1_0_0_1_n_n.lhsIdx (ix2 r co) ((contrEquiv1 dot_S1024x512_S512x128_S1024x128_1_0_0_1_n_n 512 rfl rfl).symm k) = ix2 r k := funext fun a => Fin.ext (by
    match a with
    | ⟨0, _⟩ => exact mm512_lhs0 _ _
    | ⟨1, _⟩ => exact (mm512_lhs1 _ _).trans hk)
  have er : dot_S1024x512_S512x128_S1024x128_1_0_0_1_n_n.rhsIdx (ix2 r co) ((contrEquiv1 dot_S1024x512_S512x128_S1024x128_1_0_0_1_n_n 512 rfl rfl).symm k) = ix2 k co := funext fun a => Fin.ext (by
    match a with
    | ⟨0, _⟩ => exact (mm512_rhs0 _ _).trans hk
    | ⟨1, _⟩ => exact mm512_rhs1 _ _)
  rw [el, er]

/-- The left operand's row coordinate at an output index does not depend on the contraction position. -/
theorem mm384_lhs0 (i : S1024x128.Idx) (q : dot_S1024x384_S384x128_S1024x128_1_0_0_1_n_n.contr.Idx) : (dot_S1024x384_S384x128_S1024x128_1_0_0_1_n_n.lhsIdx i q 0).val = (i 0).val := by
  unfold DotDims.lhsIdx
  rw [dif_neg (show ¬(0 : Fin S1024x384.rank) ∈ dot_S1024x384_S384x128_S1024x128_1_0_0_1_n_n.lhsBatch by decide),
    dif_pos (show (0 : Fin S1024x384.rank) ∈ dot_S1024x384_S384x128_S1024x128_1_0_0_1_n_n.lhsNonContracting by decide)]
  rfl
/-- The left operand's column coordinate is the contraction position. -/
theorem mm384_lhs1 (i : S1024x128.Idx) (q : dot_S1024x384_S384x128_S1024x128_1_0_0_1_n_n.contr.Idx) : (dot_S1024x384_S384x128_S1024x128_1_0_0_1_n_n.lhsIdx i q 1).val = (q ⟨0, by decide⟩).val :=
  dot_S1024x384_S384x128_S1024x128_1_0_0_1_n_n.lhsIdx_val_of_single rfl i q
/-- The right operand's row coordinate is the contraction position. -/
theorem mm384_rhs0 (i : S1024x128.Idx) (q : dot_S1024x384_S384x128_S1024x128_1_0_0_1_n_n.contr.Idx) : (dot_S1024x384_S384x128_S1024x128_1_0_0_1_n_n.rhsIdx i q 0).val = (q ⟨0, by decide⟩).val :=
  dot_S1024x384_S384x128_S1024x128_1_0_0_1_n_n.rhsIdx_val_of_single rfl i q
/-- The right operand's column coordinate is the output's column. -/
theorem mm384_rhs1 (i : S1024x128.Idx) (q : dot_S1024x384_S384x128_S1024x128_1_0_0_1_n_n.contr.Idx) : (dot_S1024x384_S384x128_S1024x128_1_0_0_1_n_n.rhsIdx i q 1).val = (i 1).val := by
  unfold DotDims.rhsIdx
  rw [dif_neg (show ¬(1 : Fin S384x128.rank) ∈ dot_S1024x384_S384x128_S1024x128_1_0_0_1_n_n.rhsBatch by decide),
    dif_pos (show (1 : Fin S384x128.rank) ∈ dot_S1024x384_S384x128_S1024x128_1_0_0_1_n_n.rhsNonContracting by decide)]
  rfl

/-- The rows-by-384 times 384-by-channels product into a zero accumulator, read at a row and a channel: the sum over the 384 patch positions. -/
theorem mm384_apply (a : FVec Ideal S1024x384 .bf16) (b : FVec Ideal S384x128 .bf16) (r : Fin 1024) (co : Fin 128) :
    matmul (F := Ideal) dot_S1024x384_S384x128_S1024x128_1_0_0_1_n_n none a b (constant S1024x128 .f32 0x00000000#32) (ix2 r co)
      = ∑ k : Fin 384, a (ix2 r k) * b (ix2 k co) := by
  refine (Ideal.matmul_constant_zero_apply dot_S1024x384_S384x128_S1024x128_1_0_0_1_n_n none a b (ix2 r co)).trans ?_
  rw [← Equiv.sum_comp (contrEquiv1 dot_S1024x384_S384x128_S1024x128_1_0_0_1_n_n 384 rfl rfl).symm]
  refine Finset.sum_congr rfl fun k _ => ?_
  have hk := contrEquiv1_symm_val dot_S1024x384_S384x128_S1024x128_1_0_0_1_n_n 384 rfl rfl k
  have el : dot_S1024x384_S384x128_S1024x128_1_0_0_1_n_n.lhsIdx (ix2 r co) ((contrEquiv1 dot_S1024x384_S384x128_S1024x128_1_0_0_1_n_n 384 rfl rfl).symm k) = ix2 r k := funext fun a => Fin.ext (by
    match a with
    | ⟨0, _⟩ => exact mm384_lhs0 _ _
    | ⟨1, _⟩ => exact (mm384_lhs1 _ _).trans hk)
  have er : dot_S1024x384_S384x128_S1024x128_1_0_0_1_n_n.rhsIdx (ix2 r co) ((contrEquiv1 dot_S1024x384_S384x128_S1024x128_1_0_0_1_n_n 384 rfl rfl).symm k) = ix2 k co := funext fun a => Fin.ext (by
    match a with
    | ⟨0, _⟩ => exact (mm384_rhs0 _ _).trans hk
    | ⟨1, _⟩ => exact mm384_rhs1 _ _)
  rw [el, er]

/-! ## Layout: pixels as rows, unit axes, the bias rows -/

/-- The row of pixel `(h, w)` when the 32x32 pixels are laid out one per row. -/
def row (h w : Fin 32) : Fin 1024 := ⟨h.val * 32 + w.val, by have := h.isLt; have := w.isLt; omega⟩

/-- Rows viewed as an image: pixel `(h, w)` is row `32 h + w`. -/
theorem image_of_rows {α : Type} {C : ℕ} (x : (⟨2, ![1024, C]⟩ : Shape).Idx → α)
    (hc : (⟨2, ![1024, C]⟩ : Shape).ShapeCasts ⟨3, ![32, 32, C]⟩) (h w : Fin 32) (c : Fin C) :
    shapeCast ⟨3, ![32, 32, C]⟩ x hc (ix3 h w c) = x (ix2 (row h w) c) :=
  shapeCast_apply x hc (ix3 h w c) (ix2 (row h w) c) (by
    rw [Shape.rowMajor_val_two, Shape.rowMajor_val_three]; rfl)

/-- An image viewed as rows: row `32 h + w` is pixel `(h, w)`. -/
theorem rows_of_image {α : Type} {C : ℕ} (y : (⟨3, ![32, 32, C]⟩ : Shape).Idx → α)
    (hc : (⟨3, ![32, 32, C]⟩ : Shape).ShapeCasts ⟨2, ![1024, C]⟩) (h w : Fin 32) (c : Fin C) :
    shapeCast ⟨2, ![1024, C]⟩ y hc (ix2 (row h w) c) = y (ix3 h w c) :=
  shapeCast_apply y hc (ix2 (row h w) c) (ix3 h w c) (by
    rw [Shape.rowMajor_val_two, Shape.rowMajor_val_three]; rfl)

/-- The bias row broadcast over the 1024 rows reads the bias at the channel. -/
theorem bias_rows {α : Type} (b : S1x128.Idx → α) (r : Fin 1024) (co : Fin 128) :
    broadcastTo S1024x128 (shapeCast S1x128 b shapeCasts_S1x128_S1x128) broadcasts_S1x128_S1024x128 (ix2 r co)
      = b (ix2 0 co) := by
  rw [shapeCast_self]
  exact broadcastTo_1b_ab_apply b broadcasts_S1x128_S1024x128 r co

/-- The bias row broadcast over the 32x32 pixels reads the bias at the channel. -/
theorem bias_image {α : Type} (b : S1x128.Idx → α) (h w : Fin 32) (co : Fin 128) :
    broadcastTo S32x32x128 (shapeCast S1x1x128 (shapeCast S1x128 b shapeCasts_S1x128_S1x128) shapeCasts_S1x128_S1x1x128)
      broadcasts_S1x1x128_S32x32x128 (ix3 h w co) = b (ix2 0 co) := by
  rw [shapeCast_self]
  refine (broadcastTo_apply _ _ (ix3 h w co) (ix3 (0 : Fin 1) (0 : Fin 1) co) fun a => ?_).trans ?_
  · match a with
    | ⟨0, _⟩ => rfl
    | ⟨1, _⟩ => rfl
    | ⟨2, _⟩ => rfl
  · exact shapeCast_ab_1ab_apply b _ 0 0 co

/-! ## The upsampling by two: rows repeated, then columns repeated -/

/-- The level above, each row and then each column written twice, read at pixel `(h, w)`: its pixel `(h / 2, w / 2)`. -/
theorem up_apply {α : Type} (x : S16x16x128.Idx → α) (h w : Fin 32) (co : Fin 128) :
    shapeCast S32x32x128
      (broadcastTo S32x16x2x128
        (shapeCast S32x16x1x128
          (shapeCast S32x16x1x128
            (shapeCast S32x16x128
              (broadcastTo S16x2x16x128
                (shapeCast S16x1x16x128 (shapeCast S16x1x16x128 x shapeCasts_S16x16x128_S16x1x16x128)
                  shapeCasts_S16x1x16x128_S16x1x16x128)
                broadcasts_S16x1x16x128_S16x2x16x128)
              shapeCasts_S16x2x16x128_S32x16x128)
            shapeCasts_S32x16x128_S32x16x1x128)
          shapeCasts_S32x16x1x128_S32x16x1x128)
        broadcasts_S32x16x1x128_S32x16x2x128)
      shapeCasts_S32x16x2x128_S32x32x128 (ix3 h w co)
    = x (ix3 (⟨h.val / 2, by have := h.isLt; omega⟩ : Fin 16) (⟨w.val / 2, by have := w.isLt; omega⟩ : Fin 16) co) := by
  have hh := h.isLt
  have hw := w.isLt
  rw [shapeCast_self, shapeCast_self]
  -- columns: [32,32,128] at (h, w, co) is [32,16,2,128] at (h, w / 2, w % 2, co)
  refine (shapeCast_apply _ _ (ix3 h w co)
    (ix4 h (⟨w.val / 2, by omega⟩ : Fin 16) (⟨w.val % 2, by omega⟩ : Fin 2) co) (by
      rw [Shape.rowMajor_val_three, Shape.rowMajor_val_four]
      show ((h.val * 16 + w.val / 2) * 2 + w.val % 2) * 128 + co.val = (h.val * 32 + w.val) * 128 + co.val
      omega)).trans ?_
  -- the column copy does not matter
  refine (broadcastTo_apply _ _ _ (ix4 h (⟨w.val / 2, by omega⟩ : Fin 16) (0 : Fin 1) co) fun a => ?_).trans ?_
  · match a with
    | ⟨0, _⟩ => rfl
    | ⟨1, _⟩ => rfl
    | ⟨2, _⟩ => rfl
    | ⟨3, _⟩ => rfl
  -- the unit axis added for the column copy
  refine (shapeCast_apply _ _ _ (ix3 h (⟨w.val / 2, by omega⟩ : Fin 16) co) (by
      rw [Shape.rowMajor_val_three, Shape.rowMajor_val_four]
      show (h.val * 16 + w.val / 2) * 128 + co.val = ((h.val * 16 + w.val / 2) * 1 + 0) * 128 + co.val
      omega)).trans ?_
  -- rows: [32,16,128] at (h, q, co) is [16,2,16,128] at (h / 2, h % 2, q, co)
  refine (shapeCast_apply _ _ _
    (ix4 (⟨h.val / 2, by omega⟩ : Fin 16) (⟨h.val % 2, by omega⟩ : Fin 2) (⟨w.val / 2, by omega⟩ : Fin 16) co) (by
      rw [Shape.rowMajor_val_three, Shape.rowMajor_val_four]
      show (((h.val / 2) * 2 + h.val % 2) * 16 + w.val / 2) * 128 + co.val = (h.val * 16 + w.val / 2) * 128 + co.val
      omega)).trans ?_
  -- the row copy does not matter
  refine (broadcastTo_apply _ _ _ (ix4 (⟨h.val / 2, by omega⟩ : Fin 16) (0 : Fin 1) (⟨w.val / 2, by omega⟩ : Fin 16) co)
    fun a => ?_).trans ?_
  · match a with
    | ⟨0, _⟩ => rfl
    | ⟨1, _⟩ => rfl
    | ⟨2, _⟩ => rfl
    | ⟨3, _⟩ => rfl
  -- the unit axis added for the row copy
  exact shapeCast_apply _ _ _ _ (by
      rw [Shape.rowMajor_val_three, Shape.rowMajor_val_four]
      show ((h.val / 2) * 16 + w.val / 2) * 128 + co.val = (((h.val / 2) * 1 + 0) * 16 + w.val / 2) * 128 + co.val
      omega)

/-! ## Slices and concatenations along rows, columns and channels -/

/-- The image without its last column. -/
theorem cols_init {α : Type} (x : S32x32x128.Idx → α) (h : Fin 32) (w : Fin 31) (c : Fin 128) :
    extractStridedSlice S32x31x128 ![0, 0, 0] x slices_S32x32x128_o0_0_0_S32x31x128 (ix3 h w c)
      = x (ix3 h (⟨w.val, by have := w.isLt; omega⟩ : Fin 32) c) :=
  slice3_axis1_apply 0 x slices_S32x32x128_o0_0_0_S32x31x128 h w c _ (Nat.zero_add _).symm

/-- The image without its first column. -/
theorem cols_tail {α : Type} (x : S32x32x128.Idx → α) (h : Fin 32) (w : Fin 31) (c : Fin 128) :
    extractStridedSlice S32x31x128 ![0, 1, 0] x slices_S32x32x128_o0_1_0_S32x31x128 (ix3 h w c)
      = x (ix3 h (⟨w.val + 1, by have := w.isLt; omega⟩ : Fin 32) c) :=
  slice3_axis1_apply 1 x slices_S32x32x128_o0_1_0_S32x31x128 h w c _ (Nat.add_comm _ _)

/-- The image without its last row. -/
theorem rows_init {α : Type} (x : S32x32x128.Idx → α) (h : Fin 31) (w : Fin 32) (c : Fin 128) :
    extractStridedSlice S31x32x128 ![0, 0, 0] x slices_S32x32x128_o0_0_0_S31x32x128 (ix3 h w c)
      = x (ix3 (⟨h.val, by have := h.isLt; omega⟩ : Fin 32) w c) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm)

/-- The image without its first row. -/
theorem rows_tail {α : Type} (x : S32x32x128.Idx → α) (h : Fin 31) (w : Fin 32) (c : Fin 128) :
    extractStridedSlice S31x32x128 ![1, 0, 0] x slices_S32x32x128_o1_0_0_S31x32x128 (ix3 h w c)
      = x (ix3 (⟨h.val + 1, by have := h.isLt; omega⟩ : Fin 32) w c) :=
  extractStridedSlice_apply _ _ _ _ _ (fun ax => by
    match ax with
    | ⟨0, _⟩ => exact Nat.add_comm _ _
    | ⟨1, _⟩ => exact (Nat.zero_add _).symm
    | ⟨2, _⟩ => exact (Nat.zero_add _).symm)

/-- One column `z` put before 31 columns `y`: column 0 reads `z`, column `w > 0` reads `y` at `w - 1`. -/
theorem col_before {α : Type} (z : S32x1x128.Idx → α) (y : S32x31x128.Idx → α) (h w : Fin 32) (c : Fin 128) :
    concatenate S32x32x128 1 [⟨S32x1x128, z⟩, ⟨S32x31x128, y⟩] concatenates_S32x1x128_S32x31x128_S32x32x128_d1 (ix3 h w c)
      = if hw : 0 < w.val then y (ix3 h (⟨w.val - 1, by have := w.isLt; omega⟩ : Fin 31) c) else z (ix3 h (0 : Fin 1) c) := by
  have hw' := w.isLt
  split
  · next hw =>
    exact concatenate_apply_piece 1 _ _ (ix3 h w c) 1 (by simp) S32x31x128 y rfl rfl 1 rfl _
      (fun b hb => by
        match b with
        | ⟨0, _⟩ => rfl
        | ⟨1, _⟩ => exact absurd rfl hb
        | ⟨2, _⟩ => rfl)
      (by show 1 + (w.val - 1) = w.val; omega)
  · next hw =>
    exact concatenate_apply_piece 1 _ _ (ix3 h w c) 0 (by simp) S32x1x128 z rfl rfl 0 rfl _
      (fun b hb => by
        match b with
        | ⟨0, _⟩ => rfl
        | ⟨1, _⟩ => exact absurd rfl hb
        | ⟨2, _⟩ => rfl)
      (by show 0 + 0 = w.val; omega)

/-- One column `z` put after 31 columns `y`: column `w < 31` reads `y` at `w`, column 31 reads `z`. -/
theorem col_after {α : Type} (y : S32x31x128.Idx → α) (z : S32x1x128.Idx → α) (h w : Fin 32) (c : Fin 128) :
    concatenate S32x32x128 1 [⟨S32x31x128, y⟩, ⟨S32x1x128, z⟩] concatenates_S32x31x128_S32x1x128_S32x32x128_d1 (ix3 h w c)
      = if hw : w.val + 1 < 32 then y (ix3 h (⟨w.val, by omega⟩ : Fin 31) c) else z (ix3 h (0 : Fin 1) c) := by
  have hw' := w.isLt
  split
  · next hw =>
    exact concatenate_apply_piece 1 _ _ (ix3 h w c) 0 (by simp) S32x31x128 y rfl rfl 0 rfl _
      (fun b hb => by
        match b with
        | ⟨0, _⟩ => rfl
        | ⟨1, _⟩ => exact absurd rfl hb
        | ⟨2, _⟩ => rfl)
      (by show 0 + w.val = w.val; omega)
  · next hw =>
    exact concatenate_apply_piece 1 _ _ (ix3 h w c) 1 (by simp) S32x1x128 z rfl rfl 31 rfl _
      (fun b hb => by
        match b with
        | ⟨0, _⟩ => rfl
        | ⟨1, _⟩ => exact absurd rfl hb
        | ⟨2, _⟩ => rfl)
      (by show 31 + 0 = w.val; omega)

/-- One row `z` put above 31 rows `y`: row 0 reads `z`, row `h > 0` reads `y` at `h - 1`. -/
theorem row_before {α : Type} (z : S1x32x128.Idx → α) (y : S31x32x128.Idx → α) (h w : Fin 32) (c : Fin 128) :
    concatenate S32x32x128 0 [⟨S1x32x128, z⟩, ⟨S31x32x128, y⟩] concatenates_S1x32x128_S31x32x128_S32x32x128_d0 (ix3 h w c)
      = if hh : 0 < h.val then y (ix3 (⟨h.val - 1, by have := h.isLt; omega⟩ : Fin 31) w c) else z (ix3 (0 : Fin 1) w c) := by
  have hh' := h.isLt
  split
  · next hh =>
    exact concatenate_apply_piece 0 _ _ (ix3 h w c) 1 (by simp) S31x32x128 y rfl rfl 1 rfl _
      (fun b hb => by
        match b with
        | ⟨0, _⟩ => exact absurd rfl hb
        | ⟨1, _⟩ => rfl
        | ⟨2, _⟩ => rfl)
      (by show 1 + (h.val - 1) = h.val; omega)
  · next hh =>
    exact concatenate_apply_piece 0 _ _ (ix3 h w c) 0 (by simp) S1x32x128 z rfl rfl 0 rfl _
      (fun b hb => by
        match b with
        | ⟨0, _⟩ => exact absurd rfl hb
        | ⟨1, _⟩ => rfl
        | ⟨2, _⟩ => rfl)
      (by show 0 + 0 = h.val; omega)

/-- One row `z` put below 31 rows `y`: row `h < 31` reads `y` at `h`, row 31 reads `z`. -/
theorem row_after {α : Type} (y : S31x32x128.Idx → α) (z : S1x32x128.Idx → α) (h w : Fin 32) (c : Fin 128) :
    concatenate S32x32x128 0 [⟨S31x32x128, y⟩, ⟨S1x32x128, z⟩] concatenates_S31x32x128_S1x32x128_S32x32x128_d0 (ix3 h w c)
      = if hh : h.val + 1 < 32 then y (ix3 (⟨h.val, by omega⟩ : Fin 31) w c) else z (ix3 (0 : Fin 1) w c) := by
  have hh' := h.isLt
  split
  · next hh =>
    exact concatenate_apply_piece 0 _ _ (ix3 h w c) 0 (by simp) S31x32x128 y rfl rfl 0 rfl _
      (fun b hb => by
        match b with
        | ⟨0, _⟩ => exact absurd rfl hb
        | ⟨1, _⟩ => rfl
        | ⟨2, _⟩ => rfl)
      (by show 0 + h.val = h.val; omega)
  · next hh =>
    exact concatenate_apply_piece 0 _ _ (ix3 h w c) 1 (by simp) S1x32x128 z rfl rfl 31 rfl _
      (fun b hb => by
        match b with
        | ⟨0, _⟩ => exact absurd rfl hb
        | ⟨1, _⟩ => rfl
        | ⟨2, _⟩ => rfl)
      (by show 31 + 0 = h.val; omega)

/-- Three images laid side by side along the channels: positions 0–127, 128–255 and 256–383. -/
theorem chan3 {α : Type} (a b d : S32x32x128.Idx → α) (h w : Fin 32) (k : Fin 384) :
    concatenate S32x32x384 2 [⟨S32x32x128, a⟩, ⟨S32x32x128, b⟩, ⟨S32x32x128, d⟩]
        concatenates_S32x32x128_S32x32x128_S32x32x128_S32x32x384_d2 (ix3 h w k)
      = if hk0 : k.val < 128 then a (ix3 h w (⟨k.val, hk0⟩ : Fin 128))
        else if hk1 : k.val < 256 then b (ix3 h w (⟨k.val - 128, by omega⟩ : Fin 128))
        else d (ix3 h w (⟨k.val - 256, by have := k.isLt; omega⟩ : Fin 128)) := by
  have hk' := k.isLt
  split
  · next hk0 =>
    exact concatenate_apply_piece 2 _ _ (ix3 h w k) 0 (by simp) S32x32x128 a rfl rfl 0 rfl _
      (fun b hb => by
        match b with
        | ⟨0, _⟩ => rfl
        | ⟨1, _⟩ => rfl
        | ⟨2, _⟩ => exact absurd rfl hb)
      (by show 0 + k.val = k.val; omega)
  · next hk0 =>
    split
    · next hk1 =>
      exact concatenate_apply_piece 2 _ _ (ix3 h w k) 1 (by simp) S32x32x128 b rfl rfl 128 rfl _
        (fun b hb => by
          match b with
          | ⟨0, _⟩ => rfl
          | ⟨1, _⟩ => rfl
          | ⟨2, _⟩ => exact absurd rfl hb)
        (by show 128 + (k.val - 128) = k.val; omega)
    · next hk1 =>
      exact concatenate_apply_piece 2 _ _ (ix3 h w k) 2 (by simp) S32x32x128 d rfl rfl 256 rfl _
        (fun b hb => by
          match b with
          | ⟨0, _⟩ => rfl
          | ⟨1, _⟩ => rfl
          | ⟨2, _⟩ => exact absurd rfl hb)
        (by show 256 + (k.val - 256) = k.val; omega)

end L4

open L4

/-! ## The 1x1 stage plus the upsampled level above -/

/-- The level-4 sum at pixel `(h, w)` and channel `co`: the 1x1 convolution of the pixel's 512 input channels (the
    contraction, then the bias) plus the level above at `(h / 2, w / 2)`. -/
theorem p4_apply (v12 : FVec Ideal S16x16x128 .bf16) (v46 : Vec Ideal S1x32x32x512 .f32) (v50 : Vec Ideal S512x128 .bf16)
    (v53 : Vec Ideal S1x128 .f32) (h w : Fin 32) (co : Fin 128) :
    k0_pay8 (F := Ideal) v12 v46 v50 v53 (ix3 h w co)
      = Cert.Spec.pw (fun k : Fin 512 => v46 (ix4 0 h w k)) (fun k c' => v50 (ix2 k c')) (fun c' => v53 (ix2 0 c')) co
        + Cert.Spec.up2 (H := 16) (W := 16) (by norm_num) (by norm_num) (fun a b c' => v12 (ix3 a b c')) h w co := by
  unfold k0_pay8 Cert.Spec.pw Cert.Spec.up2
  dsimp only
  refine (addf_apply _ _ _).trans (congrArg₂ (· + ·) ?_ ?_)
  · refine (image_of_rows _ _ h w co).trans ?_
    refine (addf_apply _ _ _).trans (congrArg₂ (· + ·) ?_ ?_)
    · refine (mm512_apply _ _ (row h w) co).trans ?_
      refine Finset.sum_congr rfl fun k _ => ?_
      refine congrArg₂ (· * ·) ?_ ?_
      · refine (truncf_apply (φ := .f32) (ψ := .bf16) _ bitsLt_bf16_f32 _).trans ?_
        refine (rows_of_image _ _ h w k).trans ?_
        exact shapeCast_1abc_abc_apply v46 _ h w k
      · exact congrFun (shapeCast_self v50 _) _
    · exact bias_rows v53 (row h w) co
  · exact (up_apply _ h w co).trans (extf_apply _ _ _)

namespace L4

/-! ## The column patch -/

/-- The patch row of pixel `(h, w)`: the channels of the left neighbour, of the pixel and of the right neighbour of the
    level-4 sum side by side, zero where the neighbour is outside the image. -/
theorem patch_apply (v12 : FVec Ideal S16x16x128 .bf16) (v46 : Vec Ideal S1x32x32x512 .f32) (v50 : Vec Ideal S512x128 .bf16)
    (v53 : Vec Ideal S1x128 .f32) (h w : Fin 32) (k : Fin 384) :
    k0_pay9 (F := Ideal) v12 v46 v50 v53 (ix2 (row h w) k)
      = Cert.Spec.patch (fun h' w' c' => k0_pay8 (F := Ideal) v12 v46 v50 v53 (ix3 h' w' c')) h w k := by
  unfold k0_pay9 Cert.Spec.patch
  dsimp only
  generalize k0_pay8 (F := Ideal) v12 v46 v50 v53 = y
  refine (rows_of_image _ _ h w k).trans ?_
  refine (chan3 _ _ _ h w k).trans ?_
  split
  · next hk0 =>
    refine (col_before _ _ h w _).trans ?_
    split
    · next hw => exact cols_init _ h _ _
    · next hw => exact Ideal.ofBits_zero_bf16
  · next hk0 =>
    split
    · next hk1 => rfl
    · next hk1 =>
      refine (col_after _ _ h w _).trans ?_
      split
      · next hw => exact cols_tail _ h _ _
      · next hw => exact Ideal.ofBits_zero_bf16

/-! ## The three vertical taps and the stored value -/

/-- One vertical tap, as the program computes it: the patch rows times that tap's 384x128 weights, viewed as an image,
    read at a pixel and a channel: the sum over the 384 patch positions. -/
theorem tap_rows_apply (P : FVec Ideal S1024x384 .bf16) (wv : Vec Ideal S1x384x128 .bf16) (h w : Fin 32) (co : Fin 128) :
    shapeCast S32x32x128
        (matmul (F := Ideal) dot_S1024x384_S384x128_S1024x128_1_0_0_1_n_n none P
          (shapeCast S384x128 wv shapeCasts_S1x384x128_S384x128 : FVec Ideal S384x128 .bf16) (constant S1024x128 .f32 0x00000000#32))
        shapeCasts_S1024x128_S32x32x128 (ix3 h w co)
      = ∑ k : Fin 384, P (ix2 (row h w) k) * wv (ix3 0 k co) := by
  refine (image_of_rows _ _ h w co).trans ?_
  refine (mm384_apply _ _ (row h w) co).trans ?_
  refine Finset.sum_congr rfl fun k _ => congrArg (P (ix2 (row h w) k) * ·) ?_
  exact shapeCast_1ab_ab_apply wv _ k co

/-- The stored level-4 value over any patch rows `P`: the middle tap, plus the first tap of the row above (zero at the
    first row), plus the last tap of the row below (zero at the last row), plus the bias — in the program's grouping. -/
theorem stored_apply (P : FVec Ideal S1024x384 .bf16) (v76 v79 v82 : Vec Ideal S1x384x128 .bf16) (v95 : Vec Ideal S1x128 .f32)
    (h w : Fin 32) (co : Fin 128) :
    k0_pay10 (F := Ideal) P v76 v79 v82 v95 (ix4 0 h w co)
      = (((∑ k : Fin 384, P (ix2 (row h w) k) * v79 (ix3 0 k co))
          + (if hh : 0 < h.val then
              ∑ k : Fin 384, P (ix2 (row (⟨h.val - 1, by have := h.isLt; omega⟩ : Fin 32) w) k) * v76 (ix3 0 k co) else 0))
          + (if hh : h.val + 1 < 32 then
              ∑ k : Fin 384, P (ix2 (row (⟨h.val + 1, hh⟩ : Fin 32) w) k) * v82 (ix3 0 k co) else 0))
        + v95 (ix2 0 co) := by
  unfold k0_pay10
  refine (shapeCast_abc_1abc_apply _ _ 0 h w co).trans ?_
  refine (addf_apply _ _ _).trans (congrArg₂ (· + ·) ?_ (bias_image v95 h w co))
  refine (addf_apply _ _ _).trans (congrArg₂ (· + ·) ?_ ?_)
  · refine (addf_apply _ _ _).trans (congrArg₂ (· + ·) (tap_rows_apply P v79 h w co) ?_)
    refine (row_before _ _ h w co).trans ?_
    split
    · next hh => exact (rows_init _ _ w co).trans (tap_rows_apply P v76 _ w co)
    · next hh => exact Ideal.ofBits_zero_f32
  · refine (row_after _ _ h w co).trans ?_
    split
    · next hh => exact (rows_tail _ _ w co).trans (tap_rows_apply P v82 _ w co)
    · next hh => exact Ideal.ofBits_zero_f32

end L4

open L4

/-- The stored level-4 value at pixel `(h, w)` and channel `co` is the 3x3 convolution of the level-4 sum there: the
    program adds the middle tap first, the specification the tap above; addition of extended reals is commutative. -/
theorem o4_apply (v12 : FVec Ideal S16x16x128 .bf16) (v46 : Vec Ideal S1x32x32x512 .f32) (v50 : Vec Ideal S512x128 .bf16)
    (v53 : Vec Ideal S1x128 .f32) (v76 v79 v82 : Vec Ideal S1x384x128 .bf16) (v95 : Vec Ideal S1x128 .f32)
    (h w : Fin 32) (co : Fin 128) :
    k0_pay10 (F := Ideal) (k0_pay9 v12 v46 v50 v53) v76 v79 v82 v95 (ix4 0 h w co)
      = Cert.Spec.conv (fun h' w' c' => k0_pay8 (F := Ideal) v12 v46 v50 v53 (ix3 h' w' c'))
          (fun dy k c' => (match dy with | ⟨0, _⟩ => v76 | ⟨1, _⟩ => v79 | ⟨2, _⟩ => v82) (ix3 0 k c'))
          (fun c' => v95 (ix2 0 c')) h w co := by
  have ht : ∀ (wv : Vec Ideal S1x384x128 .bf16) (h' : Fin 32),
      (∑ k : Fin 384, k0_pay9 (F := Ideal) v12 v46 v50 v53 (ix2 (row h' w) k) * wv (ix3 0 k co))
        = Cert.Spec.tap (fun h' w' c' => k0_pay8 (F := Ideal) v12 v46 v50 v53 (ix3 h' w' c'))
            (fun k c' => wv (ix3 0 k c')) h' w co :=
    fun wv h' => Finset.sum_congr rfl fun k _ => congrArg (· * wv (ix3 0 k co)) (patch_apply v12 v46 v50 v53 h' w k)
  refine (stored_apply _ v76 v79 v82 v95 h w co).trans ?_
  unfold Cert.Spec.conv
  refine congrArg (· + v95 (ix2 0 co)) ?_
  refine congrArg₂ (· + ·) ?_ ?_
  · refine (add_comm _ _).trans (congrArg₂ (· + ·) ?_ (ht v79 h))
    split
    · next hh => exact ht v76 _
    · next hh => rfl
  · split
    · next hh => exact ht v82 _
    · next hh => rfl

end Cert.KernelIdeal.Hand

end
-- ==== Proof.KernL3.lean ====
/-
  Level 3 of the pyramid (64 x 64 pixels) as the fused kernel computes it, read element by element at the ideal values.

  The 1x1 stage: the image's 4096 pixels as rows, each row's 256 channels contracted with the 256 x 128 weights; row
  `64 h + w` is pixel `(h, w)`. The level's image adds the bias row and the coarser level doubled in both directions
  (a unit axis added, broadcast to two and folded into its neighbour, first for the rows, then for the columns), so a
  pixel of it is `Cert.Spec.pw` of the pixel's channels plus `Cert.Spec.up2` of the coarser level.

  The 3x3 stage, over an arbitrary image: the column patch is laid out by concatenation (a zero column in front of the
  image moved right, the image, the image moved left with a zero column behind; the three side by side along the
  channels), which is `Cert.Spec.patch` element by element; as rows it is contracted with each vertical tap's 384 x 128
  weights, which is `Cert.Spec.tap`; the three products are added with tap 0 moved down one row under a zero row and
  tap 2 moved up one row over a zero row, then the bias: `Cert.Spec.conv` up to the order of the first two summands.

  The layout lemmas are stated over arbitrary extents and arbitrary pieces, with every index written by coordinates.
-/
import proofs.«126699_g2000605867469428_pallasbulk_857_3_alg».proof.Proof.Gen.KernelIdeal.Skeleton
import proofs.«126699_g2000605867469428_pallasbulk_857_3_alg».proof.Proof.Spec
import Idealize.ShloMosaic.Lib.ValueLayout
import Idealize.ShloMosaic.Lib.IdealHost

noncomputable section

namespace Cert.KernelIdeal.Hand

open Cert.KernelIdeal Cert.KernelIdeal.Gen Idealize.ShloMosaic Idealize.ShloMosaic.ValueIdx
open scoped BigOperators

namespace L3

/-! ## Layout operations read at an index written by coordinates -/

section Layout
variable {α : Type}

/-- An image `[H, W, C]` laid out as rows `[R, C]` reads, at row `r = h * W + w`, the pixel `(h, w)`. -/
theorem shapeCast_hwc_rc_apply {H W C R : ℕ} (x : (⟨3, ![H, W, C]⟩ : Shape).Idx → α)
    (hc : (⟨3, ![H, W, C]⟩ : Shape).ShapeCasts ⟨2, ![R, C]⟩) (h : Fin H) (w : Fin W) (c : Fin C) (r : Fin R)
    (hr : r.val = h.val * W + w.val) : shapeCast ⟨2, ![R, C]⟩ x hc (ix2 r c) = x (ix3 h w c) :=
  shapeCast_apply x hc _ _ (by
    rw [Shape.rowMajor_val_three, Shape.rowMajor_val_two]
    show (h.val * W + w.val) * C + c.val = r.val * C + c.val
    rw [hr])

/-- Rows `[R, C]` laid back as an image `[H, W, C]` read, at pixel `(h, w)`, the row `r = h * W + w`. -/
theorem shapeCast_rc_hwc_apply {H W C R : ℕ} (x : (⟨2, ![R, C]⟩ : Shape).Idx → α)
    (hc : (⟨2, ![R, C]⟩ : Shape).ShapeCasts ⟨3, ![H, W, C]⟩) (h : Fin H) (w : Fin W) (c : Fin C) (r : Fin R)
    (hr : r.val = h.val * W + w.val) : shapeCast ⟨3, ![H, W, C]⟩ x hc (ix3 h w c) = x (ix2 r c) :=
  shapeCast_apply x hc _ _ (by
    rw [Shape.rowMajor_val_three, Shape.rowMajor_val_two]
    show r.val * C + c.val = (h.val * W + w.val) * C + c.val
    rw [hr])

/-- A `[1, 1, C]` row broadcast over an image `[H, W, C]` reads, at `(h, w, c)`, the row at `c`. -/
theorem broadcastTo_11c_hwc_apply {H W C : ℕ} (v : (⟨3, ![1, 1, C]⟩ : Shape).Idx → α)
    (hb : (⟨3, ![1, 1, C]⟩ : Shape).Broadcasts ⟨3, ![H, W, C]⟩) (h : Fin H) (w : Fin W) (c : Fin C) :
    broadcastTo ⟨3, ![H, W, C]⟩ v hb (ix3 h w c) = v (ix3 (0 : Fin 1) (0 : Fin 1) c) := by
  refine broadcastTo_apply v hb (ix3 h w c) (ix3 (0 : Fin 1) (0 : Fin 1) c) fun ax => ?_
  match ax with
  | ⟨0, _⟩ => rfl
  | ⟨1, _⟩ => rfl
  | ⟨2, _⟩ =>
    show c.val = if C = 1 then 0 else c.val
    split
    · have := c.isLt; omega
    · rfl

/-- A `[1, C]` row cast to `[1, 1, C]` reads, at `(u, u', c)`, the row at `c`. -/
theorem shapeCast_1c_11c_apply {C : ℕ} (v : (⟨2, ![1, C]⟩ : Shape).Idx → α)
    (hc : (⟨2, ![1, C]⟩ : Shape).ShapeCasts ⟨3, ![1, 1, C]⟩) (u u' : Fin 1) (c : Fin C) :
    shapeCast ⟨3, ![1, 1, C]⟩ v hc (ix3 u u' c) = v (ix2 (0 : Fin 1) c) :=
  shapeCast_apply v hc _ _ (by
    have hu : u.val = 0 := by omega
    have hu' : u'.val = 0 := by omega
    rw [Shape.rowMajor_val_three, Shape.rowMajor_val_two]
    show 0 * C + c.val = (u.val * 1 + u'.val) * C + c.val
    rw [hu, hu'])

end Layout

/-! ## The level's 1x1 stage: a contraction of the pixel's 256 channels -/

/-- The 4096 x 256 by 256 x 128 product into a zero accumulator, at row `r` and column `co`. -/
theorem mm256_apply (lhs : FVec Ideal S4096x256 .bf16) (rhs : FVec Ideal S256x128 .bf16) (r : Fin 4096) (co : Fin 128) :
    matmul (F := Ideal) dot_S4096x256_S256x128_S4096x128_1_0_0_1_n_n none lhs rhs (constant S4096x128 .f32 0x00000000#32) (ix2 r co)
      = ∑ k : Fin 256, lhs (ix2 r k) * rhs (ix2 k co) := by
  refine (Ideal.matmul_constant_zero_apply _ none lhs rhs (ix2 r co)).trans ?_
  refine (Equiv.sum_comp (contrEquiv1 dot_S4096x256_S256x128_S4096x128_1_0_0_1_n_n 256 rfl rfl).symm _).symm.trans ?_
  refine Finset.sum_congr rfl fun k _ => ?_
  have hl : dot_S4096x256_S256x128_S4096x128_1_0_0_1_n_n.lhsIdx (ix2 r co)
      ((contrEquiv1 dot_S4096x256_S256x128_S4096x128_1_0_0_1_n_n 256 rfl rfl).symm k) = ix2 r k := by
    funext a; refine Fin.ext ?_
    match a with
    | ⟨0, _⟩ => rfl
    | ⟨1, _⟩ => exact (DotDims.lhsIdx_val_of_single _ rfl _ _).trans (contrEquiv1_symm_val _ 256 rfl rfl k)
  have hr : dot_S4096x256_S256x128_S4096x128_1_0_0_1_n_n.rhsIdx (ix2 r co)
      ((contrEquiv1 dot_S4096x256_S256x128_S4096x128_1_0_0_1_n_n 256 rfl rfl).symm k) = ix2 k co := by
    funext a; refine Fin.ext ?_
    match a with
    | ⟨0, _⟩ => exact (DotDims.rhsIdx_val_of_single _ rfl _ _).trans (contrEquiv1_symm_val _ 256 rfl rfl k)
    | ⟨1, _⟩ => rfl
  rw [hl, hr]

/-- The 1x1 stage at row `r = h * 64 + w`: the pixel's 256 input channels contracted with the weights. -/
theorem pay11_apply (v102 : Vec Ideal S1x64x64x256 .f32) (v106 : Vec Ideal S256x128 .bf16) (h w : Fin 64) (co : Fin 128)
    (r : Fin 4096) (hr : r.val = h.val * 64 + w.val) :
    k0_pay11 (F := Ideal) v102 v106 (ix2 r co) = ∑ k : Fin 256, v102 (ix4 (0 : Fin 1) h w k) * v106 (ix2 k co) := by
  unfold k0_pay11
  refine (mm256_apply _ _ r co).trans ?_
  refine Finset.sum_congr rfl fun k _ => ?_
  refine congrArg₂ (· * ·) ?_ ?_
  · refine (truncf_apply (ψ := .bf16) _ bitsLt_bf16_f32 _).trans ?_
    refine (shapeCast_hwc_rc_apply _ _ h w k r hr).trans ?_
    exact shapeCast_1abc_abc_apply _ _ h w k
  · exact congrFun (shapeCast_self _ _) _

/-! ## Nearest-neighbour doubling, as the body writes it: a unit axis added, broadcast to two, and folded into its neighbour -/

section Doubling
variable {α : Type}

/-- Rows doubled: `[A, B, C]` cast to `[A, 1, B, C]`, broadcast to `[A, 2, B, C]`, cast to `[A2, B, C]`: row `p` reads row `p / 2`. -/
theorem dupRows_apply {A B C A2 : ℕ} (v : (⟨3, ![A, B, C]⟩ : Shape).Idx → α)
    (h1 : (⟨3, ![A, B, C]⟩ : Shape).ShapeCasts ⟨4, ![A, 1, B, C]⟩)
    (h2 : (⟨4, ![A, 1, B, C]⟩ : Shape).ShapeCasts ⟨4, ![A, 1, B, C]⟩)
    (h3 : (⟨4, ![A, 1, B, C]⟩ : Shape).Broadcasts ⟨4, ![A, 2, B, C]⟩)
    (h4 : (⟨4, ![A, 2, B, C]⟩ : Shape).ShapeCasts ⟨3, ![A2, B, C]⟩)
    (p : Fin A2) (b : Fin B) (c : Fin C) (a : Fin A) (ha : a.val = p.val / 2) :
    shapeCast ⟨3, ![A2, B, C]⟩ (broadcastTo ⟨4, ![A, 2, B, C]⟩
      (shapeCast ⟨4, ![A, 1, B, C]⟩ (shapeCast ⟨4, ![A, 1, B, C]⟩ v h1) h2) h3) h4 (ix3 p b c) = v (ix3 a b c) := by
  refine (shapeCast_apply _ h4 _ (ix4 a (⟨p.val % 2, Nat.mod_lt _ (by decide)⟩ : Fin 2) b c) (by
    rw [Shape.rowMajor_val_four, Shape.rowMajor_val_three]
    show ((a.val * 2 + p.val % 2) * B + b.val) * C + c.val = (p.val * B + b.val) * C + c.val
    rw [ha, Nat.div_add_mod'])).trans ?_
  refine (broadcastTo_apply _ h3 _ (ix4 a (0 : Fin 1) b c) (fun ax => ?_)).trans ?_
  · match ax with
    | ⟨0, _⟩ =>
      show a.val = if A = 1 then 0 else a.val
      split
      · have := a.isLt; omega
      · rfl
    | ⟨1, _⟩ => rfl
    | ⟨2, _⟩ =>
      show b.val = if B = 1 then 0 else b.val
      split
      · have := b.isLt; omega
      · rfl
    | ⟨3, _⟩ =>
      show c.val = if C = 1 then 0 else c.val
      split
      · have := c.isLt; omega
      · rfl
  rw [shapeCast_self]
  exact shapeCast_apply _ h1 _ _ (by
    rw [Shape.rowMajor_val_three, Shape.rowMajor_val_four]
    show (a.val * B + b.val) * C + c.val = ((a.val * 1 + 0) * B + b.val) * C + c.val
    rw [Nat.mul_one, Nat.add_zero])

/-- Columns doubled: `[A, B, C]` cast to `[A, B, 1, C]`, broadcast to `[A, B, 2, C]`, cast to `[A, B2, C]` with `B2 = 2 * B`: column
    `q` reads column `q / 2`. -/
theorem dupCols_apply {A B C B2 : ℕ} (hB2 : B2 = 2 * B) (v : (⟨3, ![A, B, C]⟩ : Shape).Idx → α)
    (h1 : (⟨3, ![A, B, C]⟩ : Shape).ShapeCasts ⟨4, ![A, B, 1, C]⟩)
    (h2 : (⟨4, ![A, B, 1, C]⟩ : Shape).ShapeCasts ⟨4, ![A, B, 1, C]⟩)
    (h3 : (⟨4, ![A, B, 1, C]⟩ : Shape).Broadcasts ⟨4, ![A, B, 2, C]⟩)
    (h4 : (⟨4, ![A, B, 2, C]⟩ : Shape).ShapeCasts ⟨3, ![A, B2, C]⟩)
    (a : Fin A) (q : Fin B2) (c : Fin C) (b : Fin B) (hb : b.val = q.val / 2) :
    shapeCast ⟨3, ![A, B2, C]⟩ (broadcastTo ⟨4, ![A, B, 2, C]⟩
      (shapeCast ⟨4, ![A, B, 1, C]⟩ (shapeCast ⟨4, ![A, B, 1, C]⟩ v h1) h2) h3) h4 (ix3 a q c) = v (ix3 a b c) := by
  subst hB2
  refine (shapeCast_apply _ h4 _ (ix4 a b (⟨q.val % 2, Nat.mod_lt _ (by decide)⟩ : Fin 2) c) (by
    rw [Shape.rowMajor_val_four, Shape.rowMajor_val_three]
    show ((a.val * B + b.val) * 2 + q.val % 2) * C + c.val = (a.val * (2 * B) + q.val) * C + c.val
    rw [hb, Nat.add_mul (a.val * B) (q.val / 2) 2, Nat.add_assoc (a.val * B * 2) (q.val / 2 * 2) (q.val % 2),
      Nat.div_add_mod' q.val 2, Nat.mul_assoc a.val B 2, Nat.mul_comm B 2])).trans ?_
  refine (broadcastTo_apply _ h3 _ (ix4 a b (0 : Fin 1) c) (fun ax => ?_)).trans ?_
  · match ax with
    | ⟨0, _⟩ =>
      show a.val = if A = 1 then 0 else a.val
      split
      · have := a.isLt; omega
      · rfl
    | ⟨1, _⟩ =>
      show b.val = if B = 1 then 0 else b.val
      split
      · have := b.isLt; omega
      · rfl
    | ⟨2, _⟩ => rfl
    | ⟨3, _⟩ =>
      show c.val = if C = 1 then 0 else c.val
      split
      · have := c.isLt; omega
      · rfl
  rw [shapeCast_self]
  exact shapeCast_apply _ h1 _ _ (by
    rw [Shape.rowMajor_val_three, Shape.rowMajor_val_four]
    show (a.val * B + b.val) * C + c.val = ((a.val * B + b.val) * 1 + 0) * C + c.val
    rw [Nat.mul_one, Nat.add_zero])

end Doubling

/-! ## The level's image: the 1x1 stage plus its bias plus the coarser level doubled -/

/-- The image the 3x3 stage reads, as the body builds it from the coarser level `v67`, the 1x1 product `v108` and the bias `v109`. -/
def img3 (v67 : FVec Ideal S32x32x128 .f32) (v108 : FVec Ideal S4096x128 .f32) (v109 : Vec Ideal S1x128 .f32) :
    FVec Ideal S64x64x128 .bf16 :=
  have v110 : FVec Ideal S1x128 .f32 := shapeCast S1x128 v109 shapeCasts_S1x128_S1x128
  have v111 : FVec Ideal S4096x128 .f32 := broadcastTo S4096x128 v110 broadcasts_S1x128_S4096x128
  have v112 : FVec Ideal S4096x128 .f32 := addf v108 v111
  have v113 : FVec Ideal S64x64x128 .f32 := shapeCast S64x64x128 v112 shapeCasts_S4096x128_S64x64x128
  have v114 : FVec Ideal S32x32x128 .f32 := v67
  have v115 : FVec Ideal S32x1x32x128 .f32 := shapeCast S32x1x32x128 v114 shapeCasts_S32x32x128_S32x1x32x128
  have v116 : FVec Ideal S32x1x32x128 .f32 := shapeCast S32x1x32x128 v115 shapeCasts_S32x1x32x128_S32x1x32x128
  have v117 : FVec Ideal S32x2x32x128 .f32 := broadcastTo S32x2x32x128 v116 broadcasts_S32x1x32x128_S32x2x32x128
  have v118 : FVec Ideal S64x32x128 .f32 := shapeCast S64x32x128 v117 shapeCasts_S32x2x32x128_S64x32x128
  have v119 : FVec Ideal S64x32x1x128 .f32 := shapeCast S64x32x1x128 v118 shapeCasts_S64x32x128_S64x32x1x128
  have v120 : FVec Ideal S64x32x1x128 .f32 := shapeCast S64x32x1x128 v119 shapeCasts_S64x32x1x128_S64x32x1x128
  have v121 : FVec Ideal S64x32x2x128 .f32 := broadcastTo S64x32x2x128 v120 broadcasts_S64x32x1x128_S64x32x2x128
  have v122 : FVec Ideal S64x64x128 .f32 := shapeCast S64x64x128 v121 shapeCasts_S64x32x2x128_S64x64x128
  have v123 : FVec Ideal S64x64x128 .f32 := addf v113 v122
  have v124 : FVec Ideal S64x64x128 .bf16 := truncf .bf16 v123 bitsLt_bf16_f32
  v124

/-- The image at a pixel: the 1x1 product at the pixel's row, plus the bias, plus the coarser level at half the coordinates. -/
theorem img3_apply (v67 : FVec Ideal S32x32x128 .f32) (v108 : FVec Ideal S4096x128 .f32) (v109 : Vec Ideal S1x128 .f32)
    (h w : Fin 64) (c : Fin 128) (r : Fin 4096) (hr : r.val = h.val * 64 + w.val) :
    img3 v67 v108 v109 (ix3 h w c)
      = (v108 (ix2 r c) + v109 (ix2 (0 : Fin 1) c))
        + Cert.Spec.up2 (H := 32) (W := 32) (H2 := 64) (W2 := 64) (by norm_num) (by norm_num) (fun a b c' => v67 (ix3 a b c')) h w c := by
  unfold img3
  refine (truncf_apply (ψ := .bf16) _ bitsLt_bf16_f32 _).trans ?_
  refine congrArg₂ (· + ·) ?_ ?_
  · refine (shapeCast_rc_hwc_apply _ _ h w c r hr).trans ?_
    refine congrArg₂ (· + ·) rfl ?_
    refine (broadcastTo_1b_ab_apply _ _ r c).trans ?_
    exact congrFun (shapeCast_self _ _) _
  · have hh := h.isLt
    have hw := w.isLt
    refine (dupCols_apply (by norm_num) _ _ _ _ _ h w c (⟨w.val / 2, by omega⟩ : Fin 32) rfl).trans ?_
    exact dupRows_apply _ _ _ _ _ h (⟨w.val / 2, by omega⟩ : Fin 32) c (⟨h.val / 2, by omega⟩ : Fin 32) rfl

/-! ## Zero padding by concatenation, and the three shifted copies laid along the channels -/

section Pads
variable {α : Type}

/-- A column of `z` in front of the first `W1` columns: column `w` reads column `w - 1`, and `z` at the first. -/
theorem padLeft_apply {H W C W1 : ℕ} (hW : 1 + W1 = W) (z : α) (X : (⟨3, ![H, W, C]⟩ : Shape).Idx → α)
    (hs : (⟨3, ![H, W, C]⟩ : Shape).Slices ![0, 0, 0] ⟨3, ![H, W1, C]⟩)
    (hc : Shape.Concatenates [⟨3, ![H, 1, C]⟩, ⟨3, ![H, W1, C]⟩] ⟨3, ![H, W, C]⟩ 1)
    (h : Fin H) (w : Fin W) (c : Fin C) :
    concatenate ⟨3, ![H, W, C]⟩ 1 [⟨⟨3, ![H, 1, C]⟩, broadcast ⟨3, ![H, 1, C]⟩ z⟩,
        ⟨⟨3, ![H, W1, C]⟩, extractStridedSlice ⟨3, ![H, W1, C]⟩ ![0, 0, 0] X hs⟩] hc (ix3 h w c)
      = if hw : 0 < w.val then X (ix3 h ⟨w.val - 1, by have := w.isLt; omega⟩ c) else z := by
  have hwlt := w.isLt
  split
  · next hw =>
    refine (concatenate_pair_apply_right _ _ _ hc (ix3 h w c) rfl rfl (ix3 h (⟨w.val - 1, by omega⟩ : Fin W1) c)
      (fun b hb => ?_) ?_).trans ?_
    · match b with
      | ⟨0, _⟩ => rfl
      | ⟨1, _⟩ => exact absurd (Fin.ext rfl) hb
      | ⟨2, _⟩ => rfl
    · show (w.val - 1) + 1 = w.val
      omega
    · exact slice3_axis1_apply 0 X hs h _ c _ (by show w.val - 1 = 0 + (w.val - 1); omega)
  · next hw =>
    refine (concatenate_pair_apply_left _ _ _ hc (ix3 h w c) rfl (ix3 h (0 : Fin 1) c) (fun b => ?_)).trans rfl
    match b with
    | ⟨0, _⟩ => rfl
    | ⟨1, _⟩ => show 0 = w.val; omega
    | ⟨2, _⟩ => rfl

/-- The last `W1` columns with a column of `z` behind: column `w` reads column `w + 1`, and `z` at the last. -/
theorem padRight_apply {H W C W1 : ℕ} (hW : W1 + 1 = W) (z : α) (X : (⟨3, ![H, W, C]⟩ : Shape).Idx → α)
    (hs : (⟨3, ![H, W, C]⟩ : Shape).Slices ![0, 1, 0] ⟨3, ![H, W1, C]⟩)
    (hc : Shape.Concatenates [⟨3, ![H, W1, C]⟩, ⟨3, ![H, 1, C]⟩] ⟨3, ![H, W, C]⟩ 1)
    (h : Fin H) (w : Fin W) (c : Fin C) :
    concatenate ⟨3, ![H, W, C]⟩ 1 [⟨⟨3, ![H, W1, C]⟩, extractStridedSlice ⟨3, ![H, W1, C]⟩ ![0, 1, 0] X hs⟩,
        ⟨⟨3, ![H, 1, C]⟩, broadcast ⟨3, ![H, 1, C]⟩ z⟩] hc (ix3 h w c)
      = if hw : w.val + 1 < W then X (ix3 h ⟨w.val + 1, hw⟩ c) else z := by
  have hwlt := w.isLt
  split
  · next hw =>
    refine (concatenate_pair_apply_left _ _ _ hc (ix3 h w c) rfl (ix3 h (⟨w.val, by omega⟩ : Fin W1) c) (fun b => ?_)).trans ?_
    · match b with
      | ⟨0, _⟩ => rfl
      | ⟨1, _⟩ => rfl
      | ⟨2, _⟩ => rfl
    · exact slice3_axis1_apply 1 X hs h _ c _ (by show w.val + 1 = 1 + w.val; omega)
  · next hw =>
    refine (concatenate_pair_apply_right _ _ _ hc (ix3 h w c) rfl rfl (ix3 h (0 : Fin 1) c) (fun b hb => ?_) ?_).trans rfl
    · match b with
      | ⟨0, _⟩ => rfl
      | ⟨1, _⟩ => exact absurd (Fin.ext rfl) hb
      | ⟨2, _⟩ => rfl
    · show 0 + W1 = w.val
      omega

/-- A row of `z` above the first `H1` rows: row `h` reads row `h - 1`, and `z` at the first. -/
theorem padTop_apply {H W C H1 : ℕ} (hH : 1 + H1 = H) (z : α) (Y : (⟨3, ![H, W, C]⟩ : Shape).Idx → α)
    (hs : (⟨3, ![H, W, C]⟩ : Shape).Slices ![0, 0, 0] ⟨3, ![H1, W, C]⟩)
    (hc : Shape.Concatenates [⟨3, ![1, W, C]⟩, ⟨3, ![H1, W, C]⟩] ⟨3, ![H, W, C]⟩ 0)
    (h : Fin H) (w : Fin W) (c : Fin C) :
    concatenate ⟨3, ![H, W, C]⟩ 0 [⟨⟨3, ![1, W, C]⟩, broadcast ⟨3, ![1, W, C]⟩ z⟩,
        ⟨⟨3, ![H1, W, C]⟩, extractStridedSlice ⟨3, ![H1, W, C]⟩ ![0, 0, 0] Y hs⟩] hc (ix3 h w c)
      = if hh : 0 < h.val then Y (ix3 ⟨h.val - 1, by have := h.isLt; omega⟩ w c) else z := by
  have hhlt := h.isLt
  split
  · next hh =>
    refine (concatenate_pair_apply_right _ _ _ hc (ix3 h w c) rfl rfl (ix3 (⟨h.val - 1, by omega⟩ : Fin H1) w c)
      (fun b hb => ?_) ?_).trans ?_
    · match b with
      | ⟨0, _⟩ => exact absurd (Fin.ext rfl) hb
      | ⟨1, _⟩ => rfl
      | ⟨2, _⟩ => rfl
    · show (h.val - 1) + 1 = h.val
      omega
    · exact extractStridedSlice_apply _ Y hs _ (ix3 (⟨h.val - 1, by omega⟩ : Fin H) w c) (fun ax => by
        match ax with
        | ⟨0, _⟩ => exact (Nat.zero_add _).symm
        | ⟨1, _⟩ => exact (Nat.zero_add _).symm
        | ⟨2, _⟩ => exact (Nat.zero_add _).symm)
  · next hh =>
    refine (concatenate_pair_apply_left _ _ _ hc (ix3 h w c) rfl (ix3 (0 : Fin 1) w c) (fun b => ?_)).trans rfl
    match b with
    | ⟨0, _⟩ => show 0 = h.val; omega
    | ⟨1, _⟩ => rfl
    | ⟨2, _⟩ => rfl

/-- The last `H1` rows with a row of `z` below: row `h` reads row `h + 1`, and `z` at the last. -/
theorem padBottom_apply {H W C H1 : ℕ} (hH : H1 + 1 = H) (z : α) (Y : (⟨3, ![H, W, C]⟩ : Shape).Idx → α)
    (hs : (⟨3, ![H, W, C]⟩ : Shape).Slices ![1, 0, 0] ⟨3, ![H1, W, C]⟩)
    (hc : Shape.Concatenates [⟨3, ![H1, W, C]⟩, ⟨3, ![1, W, C]⟩] ⟨3, ![H, W, C]⟩ 0)
    (h : Fin H) (w : Fin W) (c : Fin C) :
    concatenate ⟨3, ![H, W, C]⟩ 0 [⟨⟨3, ![H1, W, C]⟩, extractStridedSlice ⟨3, ![H1, W, C]⟩ ![1, 0, 0] Y hs⟩,
        ⟨⟨3, ![1, W, C]⟩, broadcast ⟨3, ![1, W, C]⟩ z⟩] hc (ix3 h w c)
      = if hh : h.val + 1 < H then Y (ix3 ⟨h.val + 1, hh⟩ w c) else z := by
  have hhlt := h.isLt
  split
  · next hh =>
    refine (concatenate_pair_apply_left _ _ _ hc (ix3 h w c) rfl (ix3 (⟨h.val, by omega⟩ : Fin H1) w c) (fun b => ?_)).trans ?_
    · match b with
      | ⟨0, _⟩ => rfl
      | ⟨1, _⟩ => rfl
      | ⟨2, _⟩ => rfl
    · exact extractStridedSlice_apply _ Y hs _ (ix3 (⟨h.val + 1, hh⟩ : Fin H) w c) (fun ax => by
        match ax with
        | ⟨0, _⟩ => show h.val + 1 = 1 + h.val; omega
        | ⟨1, _⟩ => exact (Nat.zero_add _).symm
        | ⟨2, _⟩ => exact (Nat.zero_add _).symm)
  · next hh =>
    refine (concatenate_pair_apply_right _ _ _ hc (ix3 h w c) rfl rfl (ix3 (0 : Fin 1) w c) (fun b hb => ?_) ?_).trans rfl
    · match b with
      | ⟨0, _⟩ => exact absurd (Fin.ext rfl) hb
      | ⟨1, _⟩ => rfl
      | ⟨2, _⟩ => rfl
    · show 0 + H1 = h.val
      omega

/-- Three images of 128 channels laid along the channels: position `k` of the 384 reads the first below 128, the second
    below 256, the third from there on. -/
theorem cat3_apply {H W : ℕ} (A B D : (⟨3, ![H, W, 128]⟩ : Shape).Idx → α)
    (hc : Shape.Concatenates [⟨3, ![H, W, 128]⟩, ⟨3, ![H, W, 128]⟩, ⟨3, ![H, W, 128]⟩] ⟨3, ![H, W, 384]⟩ 2)
    (h : Fin H) (w : Fin W) (k : Fin 384) :
    concatenate ⟨3, ![H, W, 384]⟩ 2 [⟨⟨3, ![H, W, 128]⟩, A⟩, ⟨⟨3, ![H, W, 128]⟩, B⟩, ⟨⟨3, ![H, W, 128]⟩, D⟩] hc (ix3 h w k)
      = if hk0 : k.val < 128 then A (ix3 h w ⟨k.val, hk0⟩)
        else if hk1 : k.val < 256 then B (ix3 h w ⟨k.val - 128, by omega⟩)
        else D (ix3 h w ⟨k.val - 256, by have := k.isLt; omega⟩) := by
  have hklt := k.isLt
  split
  · next hk0 =>
    exact concatenate_apply_piece (t := (⟨3, ![H, W, 384]⟩ : Shape)) (2 : Fin 3) [⟨⟨3, ![H, W, 128]⟩, A⟩, ⟨⟨3, ![H, W, 128]⟩, B⟩, ⟨⟨3, ![H, W, 128]⟩, D⟩] hc (ix3 h w k) 0 (by show (0 : ℕ) < 3; omega) (⟨3, ![H, W, 128]⟩ : Shape) A rfl rfl 0 rfl (ix3 h w (⟨k.val, hk0⟩ : Fin 128))
      (fun b hb => by
        match b with
        | ⟨0, _⟩ => rfl
        | ⟨1, _⟩ => rfl
        | ⟨2, _⟩ => exact absurd (Fin.ext rfl) hb)
      (by show 0 + k.val = k.val; omega)
  · next hk0 =>
    split
    · next hk1 =>
      exact concatenate_apply_piece (t := (⟨3, ![H, W, 384]⟩ : Shape)) (2 : Fin 3) [⟨⟨3, ![H, W, 128]⟩, A⟩, ⟨⟨3, ![H, W, 128]⟩, B⟩, ⟨⟨3, ![H, W, 128]⟩, D⟩] hc (ix3 h w k) 1 (by show (1 : ℕ) < 3; omega) (⟨3, ![H, W, 128]⟩ : Shape) B rfl rfl 128 rfl
        (ix3 h w (⟨k.val - 128, by omega⟩ : Fin 128))
        (fun b hb => by
          match b with
          | ⟨0, _⟩ => rfl
          | ⟨1, _⟩ => rfl
          | ⟨2, _⟩ => exact absurd (Fin.ext rfl) hb)
        (by show 128 + (k.val - 128) = k.val; omega)
    · next hk1 =>
      exact concatenate_apply_piece (t := (⟨3, ![H, W, 384]⟩ : Shape)) (2 : Fin 3) [⟨⟨3, ![H, W, 128]⟩, A⟩, ⟨⟨3, ![H, W, 128]⟩, B⟩, ⟨⟨3, ![H, W, 128]⟩, D⟩] hc (ix3 h w k) 2 (by show (2 : ℕ) < 3; omega) (⟨3, ![H, W, 128]⟩ : Shape) D rfl rfl 256 rfl
        (ix3 h w (⟨k.val - 256, by omega⟩ : Fin 128))
        (fun b hb => by
          match b with
          | ⟨0, _⟩ => rfl
          | ⟨1, _⟩ => rfl
          | ⟨2, _⟩ => exact absurd (Fin.ext rfl) hb)
        (by show 256 + (k.val - 256) = k.val; omega)

end Pads

/-! ## The 3x3 stage over an arbitrary image -/

/-- Pixel `(h, w)` is row `64 h + w` of the image laid out as rows. -/
abbrev row3 (h w : Fin 64) : Fin 4096 := ⟨h.val * 64 + w.val, by have := h.isLt; have := w.isLt; omega⟩

/-- The 4096 x 384 by 384 x 128 product into a zero accumulator, at row `r` and column `co`. -/
theorem mm384_apply (lhs : FVec Ideal S4096x384 .bf16) (rhs : FVec Ideal S384x128 .bf16) (r : Fin 4096) (co : Fin 128) :
    matmul (F := Ideal) dot_S4096x384_S384x128_S4096x128_1_0_0_1_n_n none lhs rhs (constant S4096x128 .f32 0x00000000#32) (ix2 r co)
      = ∑ k : Fin 384, lhs (ix2 r k) * rhs (ix2 k co) := by
  refine (Ideal.matmul_constant_zero_apply _ none lhs rhs (ix2 r co)).trans ?_
  refine (Equiv.sum_comp (contrEquiv1 dot_S4096x384_S384x128_S4096x128_1_0_0_1_n_n 384 rfl rfl).symm _).symm.trans ?_
  refine Finset.sum_congr rfl fun k _ => ?_
  have hl : dot_S4096x384_S384x128_S4096x128_1_0_0_1_n_n.lhsIdx (ix2 r co)
      ((contrEquiv1 dot_S4096x384_S384x128_S4096x128_1_0_0_1_n_n 384 rfl rfl).symm k) = ix2 r k := by
    funext a; refine Fin.ext ?_
    match a with
    | ⟨0, _⟩ => rfl
    | ⟨1, _⟩ => exact (DotDims.lhsIdx_val_of_single _ rfl _ _).trans (contrEquiv1_symm_val _ 384 rfl rfl k)
  have hr : dot_S4096x384_S384x128_S4096x128_1_0_0_1_n_n.rhsIdx (ix2 r co)
      ((contrEquiv1 dot_S4096x384_S384x128_S4096x128_1_0_0_1_n_n 384 rfl rfl).symm k) = ix2 k co := by
    funext a; refine Fin.ext ?_
    match a with
    | ⟨0, _⟩ => exact (DotDims.rhsIdx_val_of_single _ rfl _ _).trans (contrEquiv1_symm_val _ 384 rfl rfl k)
    | ⟨1, _⟩ => rfl
  rw [hl, hr]

/-- The column patch of an image `X` as the body lays it out: a zero column in front of the image moved right, the image,
    the image moved left with a zero column behind, side by side along the channels, as rows. -/
def patch3 (X : FVec Ideal S64x64x128 .bf16) : FVec Ideal S4096x384 .bf16 :=
  shapeCast S4096x384
    (concatenate S64x64x384 2
      [⟨S64x64x128, concatenate S64x64x128 1
          [⟨S64x1x128, broadcast S64x1x128 (Scalar.ofBits .bf16 0x0000#16)⟩,
           ⟨S64x63x128, extractStridedSlice S64x63x128 ![0, 0, 0] X slices_S64x64x128_o0_0_0_S64x63x128⟩]
          concatenates_S64x1x128_S64x63x128_S64x64x128_d1⟩,
       ⟨S64x64x128, X⟩,
       ⟨S64x64x128, concatenate S64x64x128 1
          [⟨S64x63x128, extractStridedSlice S64x63x128 ![0, 1, 0] X slices_S64x64x128_o0_1_0_S64x63x128⟩,
           ⟨S64x1x128, broadcast S64x1x128 (Scalar.ofBits .bf16 0x0000#16)⟩]
          concatenates_S64x63x128_S64x1x128_S64x64x128_d1⟩]
      concatenates_S64x64x128_S64x64x128_S64x64x128_S64x64x384_d2)
    shapeCasts_S64x64x384_S4096x384

/-- Row `64 h + w` of the patch matrix is the specification's column patch at pixel `(h, w)`. -/
theorem patch3_apply (X : FVec Ideal S64x64x128 .bf16) (h w : Fin 64) (k : Fin 384) :
    patch3 X (ix2 (row3 h w) k) = Cert.Spec.patch (fun h' w' c' => X (ix3 h' w' c')) h w k := by
  unfold patch3
  refine (shapeCast_hwc_rc_apply _ _ h w k (row3 h w) rfl).trans ?_
  refine (cat3_apply _ _ _ _ h w k).trans ?_
  unfold Cert.Spec.patch
  by_cases hk0 : k.val < 128
  · rw [dif_pos hk0, dif_pos hk0]
    refine (padLeft_apply (by norm_num) _ X _ _ h w ⟨k.val, hk0⟩).trans ?_
    by_cases hw : 0 < w.val
    · rw [dif_pos hw, dif_pos hw]
    · rw [dif_neg hw, dif_neg hw]
      exact Ideal.ofBits_zero_bf16
  · rw [dif_neg hk0, dif_neg hk0]
    by_cases hk1 : k.val < 256
    · rw [dif_pos hk1, dif_pos hk1]
    · rw [dif_neg hk1, dif_neg hk1]
      refine (padRight_apply (by norm_num) _ X _ _ h w _).trans ?_
      by_cases hw : w.val + 1 < 64
      · rw [dif_pos hw, dif_pos hw]
      · rw [dif_neg hw, dif_neg hw]
        exact Ideal.ofBits_zero_bf16

/-- One vertical tap of an image `X` as the body computes it: the patch matrix times the tap's weights, laid back as an image. -/
def rows3 (X : FVec Ideal S64x64x128 .bf16) (wt : Vec Ideal S1x384x128 .bf16) : FVec Ideal S64x64x128 .f32 :=
  shapeCast S64x64x128
    (matmul dot_S4096x384_S384x128_S4096x128_1_0_0_1_n_n none (patch3 X)
      (shapeCast S384x128 wt shapeCasts_S1x384x128_S384x128 : FVec Ideal S384x128 .bf16) (constant S4096x128 .f32 0x00000000#32))
    shapeCasts_S4096x128_S64x64x128

/-- It is the specification's tap at every pixel. -/
theorem rows3_apply (X : FVec Ideal S64x64x128 .bf16) (wt : Vec Ideal S1x384x128 .bf16) (h w : Fin 64) (co : Fin 128) :
    rows3 X wt (ix3 h w co)
      = Cert.Spec.tap (fun h' w' c' => X (ix3 h' w' c')) (fun k c' => wt (ix3 (0 : Fin 1) k c')) h w co := by
  unfold rows3 Cert.Spec.tap
  refine (shapeCast_rc_hwc_apply _ _ h w co (row3 h w) rfl).trans ?_
  refine (mm384_apply _ _ (row3 h w) co).trans ?_
  refine Finset.sum_congr rfl fun k _ => ?_
  refine congrArg₂ (· * ·) (patch3_apply X h w k) ?_
  exact shapeCast_1ab_ab_apply wt _ k co

/-- The three taps added as the body adds them: tap 1, plus tap 0 moved down one row under a zero row, plus tap 2 moved up
    one row over a zero row. -/
def core3 (X : FVec Ideal S64x64x128 .bf16) (v132 v135 v138 : Vec Ideal S1x384x128 .bf16) : FVec Ideal S64x64x128 .f32 :=
  addf
    (addf (rows3 X v135)
      (concatenate S64x64x128 0
        [⟨S1x64x128, broadcast S1x64x128 (Scalar.ofBits .f32 0x00000000#32)⟩,
         ⟨S63x64x128, extractStridedSlice S63x64x128 ![0, 0, 0] (rows3 X v132) slices_S64x64x128_o0_0_0_S63x64x128⟩]
        concatenates_S1x64x128_S63x64x128_S64x64x128_d0))
    (concatenate S64x64x128 0
      [⟨S63x64x128, extractStridedSlice S63x64x128 ![1, 0, 0] (rows3 X v138) slices_S64x64x128_o1_0_0_S63x64x128⟩,
       ⟨S1x64x128, broadcast S1x64x128 (Scalar.ofBits .f32 0x00000000#32)⟩]
      concatenates_S63x64x128_S1x64x128_S64x64x128_d0)

/-- At a pixel: the row's own tap, the tap of the row above (zero at the first row), the tap of the row below (zero at
    the last row). -/
theorem core3_apply (X : FVec Ideal S64x64x128 .bf16) (v132 v135 v138 : Vec Ideal S1x384x128 .bf16) (h w : Fin 64) (co : Fin 128) :
    core3 X v132 v135 v138 (ix3 h w co)
      = (Cert.Spec.tap (fun h' w' c' => X (ix3 h' w' c')) (fun k c' => v135 (ix3 (0 : Fin 1) k c')) h w co
          + (if hh : 0 < h.val then
              Cert.Spec.tap (fun h' w' c' => X (ix3 h' w' c')) (fun k c' => v132 (ix3 (0 : Fin 1) k c'))
                ⟨h.val - 1, by have := h.isLt; omega⟩ w co
            else 0))
        + (if hh : h.val + 1 < 64 then
            Cert.Spec.tap (fun h' w' c' => X (ix3 h' w' c')) (fun k c' => v138 (ix3 (0 : Fin 1) k c')) ⟨h.val + 1, hh⟩ w co
          else 0) := by
  unfold core3
  rw [addf_apply, addf_apply]
  refine congrArg₂ (· + ·) (congrArg₂ (· + ·) (rows3_apply X v135 h w co) ?_) ?_
  · refine (padTop_apply (by norm_num) _ _ _ _ h w co).trans ?_
    by_cases hh : 0 < h.val
    · rw [dif_pos hh, dif_pos hh]
      exact rows3_apply X v132 _ w co
    · rw [dif_neg hh, dif_neg hh]
      exact Ideal.ofBits_zero_f32
  · refine (padBottom_apply (by norm_num) _ _ _ _ h w co).trans ?_
    by_cases hh : h.val + 1 < 64
    · rw [dif_pos hh, dif_pos hh]
      exact rows3_apply X v138 _ w co
    · rw [dif_neg hh, dif_neg hh]
      exact Ideal.ofBits_zero_f32

/-- The body's 64 x 64 x 128 value is the three taps of the level's image. -/
theorem pay12_eq (v67 : FVec Ideal S32x32x128 .f32) (v108 : FVec Ideal S4096x128 .f32) (v109 : Vec Ideal S1x128 .f32)
    (v132 v135 v138 : Vec Ideal S1x384x128 .bf16) :
    k0_pay12 (F := Ideal) v67 v108 v109 v132 v135 v138 = core3 (img3 v67 v108 v109) v132 v135 v138 := rfl

end L3

/-! ## The level's stored value -/

/-- An element of the level's output block: the 3x3 convolution, in the specification's sense, of the level's image — the
    1x1 stage of the level's input plus the coarser level doubled — with the three taps' weights and the bias. The body
    adds the row's own tap first and the tap of the row above second; the specification the other way round. -/
theorem o3_apply (v67 : FVec Ideal S32x32x128 .f32) (v102 : Vec Ideal S1x64x64x256 .f32) (v106 : Vec Ideal S256x128 .bf16)
    (v109 : Vec Ideal S1x128 .f32) (v132 v135 v138 : Vec Ideal S1x384x128 .bf16) (v151 : Vec Ideal S1x128 .f32)
    (h w : Fin 64) (co : Fin 128) :
    k0_pay1 (F := Ideal) (k0_pay12 v67 (k0_pay11 v102 v106) v109 v132 v135 v138) (k0_pay13 v151) (ix4 0 h w co)
      = Cert.Spec.conv
          (fun h' w' c' =>
            Cert.Spec.pw (fun k : Fin 256 => v102 (ix4 0 h' w' k)) (fun k c'' => v106 (ix2 k c'')) (fun c'' => v109 (ix2 0 c'')) c'
              + Cert.Spec.up2 (H := 32) (W := 32) (by norm_num) (by norm_num) (fun a b c'' => v67 (ix3 a b c'')) h' w' c')
          (fun dy k c' => (match dy with | ⟨0, _⟩ => v132 | ⟨1, _⟩ => v135 | ⟨2, _⟩ => v138) (ix3 0 k c'))
          (fun c' => v151 (ix2 0 c')) h w co := by
  have himg : (fun (h' w' : Fin 64) (c' : Fin 128) => L3.img3 v67 (k0_pay11 v102 v106) v109 (ix3 h' w' c'))
      = fun h' w' c' =>
          Cert.Spec.pw (fun k : Fin 256 => v102 (ix4 0 h' w' k)) (fun k c'' => v106 (ix2 k c'')) (fun c'' => v109 (ix2 0 c'')) c'
            + Cert.Spec.up2 (H := 32) (W := 32) (by norm_num) (by norm_num) (fun a b c'' => v67 (ix3 a b c'')) h' w' c' := by
    funext h' w' c'
    refine (L3.img3_apply v67 _ v109 h' w' c' (L3.row3 h' w') rfl).trans ?_
    unfold Cert.Spec.pw
    rw [L3.pay11_apply v102 v106 h' w' c' (L3.row3 h' w') rfl]
  unfold k0_pay1
  refine (shapeCast_abc_1abc_apply _ _ 0 h w co).trans ?_
  rw [addf_apply, L3.pay12_eq, L3.core3_apply, himg]
  unfold Cert.Spec.conv
  refine congrArg₂ (· + ·) (congrArg₂ (· + ·) (add_comm _ _) rfl) ?_
  refine (L3.broadcastTo_11c_hwc_apply _ _ h w co).trans ?_
  unfold k0_pay13
  refine (L3.shapeCast_1c_11c_apply _ _ 0 0 co).trans ?_
  exact congrFun (shapeCast_self _ _) _

end Cert.KernelIdeal.Hand

end
-- ==== Proof.Levels.lean ====
/-
  The pyramid as a whole, over the fifteen argument arrays read as curried functions of literal coordinates: the three
  1x1 stages (each lower level adding the upsampled level above) and the three 3x3 outputs. Both programs are shown to
  compute exactly these functions of their arguments.
-/
import proofs.«126699_g2000605867469428_pallasbulk_857_3_alg».proof.Proof.Spec

noncomputable section

namespace Cert.Spec

/-- The argument arrays: three input images (batch 4; 64x64x256, 32x32x512, 16x16x1024), and per level the 1x1 weights and
    bias and the 3x3 weights (three taps of 384 x 128, the horizontal neighbour and the channel laid along 384) and bias. -/
structure Args where
  c3 : Fin 4 → Fin 64 → Fin 64 → Fin 256 → EReal
  c4 : Fin 4 → Fin 32 → Fin 32 → Fin 512 → EReal
  c5 : Fin 4 → Fin 16 → Fin 16 → Fin 1024 → EReal
  w51 : Fin 1024 → Fin 128 → EReal
  b5 : Fin 128 → EReal
  w52 : Fin 3 → Fin 384 → Fin 128 → EReal
  b52 : Fin 128 → EReal
  w41 : Fin 512 → Fin 128 → EReal
  b4 : Fin 128 → EReal
  w42 : Fin 3 → Fin 384 → Fin 128 → EReal
  b42 : Fin 128 → EReal
  w31 : Fin 256 → Fin 128 → EReal
  b3 : Fin 128 → EReal
  w32 : Fin 3 → Fin 384 → Fin 128 → EReal
  b32 : Fin 128 → EReal

namespace Args

variable (a : Args)

/-- Level 5 after its 1x1 stage. -/
def p5 (n : Fin 4) : Fin 16 → Fin 16 → Fin 128 → EReal := fun h w co => pw (a.c5 n h w) a.w51 a.b5 co

/-- Level 4 after its 1x1 stage: its own contraction and bias, plus level 5 upsampled. -/
def p4 (n : Fin 4) : Fin 32 → Fin 32 → Fin 128 → EReal := fun h w co =>
  pw (a.c4 n h w) a.w41 a.b4 co + up2 (H := 16) (W := 16) (by norm_num) (by norm_num) (a.p5 n) h w co

/-- Level 3 after its 1x1 stage: its own contraction and bias, plus level 4 upsampled. -/
def p3 (n : Fin 4) : Fin 64 → Fin 64 → Fin 128 → EReal := fun h w co =>
  pw (a.c3 n h w) a.w31 a.b3 co + up2 (H := 32) (W := 32) (by norm_num) (by norm_num) (a.p4 n) h w co

/-- The three outputs: the 3x3 convolution of each level. -/
def o5 (n : Fin 4) (h w : Fin 16) (co : Fin 128) : EReal := conv (a.p5 n) a.w52 a.b52 h w co
def o4 (n : Fin 4) (h w : Fin 32) (co : Fin 128) : EReal := conv (a.p4 n) a.w42 a.b42 h w co
def o3 (n : Fin 4) (h w : Fin 64) (co : Fin 128) : EReal := conv (a.p3 n) a.w32 a.b32 h w co

end Args

end Cert.Spec

end
-- ==== Proof.KernFinal.lean ====
/-
  The fused kernel's three output arrays as the pyramid of its argument arrays.

  For image `n` the body leaves in each output block, at (0, h, w, co), the specification's 3x3 convolution of that
  level's 1x1 stage: at the coarsest level the stage is the channel contraction plus the bias; at each finer level it is
  that level's contraction plus bias plus the coarser stage upsampled by two — so the finest level's stage holds the middle
  one's, which holds the coarsest one's, exactly as `Cert.Spec.Args.p3`, `p4`, `p5` nest. The body's one store per
  output covers the whole block and its loads read whole blocks, except the 3x3 weights, loaded one vertical tap at a
  time: row `dy` of the [3, 384, 128] buffer.

  The blocks the body reads are the argument arrays' slices for image `n` and the weight and bias buffers are the
  arguments re-laid, so every function the convolution is applied to is a field of `kArgs`: the fifteen argument arrays
  curried over literal coordinates. Block `n` of each output array after the run is what point `n` wrote, so the arrays
  hold `Args.o3`, `o4`, `o5` of `kArgs` element by element.
-/
import proofs.«126699_g2000605867469428_pallasbulk_857_3_alg».proof.Proof.KernBlocks
import proofs.«126699_g2000605867469428_pallasbulk_857_3_alg».proof.Proof.KernL5
import proofs.«126699_g2000605867469428_pallasbulk_857_3_alg».proof.Proof.KernL4
import proofs.«126699_g2000605867469428_pallasbulk_857_3_alg».proof.Proof.KernL3
import proofs.«126699_g2000605867469428_pallasbulk_857_3_alg».proof.Proof.Levels

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen Cert.KernelIdeal.Value

variable (m : (ℓ : Loc nD τ sig) → Buf (Elt Ideal) ℓ)

/-! ## The argument arrays, curried -/

/-- The fifteen argument arrays as the launch memory holds them, read at literal coordinates: the three images, and per
    level the 1x1 weights, the bias as a row, the 3x3 weights re-laid from [3, 3, 128, 128] to [3, 384, 128] (the
    horizontal tap and the input channel along 384), and the 3x3 bias as a row. -/
def kArgs (c : Dev nD) : Cert.Spec.Args where
  c3 := fun n h w k => (m ((c : Thread nD τ).loc main_arg0) : S4x64x64x256.Idx → EReal) (ix4 n h w k)
  c4 := fun n h w k => (m ((c : Thread nD τ).loc main_arg1) : S4x32x32x512.Idx → EReal) (ix4 n h w k)
  c5 := fun n h w k => (m ((c : Thread nD τ).loc main_arg2) : S4x16x16x1024.Idx → EReal) (ix4 n h w k)
  w51 := fun k co => (m ((c : Thread nD τ).loc main_arg3) : S1024x128.Idx → EReal) (ix2 k co)
  b5 := fun co => shapeCast S1x128 (m ((c : Thread nD τ).loc main_arg4) : S128.Idx → EReal) shapeCasts_S128_S1x128 (ix2 0 co)
  w52 := fun dy k co => shapeCast S3x384x128 (m ((c : Thread nD τ).loc main_arg5) : S3x3x128x128.Idx → EReal) shapeCasts_S3x3x128x128_S3x384x128 (ix3 dy k co)
  b52 := fun co => shapeCast S1x128 (m ((c : Thread nD τ).loc main_arg6) : S128.Idx → EReal) shapeCasts_S128_S1x128 (ix2 0 co)
  w41 := fun k co => (m ((c : Thread nD τ).loc main_arg7) : S512x128.Idx → EReal) (ix2 k co)
  b4 := fun co => shapeCast S1x128 (m ((c : Thread nD τ).loc main_arg8) : S128.Idx → EReal) shapeCasts_S128_S1x128 (ix2 0 co)
  w42 := fun dy k co => shapeCast S3x384x128 (m ((c : Thread nD τ).loc main_arg9) : S3x3x128x128.Idx → EReal) shapeCasts_S3x3x128x128_S3x384x128 (ix3 dy k co)
  b42 := fun co => shapeCast S1x128 (m ((c : Thread nD τ).loc main_arg10) : S128.Idx → EReal) shapeCasts_S128_S1x128 (ix2 0 co)
  w31 := fun k co => (m ((c : Thread nD τ).loc main_arg11) : S256x128.Idx → EReal) (ix2 k co)
  b3 := fun co => shapeCast S1x128 (m ((c : Thread nD τ).loc main_arg12) : S128.Idx → EReal) shapeCasts_S128_S1x128 (ix2 0 co)
  w32 := fun dy k co => shapeCast S3x384x128 (m ((c : Thread nD τ).loc main_arg13) : S3x3x128x128.Idx → EReal) shapeCasts_S3x3x128x128_S3x384x128 (ix3 dy k co)
  b32 := fun co => shapeCast S1x128 (m ((c : Thread nD τ).loc main_arg14) : S128.Idx → EReal) shapeCasts_S128_S1x128 (ix2 0 co)

/-! ## Loads -/

theorem hz4 : (![0, 0, 0, 0] : Fin 4 → Nat) = fun _ => 0 := funext fun a => by fin_cases a <;> rfl
theorem hz2 : (![0, 0] : Fin 2 → Nat) = fun _ => 0 := funext fun a => by fin_cases a <;> rfl

/-- Vertical tap 0 of the 3x3 weights: the load of row 0 of the [3, 384, 128] buffer. -/
theorem ld_tap0 (x : Vec Ideal S3x384x128 .bf16) (k : Fin 384) (co : Fin 128) :
    View.ld x r0_3 (ix3 0 k co) = x (ix3 0 k co) := by
  show x (r0_3.emb (ix3 0 k co)) = _
  refine congrArg x ?_
  funext a; apply Fin.ext
  match a with
  | ⟨0, _⟩ => show 0 + 1 * 0 = 0; rfl
  | ⟨1, _⟩ => show 0 + 1 * k.val = k.val; omega
  | ⟨2, _⟩ => show 0 + 1 * co.val = co.val; omega

/-- Vertical tap 1: row 1. -/
theorem ld_tap1 (x : Vec Ideal S3x384x128 .bf16) (k : Fin 384) (co : Fin 128) :
    View.ld x r0_4 (ix3 0 k co) = x (ix3 1 k co) := by
  show x (r0_4.emb (ix3 0 k co)) = _
  refine congrArg x ?_
  funext a; apply Fin.ext
  match a with
  | ⟨0, _⟩ => show 1 + 1 * 0 = 1; rfl
  | ⟨1, _⟩ => show 0 + 1 * k.val = k.val; omega
  | ⟨2, _⟩ => show 0 + 1 * co.val = co.val; omega

/-- Vertical tap 2: row 2. -/
theorem ld_tap2 (x : Vec Ideal S3x384x128 .bf16) (k : Fin 384) (co : Fin 128) :
    View.ld x r0_5 (ix3 0 k co) = x (ix3 2 k co) := by
  show x (r0_5.emb (ix3 0 k co)) = _
  refine congrArg x ?_
  funext a; apply Fin.ext
  match a with
  | ⟨0, _⟩ => show 2 + 1 * 0 = 2; rfl
  | ⟨1, _⟩ => show 0 + 1 * k.val = k.val; omega
  | ⟨2, _⟩ => show 0 + 1 * co.val = co.val; omega

/-! ## Congruences of the specification's functions -/

/-- The convolution depends only on its three function arguments. -/
theorem conv_congr {H W : ℕ} {x x' : Fin H → Fin W → Fin 128 → EReal} {w3 w3' : Fin 3 → Fin 384 → Fin 128 → EReal}
    {b b' : Fin 128 → EReal} (hx : x = x') (hw : w3 = w3') (hb : b = b') (h : Fin H) (w : Fin W) (co : Fin 128) :
    Cert.Spec.conv x w3 b h w co = Cert.Spec.conv x' w3' b' h w co := by
  subst hx hw hb; rfl

/-- The 1x1 stage depends only on its three function arguments. -/
theorem pw_congr {K : ℕ} {x x' : Fin K → EReal} {wt wt' : Fin K → Fin 128 → EReal} {b b' : Fin 128 → EReal}
    (hx : x = x') (hw : wt = wt') (hb : b = b') (co : Fin 128) :
    Cert.Spec.pw x wt b co = Cert.Spec.pw x' wt' b' co := by
  subst hx hw hb; rfl

/-- A sum whose second summand is the upsampled level above depends on that level only as a function. -/
theorem add_up2_congr {H W H2 W2 : ℕ} (hH : H2 ≤ 2 * H) (hW : W2 ≤ 2 * W) {r r' : Fin H → Fin W → Fin 128 → EReal}
    (e : r = r') (a : EReal) (h : Fin H2) (w : Fin W2) (co : Fin 128) :
    a + Cert.Spec.up2 hH hW r h w co = a + Cert.Spec.up2 hH hW r' h w co := by
  subst e; rfl

/-! ## Level 5 (16 x 16 pixels) -/

/-- What the body leaves in the coarsest output block, over arbitrary input blocks: the 3x3 convolution of the 1x1 stage
    of the coarsest input. -/
theorem out17_apply (x0 : Vec Ideal S1x64x64x256 .f32) (x1 : Vec Ideal S1x32x32x512 .f32) (x2 : Vec Ideal S1x16x16x1024 .f32) (x3 : Vec Ideal S1024x128 .bf16) (x4 : Vec Ideal S1x128 .f32) (x5 : Vec Ideal S3x384x128 .bf16) (x6 : Vec Ideal S1x128 .f32) (x7 : Vec Ideal S512x128 .bf16) (x8 : Vec Ideal S1x128 .f32) (x9 : Vec Ideal S3x384x128 .bf16) (x10 : Vec Ideal S1x128 .f32) (x11 : Vec Ideal S256x128 .bf16) (x12 : Vec Ideal S1x128 .f32) (x13 : Vec Ideal S3x384x128 .bf16) (x14 : Vec Ideal S1x128 .f32) (h w : Fin 16) (co : Fin 128) :
    Gen.out0_17 x0 x1 x2 x3 x4 x5 x6 x7 x8 x9 x10 x11 x12 x13 x14 (ix4 0 h w co)
      = Cert.Spec.conv (fun h' w' c' => Cert.Spec.pw (fun k : Fin 1024 => x2 (ix4 0 h' w' k)) (fun k c'' => x3 (ix2 k c'')) (fun c'' => x4 (ix2 0 c'')) c')
          (fun dy k c' => x5 (ix3 dy k c')) (fun c' => x6 (ix2 0 c')) h w co := by
  unfold Gen.out0_17
  rw [View.canon_unit_zero hz4]
  simp only [View.ld_unit_zero (S := S1x16x16x1024) hz4, View.ld_unit_zero (S := S1024x128) hz2, View.ld_unit_zero (S := S1x128) hz2]
  refine (o5_apply x2 x3 x4 (View.ld x5 r0_3) (View.ld x5 r0_4) (View.ld x5 r0_5) x6 h w co).trans ?_
  refine conv_congr ?_ ?_ rfl h w co
  · funext h' w' c'
    exact p5_apply x2 x3 x4 h' w' c'
  · funext dy k c'
    match dy with
    | ⟨0, _⟩ => exact ld_tap0 x5 k c'
    | ⟨1, _⟩ => exact ld_tap1 x5 k c'
    | ⟨2, _⟩ => exact ld_tap2 x5 k c'

/-- On image `n`'s blocks that 1x1 stage is `p5` of the argument arrays. -/
theorem p5_blocks (c : Dev nD) (n : Fin 4) :
    (fun (h' : Fin 16) (w' : Fin 16) (c' : Fin 128) =>
        Cert.Spec.pw (fun k : Fin 1024 => (Gen.iblk m c 2 (tOf n) : S1x16x16x1024.Idx → EReal) (ix4 0 h' w' k))
          (fun k c'' => (Gen.iblk m c 3 (tOf n) : S1024x128.Idx → EReal) (ix2 k c''))
          (fun c'' => (Gen.iblk m c 4 (tOf n) : S1x128.Idx → EReal) (ix2 0 c'')) c')
      = (kArgs m c).p5 n := by
  funext h' w' c'
  show _ = Cert.Spec.pw ((kArgs m c).c5 n h' w') (kArgs m c).w51 (kArgs m c).b5 c'
  refine pw_congr ?_ ?_ ?_ c'
  · exact funext fun k => blk2_apply_arg m c n h' w' k
  · rw [blk3_eq m c (tOf n), v0_eq m c]; rfl
  · rw [blk4_eq m c (tOf n), v9_eq m c]; rfl

/-- The coarsest output array after the run. -/
theorem kern17 (c : Dev nD) (n : Fin 4) (h w : Fin 16) (co : Fin 128) :
    (Gen.dats (F := Ideal) m 0 c).arrAt 17 cfg0.N (ix4 n h w co) = (kArgs m c).o5 n h w co := by
  refine (arr17 m c n h w co).trans ?_
  refine (out17_apply (Gen.iblk m c 0 (tOf n)) (Gen.iblk m c 1 (tOf n)) (Gen.iblk m c 2 (tOf n)) (Gen.iblk m c 3 (tOf n)) (Gen.iblk m c 4 (tOf n)) (Gen.iblk m c 5 (tOf n)) (Gen.iblk m c 6 (tOf n)) (Gen.iblk m c 7 (tOf n)) (Gen.iblk m c 8 (tOf n)) (Gen.iblk m c 9 (tOf n)) (Gen.iblk m c 10 (tOf n)) (Gen.iblk m c 11 (tOf n)) (Gen.iblk m c 12 (tOf n)) (Gen.iblk m c 13 (tOf n)) (Gen.iblk m c 14 (tOf n)) h w co).trans ?_
  show _ = Cert.Spec.conv ((kArgs m c).p5 n) (kArgs m c).w52 (kArgs m c).b52 h w co
  refine conv_congr (p5_blocks m c n) ?_ ?_ h w co
  · rw [blk5_eq m c (tOf n), v4_eq_cast m c]; rfl
  · rw [blk6_eq m c (tOf n), v12_eq m c]; rfl

/-! ## Level 4 (32 x 32 pixels) -/

/-- What the body leaves in the middle output block: the 3x3 convolution of the middle input's 1x1 stage plus the
    coarsest stage upsampled. -/
theorem out16_apply (x0 : Vec Ideal S1x64x64x256 .f32) (x1 : Vec Ideal S1x32x32x512 .f32) (x2 : Vec Ideal S1x16x16x1024 .f32) (x3 : Vec Ideal S1024x128 .bf16) (x4 : Vec Ideal S1x128 .f32) (x5 : Vec Ideal S3x384x128 .bf16) (x6 : Vec Ideal S1x128 .f32) (x7 : Vec Ideal S512x128 .bf16) (x8 : Vec Ideal S1x128 .f32) (x9 : Vec Ideal S3x384x128 .bf16) (x10 : Vec Ideal S1x128 .f32) (x11 : Vec Ideal S256x128 .bf16) (x12 : Vec Ideal S1x128 .f32) (x13 : Vec Ideal S3x384x128 .bf16) (x14 : Vec Ideal S1x128 .f32) (h w : Fin 32) (co : Fin 128) :
    Gen.out0_16 x0 x1 x2 x3 x4 x5 x6 x7 x8 x9 x10 x11 x12 x13 x14 (ix4 0 h w co)
      = Cert.Spec.conv (fun h' w' c' =>
            Cert.Spec.pw (fun k : Fin 512 => x1 (ix4 0 h' w' k)) (fun k c'' => x7 (ix2 k c'')) (fun c'' => x8 (ix2 0 c'')) c'
              + Cert.Spec.up2 (H := 16) (W := 16) (by norm_num) (by norm_num)
                  (fun a b c'' => Cert.Spec.pw (fun k : Fin 1024 => x2 (ix4 0 a b k)) (fun k d => x3 (ix2 k d)) (fun d => x4 (ix2 0 d)) c'') h' w' c')
          (fun dy k c' => x9 (ix3 dy k c')) (fun c' => x10 (ix2 0 c')) h w co := by
  unfold Gen.out0_16
  rw [View.canon_unit_zero hz4]
  simp only [View.ld_unit_zero (S := S1x16x16x1024) hz4, View.ld_unit_zero (S := S1024x128) hz2, View.ld_unit_zero (S := S1x128) hz2,
    View.ld_unit_zero (S := S1x32x32x512) hz4, View.ld_unit_zero (S := S512x128) hz2]
  refine (o4_apply (k0_pay2 x2 x3 x4) x1 x7 x8 (View.ld x9 r0_3) (View.ld x9 r0_4) (View.ld x9 r0_5) x10 h w co).trans ?_
  refine conv_congr ?_ ?_ rfl h w co
  · funext h' w' c'
    refine (p4_apply (k0_pay2 x2 x3 x4) x1 x7 x8 h' w' c').trans ?_
    refine add_up2_congr _ _ ?_ _ h' w' c'
    funext a b c''
    exact p5_apply x2 x3 x4 a b c''
  · funext dy k c'
    match dy with
    | ⟨0, _⟩ => exact ld_tap0 x9 k c'
    | ⟨1, _⟩ => exact ld_tap1 x9 k c'
    | ⟨2, _⟩ => exact ld_tap2 x9 k c'

/-- On image `n`'s blocks that sum is `p4` of the argument arrays. -/
theorem p4_blocks (c : Dev nD) (n : Fin 4) :
    (fun (h' : Fin 32) (w' : Fin 32) (c' : Fin 128) =>
        Cert.Spec.pw (fun k : Fin 512 => (Gen.iblk m c 1 (tOf n) : S1x32x32x512.Idx → EReal) (ix4 0 h' w' k))
            (fun k c'' => (Gen.iblk m c 7 (tOf n) : S512x128.Idx → EReal) (ix2 k c''))
            (fun c'' => (Gen.iblk m c 8 (tOf n) : S1x128.Idx → EReal) (ix2 0 c'')) c'
          + Cert.Spec.up2 (H := 16) (W := 16) (by norm_num) (by norm_num)
              (fun a b c'' => Cert.Spec.pw (fun k : Fin 1024 => (Gen.iblk m c 2 (tOf n) : S1x16x16x1024.Idx → EReal) (ix4 0 a b k))
                (fun k d => (Gen.iblk m c 3 (tOf n) : S1024x128.Idx → EReal) (ix2 k d))
                (fun d => (Gen.iblk m c 4 (tOf n) : S1x128.Idx → EReal) (ix2 0 d)) c'') h' w' c')
      = (kArgs m c).p4 n := by
  funext h' w' c'
  show _ = Cert.Spec.pw ((kArgs m c).c4 n h' w') (kArgs m c).w41 (kArgs m c).b4 c'
            + Cert.Spec.up2 (H := 16) (W := 16) (by norm_num) (by norm_num) ((kArgs m c).p5 n) h' w' c'
  refine (add_up2_congr _ _ (p5_blocks m c n) _ h' w' c').trans ?_
  refine congrArg (· + Cert.Spec.up2 (H := 16) (W := 16) (by norm_num) (by norm_num) ((kArgs m c).p5 n) h' w' c') ?_
  refine pw_congr ?_ ?_ ?_ c'
  · exact funext fun k => blk1_apply_arg m c n h' w' k
  · rw [blk7_eq m c (tOf n), v1_eq m c]; rfl
  · rw [blk8_eq m c (tOf n), v10_eq m c]; rfl

/-- The middle output array after the run. -/
theorem kern16 (c : Dev nD) (n : Fin 4) (h w : Fin 32) (co : Fin 128) :
    (Gen.dats (F := Ideal) m 0 c).arrAt 16 cfg0.N (ix4 n h w co) = (kArgs m c).o4 n h w co := by
  refine (arr16 m c n h w co).trans ?_
  refine (out16_apply (Gen.iblk m c 0 (tOf n)) (Gen.iblk m c 1 (tOf n)) (Gen.iblk m c 2 (tOf n)) (Gen.iblk m c 3 (tOf n)) (Gen.iblk m c 4 (tOf n)) (Gen.iblk m c 5 (tOf n)) (Gen.iblk m c 6 (tOf n)) (Gen.iblk m c 7 (tOf n)) (Gen.iblk m c 8 (tOf n)) (Gen.iblk m c 9 (tOf n)) (Gen.iblk m c 10 (tOf n)) (Gen.iblk m c 11 (tOf n)) (Gen.iblk m c 12 (tOf n)) (Gen.iblk m c 13 (tOf n)) (Gen.iblk m c 14 (tOf n)) h w co).trans ?_
  show _ = Cert.Spec.conv ((kArgs m c).p4 n) (kArgs m c).w42 (kArgs m c).b42 h w co
  refine conv_congr (p4_blocks m c n) ?_ ?_ h w co
  · rw [blk9_eq m c (tOf n), v6_eq_cast m c]; rfl
  · rw [blk10_eq m c (tOf n), v13_eq m c]; rfl

/-! ## Level 3 (64 x 64 pixels) -/

/-- What the body leaves in the finest output block: the 3x3 convolution of the finest input's 1x1 stage plus the middle
    level's sum upsampled. -/
theorem out15_apply (x0 : Vec Ideal S1x64x64x256 .f32) (x1 : Vec Ideal S1x32x32x512 .f32) (x2 : Vec Ideal S1x16x16x1024 .f32) (x3 : Vec Ideal S1024x128 .bf16) (x4 : Vec Ideal S1x128 .f32) (x5 : Vec Ideal S3x384x128 .bf16) (x6 : Vec Ideal S1x128 .f32) (x7 : Vec Ideal S512x128 .bf16) (x8 : Vec Ideal S1x128 .f32) (x9 : Vec Ideal S3x384x128 .bf16) (x10 : Vec Ideal S1x128 .f32) (x11 : Vec Ideal S256x128 .bf16) (x12 : Vec Ideal S1x128 .f32) (x13 : Vec Ideal S3x384x128 .bf16) (x14 : Vec Ideal S1x128 .f32) (h w : Fin 64) (co : Fin 128) :
    Gen.out0_15 x0 x1 x2 x3 x4 x5 x6 x7 x8 x9 x10 x11 x12 x13 x14 (ix4 0 h w co)
      = Cert.Spec.conv (fun h' w' c' =>
            Cert.Spec.pw (fun k : Fin 256 => x0 (ix4 0 h' w' k)) (fun k c'' => x11 (ix2 k c'')) (fun c'' => x12 (ix2 0 c'')) c'
              + Cert.Spec.up2 (H := 32) (W := 32) (by norm_num) (by norm_num)
                  (fun a b c'' =>
                    Cert.Spec.pw (fun k : Fin 512 => x1 (ix4 0 a b k)) (fun k d => x7 (ix2 k d)) (fun d => x8 (ix2 0 d)) c''
                      + Cert.Spec.up2 (H := 16) (W := 16) (by norm_num) (by norm_num)
                          (fun a' b' e => Cert.Spec.pw (fun k : Fin 1024 => x2 (ix4 0 a' b' k)) (fun k d => x3 (ix2 k d)) (fun d => x4 (ix2 0 d)) e) a b c'')
                  h' w' c')
          (fun dy k c' => x13 (ix3 dy k c')) (fun c' => x14 (ix2 0 c')) h w co := by
  unfold Gen.out0_15
  rw [View.canon_unit_zero hz4]
  simp only [View.ld_unit_zero (S := S1x16x16x1024) hz4, View.ld_unit_zero (S := S1024x128) hz2, View.ld_unit_zero (S := S1x128) hz2,
    View.ld_unit_zero (S := S1x32x32x512) hz4, View.ld_unit_zero (S := S512x128) hz2,
    View.ld_unit_zero (S := S1x64x64x256) hz4, View.ld_unit_zero (S := S256x128) hz2]
  refine (o3_apply (k0_pay8 (k0_pay2 x2 x3 x4) x1 x7 x8) x0 x11 x12 (View.ld x13 r0_3) (View.ld x13 r0_4) (View.ld x13 r0_5) x14 h w co).trans ?_
  refine conv_congr ?_ ?_ rfl h w co
  · funext h' w' c'
    refine add_up2_congr _ _ ?_ _ h' w' c'
    funext a b c''
    refine (p4_apply (k0_pay2 x2 x3 x4) x1 x7 x8 a b c'').trans ?_
    refine add_up2_congr _ _ ?_ _ a b c''
    funext a' b' e
    exact p5_apply x2 x3 x4 a' b' e
  · funext dy k c'
    match dy with
    | ⟨0, _⟩ => exact ld_tap0 x13 k c'
    | ⟨1, _⟩ => exact ld_tap1 x13 k c'
    | ⟨2, _⟩ => exact ld_tap2 x13 k c'

/-- On image `n`'s blocks that sum is `p3` of the argument arrays. -/
theorem p3_blocks (c : Dev nD) (n : Fin 4) :
    (fun (h' : Fin 64) (w' : Fin 64) (c' : Fin 128) =>
        Cert.Spec.pw (fun k : Fin 256 => (Gen.iblk m c 0 (tOf n) : S1x64x64x256.Idx → EReal) (ix4 0 h' w' k))
            (fun k c'' => (Gen.iblk m c 11 (tOf n) : S256x128.Idx → EReal) (ix2 k c''))
            (fun c'' => (Gen.iblk m c 12 (tOf n) : S1x128.Idx → EReal) (ix2 0 c'')) c'
          + Cert.Spec.up2 (H := 32) (W := 32) (by norm_num) (by norm_num)
              (fun (a : Fin 32) (b : Fin 32) (c'' : Fin 128) =>
                Cert.Spec.pw (fun k : Fin 512 => (Gen.iblk m c 1 (tOf n) : S1x32x32x512.Idx → EReal) (ix4 0 a b k))
                    (fun k d => (Gen.iblk m c 7 (tOf n) : S512x128.Idx → EReal) (ix2 k d))
                    (fun d => (Gen.iblk m c 8 (tOf n) : S1x128.Idx → EReal) (ix2 0 d)) c''
                  + Cert.Spec.up2 (H := 16) (W := 16) (by norm_num) (by norm_num)
                      (fun a' b' e => Cert.Spec.pw (fun k : Fin 1024 => (Gen.iblk m c 2 (tOf n) : S1x16x16x1024.Idx → EReal) (ix4 0 a' b' k))
                        (fun k d => (Gen.iblk m c 3 (tOf n) : S1024x128.Idx → EReal) (ix2 k d))
                        (fun d => (Gen.iblk m c 4 (tOf n) : S1x128.Idx → EReal) (ix2 0 d)) e) a b c'')
              h' w' c')
      = (kArgs m c).p3 n := by
  funext h' w' c'
  show _ = Cert.Spec.pw ((kArgs m c).c3 n h' w') (kArgs m c).w31 (kArgs m c).b3 c'
            + Cert.Spec.up2 (H := 32) (W := 32) (by norm_num) (by norm_num) ((kArgs m c).p4 n) h' w' c'
  refine (add_up2_congr _ _ (p4_blocks m c n) _ h' w' c').trans ?_
  refine congrArg (· + Cert.Spec.up2 (H := 32) (W := 32) (by norm_num) (by norm_num) ((kArgs m c).p4 n) h' w' c') ?_
  refine pw_congr ?_ ?_ ?_ c'
  · exact funext fun k => blk0_apply_arg m c n h' w' k
  · rw [blk11_eq m c (tOf n), v2_eq m c]; rfl
  · rw [blk12_eq m c (tOf n), v11_eq m c]; rfl

/-- The finest output array after the run. -/
theorem kern15 (c : Dev nD) (n : Fin 4) (h w : Fin 64) (co : Fin 128) :
    (Gen.dats (F := Ideal) m 0 c).arrAt 15 cfg0.N (ix4 n h w co) = (kArgs m c).o3 n h w co := by
  refine (arr15 m c n h w co).trans ?_
  refine (out15_apply (Gen.iblk m c 0 (tOf n)) (Gen.iblk m c 1 (tOf n)) (Gen.iblk m c 2 (tOf n)) (Gen.iblk m c 3 (tOf n)) (Gen.iblk m c 4 (tOf n)) (Gen.iblk m c 5 (tOf n)) (Gen.iblk m c 6 (tOf n)) (Gen.iblk m c 7 (tOf n)) (Gen.iblk m c 8 (tOf n)) (Gen.iblk m c 9 (tOf n)) (Gen.iblk m c 10 (tOf n)) (Gen.iblk m c 11 (tOf n)) (Gen.iblk m c 12 (tOf n)) (Gen.iblk m c 13 (tOf n)) (Gen.iblk m c 14 (tOf n)) h w co).trans ?_
  show _ = Cert.Spec.conv ((kArgs m c).p3 n) (kArgs m c).w32 (kArgs m c).b32 h w co
  refine conv_congr (p3_blocks m c n) ?_ ?_ h w co
  · rw [blk13_eq m c (tOf n), v8_eq_cast m c]; rfl
  · rw [blk14_eq m c (tOf n), v14_eq m c]; rfl

end Cert.KernelIdeal.Hand

end
-- ==== Proof.RefPw0.lean ====
/-
  Region 0 of the reference program: the 1x1 convolution of the coarsest level, one grid point.
  The body loads its three input windows whole (the 1024 x 1024 pixel-by-channel matrix, the 1024 x 128 weights, the
  1 x 128 bias), contracts the matrix with the weights into a zero accumulator, adds the bias broadcast along the rows,
  and stores the result whole. Here: the region's proof data at the buffer contents the region is entered with, the
  body's triple and obligation, and the output array after the region read at an index as the specification's `pw`.
-/
import proofs.«126699_g2000605867469428_pallasbulk_857_3_alg».proof.Proof.Gen.ReferenceIdeal.Launch
import proofs.«126699_g2000605867469428_pallasbulk_857_3_alg».proof.Proof.Gen.ReferenceIdeal.Skeleton
import proofs.«126699_g2000605867469428_pallasbulk_857_3_alg».proof.Proof.Gen.ReferenceIdeal.Points
import proofs.«126699_g2000605867469428_pallasbulk_857_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's buffer whole -/

abbrev rx0 : Rect S1024x1024 := Rect.unit (s := S1024x1024) ![0, 0] S1024x1024.size inb_S1024x1024_S1024x1024_0_0
abbrev rw0 : Rect S1024x128 := Rect.unit (s := S1024x128) ![0, 0] S1024x128.size inb_S1024x128_S1024x128_0_0
abbrev rb0 : Rect S1x128 := Rect.unit (s := S1x128) ![0, 0] S1x128.size inb_S1x128_S1x128_0_0

/-! ## What the body leaves in the output window's buffer -/

/-- The output's staging buffer after the body: its one store, of the payload of the three loads. -/
def out0_3 (x0 : Vec F S1024x1024 .f32) (x1 : Vec F S1024x128 .f32) (x2 : Vec F S1x128 .f32) : Vec F S1024x128 .bf16 :=
  View.canon [⟨rw0, k0_pay1 (View.ld x0 rx0) (View.ld x1 rw0) (View.ld x2 rb0)⟩]

/-- The store is of the whole buffer, so it covers it. -/
theorem cover0_3 (p0 : Vec F S1024x128 .bf16) (y : S1024x128.Idx) :
    ∃ pc ∈ ([⟨rw0, p0⟩] : List (View.Piece (Elt F) S1024x128 .bf16)), y ∈ pc.1.set :=
  View.cover_of_tiled [⟨rw0, p0⟩] S1024x128.size (by rfl) y

/-! ## The body's triple -/

set_option maxHeartbeats 1000000 in
/-- The body on whole staging memrefs, the inputs' at read contents and the output's at anything, runs to the
    continuation holding the inputs' as they were and the output's at `out0_3` of the inputs'. -/
theorem sound_kernel0 (c : Dev nD) (E : Set ℕ) (i : grid0.Coords) (arg1 : Memref sig .tc .vmem S1024x1024 .f32) (harg1 : arg1.IsWhole)
    (arg2 : Memref sig .tc .vmem S1024x128 .f32) (harg2 : arg2.IsWhole) (arg3 : Memref sig .tc .vmem S1x128 .f32) (harg3 : arg3.IsWhole)
    (arg4 : Memref sig .tc .vmem S1024x128 .bf16) (harg4 : arg4.IsWhole)
    (x0 : Vec F S1024x1024 .f32) (x1 : Vec F S1024x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__pw_kernel i arg1 harg1 arg2 harg2 arg3 harg3 arg4 harg4) K := by
  simp only [cc0__pw_kernel_eq_skeleton]; unfold cc0__pw_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The region's proof data -/

/-- The proof data of region 0 on core `c`: the arrays as the region finds them; after the body each input's buffer at
    its block and the output's at `out0_3` of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # The value: the output array after the region, at an index -/

section Value
open Idealize.ShloMosaic.ValueIdx

/-! ## The payload at an index -/

/-- The matrix product's left operand index on its row axis is the output's row, -/
theorem lhs0_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl
/-- on its column axis the contracted coordinate; -/
theorem lhs0_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
/-- the right operand's row is the contracted coordinate, -/
theorem rhs0_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
/-- its column the output's column. -/
theorem rhs0_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- The contraction of region 0's matrix product at an output index, over the one contracted coordinate. -/
theorem mm0_apply (a : FVec Ideal S1024x1024 .f32) (b : FVec Ideal S1024x128 .f32) (r : Fin 1024) (co : Fin 128) :
    FloatOps.matmul dot_S1024x1024_S1024x128_S1024x128_1_0_0_1_n_n none a b (constant S1024x128 .f32 0x00000000#32) (ix2 r co)
      = ∑ k : Fin 1024, a (ix2 r k) * b (ix2 k co) := by
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 r co) ((contrEquiv1 dot_S1024x1024_S1024x128_S1024x128_1_0_0_1_n_n 1024 rfl rfl).symm k) = ix2 r k :=
    funext fun ax => Fin.ext (by
      match ax with
      | ⟨0, _⟩ => exact lhs0_0 _ _
      | ⟨1, _⟩ => exact (lhs0_1 _ _).trans hk)
  have er : dot_S1024x1024_S1024x128_S1024x128_1_0_0_1_n_n.rhsIdx (ix2 r co) ((contrEquiv1 dot_S1024x1024_S1024x128_S1024x128_1_0_0_1_n_n 1024 rfl rfl).symm k) = ix2 k co :=
    funext fun ax => Fin.ext (by
      match ax with
      | ⟨0, _⟩ => exact (rhs0_0 _ _).trans hk
      | ⟨1, _⟩ => exact rhs0_1 _ _)
  rw [el, er]

/-- The bias row broadcast along the 1024 rows, at an index. -/
theorem bias0_apply (x2 : FVec Ideal S1x128 .f32) (r : Fin 1024) (co : Fin 128) :
    broadcastTo S1024x128 x2 broadcasts_S1x128_S1024x128 (ix2 r co) = x2 (ix2 0 co) :=
  broadcastTo_apply x2 broadcasts_S1x128_S1024x128 (ix2 r co) (ix2 0 co) (fun a => by
    match a with
    | ⟨0, _⟩ => rfl
    | ⟨1, _⟩ => rfl)

/-- Region 0's payload at an index: the pixel's channels contracted with the weights, plus the bias. -/
theorem pay0_apply (x0 : Vec Ideal S1024x1024 .f32) (x1 : Vec Ideal S1024x128 .f32) (x2 : Vec Ideal S1x128 .f32) (r : Fin 1024) (co : Fin 128) :
    k0_pay1 x0 x1 x2 (ix2 r co) = (∑ k : Fin 1024, x0 (ix2 r k) * x1 (ix2 k co)) + x2 (ix2 0 co) := by
  unfold k0_pay1
  simp only [shapeCast_self, matmul]
  rw [truncf_apply, addf_apply, mm0_apply, bias0_apply]

/-- The same over named arrays: where the three loaded blocks are rows of arrays `a0`, `a1`, `a2`, the payload is the
    specification's 1x1 convolution of those arrays. -/
theorem pay0_spec (x0 : Vec Ideal S1024x1024 .f32) (x1 : Vec Ideal S1024x128 .f32) (x2 : Vec Ideal S1x128 .f32)
    (a0 : S1024x1024.Idx → EReal) (a1 : S1024x128.Idx → EReal) (a2 : S1x128.Idx → EReal)
    (p : Fin 1024) (q : Fin 128) (r : Fin 1024) (co : Fin 128)
    (h0 : ∀ k : Fin 1024, x0 (ix2 p k) = a0 (ix2 r k)) (h1 : ∀ k : Fin 1024, x1 (ix2 k q) = a1 (ix2 k co))
    (h2 : x2 (ix2 0 q) = a2 (ix2 0 co)) :
    k0_pay1 x0 x1 x2 (ix2 p q)
      = Cert.Spec.pw (fun k : Fin 1024 => a0 (ix2 r k)) (fun k co' => a1 (ix2 k co')) (fun co' => a2 (ix2 0 co')) co := by
  rw [pay0_apply, h2]
  unfold Cert.Spec.pw
  exact congrArg (· + a2 (ix2 0 co)) (Finset.sum_congr rfl fun k _ => by rw [h0 k, h1 k])

/-! ## From the block to the array -/

variable (W : (c : Dev nD) → (b : Ref sig .tc) → Buf (Elt Ideal) ((c : Thread nD τ).loc b))

theorem hz0 : (![0, 0] : Fin 2 → Nat) = fun _ => 0 := funext fun a => by fin_cases a <;> rfl

/-- The output array as one function of the arrays the region finds: row `r`, channel `co` is the 1x1 convolution of
    row `r` of the pixel matrix. -/
def G0 (c : Dev nD) : S1024x128.Idx → EReal := fun i =>
  Cert.Spec.pw (fun k : Fin 1024 => W c main_v0 (ix2 (i 0 : Fin 1024) k)) (fun k co' => W c main_arg3 (ix2 k co'))
    (fun co' => W c main_v1 (ix2 0 co')) (i 1 : Fin 128)

/-- The one grid point's blocks all start at the arrays' origins. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The pixel matrix's block read at an index is the array at that index. -/
theorem iblk0_0_apply (c : Dev nD) (t : Fin cfg0.N) (x k : S1024x1024.Idx)
    (hk0 : (k 0).val = (x 0).val) (hk1 : (k 1).val = (x 1).val) :
    (iblk0 W c 0 t : Vec Ideal S1024x1024 .f32) x = W c main_v0 k := by
  obtain ⟨e0, e1, -⟩ := idx_facts0 t
  unfold iblk0
  rw [View.read_apply]
  show W c main_v0 _ = W c main_v0 _
  refine congrArg _ ?_
  funext a
  apply Fin.ext
  match a with
  | ⟨0, _⟩ => show win0_0.index t (0 : Fin 2) * 1024 + 1 * (x 0).val = (k 0).val; omega
  | ⟨1, _⟩ => show win0_0.index t (1 : Fin 2) * 1024 + 1 * (x 1).val = (k 1).val; omega

/-- The weights' block likewise, -/
theorem iblk0_1_apply (c : Dev nD) (t : Fin cfg0.N) (x k : S1024x128.Idx)
    (hk0 : (k 0).val = (x 0).val) (hk1 : (k 1).val = (x 1).val) :
    (iblk0 W c 1 t : Vec Ideal S1024x128 .f32) x = W c main_arg3 k := by
  obtain ⟨-, -, e0, e1, -⟩ := idx_facts0 t
  unfold iblk0
  rw [View.read_apply]
  show W c main_arg3 _ = W c main_arg3 _
  refine congrArg _ ?_
  funext a
  apply Fin.ext
  match a with
  | ⟨0, _⟩ => show win0_1.index t (0 : Fin 2) * 1024 + 1 * (x 0).val = (k 0).val; omega
  | ⟨1, _⟩ => show win0_1.index t (1 : Fin 2) * 128 + 1 * (x 1).val = (k 1).val; omega

/-- and the bias row's. -/
theorem iblk0_2_apply (c : Dev nD) (t : Fin cfg0.N) (x k : S1x128.Idx)
    (hk0 : (k 0).val = (x 0).val) (hk1 : (k 1).val = (x 1).val) :
    (iblk0 W c 2 t : Vec Ideal S1x128 .f32) x = W c main_v1 k := by
  obtain ⟨-, -, -, -, e0, e1, -⟩ := idx_facts0 t
  unfold iblk0
  rw [View.read_apply]
  show W c main_v1 _ = W c main_v1 _
  refine congrArg _ ?_
  funext a
  apply Fin.ext
  match a with
  | ⟨0, _⟩ => show win0_2.index t (0 : Fin 2) * 1 + 1 * (x 0).val = (k 0).val; omega
  | ⟨1, _⟩ => show win0_2.index t (1 : Fin 2) * 128 + 1 * (x 1).val = (k 1).val; omega

/-- What the point writes back is its block of `G0`. -/
theorem flushed0_eq (c : Dev nD) (t : Fin cfg0.N) :
    (dat0 W c).flushed 3 t = ((cfg0.win 3).blk t).view.read (Elt Ideal) (G0 W c) := by
  show (cfg0.win 3).cut (grid0.coords t) ((dat0 W c).after 3 t) = _
  rw [after0_3]
  unfold out0_3
  rw [View.canon_unit_zero hz0]
  simp only [View.ld_unit_zero (S := S1024x1024) hz0, View.ld_unit_zero (S := S1024x128) hz0, View.ld_unit_zero (S := S1x128) hz0]
  obtain ⟨-, -, -, -, -, -, e0, e1⟩ := idx_facts0 t
  funext j
  obtain ⟨p, q, rfl⟩ : ∃ (p : Fin 1024) (q : Fin 128), j = ix2 p q := ⟨j 0, j 1, eq_ix2 j⟩
  have hemb : ((cfg0.win 3).blk t).view.emb (ix2 p q) = (ix2 p q : S1024x128.Idx) := by
    funext a
    apply Fin.ext
    match a with
    | ⟨0, _⟩ => show win0_3.index t (0 : Fin 2) * 1024 + 1 * p.val = p.val; omega
    | ⟨1, _⟩ => show win0_3.index t (1 : Fin 2) * 128 + 1 * q.val = q.val; omega
  show k0_pay1 (iblk0 W c 0 t) (iblk0 W c 1 t) (iblk0 W c 2 t) (ix2 p q) = G0 W c (((cfg0.win 3).blk t).view.emb (ix2 p q))
  rw [hemb]
  exact pay0_spec _ _ _ (W c main_v0) (W c main_arg3) (W c main_v1) p q p q
    (fun k => iblk0_0_apply W c t _ _ rfl rfl) (fun k => iblk0_1_apply W c t _ _ rfl rfl) (iblk0_2_apply W c t _ _ rfl rfl)

/-- An index of the output array is in point `t`'s block iff each coordinate is in the block's range on its axis. -/
theorem mem_blk0 (t : Fin cfg0.N) (i : S1024x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v2).slice (win0_3.rect t)).set ↔ _
  rw [View.set_slice_whole, Rect.mem_set_unit]
  exact Iff.rfl

/-- The one block covers the array. -/
theorem cover0 (i : S1024x128.Idx) : ∃ t : Fin cfg0.N, (cfg0.win 3).flush t = true ∧ i ∈ ((cfg0.win 3).blk t).view.set := by
  refine ⟨t0_0, flush0_3 t0_0, ?_⟩
  rw [mem_blk0]
  obtain ⟨-, -, -, -, -, -, e0, e1⟩ := idx_facts0 t0_0
  have hi0 : (i 0).val < 1024 := (i 0).isLt
  have hi1 : (i 1).val < 128 := (i 1).isLt
  intro a
  match a with
  | ⟨0, _⟩ => show win0_3.index t0_0 (0 : Fin 2) * 1024 ≤ (i 0).val ∧ (i 0).val < win0_3.index t0_0 (0 : Fin 2) * 1024 + 1024; omega
  | ⟨1, _⟩ => show win0_3.index t0_0 (1 : Fin 2) * 128 ≤ (i 1).val ∧ (i 1).val < win0_3.index t0_0 (1 : Fin 2) * 128 + 128; omega

/-- So the output array ends holding `G0`. -/
theorem arr0_eq (c : Dev nD) : (dat0 W c).arrAt 3 cfg0.N = G0 W c :=
  (dat0 W c).arrAt_eq_of_cover 3 (G0 W c) (fun t _ => flushed0_eq W c t) cover0

/-- The output array after region 0, at row `r` and channel `co`: the 1x1 convolution of row `r` of the pixel matrix with
    the weights, plus the bias. -/
theorem final0 (c : Dev nD) (r : Fin 1024) (co : Fin 128) :
    (dat0 (F := Ideal) W c).arrAt 3 cfg0.N (ValueIdx.ix2 r co)
      = Cert.Spec.pw (fun k : Fin 1024 => W c main_v0 (ValueIdx.ix2 r k)) (fun k co' => W c main_arg3 (ValueIdx.ix2 k co'))
          (fun co' => W c main_v1 (ValueIdx.ix2 0 co')) co := by
  rw [arr0_eq]
  rfl

end Value

end Cert.ReferenceIdeal.Hand

end
-- ==== Proof.RefConv1.lean ====
/-
  Region 1 of the reference: the 3x3 convolution (stride 1, zero padding 1) of the 16x16-pixel level, one image per
  grid point. This module states what the kernel's body does to the buffers it is handed — the image, the weights and
  the bias are left as found, the output block is stored whole, the column-patch scratch is rewritten — and from that
  the proof data the pipeline's launch theorem asks for.
-/
import proofs.«126699_g2000605867469428_pallasbulk_857_3_alg».proof.Proof.Gen.ReferenceIdeal.Launch
import proofs.«126699_g2000605867469428_pallasbulk_857_3_alg».proof.Proof.Gen.ReferenceIdeal.Skeleton
import proofs.«126699_g2000605867469428_pallasbulk_857_3_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the 3x3 convolution at 16x16 pixels, at the entry contents `V`

The kernel takes one image (16x16 pixels, 128 channels), the three taps' weights (3 x 384 x 128) and the bias, and a
scratch buffer of 16 x 16 x 384 numbers that holds, for one vertical tap at a time, every pixel's column patch (the
channels of the left neighbour, the pixel and the right neighbour side by side, zero outside the image). The scratch
is the kernel's own: it enters each grid point at contents nobody names and leaves at contents nobody names. -/

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The image window's staging buffer holds the point's image, for any proof data whose array is `V`'s and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' window is fetched once, at the first point; its block index never moves, so its buffer holds the
    whole weight array at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the bias. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body on any staging memrefs -/

/-- Each window's current staging memref at point `t`, and its wholeness. -/
abbrev ms1_0 (t : Fin cfg1.N) : Memref sig .tc .vmem S1x16x16x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x384x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x16x16x128 .f32 := win1_3.stage (cfg1.slots t 3)
abbrev hs1_3 (t : Fin cfg1.N) : (ms1_3 t).IsWhole := hstage1_3 ((cfg1.slots t 3).cast nbuf1_3)
/-- The column-patch scratch: a whole scoped buffer of the kernel's own. -/
abbrev scM1_0 : Memref sig .tc .vmem S16x16x384 .f32 := Memref.whole cc1_scratch0

/-- The class's invariant with the column-patch scratch as a memref owned at some contents, the other scoped buffers
    carried unopened. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

set_option maxHeartbeats 4000000 in
/-- What the body's stores leave in the output's staging memref and in the scratch, as pieces (last store first), with
    the proof that on whole memrefs — the image, the weights and the bias at their contents, the output and the
    scratch at anything — the body runs to the continuation holding the inputs as they were and the two written
    buffers with their pieces. Every load of the scratch that feeds a product comes after stores that cover the
    whole scratch, so the pieces mention no prior contents. -/
noncomputable def kernelRun1 (c : Dev nD) (i : grid1.Coords)
    (arg1 : Memref sig .tc .vmem S1x16x16x128 .bf16) (harg1 : arg1.IsWhole)
    (arg2 : Memref sig .tc .vmem S3x384x128 .bf16) (harg2 : arg2.IsWhole)
    (arg3 : Memref sig .tc .vmem S1x128 .f32) (harg3 : arg3.IsWhole)
    (arg4 : Memref sig .tc .vmem S1x16x16x128 .f32) (harg4 : arg4.IsWhole)
    (arg5 : Memref sig .tc .vmem S16x16x384 .f32) (harg5 : arg5.IsWhole)
    (x0 : Vec F S1x16x16x128 .bf16) (x1 : Vec F S3x384x128 .bf16) (x2 : Vec F S1x128 .f32) :
    Σ' (L3 : List (View.Piece (Elt F) S1x16x16x128 .f32)), { LS0 : List (View.Piece (Elt F) S16x16x384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc1__conv3x3_kernel i arg1 harg1 arg2 harg2 arg3 harg3 arg4 harg4 arg5 harg5) K } := by
  refine ⟨?_, ?_, fun E K => ?run⟩
  case run =>
    simp only [cc1__conv3x3_kernel_eq_skeleton]; unfold cc1__conv3x3_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact HS0

/-- The output's one store is of its whole block, so it covers it. -/
theorem cover1_3 (c : Dev nD) (i : grid1.Coords)
    (arg1 : Memref sig .tc .vmem S1x16x16x128 .bf16) (harg1 : arg1.IsWhole)
    (arg2 : Memref sig .tc .vmem S3x384x128 .bf16) (harg2 : arg2.IsWhole)
    (arg3 : Memref sig .tc .vmem S1x128 .f32) (harg3 : arg3.IsWhole)
    (arg4 : Memref sig .tc .vmem S1x16x16x128 .f32) (harg4 : arg4.IsWhole)
    (arg5 : Memref sig .tc .vmem S16x16x384 .f32) (harg5 : arg5.IsWhole)
    (x0 : Vec F S1x16x16x128 .bf16) (x1 : Vec F S3x384x128 .bf16) (x2 : Vec F S1x128 .f32) (y : S1x16x16x128.Idx) :
    ∃ pc ∈ (kernelRun1 c i arg1 harg1 arg2 harg2 arg3 harg3 arg4 harg4 arg5 harg5 x0 x1 x2).1, y ∈ pc.1.set :=
  View.cover_of_tiledL (kernelRun1 c i arg1 harg1 arg2 harg2 arg3 harg3 arg4 harg4 arg5 harg5 x0 x1 x2).1 S1x16x16x128.size (by sl_kernel_rfl) y

/-- What the body leaves in the output's staging buffer: its pieces' contents. -/
def out1_3 (c : Dev nD) (i : grid1.Coords)
    (arg1 : Memref sig .tc .vmem S1x16x16x128 .bf16) (harg1 : arg1.IsWhole)
    (arg2 : Memref sig .tc .vmem S3x384x128 .bf16) (harg2 : arg2.IsWhole)
    (arg3 : Memref sig .tc .vmem S1x128 .f32) (harg3 : arg3.IsWhole)
    (arg4 : Memref sig .tc .vmem S1x16x16x128 .f32) (harg4 : arg4.IsWhole)
    (arg5 : Memref sig .tc .vmem S16x16x384 .f32) (harg5 : arg5.IsWhole)
    (x0 : Vec F S1x16x16x128 .bf16) (x1 : Vec F S3x384x128 .bf16) (x2 : Vec F S1x128 .f32) : Vec F S1x16x16x128 .f32 :=
  View.canon (kernelRun1 c i arg1 harg1 arg2 harg2 arg3 harg3 arg4 harg4 arg5 harg5 x0 x1 x2).1

/-- The same at point `t`: on the point's staging memrefs and the point's blocks. -/
def outAt1 (c : Dev nD) (t : Fin cfg1.N) : Vec F S1x16x16x128 .f32 :=
  out1_3 c (grid1.coords t) (ms1_0 t) (hs1_0 t) (ms1_1 t) (hs1_1 t) (ms1_2 t) (hs1_2 t) (ms1_3 t) (hs1_3 t) scM1_0 (Memref.isWhole_whole _)
    (iblk1 V c 0 t) (iblk1 V c 1 t) (iblk1 V c 2 t)

/-! ## The pipeline's proof data -/

/-- The proof data of region 1 on core `c`: the arrays as the region finds them; after the body at point `t` each
    input's buffer at its block and the output's at what the body leaves; the class's invariant (the scoped rest, the
    scratch among it at anything, and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 2000000 in
/-- The body at any point: the inputs' memrefs hold their blocks, the invariant hands the body its scratch at some
    contents and takes it back at whatever the body leaves in it; the rest of the invariant and what the core owes
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  unfold outAt1 out1_3
  iintro ⟨⟨⟨HS0, HR⟩, Hg⟩, Ho, ⟨%d0, H0⟩, ⟨%d1, H1⟩, ⟨%d2, H2⟩, ⟨%d3, H3⟩⟩
  iapply ((kernelRun1 c (grid1.coords t) _ _ _ _ _ _ _ _ _ _ (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HS0 HR Hg]
  · isplitl [HS0 HR]
    · isplitl [HS0]
      · iexists _; unfold owns; iexists _; isplitr
        swap; · iexact HS0
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_eq_canon _ _ _ (cover1_3 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.ReferenceIdeal.Hand
end
-- ==== Proof.RefPw2.lean ====
/-
  Region 2 of the reference program: the 1x1 convolution of the middle level with the level above added, upsampled.
  At each grid point the body loads 1024 rows of the 4096 x 512 pixel-by-channel matrix, the 512 x 128 weights, the 1 x 128
  bias and 16 rows of the coarser level's image (64 rows of 32 pixels in all), contracts the rows with the weights into a
  zero accumulator, adds the bias broadcast along the rows, adds the coarse rows each repeated twice (the coarse image was
  already widened by the host), and stores the 1024 x 128 result whole. Here: the region's proof data at the buffer
  contents the region is entered with, the body's triple and obligation, and the output array after the region read at an
  index as the specification's `pw` plus the coarse image's entry.
-/
import proofs.«126699_g2000605867469428_pallasbulk_857_3_alg».proof.Proof.Gen.ReferenceIdeal.Launch
import proofs.«126699_g2000605867469428_pallasbulk_857_3_alg».proof.Proof.Gen.ReferenceIdeal.Skeleton
import proofs.«126699_g2000605867469428_pallasbulk_857_3_alg».proof.Proof.Gen.ReferenceIdeal.Points
import proofs.«126699_g2000605867469428_pallasbulk_857_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window's buffer whole -/

abbrev rx2 : Rect S1024x512 := Rect.unit (s := S1024x512) ![0, 0] S1024x512.size inb_S1024x512_S1024x512_0_0
abbrev rw2 : Rect S512x128 := Rect.unit (s := S512x128) ![0, 0] S512x128.size inb_S512x128_S512x128_0_0
abbrev rb2 : Rect S1x128 := Rect.unit (s := S1x128) ![0, 0] S1x128.size inb_S1x128_S1x128_0_0
abbrev rr2 : Rect S16x32x128 := Rect.unit (s := S16x32x128) ![0, 0, 0] S16x32x128.size inb_S16x32x128_S16x32x128_0_0_0
abbrev ro2 : Rect S1024x128 := Rect.unit (s := S1024x128) ![0, 0] S1024x128.size inb_S1024x128_S1024x128_0_0

/-! ## What the body leaves in the output window's buffer -/

/-- The output's staging buffer after the body: its one store, of the payload of the four loads. -/
def out2_4 (x0 : Vec F S1024x512 .f32) (x1 : Vec F S512x128 .f32) (x2 : Vec F S1x128 .f32) (x3 : Vec F S16x32x128 .bf16) : Vec F S1024x128 .bf16 :=
  View.canon [⟨ro2, k2_pay1 (View.ld x0 rx2) (View.ld x1 rw2) (View.ld x2 rb2) (View.ld x3 rr2)⟩]

/-- The store is of the whole buffer, so it covers it. -/
theorem cover2_4 (p0 : Vec F S1024x128 .bf16) (y : S1024x128.Idx) :
    ∃ pc ∈ ([⟨ro2, p0⟩] : List (View.Piece (Elt F) S1024x128 .bf16)), y ∈ pc.1.set :=
  View.cover_of_tiled [⟨ro2, p0⟩] S1024x128.size (by rfl) y

/-! ## The body's triple -/

set_option maxHeartbeats 1000000 in
/-- The body on whole staging memrefs, the inputs' at read contents and the output's at anything, runs to the
    continuation holding the inputs' as they were and the output's at `out2_4` of the inputs'. -/
theorem sound_kernel2 (c : Dev nD) (E : Set ℕ) (i : grid2.Coords) (arg2 : Memref sig .tc .vmem S1024x512 .f32) (harg2 : arg2.IsWhole)
    (arg3 : Memref sig .tc .vmem S512x128 .f32) (harg3 : arg3.IsWhole) (arg4 : Memref sig .tc .vmem S1x128 .f32) (harg4 : arg4.IsWhole)
    (arg5 : Memref sig .tc .vmem S16x32x128 .bf16) (harg5 : arg5.IsWhole) (arg6 : Memref sig .tc .vmem S1024x128 .bf16) (harg6 : arg6.IsWhole)
    (x0 : Vec F S1024x512 .f32) (x1 : Vec F S512x128 .f32) (x2 : Vec F S1x128 .f32) (x3 : Vec F S16x32x128 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2__pw_upres_kernel i arg2 harg2 arg3 harg3 arg4 harg4 arg5 harg5 arg6 harg6) K := by
  simp only [cc2__pw_upres_kernel_eq_skeleton]; unfold cc2__pw_upres_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover2_4 _)

/-! ## The region's proof data -/

/-- The proof data of region 2 on core `c`: the arrays as the region finds them; after the body each input's buffer at
    its block and the output's at `out2_4` of the input blocks; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # The value: the output array after the region, at an index -/

section Value
open Idealize.ShloMosaic.ValueIdx

/-! ## The payload at an index -/

/-- The matrix product's left operand index on its row axis is the output's row, -/
theorem lhs2_0 (i : S1024x128.Idx) (q : dot_S1024x512_S512x128_S1024x128_1_0_0_1_n_n.contr.Idx) :
    (dot_S1024x512_S512x128_S1024x128_1_0_0_1_n_n.lhsIdx i q 0).val = (i 0).val := by
  unfold DotDims.lhsIdx
  rw [dif_neg (show ¬(0 : Fin S1024x512.rank) ∈ dot_S1024x512_S512x128_S1024x128_1_0_0_1_n_n.lhsBatch by decide),
    dif_pos (show (0 : Fin S1024x512.rank) ∈ dot_S1024x512_S512x128_S1024x128_1_0_0_1_n_n.lhsNonContracting by decide)]
  rfl
/-- on its column axis the contracted coordinate; -/
theorem lhs2_1 (i : S1024x128.Idx) (q : dot_S1024x512_S512x128_S1024x128_1_0_0_1_n_n.contr.Idx) :
    (dot_S1024x512_S512x128_S1024x128_1_0_0_1_n_n.lhsIdx i q 1).val = (q ⟨0, by decide⟩).val :=
  dot_S1024x512_S512x128_S1024x128_1_0_0_1_n_n.lhsIdx_val_of_single rfl i q
/-- the right operand's row is the contracted coordinate, -/
theorem rhs2_0 (i : S1024x128.Idx) (q : dot_S1024x512_S512x128_S1024x128_1_0_0_1_n_n.contr.Idx) :
    (dot_S1024x512_S512x128_S1024x128_1_0_0_1_n_n.rhsIdx i q 0).val = (q ⟨0, by decide⟩).val :=
  dot_S1024x512_S512x128_S1024x128_1_0_0_1_n_n.rhsIdx_val_of_single rfl i q
/-- its column the output's column. -/
theorem rhs2_1 (i : S1024x128.Idx) (q : dot_S1024x512_S512x128_S1024x128_1_0_0_1_n_n.contr.Idx) :
    (dot_S1024x512_S512x128_S1024x128_1_0_0_1_n_n.rhsIdx i q 1).val = (i 1).val := by
  unfold DotDims.rhsIdx
  rw [dif_neg (show ¬(1 : Fin S512x128.rank) ∈ dot_S1024x512_S512x128_S1024x128_1_0_0_1_n_n.rhsBatch by decide),
    dif_pos (show (1 : Fin S512x128.rank) ∈ dot_S1024x512_S512x128_S1024x128_1_0_0_1_n_n.rhsNonContracting by decide)]
  rfl

/-- The contraction of region 2's matrix product at an output index, over the one contracted coordinate. -/
theorem mm2_apply (a : FVec Ideal S1024x512 .f32) (b : FVec Ideal S512x128 .f32) (r : Fin 1024) (co : Fin 128) :
    FloatOps.matmul dot_S1024x512_S512x128_S1024x128_1_0_0_1_n_n none a b (constant S1024x128 .f32 0x00000000#32) (ix2 r co)
      = ∑ k : Fin 512, a (ix2 r k) * b (ix2 k co) := by
  rw [Ideal.matmul_constant_zero_apply, ← Equiv.sum_comp (contrEquiv1 dot_S1024x512_S512x128_S1024x128_1_0_0_1_n_n 512 rfl rfl).symm]
  refine Finset.sum_congr rfl fun k _ => ?_
  have hk := contrEquiv1_symm_val dot_S1024x512_S512x128_S1024x128_1_0_0_1_n_n 512 rfl rfl k
  have el : dot_S1024x512_S512x128_S1024x128_1_0_0_1_n_n.lhsIdx (ix2 r co) ((contrEquiv1 dot_S1024x512_S512x128_S1024x128_1_0_0_1_n_n 512 rfl rfl).symm k) = ix2 r k :=
    funext fun ax => Fin.ext (by
      match ax with
      | ⟨0, _⟩ => exact lhs2_0 _ _
      | ⟨1, _⟩ => exact (lhs2_1 _ _).trans hk)
  have er : dot_S1024x512_S512x128_S1024x128_1_0_0_1_n_n.rhsIdx (ix2 r co) ((contrEquiv1 dot_S1024x512_S512x128_S1024x128_1_0_0_1_n_n 512 rfl rfl).symm k) = ix2 k co :=
    funext fun ax => Fin.ext (by
      match ax with
      | ⟨0, _⟩ => exact (rhs2_0 _ _).trans hk
      | ⟨1, _⟩ => exact rhs2_1 _ _)
  rw [el, er]

/-- The bias row broadcast along the 1024 rows, at an index. -/
theorem bias2_apply (x2 : FVec Ideal S1x128 .f32) (r : Fin 1024) (co : Fin 128) :
    broadcastTo S1024x128 x2 broadcasts_S1x128_S1024x128 (ix2 r co) = x2 (ix2 0 co) :=
  broadcastTo_apply x2 broadcasts_S1x128_S1024x128 (ix2 r co) (ix2 0 co) (fun a => by
    match a with
    | ⟨0, _⟩ => rfl
    | ⟨1, _⟩ => rfl)

/-- The 16 coarse rows, each repeated twice and laid out as 1024 rows of pixels, at an index: row `p` is pixel
    `p % 32` of coarse row `p / 64`. -/
theorem res2_apply (x3 : FVec Ideal S16x32x128 .f32) (p : Fin 1024) (q : Fin 128) :
    shapeCast S1024x128 (broadcastTo S16x2x32x128 (shapeCast S16x1x32x128 x3 shapeCasts_S16x32x128_S16x1x32x128) broadcasts_S16x1x32x128_S16x2x32x128)
        shapeCasts_S16x2x32x128_S1024x128 (ix2 p q)
      = x3 (ix3 (⟨p.val / 64, by omega⟩ : Fin 16) (⟨p.val % 32, by omega⟩ : Fin 32) q) := by
  refine (shapeCast_apply _ shapeCasts_S16x2x32x128_S1024x128 (ix2 p q)
    (ix4 (⟨p.val / 64, by omega⟩ : Fin 16) (⟨p.val / 32 % 2, by omega⟩ : Fin 2) (⟨p.val % 32, by omega⟩ : Fin 32) q) (by
      rw [Shape.rowMajor_val_four, Shape.rowMajor_val_two]
      show ((p.val / 64 * 2 + p.val / 32 % 2) * 32 + p.val % 32) * 128 + q.val = p.val * 128 + q.val
      omega)).trans ?_
  refine (broadcastTo_apply _ broadcasts_S16x1x32x128_S16x2x32x128 _
    (ix4 (⟨p.val / 64, by omega⟩ : Fin 16) (0 : Fin 1) (⟨p.val % 32, by omega⟩ : Fin 32) q) (fun a => by
      match a with
      | ⟨0, _⟩ => rfl
      | ⟨1, _⟩ => rfl
      | ⟨2, _⟩ => rfl
      | ⟨3, _⟩ => rfl)).trans ?_
  exact shapeCast_apply _ shapeCasts_S16x32x128_S16x1x32x128 _ _ (by
    rw [Shape.rowMajor_val_three, Shape.rowMajor_val_four]
    show (p.val / 64 * 32 + p.val % 32) * 128 + q.val = ((p.val / 64 * 1 + 0) * 32 + p.val % 32) * 128 + q.val
    omega)

/-- Region 2's payload at an index: the pixel's channels contracted with the weights, plus the bias, plus the coarse
    image's entry above it. -/
theorem pay2_apply (x0 : Vec Ideal S1024x512 .f32) (x1 : Vec Ideal S512x128 .f32) (x2 : Vec Ideal S1x128 .f32) (x3 : Vec Ideal S16x32x128 .bf16)
    (p : Fin 1024) (q : Fin 128) :
    k2_pay1 x0 x1 x2 x3 (ix2 p q) = ((∑ k : Fin 512, x0 (ix2 p k) * x1 (ix2 k q)) + x2 (ix2 0 q))
      + x3 (ix3 (⟨p.val / 64, by omega⟩ : Fin 16) (⟨p.val % 32, by omega⟩ : Fin 32) q) := by
  unfold k2_pay1
  simp only [shapeCast_self, matmul]
  rw [truncf_apply, addf_apply, addf_apply, mm2_apply, bias2_apply, res2_apply, extf_apply]

/-- The same over named arrays: where the four loaded blocks are rows of arrays `a0` … `a3`, the payload is the
    specification's 1x1 convolution of those arrays plus `a3`'s entry. -/
theorem pay2_spec (x0 : Vec Ideal S1024x512 .f32) (x1 : Vec Ideal S512x128 .f32) (x2 : Vec Ideal S1x128 .f32) (x3 : Vec Ideal S16x32x128 .bf16)
    (a0 : S4096x512.Idx → EReal) (a1 : S512x128.Idx → EReal) (a2 : S1x128.Idx → EReal) (a3 : S64x32x128.Idx → EReal)
    (p : Fin 1024) (q : Fin 128) (r : Fin 4096) (co : Fin 128) (hr : Fin 64) (wc : Fin 32)
    (h0 : ∀ k : Fin 512, x0 (ix2 p k) = a0 (ix2 r k)) (h1 : ∀ k : Fin 512, x1 (ix2 k q) = a1 (ix2 k co))
    (h2 : x2 (ix2 0 q) = a2 (ix2 0 co))
    (h3 : x3 (ix3 (⟨p.val / 64, by omega⟩ : Fin 16) (⟨p.val % 32, by omega⟩ : Fin 32) q) = a3 (ix3 hr wc co)) :
    k2_pay1 x0 x1 x2 x3 (ix2 p q)
      = Cert.Spec.pw (fun k : Fin 512 => a0 (ix2 r k)) (fun k co' => a1 (ix2 k co')) (fun co' => a2 (ix2 0 co')) co
        + a3 (ix3 hr wc co) := by
  rw [pay2_apply, h2, h3]
  unfold Cert.Spec.pw
  exact congrArg (fun s => s + a2 (ix2 0 co) + a3 (ix3 hr wc co)) (Finset.sum_congr rfl fun k _ => by rw [h0 k, h1 k])

/-! ## From the blocks to the array -/

variable (W : (c : Dev nD) → (b : Ref sig .tc) → Buf (Elt Ideal) ((c : Thread nD τ).loc b))

theorem hz2_2 : (![0, 0] : Fin 2 → Nat) = fun _ => 0 := funext fun a => by fin_cases a <;> rfl
theorem hz2_3 : (![0, 0, 0] : Fin 3 → Nat) = fun _ => 0 := funext fun a => by fin_cases a <;> rfl

/-- The output array as one function of the arrays the region finds: row `r`, channel `co` is the 1x1 convolution of
    row `r` of the pixel matrix plus the coarse image at row `r / 64`, pixel `r % 32`. -/
def G2 (c : Dev nD) : S4096x128.Idx → EReal := fun i =>
  Cert.Spec.pw (fun k : Fin 512 => W c main_v20 (ix2 (i 0 : Fin 4096) k)) (fun k co' => W c main_arg7 (ix2 k co'))
      (fun co' => W c main_v21 (ix2 0 co')) (i 1 : Fin 128)
    + W c main_v19 (ix3 (⟨(i 0).val / 64, by have := (show (i 0).val < 4096 from (i 0).isLt); omega⟩ : Fin 64)
        (⟨(i 0).val % 32, by omega⟩ : Fin 32) (i 1 : Fin 128))

/-- The printed index maps, decided over the grid: the pixel rows' block and the coarse rows' block move with the
    output's block, the weights and the bias stay, and the output's block index stays in range. -/
theorem idx_facts2 : ∀ t : Fin cfg2.N, win2_0.index t (0 : Fin 2) = win2_4.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = win2_4.index t (0 : Fin 2) ∧ win2_3.index t (1 : Fin 3) = 0 ∧ win2_3.index t (2 : Fin 3) = 0
    ∧ win2_4.index t (0 : Fin 2) ≤ 3 ∧ win2_4.index t (1 : Fin 2) = 0 :=
  (by decide +kernel : ∀ t : Fin grid2.N, _)

/-- Every block of the output array is some point's. -/
theorem idx_onto2 : ∀ b : Fin 4, ∃ t : Fin cfg2.N, win2_4.index t (0 : Fin 2) = b.val :=
  (by decide +kernel : ∀ b : Fin 4, ∃ t : Fin grid2.N, win2_4.index t (0 : Fin 2) = b.val)

/-- The pixel matrix's block read at an index is the array 1024 rows per block further down, -/
theorem iblk2_0_apply (c : Dev nD) (t : Fin cfg2.N) (x : S1024x512.Idx) (k : S4096x512.Idx)
    (hk0 : (k 0).val = win2_4.index t (0 : Fin 2) * 1024 + (x 0).val) (hk1 : (k 1).val = (x 1).val) :
    (iblk2 W c 0 t : Vec Ideal S1024x512 .f32) x = W c main_v20 k := by
  obtain ⟨e0, e1, -⟩ := idx_facts2 t
  unfold iblk2
  rw [View.read_apply]
  show W c main_v20 _ = W c main_v20 _
  refine congrArg _ ?_
  funext a
  apply Fin.ext
  match a with
  | ⟨0, _⟩ => show win2_0.index t (0 : Fin 2) * 1024 + 1 * (x 0).val = (k 0).val; omega
  | ⟨1, _⟩ => show win2_0.index t (1 : Fin 2) * 512 + 1 * (x 1).val = (k 1).val; omega

/-- the weights' block is the weights, -/
theorem iblk2_1_apply (c : Dev nD) (t : Fin cfg2.N) (x k : S512x128.Idx)
    (hk0 : (k 0).val = (x 0).val) (hk1 : (k 1).val = (x 1).val) :
    (iblk2 W c 1 t : Vec Ideal S512x128 .f32) x = W c main_arg7 k := by
  obtain ⟨-, -, e0, e1, -⟩ := idx_facts2 t
  unfold iblk2
  rw [View.read_apply]
  show W c main_arg7 _ = W c main_arg7 _
  refine congrArg _ ?_
  funext a
  apply Fin.ext
  match a with
  | ⟨0, _⟩ => show win2_1.index t (0 : Fin 2) * 512 + 1 * (x 0).val = (k 0).val; omega
  | ⟨1, _⟩ => show win2_1.index t (1 : Fin 2) * 128 + 1 * (x 1).val = (k 1).val; omega

/-- the bias row's the bias row, -/
theorem iblk2_2_apply (c : Dev nD) (t : Fin cfg2.N) (x k : S1x128.Idx)
    (hk0 : (k 0).val = (x 0).val) (hk1 : (k 1).val = (x 1).val) :
    (iblk2 W c 2 t : Vec Ideal S1x128 .f32) x = W c main_v21 k := by
  obtain ⟨-, -, -, -, e0, e1, -⟩ := idx_facts2 t
  unfold iblk2
  rw [View.read_apply]
  show W c main_v21 _ = W c main_v21 _
  refine congrArg _ ?_
  funext a
  apply Fin.ext
  match a with
  | ⟨0, _⟩ => show win2_2.index t (0 : Fin 2) * 1 + 1 * (x 0).val = (k 0).val; omega
  | ⟨1, _⟩ => show win2_2.index t (1 : Fin 2) * 128 + 1 * (x 1).val = (k 1).val; omega

/-- and the coarse image's block is the coarse image 16 rows per block further down. -/
theorem iblk2_3_apply (c : Dev nD) (t : Fin cfg2.N) (x : S16x32x128.Idx) (k : S64x32x128.Idx)
    (hk0 : (k 0).val = win2_4.index t (0 : Fin 2) * 16 + (x 0).val) (hk1 : (k 1).val = (x 1).val) (hk2 : (k 2).val = (x 2).val) :
    (iblk2 W c 3 t : Vec Ideal S16x32x128 .bf16) x = W c main_v19 k := by
  obtain ⟨-, -, -, -, -, -, e0, e1, e2, -⟩ := idx_facts2 t
  unfold iblk2
  rw [View.read_apply]
  show W c main_v19 _ = W c main_v19 _
  refine congrArg _ ?_
  funext a
  apply Fin.ext
  match a with
  | ⟨0, _⟩ => show win2_3.index t (0 : Fin 3) * 16 + 1 * (x 0).val = (k 0).val; omega
  | ⟨1, _⟩ => show win2_3.index t (1 : Fin 3) * 32 + 1 * (x 1).val = (k 1).val; omega
  | ⟨2, _⟩ => show win2_3.index t (2 : Fin 3) * 128 + 1 * (x 2).val = (k 2).val; omega

/-- What point `t` writes back is block `t` of `G2`. -/
theorem flushed2_eq (c : Dev nD) (t : Fin cfg2.N) :
    (dat2 W c).flushed 4 t = ((cfg2.win 4).blk t).view.read (Elt Ideal) (G2 W c) := by
  show (cfg2.win 4).cut (grid2.coords t) ((dat2 W c).after 4 t) = _
  rw [after2_4]
  unfold out2_4
  rw [View.canon_unit_zero hz2_2]
  simp only [View.ld_unit_zero (S := S1024x512) hz2_2, View.ld_unit_zero (S := S512x128) hz2_2, View.ld_unit_zero (S := S1x128) hz2_2,
    View.ld_unit_zero (S := S16x32x128) hz2_3]
  obtain ⟨-, -, -, -, -, -, -, -, -, eb, e1⟩ := idx_facts2 t
  funext j
  obtain ⟨p, q, rfl⟩ : ∃ (p : Fin 1024) (q : Fin 128), j = ix2 p q := ⟨j 0, j 1, eq_ix2 j⟩
  have hemb : ((cfg2.win 4).blk t).view.emb (ix2 p q)
      = (ix2 (⟨win2_4.index t (0 : Fin 2) * 1024 + p.val, by omega⟩ : Fin 4096) q : S4096x128.Idx) := by
    funext a
    apply Fin.ext
    match a with
    | ⟨0, _⟩ => show win2_4.index t (0 : Fin 2) * 1024 + 1 * p.val = win2_4.index t (0 : Fin 2) * 1024 + p.val; omega
    | ⟨1, _⟩ => show win2_4.index t (1 : Fin 2) * 128 + 1 * q.val = q.val; omega
  show k2_pay1 (iblk2 W c 0 t) (iblk2 W c 1 t) (iblk2 W c 2 t) (iblk2 W c 3 t) (ix2 p q)
    = G2 W c (((cfg2.win 4).blk t).view.emb (ix2 p q))
  rw [hemb]
  exact pay2_spec _ _ _ _ (W c main_v20) (W c main_arg7) (W c main_v21) (W c main_v19) p q _ q _ _
    (fun k => iblk2_0_apply W c t _ _ rfl rfl) (fun k => iblk2_1_apply W c t _ _ rfl rfl) (iblk2_2_apply W c t _ _ rfl rfl)
    (iblk2_3_apply W c t _ _ (by
      show (win2_4.index t (0 : Fin 2) * 1024 + p.val) / 64 = win2_4.index t (0 : Fin 2) * 16 + p.val / 64
      omega) (by
      show (win2_4.index t (0 : Fin 2) * 1024 + p.val) % 32 = p.val % 32
      omega) rfl)

/-- An index of the output array is in point `t`'s block iff each coordinate is in the block's range on its axis. -/
theorem mem_blk2 (t : Fin cfg2.N) (i : S4096x128.Idx) :
    i ∈ ((cfg2.win 4).blk t).view.set ↔ ∀ a : Fin 2, win2_4.index t a * S1024x128.size a ≤ (i a).val ∧ (i a).val < win2_4.index t a * S1024x128.size a + S1024x128.size a := by
  show i ∈ ((View.whole main_v22).slice (win2_4.rect t)).set ↔ _
  rw [View.set_slice_whole, Rect.mem_set_unit]
  exact Iff.rfl

/-- The blocks cover the array: row `r` is in the block of index `r / 1024`. -/
theorem cover2 (i : S4096x128.Idx) : ∃ t : Fin cfg2.N, (cfg2.win 4).flush t = true ∧ i ∈ ((cfg2.win 4).blk t).view.set := by
  have hi0 : (i 0).val < 4096 := (i 0).isLt
  have hi1 : (i 1).val < 128 := (i 1).isLt
  obtain ⟨t, ht⟩ := idx_onto2 ⟨(i 0).val / 1024, by omega⟩
  have ht' : win2_4.index t (0 : Fin 2) = (i 0).val / 1024 := ht
  refine ⟨t, flush2_4 t, ?_⟩
  rw [mem_blk2]
  obtain ⟨-, -, -, -, -, -, -, -, -, eb, e1⟩ := idx_facts2 t
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 128 ≤ (i 1).val ∧ (i 1).val < win2_4.index t (1 : Fin 2) * 128 + 128; omega

/-- So the output array ends holding `G2`. -/
theorem arr2_eq (c : Dev nD) : (dat2 W c).arrAt 4 cfg2.N = G2 W c :=
  (dat2 W c).arrAt_eq_of_cover 4 (G2 W c) (fun t _ => flushed2_eq W c t) cover2

/-- The output array after region 2, at row `r` and channel `co`: the 1x1 convolution of row `r` of the pixel matrix
    with the weights, plus the bias, plus the coarse image at row `r / 64`, pixel `r % 32`. -/
theorem final2 (c : Dev nD) (r : Fin 4096) (co : Fin 128) :
    (dat2 (F := Ideal) W c).arrAt 4 cfg2.N (ValueIdx.ix2 r co)
      = Cert.Spec.pw (fun k : Fin 512 => W c main_v20 (ValueIdx.ix2 r k)) (fun k co' => W c main_arg7 (ValueIdx.ix2 k co'))
          (fun co' => W c main_v21 (ValueIdx.ix2 0 co')) co
        + W c main_v19 (ValueIdx.ix3 ⟨r.val / 64, by omega⟩ ⟨r.val % 32, by omega⟩ co) := by
  rw [arr2_eq]
  rfl

end Value

end Cert.ReferenceIdeal.Hand

end
-- ==== Proof.RefConv3.lean ====
import proofs.«126699_g2000605867469428_pallasbulk_857_3_alg».proof.Proof.Gen.ReferenceIdeal.Launch
import proofs.«126699_g2000605867469428_pallasbulk_857_3_alg».proof.Proof.Gen.ReferenceIdeal.Skeleton
import proofs.«126699_g2000605867469428_pallasbulk_857_3_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The 3x3 convolution at 32x32 pixels (pipeline 3), at the entry contents `V`

The body keeps a 32x32x384 patch buffer: position `(h, w, k)` holds, for the tap row being weighted, pixel
`(h + dy - 1, w + k / 128 - 1)` at channel `k % 128` of the image, or zero where that pixel is outside the image.
It fills the buffer three times (once per tap row), each time loads it whole and multiplies by that row's
384x128 weights, and stores the sum of the three products plus the bias. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: unfetched, the
    block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

set_option maxHeartbeats 4000000 in
/-- The convolution body on whole memrefs: the stores it leaves in the output and in the patch buffer, as pieces (last first), with the run. -/
noncomputable def kernelRun3 (c : Dev nD) (i : grid3.Coords)
    (arg1 : Memref sig .tc .vmem S1x32x32x128 .bf16) (harg1 : arg1.IsWhole)
    (arg2 : Memref sig .tc .vmem S3x384x128 .bf16) (harg2 : arg2.IsWhole)
    (arg3 : Memref sig .tc .vmem S1x128 .f32) (harg3 : arg3.IsWhole)
    (arg4 : Memref sig .tc .vmem S1x32x32x128 .f32) (harg4 : arg4.IsWhole)
    (arg5 : Memref sig .tc .vmem S32x32x384 .f32) (harg5 : arg5.IsWhole)
    (x0 : Vec F S1x32x32x128 .bf16) (x1 : Vec F S3x384x128 .bf16) (x2 : Vec F S1x128 .f32) :
    Σ' (L3 : List (View.Piece (Elt F) S1x32x32x128 .f32)), { LS : List (View.Piece (Elt F) S32x32x384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS)) -∗ K ⟨⟩))
          ⊢ wp frame (wpE (defs₀ (F := F)) Variants.none c none) E (cc3__conv3x3_kernel i arg1 harg1 arg2 harg2 arg3 harg3 arg4 harg4 arg5 harg5) K } := by
  refine ⟨?_, ?_, fun E K => ?run⟩
  case run =>
    simp only [cc3__conv3x3_kernel_eq_skeleton]; unfold cc3__conv3x3_kernel_skel
    simp only [k3_part1_eq_skeleton, k3_part2_eq_skeleton, k3_part3_eq_skeleton]
    unfold k3_part1_skel k3_part2_skel k3_part3_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact H4

/-! ## What the body leaves in the output window's buffer -/

/-- The output's pieces tile its block (one store of the whole block), so they cover it. -/
theorem cover3_3 (c : Dev nD) (i : grid3.Coords)
    (arg1 : Memref sig .tc .vmem S1x32x32x128 .bf16) (harg1 : arg1.IsWhole)
    (arg2 : Memref sig .tc .vmem S3x384x128 .bf16) (harg2 : arg2.IsWhole)
    (arg3 : Memref sig .tc .vmem S1x128 .f32) (harg3 : arg3.IsWhole)
    (arg4 : Memref sig .tc .vmem S1x32x32x128 .f32) (harg4 : arg4.IsWhole)
    (arg5 : Memref sig .tc .vmem S32x32x384 .f32) (harg5 : arg5.IsWhole)
    (x0 : Vec F S1x32x32x128 .bf16) (x1 : Vec F S3x384x128 .bf16) (x2 : Vec F S1x128 .f32) (y : S1x32x32x128.Idx) :
    ∃ pc ∈ (kernelRun3 c i arg1 harg1 arg2 harg2 arg3 harg3 arg4 harg4 arg5 harg5 x0 x1 x2).1, y ∈ pc.1.set :=
  View.cover_of_tiledL (kernelRun3 c i arg1 harg1 arg2 harg2 arg3 harg3 arg4 harg4 arg5 harg5 x0 x1 x2).1 S1x32x32x128.size (by sl_kernel_rfl) y

/-- What the run leaves in the output's staging buffer, from the three input blocks: its pieces read back. -/
def out3_3 (c : Dev nD) (i : grid3.Coords)
    (arg1 : Memref sig .tc .vmem S1x32x32x128 .bf16) (harg1 : arg1.IsWhole)
    (arg2 : Memref sig .tc .vmem S3x384x128 .bf16) (harg2 : arg2.IsWhole)
    (arg3 : Memref sig .tc .vmem S1x128 .f32) (harg3 : arg3.IsWhole)
    (arg4 : Memref sig .tc .vmem S1x32x32x128 .f32) (harg4 : arg4.IsWhole)
    (arg5 : Memref sig .tc .vmem S32x32x384 .f32) (harg5 : arg5.IsWhole)
    (x0 : Vec F S1x32x32x128 .bf16) (x1 : Vec F S3x384x128 .bf16) (x2 : Vec F S1x128 .f32) : Vec F S1x32x32x128 .f32 :=
  View.canon (kernelRun3 c i arg1 harg1 arg2 harg2 arg3 harg3 arg4 harg4 arg5 harg5 x0 x1 x2).1

/-- Each window's current staging memref at point `t`, spelled as the pipeline passes it, and its wholeness; the
    patch buffer, whole. -/
abbrev ms3_0 (t : Fin cfg3.N) : Memref sig .tc .vmem S1x32x32x128 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S3x384x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x32x32x128 .f32 := win3_3.stage (cfg3.slots t 3)
abbrev hs3_3 (t : Fin cfg3.N) : (ms3_3 t).IsWhole := hstage3_3 ((cfg3.slots t 3).cast nbuf3_3)
abbrev scM3 : Memref sig .tc .vmem S32x32x384 .f32 := Memref.whole cc3_scratch0

/-- What the output's staging buffer holds after the body at point `t`. -/
def outsAt3 (c : Dev nD) (t : Fin cfg3.N) : Vec F S1x32x32x128 .f32 :=
  out3_3 c (grid3.coords t) (ms3_0 t) (hs3_0 t) (ms3_1 t) (hs3_1 t) (ms3_2 t) (hs3_2 t) (ms3_3 t) (hs3_3 t) scM3 (Memref.isWhole_whole _)
    (iblk3 V c 0 t) (iblk3 V c 1 t) (iblk3 V c 2 t)

/-! ## The pipeline's proof data -/

/-- The proof data of pipeline 3 on core `c`: the arrays as the region finds them; after the body at point `t`
    each input's buffer at its block and the output's at `outsAt3`; the invariant the scoped rest (which holds the
    patch buffer at some contents) and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outsAt3 V c t
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outsAt3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- The invariant with the patch buffer as a memref owned at some contents, the other scoped buffers unopened. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

set_option maxHeartbeats 4000000 in
/-- The body at any point: the inputs' memrefs hold their blocks; the invariant hands the body the patch buffer at
    some contents and takes it back at whatever the body leaves in it; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  rw [show (dat3 V c).Φ t.castSucc = Pipeline.ΦA spec3 c from rfl, PhiA3_eq]
  unfold outsAt3
  unfold out3_3
  iintro ⟨⟨⟨HS, HR⟩, Hg⟩, Ho, ⟨%d0, H0⟩, ⟨%d1, H1⟩, ⟨%d2, H2⟩, ⟨%d3, H3⟩⟩
  iapply ((kernelRun3 c (grid3.coords t) _ _ _ _ _ _ _ _ scM3 (Memref.isWhole_whole _) (iblk3 V c 0 t) (iblk3 V c 1 t) (iblk3 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · unfold owns; iexists _; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_eq_canon _ _ _ (cover3_3 c _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.ReferenceIdeal.Hand

end
-- ==== Proof.RefPw4.lean ====
/-
  Region 4 of the reference program: the 1x1 convolution of the finest level with the level above added, upsampled.
  At each grid point the body loads 1024 rows of the 16384 x 256 pixel-by-channel matrix, the 256 x 128 weights, the 1 x 128
  bias and 8 rows of the coarser level's image (128 rows of 64 pixels in all), contracts the rows with the weights into a
  zero accumulator, adds the bias broadcast along the rows, adds the coarse rows each repeated twice (the coarse image was
  already widened by the host), and stores the 1024 x 128 result whole. Here: the region's proof data at the buffer
  contents the region is entered with, the body's triple and obligation, and the output array after the region read at an
  index as the specification's `pw` plus the coarse image's entry.
-/
import proofs.«126699_g2000605867469428_pallasbulk_857_3_alg».proof.Proof.Gen.ReferenceIdeal.Launch
import proofs.«126699_g2000605867469428_pallasbulk_857_3_alg».proof.Proof.Gen.ReferenceIdeal.Skeleton
import proofs.«126699_g2000605867469428_pallasbulk_857_3_alg».proof.Proof.Gen.ReferenceIdeal.Points
import proofs.«126699_g2000605867469428_pallasbulk_857_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof data
    whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each window's buffer whole -/

abbrev rx4 : Rect S1024x256 := Rect.unit (s := S1024x256) ![0, 0] S1024x256.size inb_S1024x256_S1024x256_0_0
abbrev rw4 : Rect S256x128 := Rect.unit (s := S256x128) ![0, 0] S256x128.size inb_S256x128_S256x128_0_0
abbrev rb4 : Rect S1x128 := Rect.unit (s := S1x128) ![0, 0] S1x128.size inb_S1x128_S1x128_0_0
abbrev rr4 : Rect S8x64x128 := Rect.unit (s := S8x64x128) ![0, 0, 0] S8x64x128.size inb_S8x64x128_S8x64x128_0_0_0
abbrev ro4 : Rect S1024x128 := Rect.unit (s := S1024x128) ![0, 0] S1024x128.size inb_S1024x128_S1024x128_0_0

/-! ## What the body leaves in the output window's buffer -/

/-- The output's staging buffer after the body: its one store, of the payload of the four loads. -/
def out4_4 (x0 : Vec F S1024x256 .f32) (x1 : Vec F S256x128 .f32) (x2 : Vec F S1x128 .f32) (x3 : Vec F S8x64x128 .bf16) : Vec F S1024x128 .bf16 :=
  View.canon [⟨ro4, k4_pay1 (View.ld x0 rx4) (View.ld x1 rw4) (View.ld x2 rb4) (View.ld x3 rr4)⟩]

/-- The store is of the whole buffer, so it covers it. -/
theorem cover4_4 (p0 : Vec F S1024x128 .bf16) (y : S1024x128.Idx) :
    ∃ pc ∈ ([⟨ro4, p0⟩] : List (View.Piece (Elt F) S1024x128 .bf16)), y ∈ pc.1.set :=
  View.cover_of_tiled [⟨ro4, p0⟩] S1024x128.size (by rfl) y

/-! ## The body's triple -/

set_option maxHeartbeats 1000000 in
/-- The body on whole staging memrefs, the inputs' at read contents and the output's at anything, runs to the
    continuation holding the inputs' as they were and the output's at `out4_4` of the inputs'. -/
theorem sound_kernel4 (c : Dev nD) (E : Set ℕ) (i : grid4.Coords) (arg2 : Memref sig .tc .vmem S1024x256 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S8x64x128 .bf16) (harg5 : arg5.IsWhole) (arg6 : Memref sig .tc .vmem S1024x128 .bf16) (harg6 : arg6.IsWhole)
    (x0 : Vec F S1024x256 .f32) (x1 : Vec F S256x128 .f32) (x2 : Vec F S1x128 .f32) (x3 : Vec F S8x64x128 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out4_4 x0 x1 x2 x3)) -∗ K ⟨⟩))
      ⊢ wp frame (wpE (defs₀ (F := F)) Variants.none c none) E (cc4__pw_upres_kernel i arg2 harg2 arg3 harg3 arg4 harg4 arg5 harg5 arg6 harg6) K := by
  simp only [cc4__pw_upres_kernel_eq_skeleton]; unfold cc4__pw_upres_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover4_4 _)

/-! ## The region's proof data -/

/-- The proof data of region 4 on core `c`: the arrays as the region finds them; after the body each input's buffer at
    its block and the output's at `out4_4` of the input blocks; the invariant the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the body's triple applies; the invariant and the
    core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! # The value: the output array after the region, at an index -/

section Value
open Idealize.ShloMosaic.ValueIdx

/-! ## The payload at an index -/

/-- The matrix product's left operand index on its row axis is the output's row, -/
theorem lhs4_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide),
    dif_pos (show (0 : Fin S1024x256.rank) ∈ dot_S1024x256_S256x128_S1024x128_1_0_0_1_n_n.lhsNonContracting by decide)]
  rfl
/-- on its column axis the contracted coordinate; -/
theorem lhs4_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
/-- the right operand's row is the contracted coordinate, -/
theorem rhs4_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
/-- its column the output's column. -/
theorem rhs4_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide),
    dif_pos (show (1 : Fin S256x128.rank) ∈ dot_S1024x256_S256x128_S1024x128_1_0_0_1_n_n.rhsNonContracting by decide)]
  rfl

/-- The contraction of region 4's matrix product at an output index, over the one contracted coordinate. -/
theorem mm4_apply (a : FVec Ideal S1024x256 .f32) (b : FVec Ideal S256x128 .f32) (r : Fin 1024) (co : Fin 128) :
    FloatOps.matmul dot_S1024x256_S256x128_S1024x128_1_0_0_1_n_n none a b (constant S1024x128 .f32 0x00000000#32) (ix2 r co)
      = ∑ k : Fin 256, a (ix2 r k) * b (ix2 k co) := by
  rw [Ideal.matmul_constant_zero_apply, ← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have el : dot_S1024x256_S256x128_S1024x128_1_0_0_1_n_n.lhsIdx (ix2 r co) ((contrEquiv1 dot_S1024x256_S256x128_S1024x128_1_0_0_1_n_n 256 rfl rfl).symm k) = ix2 r k :=
    funext fun ax => Fin.ext (by
      match ax with
      | ⟨0, _⟩ => exact lhs4_0 _ _
      | ⟨1, _⟩ => exact (lhs4_1 _ _).trans hk)
  have er : dot_S1024x256_S256x128_S1024x128_1_0_0_1_n_n.rhsIdx (ix2 r co) ((contrEquiv1 dot_S1024x256_S256x128_S1024x128_1_0_0_1_n_n 256 rfl rfl).symm k) = ix2 k co :=
    funext fun ax => Fin.ext (by
      match ax with
      | ⟨0, _⟩ => exact (rhs4_0 _ _).trans hk
      | ⟨1, _⟩ => exact rhs4_1 _ _)
  rw [el, er]

/-- The bias row broadcast along the 1024 rows, at an index. -/
theorem bias4_apply (x2 : FVec Ideal S1x128 .f32) (r : Fin 1024) (co : Fin 128) :
    broadcastTo S1024x128 x2 broadcasts_S1x128_S1024x128 (ix2 r co) = x2 (ix2 0 co) :=
  broadcastTo_apply x2 broadcasts_S1x128_S1024x128 (ix2 r co) (ix2 0 co) (fun a => by
    match a with
    | ⟨0, _⟩ => rfl
    | ⟨1, _⟩ => rfl)

/-- The 8 coarse rows, each repeated twice and laid out as 1024 rows of pixels, at an index: row `p` is pixel
    `p % 64` of coarse row `p / 128`. -/
theorem res4_apply (x3 : FVec Ideal S8x64x128 .f32) (p : Fin 1024) (q : Fin 128) :
    shapeCast S1024x128 (broadcastTo S8x2x64x128 (shapeCast S8x1x64x128 x3 shapeCasts_S8x64x128_S8x1x64x128) broadcasts_S8x1x64x128_S8x2x64x128)
        shapeCasts_S8x2x64x128_S1024x128 (ix2 p q)
      = x3 (ix3 (⟨p.val / 128, by omega⟩ : Fin 8) (⟨p.val % 64, by omega⟩ : Fin 64) q) := by
  refine (shapeCast_apply _ shapeCasts_S8x2x64x128_S1024x128 (ix2 p q)
    (ix4 (⟨p.val / 128, by omega⟩ : Fin 8) (⟨p.val / 64 % 2, by omega⟩ : Fin 2) (⟨p.val % 64, by omega⟩ : Fin 64) q) (by
      rw [Shape.rowMajor_val_four, Shape.rowMajor_val_two]
      show ((p.val / 128 * 2 + p.val / 64 % 2) * 64 + p.val % 64) * 128 + q.val = p.val * 128 + q.val
      omega)).trans ?_
  refine (broadcastTo_apply _ broadcasts_S8x1x64x128_S8x2x64x128 _
    (ix4 (⟨p.val / 128, by omega⟩ : Fin 8) (0 : Fin 1) (⟨p.val % 64, by omega⟩ : Fin 64) q) (fun a => by
      match a with
      | ⟨0, _⟩ => rfl
      | ⟨1, _⟩ => rfl
      | ⟨2, _⟩ => rfl
      | ⟨3, _⟩ => rfl)).trans ?_
  exact shapeCast_apply _ shapeCasts_S8x64x128_S8x1x64x128 _ _ (by
    rw [Shape.rowMajor_val_three, Shape.rowMajor_val_four]
    show (p.val / 128 * 64 + p.val % 64) * 128 + q.val = ((p.val / 128 * 1 + 0) * 64 + p.val % 64) * 128 + q.val
    omega)

/-- Region 4's payload at an index: the pixel's channels contracted with the weights, plus the bias, plus the coarse
    image's entry above it. -/
theorem pay4_apply (x0 : Vec Ideal S1024x256 .f32) (x1 : Vec Ideal S256x128 .f32) (x2 : Vec Ideal S1x128 .f32) (x3 : Vec Ideal S8x64x128 .bf16)
    (p : Fin 1024) (q : Fin 128) :
    k4_pay1 x0 x1 x2 x3 (ix2 p q) = ((∑ k : Fin 256, x0 (ix2 p k) * x1 (ix2 k q)) + x2 (ix2 0 q))
      + x3 (ix3 (⟨p.val / 128, by omega⟩ : Fin 8) (⟨p.val % 64, by omega⟩ : Fin 64) q) := by
  unfold k4_pay1
  simp only [shapeCast_self, matmul]
  rw [truncf_apply, addf_apply, addf_apply, mm4_apply, bias4_apply, res4_apply, extf_apply]

/-- The same over named arrays: where the four loaded blocks are rows of arrays `a0` … `a3`, the payload is the
    specification's 1x1 convolution of those arrays plus `a3`'s entry. -/
theorem pay4_spec (x0 : Vec Ideal S1024x256 .f32) (x1 : Vec Ideal S256x128 .f32) (x2 : Vec Ideal S1x128 .f32) (x3 : Vec Ideal S8x64x128 .bf16)
    (a0 : S16384x256.Idx → EReal) (a1 : S256x128.Idx → EReal) (a2 : S1x128.Idx → EReal) (a3 : S128x64x128.Idx → EReal)
    (p : Fin 1024) (q : Fin 128) (r : Fin 16384) (co : Fin 128) (hr : Fin 128) (wc : Fin 64)
    (h0 : ∀ k : Fin 256, x0 (ix2 p k) = a0 (ix2 r k)) (h1 : ∀ k : Fin 256, x1 (ix2 k q) = a1 (ix2 k co))
    (h2 : x2 (ix2 0 q) = a2 (ix2 0 co))
    (h3 : x3 (ix3 (⟨p.val / 128, by omega⟩ : Fin 8) (⟨p.val % 64, by omega⟩ : Fin 64) q) = a3 (ix3 hr wc co)) :
    k4_pay1 x0 x1 x2 x3 (ix2 p q)
      = Cert.Spec.pw (fun k : Fin 256 => a0 (ix2 r k)) (fun k co' => a1 (ix2 k co')) (fun co' => a2 (ix2 0 co')) co
        + a3 (ix3 hr wc co) := by
  rw [pay4_apply, h2, h3]
  unfold Cert.Spec.pw
  exact congrArg (fun s => s + a2 (ix2 0 co) + a3 (ix3 hr wc co)) (Finset.sum_congr rfl fun k _ => by rw [h0 k, h1 k])

/-! ## From the blocks to the array -/

variable (W : (c : Dev nD) → (b : Ref sig .tc) → Buf (Elt Ideal) ((c : Thread nD τ).loc b))

theorem hz4_2 : (![0, 0] : Fin 2 → Nat) = fun _ => 0 := funext fun a => by fin_cases a <;> rfl
theorem hz4_3 : (![0, 0, 0] : Fin 3 → Nat) = fun _ => 0 := funext fun a => by fin_cases a <;> rfl

/-- The output array as one function of the arrays the region finds: row `r`, channel `co` is the 1x1 convolution of
    row `r` of the pixel matrix plus the coarse image at row `r / 128`, pixel `r % 64`. -/
def G4 (c : Dev nD) : S16384x128.Idx → EReal := fun i =>
  Cert.Spec.pw (fun k : Fin 256 => W c main_v40 (ix2 (i 0 : Fin 16384) k)) (fun k co' => W c main_arg11 (ix2 k co'))
      (fun co' => W c main_v41 (ix2 0 co')) (i 1 : Fin 128)
    + W c main_v39 (ix3 (⟨(i 0).val / 128, by have := (show (i 0).val < 16384 from (i 0).isLt); omega⟩ : Fin 128)
        (⟨(i 0).val % 64, by omega⟩ : Fin 64) (i 1 : Fin 128))

/-- The printed index maps, decided over the grid: the pixel rows' block and the coarse rows' block move with the
    output's block, the weights and the bias stay, and the output's block index stays in range. -/
theorem idx_facts4 : ∀ t : Fin cfg4.N, win4_0.index t (0 : Fin 2) = win4_4.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 3) = win4_4.index t (0 : Fin 2) ∧ win4_3.index t (1 : Fin 3) = 0 ∧ win4_3.index t (2 : Fin 3) = 0
    ∧ win4_4.index t (0 : Fin 2) ≤ 15 ∧ win4_4.index t (1 : Fin 2) = 0 :=
  (by decide +kernel : ∀ t : Fin grid4.N, _)

/-- Every block of the output array is some point's. -/
theorem idx_onto4 : ∀ b : Fin 16, ∃ t : Fin cfg4.N, win4_4.index t (0 : Fin 2) = b.val :=
  (by decide +kernel : ∀ b : Fin 16, ∃ t : Fin grid4.N, win4_4.index t (0 : Fin 2) = b.val)

/-- The pixel matrix's block read at an index is the array 1024 rows per block further down, -/
theorem iblk4_0_apply (c : Dev nD) (t : Fin cfg4.N) (x : S1024x256.Idx) (k : S16384x256.Idx)
    (hk0 : (k 0).val = win4_4.index t (0 : Fin 2) * 1024 + (x 0).val) (hk1 : (k 1).val = (x 1).val) :
    (iblk4 W c 0 t : Vec Ideal S1024x256 .f32) x = W c main_v40 k := by
  obtain ⟨e0, e1, -⟩ := idx_facts4 t
  unfold iblk4
  rw [View.read_apply]
  show W c main_v40 _ = W c main_v40 _
  refine congrArg _ ?_
  funext a
  apply Fin.ext
  match a with
  | ⟨0, _⟩ => show win4_0.index t (0 : Fin 2) * 1024 + 1 * (x 0).val = (k 0).val; omega
  | ⟨1, _⟩ => show win4_0.index t (1 : Fin 2) * 256 + 1 * (x 1).val = (k 1).val; omega

/-- the weights' block is the weights, -/
theorem iblk4_1_apply (c : Dev nD) (t : Fin cfg4.N) (x k : S256x128.Idx)
    (hk0 : (k 0).val = (x 0).val) (hk1 : (k 1).val = (x 1).val) :
    (iblk4 W c 1 t : Vec Ideal S256x128 .f32) x = W c main_arg11 k := by
  obtain ⟨-, -, e0, e1, -⟩ := idx_facts4 t
  unfold iblk4
  rw [View.read_apply]
  show W c main_arg11 _ = W c main_arg11 _
  refine congrArg _ ?_
  funext a
  apply Fin.ext
  match a with
  | ⟨0, _⟩ => show win4_1.index t (0 : Fin 2) * 256 + 1 * (x 0).val = (k 0).val; omega
  | ⟨1, _⟩ => show win4_1.index t (1 : Fin 2) * 128 + 1 * (x 1).val = (k 1).val; omega

/-- the bias row's the bias row, -/
theorem iblk4_2_apply (c : Dev nD) (t : Fin cfg4.N) (x k : S1x128.Idx)
    (hk0 : (k 0).val = (x 0).val) (hk1 : (k 1).val = (x 1).val) :
    (iblk4 W c 2 t : Vec Ideal S1x128 .f32) x = W c main_v41 k := by
  obtain ⟨-, -, -, -, e0, e1, -⟩ := idx_facts4 t
  unfold iblk4
  rw [View.read_apply]
  show W c main_v41 _ = W c main_v41 _
  refine congrArg _ ?_
  funext a
  apply Fin.ext
  match a with
  | ⟨0, _⟩ => show win4_2.index t (0 : Fin 2) * 1 + 1 * (x 0).val = (k 0).val; omega
  | ⟨1, _⟩ => show win4_2.index t (1 : Fin 2) * 128 + 1 * (x 1).val = (k 1).val; omega

/-- and the coarse image's block is the coarse image 8 rows per block further down. -/
theorem iblk4_3_apply (c : Dev nD) (t : Fin cfg4.N) (x : S8x64x128.Idx) (k : S128x64x128.Idx)
    (hk0 : (k 0).val = win4_4.index t (0 : Fin 2) * 8 + (x 0).val) (hk1 : (k 1).val = (x 1).val) (hk2 : (k 2).val = (x 2).val) :
    (iblk4 W c 3 t : Vec Ideal S8x64x128 .bf16) x = W c main_v39 k := by
  obtain ⟨-, -, -, -, -, -, e0, e1, e2, -⟩ := idx_facts4 t
  unfold iblk4
  rw [View.read_apply]
  show W c main_v39 _ = W c main_v39 _
  refine congrArg _ ?_
  funext a
  apply Fin.ext
  match a with
  | ⟨0, _⟩ => show win4_3.index t (0 : Fin 3) * 8 + 1 * (x 0).val = (k 0).val; omega
  | ⟨1, _⟩ => show win4_3.index t (1 : Fin 3) * 64 + 1 * (x 1).val = (k 1).val; omega
  | ⟨2, _⟩ => show win4_3.index t (2 : Fin 3) * 128 + 1 * (x 2).val = (k 2).val; omega

/-- What point `t` writes back is block `t` of `G4`. -/
theorem flushed4_eq (c : Dev nD) (t : Fin cfg4.N) :
    (dat4 W c).flushed 4 t = ((cfg4.win 4).blk t).view.read (Elt Ideal) (G4 W c) := by
  show (cfg4.win 4).cut (grid4.coords t) ((dat4 W c).after 4 t) = _
  rw [after4_4]
  unfold out4_4
  rw [View.canon_unit_zero hz4_2]
  simp only [View.ld_unit_zero (S := S1024x256) hz4_2, View.ld_unit_zero (S := S256x128) hz4_2, View.ld_unit_zero (S := S1x128) hz4_2,
    View.ld_unit_zero (S := S8x64x128) hz4_3]
  obtain ⟨-, -, -, -, -, -, -, -, -, eb, e1⟩ := idx_facts4 t
  funext j
  obtain ⟨p, q, rfl⟩ : ∃ (p : Fin 1024) (q : Fin 128), j = ix2 p q := ⟨j 0, j 1, eq_ix2 j⟩
  have hemb : ((cfg4.win 4).blk t).view.emb (ix2 p q)
      = (ix2 (⟨win4_4.index t (0 : Fin 2) * 1024 + p.val, by omega⟩ : Fin 16384) q : S16384x128.Idx) := by
    funext a
    apply Fin.ext
    match a with
    | ⟨0, _⟩ => show win4_4.index t (0 : Fin 2) * 1024 + 1 * p.val = win4_4.index t (0 : Fin 2) * 1024 + p.val; omega
    | ⟨1, _⟩ => show win4_4.index t (1 : Fin 2) * 128 + 1 * q.val = q.val; omega
  show k4_pay1 (iblk4 W c 0 t) (iblk4 W c 1 t) (iblk4 W c 2 t) (iblk4 W c 3 t) (ix2 p q)
    = G4 W c (((cfg4.win 4).blk t).view.emb (ix2 p q))
  rw [hemb]
  exact pay4_spec _ _ _ _ (W c main_v40) (W c main_arg11) (W c main_v41) (W c main_v39) p q _ q _ _
    (fun k => iblk4_0_apply W c t _ _ rfl rfl) (fun k => iblk4_1_apply W c t _ _ rfl rfl) (iblk4_2_apply W c t _ _ rfl rfl)
    (iblk4_3_apply W c t _ _ (by
      show (win4_4.index t (0 : Fin 2) * 1024 + p.val) / 128 = win4_4.index t (0 : Fin 2) * 8 + p.val / 128
      omega) (by
      show (win4_4.index t (0 : Fin 2) * 1024 + p.val) % 64 = p.val % 64
      omega) rfl)

/-- An index of the output array is in point `t`'s block iff each coordinate is in the block's range on its axis. -/
theorem mem_blk4 (t : Fin cfg4.N) (i : S16384x128.Idx) :
    i ∈ ((cfg4.win 4).blk t).view.set ↔ ∀ a : Fin 2, win4_4.index t a * S1024x128.size a ≤ (i a).val ∧ (i a).val < win4_4.index t a * S1024x128.size a + S1024x128.size a := by
  show i ∈ ((View.whole main_v42).slice (win4_4.rect t)).set ↔ _
  rw [View.set_slice_whole, Rect.mem_set_unit]
  exact Iff.rfl

/-- The blocks cover the array: row `r` is in the block of index `r / 1024`. -/
theorem cover4 (i : S16384x128.Idx) : ∃ t : Fin cfg4.N, (cfg4.win 4).flush t = true ∧ i ∈ ((cfg4.win 4).blk t).view.set := by
  have hi0 : (i 0).val < 16384 := (i 0).isLt
  have hi1 : (i 1).val < 128 := (i 1).isLt
  obtain ⟨t, ht⟩ := idx_onto4 ⟨(i 0).val / 1024, by omega⟩
  have ht' : win4_4.index t (0 : Fin 2) = (i 0).val / 1024 := ht
  refine ⟨t, flush4_4 t, ?_⟩
  rw [mem_blk4]
  obtain ⟨-, -, -, -, -, -, -, -, -, eb, e1⟩ := idx_facts4 t
  intro a
  match a with
  | ⟨0, _⟩ => show win4_4.index t (0 : Fin 2) * 1024 ≤ (i 0).val ∧ (i 0).val < win4_4.index t (0 : Fin 2) * 1024 + 1024; omega
  | ⟨1, _⟩ => show win4_4.index t (1 : Fin 2) * 128 ≤ (i 1).val ∧ (i 1).val < win4_4.index t (1 : Fin 2) * 128 + 128; omega

/-- So the output array ends holding `G4`. -/
theorem arr4_eq (c : Dev nD) : (dat4 W c).arrAt 4 cfg4.N = G4 W c :=
  (dat4 W c).arrAt_eq_of_cover 4 (G4 W c) (fun t _ => flushed4_eq W c t) cover4

/-- The output array after region 4, at row `r` and channel `co`: the 1x1 convolution of row `r` of the pixel matrix
    with the weights, plus the bias, plus the coarse image at row `r / 128`, pixel `r % 64`. -/
theorem final4 (c : Dev nD) (r : Fin 16384) (co : Fin 128) :
    (dat4 (F := Ideal) W c).arrAt 4 cfg4.N (ValueIdx.ix2 r co)
      = Cert.Spec.pw (fun k : Fin 256 => W c main_v40 (ValueIdx.ix2 r k)) (fun k co' => W c main_arg11 (ValueIdx.ix2 k co'))
          (fun co' => W c main_v41 (ValueIdx.ix2 0 co')) co
        + W c main_v39 (ValueIdx.ix3 ⟨r.val / 128, by omega⟩ ⟨r.val % 64, by omega⟩ co) := by
  rw [arr4_eq]
  rfl

end Value

end Cert.ReferenceIdeal.Hand

end
-- ==== Proof.RefConv5.lean ====
/-
  The 3x3 convolution of the finest pyramid level (64x64 pixels, 128 channels), one image per grid point: what the
  body leaves in its output block as a function of the image block, the three taps' weights and the bias; the body's
  triple; the region's proof data at the contents the region is entered with; the body obligation.

  The body keeps a column patch buffer (64 x 64 x 384: at each pixel the channels of its left neighbour, of itself
  and of its right neighbour side by side) that it fills three times, once per vertical tap, by shifted copies of
  image rows over zeroed borders, and contracts each time with that tap's 384 x 128 weights. The buffer is the
  body's own scratch: it is taken out of the region's invariant at whatever it holds, every cell of it is written
  before it is first read whole, and it is put back at whatever the body leaves in it.
-/
import proofs.«126699_g2000605867469428_pallasbulk_857_3_alg».proof.Proof.Gen.ReferenceIdeal.Launch
import proofs.«126699_g2000605867469428_pallasbulk_857_3_alg».proof.Proof.Gen.ReferenceIdeal.Skeleton
import proofs.«126699_g2000605867469428_pallasbulk_857_3_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- The image block: rows 0..62, the whole block, rows 1..63. -/
abbrev rx5_top : Rect S1x64x64x128 := Rect.unit (s := S1x64x64x128) ![0, 0, 0, 0] S1x63x64x128.size inb_S1x64x64x128_S1x63x64x128_0_0_0_0
abbrev rx5_all : Rect S1x64x64x128 := Rect.unit (s := S1x64x64x128) ![0, 0, 0, 0] S1x64x64x128.size inb_S1x64x64x128_S1x64x64x128_0_0_0_0
abbrev rx5_bot : Rect S1x64x64x128 := Rect.unit (s := S1x64x64x128) ![0, 1, 0, 0] S1x63x64x128.size inb_S1x64x64x128_S1x63x64x128_0_1_0_0
/-- The output block, whole. -/
abbrev ro5 : Rect S1x64x64x128 := Rect.unit (s := S1x64x64x128) ![0, 0, 0, 0] S1x64x64x128.size inb_S1x64x64x128_S1x64x64x128_0_0_0_0
/-- The three taps' weights and the bias. -/
abbrev rw5_0 : Rect S3x384x128 := Rect.unit (s := S3x384x128) ![0, 0, 0] S1x384x128.size inb_S3x384x128_S1x384x128_0_0_0
abbrev rw5_1 : Rect S3x384x128 := Rect.unit (s := S3x384x128) ![1, 0, 0] S1x384x128.size inb_S3x384x128_S1x384x128_1_0_0
abbrev rw5_2 : Rect S3x384x128 := Rect.unit (s := S3x384x128) ![2, 0, 0] S1x384x128.size inb_S3x384x128_S1x384x128_2_0_0
abbrev rb5 : Rect S1x128 := Rect.unit (s := S1x128) ![0, 0] S1x128.size inb_S1x128_S1x128_0_0
/-- The column patch buffer: its left zero column, right zero column, first and last rows, and the three shifted
    copies' places for each vertical tap. -/
abbrev rs5_all : Rect S64x64x384 := Rect.unit (s := S64x64x384) ![0, 0, 0] S64x64x384.size inb_S64x64x384_S64x64x384_0_0_0
abbrev rs5_colL : Rect S64x64x384 := Rect.unit (s := S64x64x384) ![0, 0, 0] S64x1x128.size inb_S64x64x384_S64x1x128_0_0_0
abbrev rs5_colR : Rect S64x64x384 := Rect.unit (s := S64x64x384) ![0, 63, 256] S64x1x128.size inb_S64x64x384_S64x1x128_0_63_256
abbrev rs5_row0 : Rect S64x64x384 := Rect.unit (s := S64x64x384) ![0, 0, 0] S1x64x384.size inb_S64x64x384_S1x64x384_0_0_0
abbrev rs5_row63 : Rect S64x64x384 := Rect.unit (s := S64x64x384) ![63, 0, 0] S1x64x384.size inb_S64x64x384_S1x64x384_63_0_0
abbrev rs5_a0 : Rect S64x64x384 := Rect.unit (s := S64x64x384) ![1, 1, 0] S63x63x128.size inb_S64x64x384_S63x63x128_1_1_0
abbrev rs5_a1 : Rect S64x64x384 := Rect.unit (s := S64x64x384) ![1, 0, 128] S63x64x128.size inb_S64x64x384_S63x64x128_1_0_128
abbrev rs5_a2 : Rect S64x64x384 := Rect.unit (s := S64x64x384) ![1, 0, 256] S63x63x128.size inb_S64x64x384_S63x63x128_1_0_256
abbrev rs5_b0 : Rect S64x64x384 := Rect.unit (s := S64x64x384) ![0, 1, 0] S64x63x128.size inb_S64x64x384_S64x63x128_0_1_0
abbrev rs5_b1 : Rect S64x64x384 := Rect.unit (s := S64x64x384) ![0, 0, 128] S64x64x128.size inb_S64x64x384_S64x64x128_0_0_128
abbrev rs5_b2 : Rect S64x64x384 := Rect.unit (s := S64x64x384) ![0, 0, 256] S64x63x128.size inb_S64x64x384_S64x63x128_0_0_256
abbrev rs5_c0 : Rect S64x64x384 := Rect.unit (s := S64x64x384) ![0, 1, 0] S63x63x128.size inb_S64x64x384_S63x63x128_0_1_0
abbrev rs5_c1 : Rect S64x64x384 := Rect.unit (s := S64x64x384) ![0, 0, 128] S63x64x128.size inb_S64x64x384_S63x64x128_0_0_128
abbrev rs5_c2 : Rect S64x64x384 := Rect.unit (s := S64x64x384) ![0, 0, 256] S63x63x128.size inb_S64x64x384_S63x63x128_0_0_256

/-! ## What the column patch buffer holds at each of the three contractions -/

/-- The stores made before the first contraction, last first: the two zero columns, the zero first row, and the
    three shifted copies of image rows 0..62 placed in rows 1..63. -/
def pieces5_0 (x : Vec F S1x64x64x128 .bf16) : List (View.Piece (Elt F) S64x64x384 .f32) :=
  [⟨rs5_a2, k5_pay8 (View.ld x rx5_top)⟩, ⟨rs5_a1, k5_pay7 (View.ld x rx5_top)⟩, ⟨rs5_a0, k5_pay6 (View.ld x rx5_top)⟩,
   ⟨rs5_row0, k5_pay4 (F := F)⟩, ⟨rs5_colR, k5_pay2 (F := F)⟩, ⟨rs5_colL, k5_pay1 (F := F)⟩]

/-- Then the three shifted copies of all image rows, over them. -/
def pieces5_1 (x : Vec F S1x64x64x128 .bf16) : List (View.Piece (Elt F) S64x64x384 .f32) :=
  ⟨rs5_b2, k5_pay12 (View.ld x rx5_all)⟩ :: ⟨rs5_b1, k5_pay11 (View.ld x rx5_all)⟩ :: ⟨rs5_b0, k5_pay10 (View.ld x rx5_all)⟩ :: pieces5_0 x

/-- Then the zero last row and the three shifted copies of image rows 1..63 placed in rows 0..62. -/
def pieces5_2 (x : Vec F S1x64x64x128 .bf16) : List (View.Piece (Elt F) S64x64x384 .f32) :=
  ⟨rs5_c2, k5_pay19 (View.ld x rx5_bot)⟩ :: ⟨rs5_c1, k5_pay18 (View.ld x rx5_bot)⟩ :: ⟨rs5_c0, k5_pay17 (View.ld x rx5_bot)⟩
    :: ⟨rs5_row63, k5_pay15 (k5_pay14 (F := F))⟩ :: pieces5_1 x

/-- The whole patch buffer as a contraction reads it: at every cell the newest store's value. -/
def patch5_0 (x : Vec F S1x64x64x128 .bf16) : Vec F S64x64x384 .f32 := fun j => View.canon (pieces5_0 x) (rs5_all.toLoadRect.idx j)
def patch5_1 (x : Vec F S1x64x64x128 .bf16) : Vec F S64x64x384 .f32 := fun j => View.canon (pieces5_1 x) (rs5_all.toLoadRect.idx j)
def patch5_2 (x : Vec F S1x64x64x128 .bf16) : Vec F S64x64x384 .f32 := fun j => View.canon (pieces5_2 x) (rs5_all.toLoadRect.idx j)

/-! ## What the body leaves in the output window's buffer -/

/-- The output block: the three taps' contractions summed onto zero, plus the bias, stored whole. -/
def out5_3 (x : Vec F S1x64x64x128 .bf16) (w : Vec F S3x384x128 .bf16) (b : Vec F S1x128 .f32) : Vec F S1x64x64x128 .f32 :=
  View.canon [⟨ro5, k5_pay20 (k5_pay13 (k5_pay3 (F := F)) (patch5_0 x) (View.ld w rw5_0) (patch5_1 x) (View.ld w rw5_1))
    (patch5_2 x) (View.ld w rw5_2) (View.ld b rb5)⟩]

theorem cover5_3 (p0 : Vec F S1x64x64x128 .f32) (y : S1x64x64x128.Idx) :
    ∃ pc ∈ ([⟨ro5, p0⟩] : List (View.Piece (Elt F) S1x64x64x128 .f32)), y ∈ pc.1.set :=
  View.cover_of_tiled [⟨ro5, p0⟩] S1x64x64x128.size (by rfl) y

set_option maxHeartbeats 4000000 in
theorem sound_kernel5 (c : Dev nD) (E : Set ℕ) (i : grid5.Coords)
    (arg1 : Memref sig .tc .vmem S1x64x64x128 .bf16) (harg1 : arg1.IsWhole) (arg2 : Memref sig .tc .vmem S3x384x128 .bf16) (harg2 : arg2.IsWhole)
    (arg3 : Memref sig .tc .vmem S1x128 .f32) (harg3 : arg3.IsWhole) (arg4 : Memref sig .tc .vmem S1x64x64x128 .f32) (harg4 : arg4.IsWhole)
    (arg5 : Memref sig .tc .vmem S64x64x384 .f32) (harg5 : arg5.IsWhole)
    (x0 : Vec F S1x64x64x128 .bf16) (x1 : Vec F S3x384x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2) ∗ (∃ d, owns (c : Thread nD τ) arg5 fullShare d)) -∗ K ⟨⟩))
      ⊢ wp frame (wpE (defs₀ (F := F)) Variants.none c none) E (cc5__conv3x3_kernel i arg1 harg1 arg2 harg2 arg3 harg3 arg4 harg4 arg5 harg5) K := by
  simp only [cc5__conv3x3_kernel_eq_skeleton]; unfold cc5__conv3x3_kernel_skel
  simp only [k5_part1_eq_skeleton, k5_part2_eq_skeleton, k5_part3_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover5_3 _)]
    unfold out5_3 patch5_0 patch5_1 patch5_2 pieces5_2 pieces5_1 pieces5_0
    sl_unfold_run_names
    simp only [View.readCov_eq_canon']
    first | rfl | fail "the found pieces are not the stated ones"
  iexists _; iexists _; isplitr
  swap; · iexact H4
  ipureintro; rfl

variable (V : (c : Dev nD) → (b : Ref sig .tc) → Buf (Elt F) ((c : Thread nD τ).loc b))

/-! # The 3x3 convolution at 64x64 pixels (region 5), at the contents `V` the region is entered with -/

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The image window's current staging buffer holds its block at every point, for any proof data whose array is
    `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The weights' window is fetched at the first point only; unfetched, its block index has not moved, so its buffer
    still holds its block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The bias's window likewise. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The pipeline's proof data -/

/-- The proof data of the region on core `c`: the arrays as the region finds them; after the body at point `t` each
    input's buffer at its block and the output's at `out5_3` of the three input blocks; the invariant the scoped rest
    (the column patch buffer among it, at any contents) and the generator register; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The invariant opened at the column patch buffer: the buffer whole at some contents, the other scoped buffers
    unopened, the generator register at some state. -/
theorem PhiA5_eq (c : Dev nD) :
    (Pipeline.ΦA spec5 c : sProp 𝕄)
      = iprop(iprop(iprop((∃ d, owns (c : Thread nD τ) (Memref.whole cc5_scratch0 : Memref sig .tc .vmem S64x64x384 .f32) fullShare d))
          ∗ Pipeline.scopedRestBut (Ix := Unit) (Name := ℕ) (U := UR sig nD τ) (Lvl := ℕ) (Val := Elt F) spec5 c [cc5_scratch0]) ∗ ∃ r, prngReg c r) := by
  unfold Pipeline.ΦA; rw [scopedRest5_split]; simp only [owns_whole]; try rfl

/-- The body at any point: the inputs' memrefs hold their blocks, the column patch buffer is taken out of the
    invariant at whatever it holds and put back at whatever the body leaves in it; the rest of the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3,
    show (dat5 V c).Φ t.castSucc = Pipeline.ΦA spec5 c from rfl, PhiA5_eq]
  iintro ⟨⟨⟨⟨%d5, H5⟩, Hrest⟩, Hprng⟩, Ho, ⟨%d0, H0⟩, ⟨%d1, H1⟩, ⟨%d2, H2⟩, ⟨%d3, H3⟩⟩
  iapply (sound_kernel5 c Set.univ _ _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [H5]; · iexists _; iexact H5
  iintro ⟨H0, H1, H2, H3, ⟨%e5, H5⟩⟩
  isplitl [H5 Hrest Hprng]
  · isplitl [H5 Hrest]
    · isplitl [H5]; · iexists _; iexact H5
      iexact Hrest
    iexact Hprng
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.ReferenceIdeal.Hand

end
-- ==== Proof.RefRun.lean ====
import proofs.«126699_g2000605867469428_pallasbulk_857_3_alg».proof.Proof.Gen.ReferenceIdeal.Regions
import proofs.«126699_g2000605867469428_pallasbulk_857_3_alg».proof.Proof.Gen.ReferenceIdeal.Points
import proofs.«126699_g2000605867469428_pallasbulk_857_3_alg».proof.Proof.RefPw0
import proofs.«126699_g2000605867469428_pallasbulk_857_3_alg».proof.Proof.RefConv1
import proofs.«126699_g2000605867469428_pallasbulk_857_3_alg».proof.Proof.RefPw2
import proofs.«126699_g2000605867469428_pallasbulk_857_3_alg».proof.Proof.RefConv3
import proofs.«126699_g2000605867469428_pallasbulk_857_3_alg».proof.Proof.RefPw4
import proofs.«126699_g2000605867469428_pallasbulk_857_3_alg».proof.Proof.RefConv5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents at each boundary between two items of the program

A fold from the launch memory: a stretch of host operations applies them; a kernel region leaves each of its windows'
arrays at what its write-backs leave and every other buffer as it found it. -/

/-- Core `c`'s buffers at launch. -/
abbrev B0 : Dev nD → Valuation τ sig (Elt F) := fun c b => (s₀ m ρ).mem ((c : Dev nD), b)
/-- The same contents read at the TensorCore's references. -/
abbrev Bv0 : (c : Dev nD) → (b : Ref sig .tc) → Buf (Elt F) ((c : Thread nD τ).loc b) := fun c b => B0 m ρ c b
/-- After the host stretch `hostOps0`. -/
abbrev B1 : Dev nD → Valuation τ sig (Elt F) := fun c => StableHlo.after hostOps0 (B0 m ρ c)
/-- The same contents read at the TensorCore's references. -/
abbrev Bv1 : (c : Dev nD) → (b : Ref sig .tc) → Buf (Elt F) ((c : Thread nD τ).loc b) := fun c b => B1 m ρ c b
/-- When region 0 ends: its windows' arrays at what the pipeline leaves, every other buffer as the region found it. -/
def B2 (c : Dev nD) : Valuation τ sig (Elt F) :=
  Pipeline.withArrays spec0 c (B1 m ρ c) fun w => (dat0 (Bv1 m ρ) c).arrAt w cfg0.N
theorem B2_arr (c : Dev nD) (w : Fin cfg0.W) :
    B2 m ρ c (Proc.devRef .tc (Pipeline.arrRef spec0 w)) = (dat0 (Bv1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same contents read at the TensorCore's references. -/
abbrev Bv2 : (c : Dev nD) → (b : Ref sig .tc) → Buf (Elt F) ((c : Thread nD τ).loc b) := fun c b => B2 m ρ c b
theorem hF0 (c : Dev nD) (w : Fin cfg0.W) : (dat0 (Bv1 m ρ) c).arrAt w cfg0.N = Bv2 m ρ c (Pipeline.arrRef spec0 w) :=
  (B2_arr m ρ c w).symm
theorem hrest0 (c : Dev nD) : ∀ b, b ∉ Finset.univ.image (Pipeline.arrRef spec0) → Bv2 m ρ c b = Bv1 m ρ c b :=
  fun b hb => B2_of_ne m ρ c b fun w e => hb (Finset.mem_image.mpr ⟨w, Finset.mem_univ _, e⟩)
/-- After the host stretch `hostOps1`. -/
abbrev B3 : Dev nD → Valuation τ sig (Elt F) := fun c => StableHlo.after hostOps1 (B2 m ρ c)
/-- The same contents read at the TensorCore's references. -/
abbrev Bv3 : (c : Dev nD) → (b : Ref sig .tc) → Buf (Elt F) ((c : Thread nD τ).loc b) := fun c b => B3 m ρ c b
/-- When region 1 ends: its windows' arrays at what the pipeline leaves, every other buffer as the region found it. -/
def B4 (c : Dev nD) : Valuation τ sig (Elt F) :=
  Pipeline.withArrays spec1 c (B3 m ρ c) fun w => (dat1 (Bv3 m ρ) c).arrAt w cfg1.N
theorem B4_arr (c : Dev nD) (w : Fin cfg1.W) :
    B4 m ρ c (Proc.devRef .tc (Pipeline.arrRef spec1 w)) = (dat1 (Bv3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- The same contents read at the TensorCore's references. -/
abbrev Bv4 : (c : Dev nD) → (b : Ref sig .tc) → Buf (Elt F) ((c : Thread nD τ).loc b) := fun c b => B4 m ρ c b
theorem hF1 (c : Dev nD) (w : Fin cfg1.W) : (dat1 (Bv3 m ρ) c).arrAt w cfg1.N = Bv4 m ρ c (Pipeline.arrRef spec1 w) :=
  (B4_arr m ρ c w).symm
theorem hrest1 (c : Dev nD) : ∀ b, b ∉ Finset.univ.image (Pipeline.arrRef spec1) → Bv4 m ρ c b = Bv3 m ρ c b :=
  fun b hb => B4_of_ne m ρ c b fun w e => hb (Finset.mem_image.mpr ⟨w, Finset.mem_univ _, e⟩)
/-- After the host stretch `hostOps2`. -/
abbrev B5 : Dev nD → Valuation τ sig (Elt F) := fun c => StableHlo.after hostOps2 (B4 m ρ c)
/-- The same contents read at the TensorCore's references. -/
abbrev Bv5 : (c : Dev nD) → (b : Ref sig .tc) → Buf (Elt F) ((c : Thread nD τ).loc b) := fun c b => B5 m ρ c b
/-- After the host stretch `hostOps2_1`. -/
abbrev B6 : Dev nD → Valuation τ sig (Elt F) := fun c => StableHlo.after hostOps2_1 (B5 m ρ c)
/-- The same contents read at the TensorCore's references. -/
abbrev Bv6 : (c : Dev nD) → (b : Ref sig .tc) → Buf (Elt F) ((c : Thread nD τ).loc b) := fun c b => B6 m ρ c b
/-- After the host stretch `hostOps2_2`. -/
abbrev B7 : Dev nD → Valuation τ sig (Elt F) := fun c => StableHlo.after hostOps2_2 (B6 m ρ c)
/-- The same contents read at the TensorCore's references. -/
abbrev Bv7 : (c : Dev nD) → (b : Ref sig .tc) → Buf (Elt F) ((c : Thread nD τ).loc b) := fun c b => B7 m ρ c b
/-- When region 2 ends: its windows' arrays at what the pipeline leaves, every other buffer as the region found it. -/
def B8 (c : Dev nD) : Valuation τ sig (Elt F) :=
  Pipeline.withArrays spec2 c (B7 m ρ c) fun w => (dat2 (Bv7 m ρ) c).arrAt w cfg2.N
theorem B8_arr (c : Dev nD) (w : Fin cfg2.W) :
    B8 m ρ c (Proc.devRef .tc (Pipeline.arrRef spec2 w)) = (dat2 (Bv7 m ρ) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m ρ c (Proc.devRef .tc b) = B7 m ρ c (Proc.devRef .tc b) := by
  unfold B8; exact Pipeline.withArrays_of_ne spec2 c _ _ b hb
/-- The same contents read at the TensorCore's references. -/
abbrev Bv8 : (c : Dev nD) → (b : Ref sig .tc) → Buf (Elt F) ((c : Thread nD τ).loc b) := fun c b => B8 m ρ c b
theorem hF2 (c : Dev nD) (w : Fin cfg2.W) : (dat2 (Bv7 m ρ) c).arrAt w cfg2.N = Bv8 m ρ c (Pipeline.arrRef spec2 w) :=
  (B8_arr m ρ c w).symm
theorem hrest2 (c : Dev nD) : ∀ b, b ∉ Finset.univ.image (Pipeline.arrRef spec2) → Bv8 m ρ c b = Bv7 m ρ c b :=
  fun b hb => B8_of_ne m ρ c b fun w e => hb (Finset.mem_image.mpr ⟨w, Finset.mem_univ _, e⟩)
/-- After the host stretch `hostOps3`. -/
abbrev B9 : Dev nD → Valuation τ sig (Elt F) := fun c => StableHlo.after hostOps3 (B8 m ρ c)
/-- The same contents read at the TensorCore's references. -/
abbrev Bv9 : (c : Dev nD) → (b : Ref sig .tc) → Buf (Elt F) ((c : Thread nD τ).loc b) := fun c b => B9 m ρ c b
/-- When region 3 ends: its windows' arrays at what the pipeline leaves, every other buffer as the region found it. -/
def B10 (c : Dev nD) : Valuation τ sig (Elt F) :=
  Pipeline.withArrays spec3 c (B9 m ρ c) fun w => (dat3 (Bv9 m ρ) c).arrAt w cfg3.N
theorem B10_arr (c : Dev nD) (w : Fin cfg3.W) :
    B10 m ρ c (Proc.devRef .tc (Pipeline.arrRef spec3 w)) = (dat3 (Bv9 m ρ) c).arrAt w cfg3.N := by
  unfold B10; exact Pipeline.withArrays_arr spec3 launch3.win.arr_inj c _ _ w
theorem B10_of_ne (c : Dev nD) (b : Ref sig .tc) (hb : ∀ w, Pipeline.arrRef spec3 w ≠ b) :
    B10 m ρ c (Proc.devRef .tc b) = B9 m ρ c (Proc.devRef .tc b) := by
  unfold B10; exact Pipeline.withArrays_of_ne spec3 c _ _ b hb
/-- The same contents read at the TensorCore's references. -/
abbrev Bv10 : (c : Dev nD) → (b : Ref sig .tc) → Buf (Elt F) ((c : Thread nD τ).loc b) := fun c b => B10 m ρ c b
theorem hF3 (c : Dev nD) (w : Fin cfg3.W) : (dat3 (Bv9 m ρ) c).arrAt w cfg3.N = Bv10 m ρ c (Pipeline.arrRef spec3 w) :=
  (B10_arr m ρ c w).symm
theorem hrest3 (c : Dev nD) : ∀ b, b ∉ Finset.univ.image (Pipeline.arrRef spec3) → Bv10 m ρ c b = Bv9 m ρ c b :=
  fun b hb => B10_of_ne m ρ c b fun w e => hb (Finset.mem_image.mpr ⟨w, Finset.mem_univ _, e⟩)
/-- After the host stretch `hostOps4`. -/
abbrev B11 : Dev nD → Valuation τ sig (Elt F) := fun c => StableHlo.after hostOps4 (B10 m ρ c)
/-- The same contents read at the TensorCore's references. -/
abbrev Bv11 : (c : Dev nD) → (b : Ref sig .tc) → Buf (Elt F) ((c : Thread nD τ).loc b) := fun c b => B11 m ρ c b
/-- After the host stretch `hostOps4_1`. -/
abbrev B12 : Dev nD → Valuation τ sig (Elt F) := fun c => StableHlo.after hostOps4_1 (B11 m ρ c)
/-- The same contents read at the TensorCore's references. -/
abbrev Bv12 : (c : Dev nD) → (b : Ref sig .tc) → Buf (Elt F) ((c : Thread nD τ).loc b) := fun c b => B12 m ρ c b
/-- After the host stretch `hostOps4_2`. -/
abbrev B13 : Dev nD → Valuation τ sig (Elt F) := fun c => StableHlo.after hostOps4_2 (B12 m ρ c)
/-- The same contents read at the TensorCore's references. -/
abbrev Bv13 : (c : Dev nD) → (b : Ref sig .tc) → Buf (Elt F) ((c : Thread nD τ).loc b) := fun c b => B13 m ρ c b
/-- When region 4 ends: its windows' arrays at what the pipeline leaves, every other buffer as the region found it. -/
def B14 (c : Dev nD) : Valuation τ sig (Elt F) :=
  Pipeline.withArrays spec4 c (B13 m ρ c) fun w => (dat4 (Bv13 m ρ) c).arrAt w cfg4.N
theorem B14_arr (c : Dev nD) (w : Fin cfg4.W) :
    B14 m ρ c (Proc.devRef .tc (Pipeline.arrRef spec4 w)) = (dat4 (Bv13 m ρ) c).arrAt w cfg4.N := by
  unfold B14; exact Pipeline.withArrays_arr spec4 launch4.win.arr_inj c _ _ w
theorem B14_of_ne (c : Dev nD) (b : Ref sig .tc) (hb : ∀ w, Pipeline.arrRef spec4 w ≠ b) :
    B14 m ρ c (Proc.devRef .tc b) = B13 m ρ c (Proc.devRef .tc b) := by
  unfold B14; exact Pipeline.withArrays_of_ne spec4 c _ _ b hb
/-- The same contents read at the TensorCore's references. -/
abbrev Bv14 : (c : Dev nD) → (b : Ref sig .tc) → Buf (Elt F) ((c : Thread nD τ).loc b) := fun c b => B14 m ρ c b
theorem hF4 (c : Dev nD) (w : Fin cfg4.W) : (dat4 (Bv13 m ρ) c).arrAt w cfg4.N = Bv14 m ρ c (Pipeline.arrRef spec4 w) :=
  (B14_arr m ρ c w).symm
theorem hrest4 (c : Dev nD) : ∀ b, b ∉ Finset.univ.image (Pipeline.arrRef spec4) → Bv14 m ρ c b = Bv13 m ρ c b :=
  fun b hb => B14_of_ne m ρ c b fun w e => hb (Finset.mem_image.mpr ⟨w, Finset.mem_univ _, e⟩)
/-- After the host stretch `hostOps5`. -/
abbrev B15 : Dev nD → Valuation τ sig (Elt F) := fun c => StableHlo.after hostOps5 (B14 m ρ c)
/-- The same contents read at the TensorCore's references. -/
abbrev Bv15 : (c : Dev nD) → (b : Ref sig .tc) → Buf (Elt F) ((c : Thread nD τ).loc b) := fun c b => B15 m ρ c b
/-- When region 5 ends: its windows' arrays at what the pipeline leaves, every other buffer as the region found it. -/
def B16 (c : Dev nD) : Valuation τ sig (Elt F) :=
  Pipeline.withArrays spec5 c (B15 m ρ c) fun w => (dat5 (Bv15 m ρ) c).arrAt w cfg5.N
theorem B16_arr (c : Dev nD) (w : Fin cfg5.W) :
    B16 m ρ c (Proc.devRef .tc (Pipeline.arrRef spec5 w)) = (dat5 (Bv15 m ρ) c).arrAt w cfg5.N := by
  unfold B16; exact Pipeline.withArrays_arr spec5 launch5.win.arr_inj c _ _ w
theorem B16_of_ne (c : Dev nD) (b : Ref sig .tc) (hb : ∀ w, Pipeline.arrRef spec5 w ≠ b) :
    B16 m ρ c (Proc.devRef .tc b) = B15 m ρ c (Proc.devRef .tc b) := by
  unfold B16; exact Pipeline.withArrays_of_ne spec5 c _ _ b hb
/-- The same contents read at the TensorCore's references. -/
abbrev Bv16 : (c : Dev nD) → (b : Ref sig .tc) → Buf (Elt F) ((c : Thread nD τ).loc b) := fun c b => B16 m ρ c b
theorem hF5 (c : Dev nD) (w : Fin cfg5.W) : (dat5 (Bv15 m ρ) c).arrAt w cfg5.N = Bv16 m ρ c (Pipeline.arrRef spec5 w) :=
  (B16_arr m ρ c w).symm
theorem hrest5 (c : Dev nD) : ∀ b, b ∉ Finset.univ.image (Pipeline.arrRef spec5) → Bv16 m ρ c b = Bv15 m ρ c b :=
  fun b hb => B16_of_ne m ρ c b fun w e => hb (Finset.mem_image.mpr ⟨w, Finset.mem_univ _, e⟩)

/-! ## The proof data of the six pipelines, each at the contents its region is entered with -/

def pd : (p : Fin 6) → (c : Dev nD) → Dat τ (Elt F) Unit ℕ (UR sig nD τ) ℕ (Pipeline.pin (pcfgs (F := F)) adm p) c
  | ⟨0, _⟩ => fun c => dat0 (Bv1 m ρ) c
  | ⟨1, _⟩ => fun c => dat1 (Bv3 m ρ) c
  | ⟨2, _⟩ => fun c => dat2 (Bv7 m ρ) c
  | ⟨3, _⟩ => fun c => dat3 (Bv9 m ρ) c
  | ⟨4, _⟩ => fun c => dat4 (Bv13 m ρ) c
  | ⟨5, _⟩ => fun c => dat5 (Bv15 m ρ) c
abbrev 𝒱r : Variants := Variants.none
/-- No core owes another anything. -/
abbrev Lr : GSem nD τ sig → Finset Unit := fun _ => ∅
abbrev lvr : GSem nD τ sig → Unit → ℕ := fun _ _ => 0
/-- What rides beside the buffers through every item: the core's generator register at some state and its dues, none. -/
abbrev Rr (c : Dev nD) : sProp 𝕄 := iprop((∃ r, prngReg c r) ∗ ∃ W, owes (c : Thread nD τ) (0 : CellTallies nD τ sig Unit) W)
/-- A stretch of host operations as a segment over every unscoped buffer, from the contents `W`. -/
abbrev hsg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (B16 m ρ c) ∗ ∃ r, prngReg c r)

/-! ## The regions as segments

Each region is entered from every unscoped buffer at the boundary's contents and left at the next boundary's: its
windows' arrays are split out of the unscoped buffers and put back at what the pipeline leaves, the generator
register goes into the class invariant and comes back, nothing is owed, the kernel has no semaphore of its own. -/

set_option backward.isDefEq.respectTransparency.types false in
def rg0 : Pipeline.RegionSeg (pcfgs (F := F)) adm (pd m ρ) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (Bv1 m ρ) c).loose
  hwaits := Pipeline.hwaits_of_owed_zero _ _ _ _ Lr lvr 0 fun _ _ => rfl
  pre c := iprop(StableHlo.held (c : Thread nD τ) (Pipeline.ucRefs τ sig) (B1 m ρ c) ∗ Rr c)
  post c := iprop(StableHlo.held (c : Thread nD τ) (Pipeline.ucRefs τ sig) (B2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (Bv1 m ρ c)
  hentry c := by
    rw [Pipeline.ownSems0_none]
    have hsplit := Pipeline.arrays_of_unscopedBufs (p := 0) (pcfgs (F := F)) adm (pd m ρ) launch0.win launch0.arr_whole c
      ((pd m ρ 0 c).share_full fun _ => rfl) (Bv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd m ρ) ((pd m ρ 0 c).share_full fun _ => rfl)
      (Bv1 m ρ c) (Bv2 m ρ c) ((pd m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def rg1 : Pipeline.RegionSeg (pcfgs (F := F)) adm (pd m ρ) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (Bv3 m ρ) c).loose
  hwaits := Pipeline.hwaits_of_owed_zero _ _ _ _ Lr lvr 1 fun _ _ => rfl
  pre c := iprop(StableHlo.held (c : Thread nD τ) (Pipeline.ucRefs τ sig) (B3 m ρ c) ∗ Rr c)
  post c := iprop(StableHlo.held (c : Thread nD τ) (Pipeline.ucRefs τ sig) (B4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (Bv3 m ρ c)
  hentry c := by
    rw [Pipeline.ownSems0_none]
    have hsplit := Pipeline.arrays_of_unscopedBufs (p := 1) (pcfgs (F := F)) adm (pd m ρ) launch1.win launch1.arr_whole c
      ((pd m ρ 1 c).share_full fun _ => rfl) (Bv3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pd m ρ) ((pd m ρ 1 c).share_full fun _ => rfl)
      (Bv3 m ρ c) (Bv4 m ρ c) ((pd m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def rg2 : Pipeline.RegionSeg (pcfgs (F := F)) adm (pd m ρ) () defs₀ 𝒱r Lr lvr 2 where
  win := launch2.win.to₀
  block_pos := launch2.block_pos
  stage_whole := launch2.stage_whole
  K := PEmpty
  osem k := k.elim
  ho := Pipeline.OwnSemFacts.none _
  hbody c := (body_obligation2 (Bv7 m ρ) c).loose
  hwaits := Pipeline.hwaits_of_owed_zero _ _ _ _ Lr lvr 2 fun _ _ => rfl
  pre c := iprop(StableHlo.held (c : Thread nD τ) (Pipeline.ucRefs τ sig) (B7 m ρ c) ∗ Rr c)
  post c := iprop(StableHlo.held (c : Thread nD τ) (Pipeline.ucRefs τ sig) (B8 m ρ c) ∗ Rr c)
  X c := iprop(∃ r, prngReg c r)
  Y c := iprop(∃ r, prngReg c r)
  Z c := Pipeline.unscopedRest (Ix := Unit) (Name := ℕ) (U := UR sig nD τ) (Lvl := ℕ) spec2 c (Bv7 m ρ c)
  hentry c := by
    rw [Pipeline.ownSems0_none]
    have hsplit := Pipeline.arrays_of_unscopedBufs (p := 2) (pcfgs (F := F)) adm (pd m ρ) launch2.win launch2.arr_whole c
      ((pd m ρ 2 c).share_full fun _ => rfl) (Bv7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pd m ρ) ((pd m ρ 2 c).share_full fun _ => rfl)
      (Bv7 m ρ c) (Bv8 m ρ c) ((pd m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def rg3 : Pipeline.RegionSeg (pcfgs (F := F)) adm (pd m ρ) () defs₀ 𝒱r Lr lvr 3 where
  win := launch3.win.to₀
  block_pos := launch3.block_pos
  stage_whole := launch3.stage_whole
  K := PEmpty
  osem k := k.elim
  ho := Pipeline.OwnSemFacts.none _
  hbody c := (body_obligation3 (Bv9 m ρ) c).loose
  hwaits := Pipeline.hwaits_of_owed_zero _ _ _ _ Lr lvr 3 fun _ _ => rfl
  pre c := iprop(StableHlo.held (c : Thread nD τ) (Pipeline.ucRefs τ sig) (B9 m ρ c) ∗ Rr c)
  post c := iprop(StableHlo.held (c : Thread nD τ) (Pipeline.ucRefs τ sig) (B10 m ρ c) ∗ Rr c)
  X c := iprop(∃ r, prngReg c r)
  Y c := iprop(∃ r, prngReg c r)
  Z c := Pipeline.unscopedRest (Ix := Unit) (Name := ℕ) (U := UR sig nD τ) (Lvl := ℕ) spec3 c (Bv9 m ρ c)
  hentry c := by
    rw [Pipeline.ownSems0_none]
    have hsplit := Pipeline.arrays_of_unscopedBufs (p := 3) (pcfgs (F := F)) adm (pd m ρ) launch3.win launch3.arr_whole c
      ((pd m ρ 3 c).share_full fun _ => rfl) (Bv9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pd m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pd m ρ) ((pd m ρ 3 c).share_full fun _ => rfl)
      (Bv9 m ρ c) (Bv10 m ρ c) ((pd m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def rg4 : Pipeline.RegionSeg (pcfgs (F := F)) adm (pd m ρ) () defs₀ 𝒱r Lr lvr 4 where
  win := launch4.win.to₀
  block_pos := launch4.block_pos
  stage_whole := launch4.stage_whole
  K := PEmpty
  osem k := k.elim
  ho := Pipeline.OwnSemFacts.none _
  hbody c := (body_obligation4 (Bv13 m ρ) c).loose
  hwaits := Pipeline.hwaits_of_owed_zero _ _ _ _ Lr lvr 4 fun _ _ => rfl
  pre c := iprop(StableHlo.held (c : Thread nD τ) (Pipeline.ucRefs τ sig) (B13 m ρ c) ∗ Rr c)
  post c := iprop(StableHlo.held (c : Thread nD τ) (Pipeline.ucRefs τ sig) (B14 m ρ c) ∗ Rr c)
  X c := iprop(∃ r, prngReg c r)
  Y c := iprop(∃ r, prngReg c r)
  Z c := Pipeline.unscopedRest (Ix := Unit) (Name := ℕ) (U := UR sig nD τ) (Lvl := ℕ) spec4 c (Bv13 m ρ c)
  hentry c := by
    rw [Pipeline.ownSems0_none]
    have hsplit := Pipeline.arrays_of_unscopedBufs (p := 4) (pcfgs (F := F)) adm (pd m ρ) launch4.win launch4.arr_whole c
      ((pd m ρ 4 c).share_full fun _ => rfl) (Bv13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pd m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pd m ρ) ((pd m ρ 4 c).share_full fun _ => rfl)
      (Bv13 m ρ c) (Bv14 m ρ c) ((pd m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def rg5 : Pipeline.RegionSeg (pcfgs (F := F)) adm (pd m ρ) () defs₀ 𝒱r Lr lvr 5 where
  win := launch5.win.to₀
  block_pos := launch5.block_pos
  stage_whole := launch5.stage_whole
  K := PEmpty
  osem k := k.elim
  ho := Pipeline.OwnSemFacts.none _
  hbody c := (body_obligation5 (Bv15 m ρ) c).loose
  hwaits := Pipeline.hwaits_of_owed_zero _ _ _ _ Lr lvr 5 fun _ _ => rfl
  pre c := iprop(StableHlo.held (c : Thread nD τ) (Pipeline.ucRefs τ sig) (B15 m ρ c) ∗ Rr c)
  post c := iprop(StableHlo.held (c : Thread nD τ) (Pipeline.ucRefs τ sig) (B16 m ρ c) ∗ Rr c)
  X c := iprop(∃ r, prngReg c r)
  Y c := iprop(∃ r, prngReg c r)
  Z c := Pipeline.unscopedRest (Ix := Unit) (Name := ℕ) (U := UR sig nD τ) (Lvl := ℕ) spec5 c (Bv15 m ρ c)
  hentry c := by
    rw [Pipeline.ownSems0_none]
    have hsplit := Pipeline.arrays_of_unscopedBufs (p := 5) (pcfgs (F := F)) adm (pd m ρ) launch5.win launch5.arr_whole c
      ((pd m ρ 5 c).share_full fun _ => rfl) (Bv15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pd m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pd m ρ) ((pd m ρ 5 c).share_full fun _ => rfl)
      (Bv15 m ρ c) (Bv16 m ρ c) ((pd m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its sixteen items, and the run -/

abbrev allSegs : List (Pipeline.Seg (pcfgs (F := F)) adm (pd m ρ) () defs₀ 𝒱r Lr lvr) :=
  [ .host (hsg hostOps0 hostOps0_sub hostOps0_fresh (B0 m ρ)),
    .region (rg0 m ρ),
    .host (hsg hostOps1 hostOps1_sub hostOps1_fresh (B2 m ρ)),
    .region (rg1 m ρ),
    .host (hsg hostOps2 hostOps2_sub hostOps2_fresh (B4 m ρ)),
    .host (hsg hostOps2_1 hostOps2_1_sub hostOps2_1_fresh (B5 m ρ)),
    .host (hsg hostOps2_2 hostOps2_2_sub hostOps2_2_fresh (B6 m ρ)),
    .region (rg2 m ρ),
    .host (hsg hostOps3 hostOps3_sub hostOps3_fresh (B8 m ρ)),
    .region (rg3 m ρ),
    .host (hsg hostOps4 hostOps4_sub hostOps4_fresh (B10 m ρ)),
    .host (hsg hostOps4_1 hostOps4_1_sub hostOps4_1_fresh (B11 m ρ)),
    .host (hsg hostOps4_2 hostOps4_2_sub hostOps4_2_fresh (B12 m ρ)),
    .region (rg4 m ρ),
    .host (hsg hostOps5 hostOps5_sub hostOps5_fresh (B14 m ρ)),
    .region (rg5 m ρ) ]

theorem main_run (c : Dev nD) : main (F := F) c = Pipeline.Seg.run (allSegs m ρ) := by
  rw [main_chain c, Pipeline.Seg.run_eq_chain]; rfl

set_option backward.isDefEq.respectTransparency.types false in
/-- THE RUN OF THE REFERENCE. From any memory with zero counters every weakly fair execution of the program terminates,
    nothing faulting, and the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B16 m ρ c b) :=
  Pipeline.θ_run_regions_kit (pcfgs (F := F)) adm (pd m ρ) () cellOf_inj emb₁ defs₀ 𝒱r Lr lvr m ρ main (allSegs m ρ)
    (fun c Q => by rw [main_run m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rr c)) (Tₙ := Tlast m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (B16 m ρ c) ∗ (∃ r, prngReg c r)
        ∗ ∃ W, owes (c : Thread nD τ) (0 : CellTallies nD τ sig Unit) W) : sProp 𝕄) ⊢ _
      iintro ⟨Hh, Hp, HO⟩
      isplitl [Hh Hp]
      · isplitl [Hh]; · iexact Hh
        iexact Hp
      iexact HO⟩)
    (hinit := by
      refine Pipeline.initEach Lr lvr fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B16 m ρ c b)
    (hfin := fun c s' => by
      iintro ⟨⟨Hh, -⟩, HSI⟩
      unfold StableHlo.held
      imodintro
      iapply (pointsTo_read_all (Pipeline.ucRefs τ sig) (fun b => (((c : Thread nD τ)).1, b)) (B16 m ρ c) s')
      isplitl [Hh] <;> iassumption)
    (hQ := fun s h c => h c)

end Cert.ReferenceIdeal.Hand

end
-- ==== Proof.RefKeep.lean ====
import proofs.«126699_g2000605867469428_pallasbulk_857_3_alg».proof.Proof.RefRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves alone

A stretch of host operations changes only the buffers it writes; a kernel region changes only its output window's
array: an input window's array ends as it was entered, and a buffer that is no window's array bypasses the region. -/

theorem Bv1_keep (c : Dev nD) (b : Ref sig .tc) (hb : b ∉ hostOps0_W) : Bv1 m ρ c b = Bv0 m ρ c b :=
  StableHlo.after_of_writes_sub hostOps0 _ hostOps0_writes hb

theorem Bv3_keep (c : Dev nD) (b : Ref sig .tc) (hb : b ∉ hostOps1_W) : Bv3 m ρ c b = Bv2 m ρ c b :=
  StableHlo.after_of_writes_sub hostOps1 _ hostOps1_writes hb

theorem Bv5_keep (c : Dev nD) (b : Ref sig .tc) (hb : b ∉ hostOps2_W) : Bv5 m ρ c b = Bv4 m ρ c b :=
  StableHlo.after_of_writes_sub hostOps2 _ hostOps2_writes hb

theorem Bv6_keep (c : Dev nD) (b : Ref sig .tc) (hb : b ∉ hostOps2_1_W) : Bv6 m ρ c b = Bv5 m ρ c b :=
  StableHlo.after_of_writes_sub hostOps2_1 _ hostOps2_1_writes hb

theorem Bv7_keep (c : Dev nD) (b : Ref sig .tc) (hb : b ∉ hostOps2_2_W) : Bv7 m ρ c b = Bv6 m ρ c b :=
  StableHlo.after_of_writes_sub hostOps2_2 _ hostOps2_2_writes hb

theorem Bv9_keep (c : Dev nD) (b : Ref sig .tc) (hb : b ∉ hostOps3_W) : Bv9 m ρ c b = Bv8 m ρ c b :=
  StableHlo.after_of_writes_sub hostOps3 _ hostOps3_writes hb

theorem Bv11_keep (c : Dev nD) (b : Ref sig .tc) (hb : b ∉ hostOps4_W) : Bv11 m ρ c b = Bv10 m ρ c b :=
  StableHlo.after_of_writes_sub hostOps4 _ hostOps4_writes hb

theorem Bv12_keep (c : Dev nD) (b : Ref sig .tc) (hb : b ∉ hostOps4_1_W) : Bv12 m ρ c b = Bv11 m ρ c b :=
  StableHlo.after_of_writes_sub hostOps4_1 _ hostOps4_1_writes hb

theorem Bv13_keep (c : Dev nD) (b : Ref sig .tc) (hb : b ∉ hostOps4_2_W) : Bv13 m ρ c b = Bv12 m ρ c b :=
  StableHlo.after_of_writes_sub hostOps4_2 _ hostOps4_2_writes hb

theorem Bv15_keep (c : Dev nD) (b : Ref sig .tc) (hb : b ∉ hostOps5_W) : Bv15 m ρ c b = Bv14 m ρ c b :=
  StableHlo.after_of_writes_sub hostOps5 _ hostOps5_writes hb

theorem Bv2_out (c : Dev nD) : Bv2 m ρ c main_v2 = (dat0 (Bv1 m ρ) c).arrAt 3 cfg0.N := B2_arr m ρ c 3
theorem Bv2_keep (c : Dev nD) (b : Ref sig .tc) (hb : b ≠ main_v2) : Bv2 m ρ c b = Bv1 m ρ c b := by
  by_cases h : ∃ w, Pipeline.arrRef spec0 w = b
  · obtain ⟨w, rfl⟩ := h
    refine (B2_arr m ρ c w).trans ?_
    match w, hb with
    | ⟨0, _⟩, _ => exact ((dat0 (Bv1 m ρ) c).arrAt_in 0 rfl _).trans (A_eq0 (Bv1 m ρ) c 0)
    | ⟨1, _⟩, _ => exact ((dat0 (Bv1 m ρ) c).arrAt_in 1 rfl _).trans (A_eq0 (Bv1 m ρ) c 1)
    | ⟨2, _⟩, _ => exact ((dat0 (Bv1 m ρ) c).arrAt_in 2 rfl _).trans (A_eq0 (Bv1 m ρ) c 2)
    | ⟨3, _⟩, hb => exact absurd rfl hb
  · exact B2_of_ne m ρ c b (fun w e => h ⟨w, e⟩)

theorem Bv4_out (c : Dev nD) : Bv4 m ρ c main_v7 = (dat1 (Bv3 m ρ) c).arrAt 3 cfg1.N := B4_arr m ρ c 3
theorem Bv4_keep (c : Dev nD) (b : Ref sig .tc) (hb : b ≠ main_v7) : Bv4 m ρ c b = Bv3 m ρ c b := by
  by_cases h : ∃ w, Pipeline.arrRef spec1 w = b
  · obtain ⟨w, rfl⟩ := h
    refine (B4_arr m ρ c w).trans ?_
    match w, hb with
    | ⟨0, _⟩, _ => exact ((dat1 (Bv3 m ρ) c).arrAt_in 0 rfl _).trans (A_eq1 (Bv3 m ρ) c 0)
    | ⟨1, _⟩, _ => exact ((dat1 (Bv3 m ρ) c).arrAt_in 1 rfl _).trans (A_eq1 (Bv3 m ρ) c 1)
    | ⟨2, _⟩, _ => exact ((dat1 (Bv3 m ρ) c).arrAt_in 2 rfl _).trans (A_eq1 (Bv3 m ρ) c 2)
    | ⟨3, _⟩, hb => exact absurd rfl hb
  · exact B4_of_ne m ρ c b (fun w e => h ⟨w, e⟩)

theorem Bv8_out (c : Dev nD) : Bv8 m ρ c main_v22 = (dat2 (Bv7 m ρ) c).arrAt 4 cfg2.N := B8_arr m ρ c 4
theorem Bv8_keep (c : Dev nD) (b : Ref sig .tc) (hb : b ≠ main_v22) : Bv8 m ρ c b = Bv7 m ρ c b := by
  by_cases h : ∃ w, Pipeline.arrRef spec2 w = b
  · obtain ⟨w, rfl⟩ := h
    refine (B8_arr m ρ c w).trans ?_
    match w, hb with
    | ⟨0, _⟩, _ => exact ((dat2 (Bv7 m ρ) c).arrAt_in 0 rfl _).trans (A_eq2 (Bv7 m ρ) c 0)
    | ⟨1, _⟩, _ => exact ((dat2 (Bv7 m ρ) c).arrAt_in 1 rfl _).trans (A_eq2 (Bv7 m ρ) c 1)
    | ⟨2, _⟩, _ => exact ((dat2 (Bv7 m ρ) c).arrAt_in 2 rfl _).trans (A_eq2 (Bv7 m ρ) c 2)
    | ⟨3, _⟩, _ => exact ((dat2 (Bv7 m ρ) c).arrAt_in 3 rfl _).trans (A_eq2 (Bv7 m ρ) c 3)
    | ⟨4, _⟩, hb => exact absurd rfl hb
  · exact B8_of_ne m ρ c b (fun w e => h ⟨w, e⟩)

theorem Bv10_out (c : Dev nD) : Bv10 m ρ c main_v27 = (dat3 (Bv9 m ρ) c).arrAt 3 cfg3.N := B10_arr m ρ c 3
theorem Bv10_keep (c : Dev nD) (b : Ref sig .tc) (hb : b ≠ main_v27) : Bv10 m ρ c b = Bv9 m ρ c b := by
  by_cases h : ∃ w, Pipeline.arrRef spec3 w = b
  · obtain ⟨w, rfl⟩ := h
    refine (B10_arr m ρ c w).trans ?_
    match w, hb with
    | ⟨0, _⟩, _ => exact ((dat3 (Bv9 m ρ) c).arrAt_in 0 rfl _).trans (A_eq3 (Bv9 m ρ) c 0)
    | ⟨1, _⟩, _ => exact ((dat3 (Bv9 m ρ) c).arrAt_in 1 rfl _).trans (A_eq3 (Bv9 m ρ) c 1)
    | ⟨2, _⟩, _ => exact ((dat3 (Bv9 m ρ) c).arrAt_in 2 rfl _).trans (A_eq3 (Bv9 m ρ) c 2)
    | ⟨3, _⟩, hb => exact absurd rfl hb
  · exact B10_of_ne m ρ c b (fun w e => h ⟨w, e⟩)

theorem Bv14_out (c : Dev nD) : Bv14 m ρ c main_v42 = (dat4 (Bv13 m ρ) c).arrAt 4 cfg4.N := B14_arr m ρ c 4
theorem Bv14_keep (c : Dev nD) (b : Ref sig .tc) (hb : b ≠ main_v42) : Bv14 m ρ c b = Bv13 m ρ c b := by
  by_cases h : ∃ w, Pipeline.arrRef spec4 w = b
  · obtain ⟨w, rfl⟩ := h
    refine (B14_arr m ρ c w).trans ?_
    match w, hb with
    | ⟨0, _⟩, _ => exact ((dat4 (Bv13 m ρ) c).arrAt_in 0 rfl _).trans (A_eq4 (Bv13 m ρ) c 0)
    | ⟨1, _⟩, _ => exact ((dat4 (Bv13 m ρ) c).arrAt_in 1 rfl _).trans (A_eq4 (Bv13 m ρ) c 1)
    | ⟨2, _⟩, _ => exact ((dat4 (Bv13 m ρ) c).arrAt_in 2 rfl _).trans (A_eq4 (Bv13 m ρ) c 2)
    | ⟨3, _⟩, _ => exact ((dat4 (Bv13 m ρ) c).arrAt_in 3 rfl _).trans (A_eq4 (Bv13 m ρ) c 3)
    | ⟨4, _⟩, hb => exact absurd rfl hb
  · exact B14_of_ne m ρ c b (fun w e => h ⟨w, e⟩)

theorem Bv16_out (c : Dev nD) : Bv16 m ρ c main_v47 = (dat5 (Bv15 m ρ) c).arrAt 3 cfg5.N := B16_arr m ρ c 3
theorem Bv16_keep (c : Dev nD) (b : Ref sig .tc) (hb : b ≠ main_v47) : Bv16 m ρ c b = Bv15 m ρ c b := by
  by_cases h : ∃ w, Pipeline.arrRef spec5 w = b
  · obtain ⟨w, rfl⟩ := h
    refine (B16_arr m ρ c w).trans ?_
    match w, hb with
    | ⟨0, _⟩, _ => exact ((dat5 (Bv15 m ρ) c).arrAt_in 0 rfl _).trans (A_eq5 (Bv15 m ρ) c 0)
    | ⟨1, _⟩, _ => exact ((dat5 (Bv15 m ρ) c).arrAt_in 1 rfl _).trans (A_eq5 (Bv15 m ρ) c 1)
    | ⟨2, _⟩, _ => exact ((dat5 (Bv15 m ρ) c).arrAt_in 2 rfl _).trans (A_eq5 (Bv15 m ρ) c 2)
    | ⟨3, _⟩, hb => exact absurd rfl hb
  · exact B16_of_ne m ρ c b (fun w e => h ⟨w, e⟩)

/-- A buffer that no stretch writes and that is no region's output reaches the end as launched. -/
theorem Bv16_untouched (c : Dev nD) (b : Ref sig .tc) (h1 : b ∉ hostOps0_W) (h2 : b ≠ main_v2) (h3 : b ∉ hostOps1_W) (h4 : b ≠ main_v7) (h5 : b ∉ hostOps2_W) (h6 : b ∉ hostOps2_1_W) (h7 : b ∉ hostOps2_2_W) (h8 : b ≠ main_v22) (h9 : b ∉ hostOps3_W) (h10 : b ≠ main_v27) (h11 : b ∉ hostOps4_W) (h12 : b ∉ hostOps4_1_W) (h13 : b ∉ hostOps4_2_W) (h14 : b ≠ main_v42) (h15 : b ∉ hostOps5_W) (h16 : b ≠ main_v47) :
    Bv16 m ρ c b = m ((c : Thread nD τ).loc b) :=
  (Bv16_keep m ρ c b h16).trans <| (Bv15_keep m ρ c b h15).trans <| (Bv14_keep m ρ c b h14).trans <| (Bv13_keep m ρ c b h13).trans <| (Bv12_keep m ρ c b h12).trans <| (Bv11_keep m ρ c b h11).trans <| (Bv10_keep m ρ c b h10).trans <| (Bv9_keep m ρ c b h9).trans <| (Bv8_keep m ρ c b h8).trans <| (Bv7_keep m ρ c b h7).trans <| (Bv6_keep m ρ c b h6).trans <| (Bv5_keep m ρ c b h5).trans <| (Bv4_keep m ρ c b h4).trans <| (Bv3_keep m ρ c b h3).trans <| (Bv2_keep m ρ c b h2).trans <| (Bv1_keep m ρ c b h1).trans <| rfl

end Cert.ReferenceIdeal.Hand

end
-- ==== Proof.RefArgs.lean ====
/-
  The reference program's fifteen argument arrays, as it is launched with them, read as the curried functions of literal
  coordinates the specification is stated over: the three input images as they are; each 1x1 weight matrix as it is; each
  bias, a vector of 128, as the one-row matrix both programs make of it; each 3x3 weight array, 3 x 3 x 128 x 128, as
  the three 384 x 128 matrices both programs make of it (the horizontal neighbour and the channel laid along 384).
-/
import proofs.«126699_g2000605867469428_pallasbulk_857_3_alg».proof.Proof.Gen.ReferenceIdeal.Launch
import proofs.«126699_g2000605867469428_pallasbulk_857_3_alg».proof.Proof.Levels
import Idealize.ShloMosaic.Lib.ValueIdx

noncomputable section

namespace Cert.ReferenceIdeal.Hand

open Idealize.ShloMosaic Idealize.ShloMosaic.TcCoe Idealize.ShloMosaic.ValueIdx
open Cert.ReferenceIdeal Cert.ReferenceIdeal.Gen

/-- The specification's arguments read off core `c`'s argument buffers in the launch memory `m`. -/
def rArgs (m : (ℓ : Loc nD τ sig) → Buf (Elt Ideal) ℓ) (c : Dev nD) : Cert.Spec.Args where
  c3 := fun n h w k => (m ((c : Thread nD τ).loc main_arg0) : S4x64x64x256.Idx → EReal) (ix4 n h w k)
  c4 := fun n h w k => (m ((c : Thread nD τ).loc main_arg1) : S4x32x32x512.Idx → EReal) (ix4 n h w k)
  c5 := fun n h w k => (m ((c : Thread nD τ).loc main_arg2) : S4x16x16x1024.Idx → EReal) (ix4 n h w k)
  w51 := fun k co => (m ((c : Thread nD τ).loc main_arg3) : S1024x128.Idx → EReal) (ix2 k co)
  b5 := fun co => shapeCast S1x128 (m ((c : Thread nD τ).loc main_arg4) : S128.Idx → EReal) shapeCasts_S128_S1x128 (ix2 0 co)
  w52 := fun dy k co => shapeCast S3x384x128 (m ((c : Thread nD τ).loc main_arg5) : S3x3x128x128.Idx → EReal)
    shapeCasts_S3x3x128x128_S3x384x128 (ix3 dy k co)
  b52 := fun co => shapeCast S1x128 (m ((c : Thread nD τ).loc main_arg6) : S128.Idx → EReal) shapeCasts_S128_S1x128 (ix2 0 co)
  w41 := fun k co => (m ((c : Thread nD τ).loc main_arg7) : S512x128.Idx → EReal) (ix2 k co)
  b4 := fun co => shapeCast S1x128 (m ((c : Thread nD τ).loc main_arg8) : S128.Idx → EReal) shapeCasts_S128_S1x128 (ix2 0 co)
  w42 := fun dy k co => shapeCast S3x384x128 (m ((c : Thread nD τ).loc main_arg9) : S3x3x128x128.Idx → EReal)
    shapeCasts_S3x3x128x128_S3x384x128 (ix3 dy k co)
  b42 := fun co => shapeCast S1x128 (m ((c : Thread nD τ).loc main_arg10) : S128.Idx → EReal) shapeCasts_S128_S1x128 (ix2 0 co)
  w31 := fun k co => (m ((c : Thread nD τ).loc main_arg11) : S256x128.Idx → EReal) (ix2 k co)
  b3 := fun co => shapeCast S1x128 (m ((c : Thread nD τ).loc main_arg12) : S128.Idx → EReal) shapeCasts_S128_S1x128 (ix2 0 co)
  w32 := fun dy k co => shapeCast S3x384x128 (m ((c : Thread nD τ).loc main_arg13) : S3x3x128x128.Idx → EReal)
    shapeCasts_S3x3x128x128_S3x384x128 (ix3 dy k co)
  b32 := fun co => shapeCast S1x128 (m ((c : Thread nD τ).loc main_arg14) : S128.Idx → EReal) shapeCasts_S128_S1x128 (ix2 0 co)

end Cert.ReferenceIdeal.Hand

end
-- ==== Proof.RefHostA.lean ====
/-
  What the reference's host operations between its kernel regions leave in the buffers the regions read, part A: the
  stretches that only reshape. Each stretch is read for an arbitrary valuation of the buffers on entry, at the exact
  extended-real instance, and each result is given at an index with literal coordinates.

  A reshape keeps the row-major position: element (r, k) of a [1024, 1024] matrix made from a [4, 16, 16, 1024] image
  is the image's element (r / 256, r / 16 % 16, r % 16, k), and element (n, h, w, c) of an [N, H, W, 128] image made from
  an [N * H * W, 128] matrix is the matrix's element (n * H * W + h * W + w, c). A change of float format is the identity
  on extended reals. Weights and biases are kept as the reshape terms themselves: both programs apply the same ones.
-/
import proofs.«126699_g2000605867469428_pallasbulk_857_3_alg».proof.Proof.Gen.ReferenceIdeal.Launch
import Idealize.ShloMosaic.Lib.ValueIdx
import Idealize.ShloMosaic.Lib.Pipeline.Value

noncomputable section

namespace Cert.ReferenceIdeal.Hand

open Idealize.ShloMosaic Idealize.ShloMosaic.TcCoe Idealize.ShloMosaic.ValueIdx
open Cert.ReferenceIdeal.Gen

variable (W : Valuation τ sig (Elt Ideal))

/-! ## Before region 0: the top level's input as a matrix of pixels by channels -/

/-- The [1024, 1024] matrix is the [4, 16, 16, 1024] input reshaped. -/
theorem hostOps0_v0 :
    (StableHlo.after (hostOps0 (F := Ideal)) W main_v0 : S1024x1024.Idx → EReal)
      = shapeCast S1024x1024 (W main_arg2 : S4x16x16x1024.Idx → EReal) shapeCasts_S4x16x16x1024_S1024x1024 := by
  after_results; rfl

/-- Row `r` of the matrix is pixel `(r / 256, r / 16 % 16, r % 16)` of the input. -/
theorem hostOps0_v0_apply (r : Fin 1024) (k : Fin 1024) :
    (StableHlo.after (hostOps0 (F := Ideal)) W main_v0 : S1024x1024.Idx → EReal) (ix2 r k)
      = (W main_arg2 : S4x16x16x1024.Idx → EReal)
          (ix4 (⟨r.val / 256, by omega⟩ : Fin 4) (⟨r.val / 16 % 16, by omega⟩ : Fin 16) (⟨r.val % 16, by omega⟩ : Fin 16) k) := by
  rw [hostOps0_v0]
  refine shapeCast_apply (s := S4x16x16x1024) (t := S1024x1024) _ _ _ _ ?_
  rw [Shape.rowMajor_val_two, Shape.rowMajor_val_four]
  show ((r.val / 256 * 16 + r.val / 16 % 16) * 16 + r.val % 16) * 1024 + k.val = r.val * 1024 + k.val
  omega

/-- The bias as a one-row matrix. -/
theorem hostOps0_v1 :
    (StableHlo.after (hostOps0 (F := Ideal)) W main_v1 : S1x128.Idx → EReal)
      = shapeCast S1x128 (W main_arg4 : S128.Idx → EReal) shapeCasts_S128_S1x128 := by
  after_results; rfl

/-! ## Before region 1: region 0's result as an image -/

/-- The [4, 16, 16, 128] image is region 0's [1024, 128] result reshaped. -/
theorem hostOps1_v3 :
    (StableHlo.after (hostOps1 (F := Ideal)) W main_v3 : S4x16x16x128.Idx → EReal)
      = shapeCast S4x16x16x128 (W main_v2 : S1024x128.Idx → EReal) shapeCasts_S1024x128_S4x16x16x128 := by
  after_results; rfl

/-- Pixel `(n, h, w)` of the image is row `n * 256 + h * 16 + w` of the matrix. -/
theorem hostOps1_v3_apply (n : Fin 4) (h w : Fin 16) (co : Fin 128) :
    (StableHlo.after (hostOps1 (F := Ideal)) W main_v3 : S4x16x16x128.Idx → EReal) (ix4 n h w co)
      = (W main_v2 : S1024x128.Idx → EReal) (ix2 (⟨n.val * 256 + h.val * 16 + w.val, by omega⟩ : Fin 1024) co) := by
  rw [hostOps1_v3]
  refine shapeCast_apply (s := S1024x128) (t := S4x16x16x128) _ _ _ _ ?_
  rw [Shape.rowMajor_val_two, Shape.rowMajor_val_four]
  show (n.val * 256 + h.val * 16 + w.val) * 128 + co.val = ((n.val * 16 + h.val) * 16 + w.val) * 128 + co.val
  omega

/-- The 3x3 weights as three [384, 128] matrices, in the narrower float format. -/
theorem hostOps1_v5 :
    (StableHlo.after (hostOps1 (F := Ideal)) W main_v5 : S3x384x128.Idx → EReal)
      = truncf (F := Ideal) .bf16
          (shapeCast S3x384x128 (W main_arg5 : S3x3x128x128.Idx → EReal) shapeCasts_S3x3x128x128_S3x384x128) bitsLt_bf16_f32 := by
  after_results; rfl

/-- At an index the change of format is the identity. -/
theorem hostOps1_v5_apply (i : S3x384x128.Idx) :
    (StableHlo.after (hostOps1 (F := Ideal)) W main_v5 : S3x384x128.Idx → EReal) i
      = shapeCast S3x384x128 (W main_arg5 : S3x3x128x128.Idx → EReal) shapeCasts_S3x3x128x128_S3x384x128 i := by
  rw [hostOps1_v5]; rfl

/-- The bias as a one-row matrix. -/
theorem hostOps1_v6 :
    (StableHlo.after (hostOps1 (F := Ideal)) W main_v6 : S1x128.Idx → EReal)
      = shapeCast S1x128 (W main_arg6 : S128.Idx → EReal) shapeCasts_S128_S1x128 := by
  after_results; rfl

/-! ## Before region 3: region 2's result as an image -/

/-- The [4, 32, 32, 128] image is region 2's [4096, 128] result reshaped. -/
theorem hostOps3_v23 :
    (StableHlo.after (hostOps3 (F := Ideal)) W main_v23 : S4x32x32x128.Idx → EReal)
      = shapeCast S4x32x32x128 (W main_v22 : S4096x128.Idx → EReal) shapeCasts_S4096x128_S4x32x32x128 := by
  after_results; rfl

/-- Pixel `(n, h, w)` of the image is row `n * 1024 + h * 32 + w` of the matrix. -/
theorem hostOps3_v23_apply (n : Fin 4) (h w : Fin 32) (co : Fin 128) :
    (StableHlo.after (hostOps3 (F := Ideal)) W main_v23 : S4x32x32x128.Idx → EReal) (ix4 n h w co)
      = (W main_v22 : S4096x128.Idx → EReal) (ix2 (⟨n.val * 1024 + h.val * 32 + w.val, by omega⟩ : Fin 4096) co) := by
  rw [hostOps3_v23]
  refine shapeCast_apply (s := S4096x128) (t := S4x32x32x128) _ _ _ _ ?_
  rw [Shape.rowMajor_val_two, Shape.rowMajor_val_four]
  show (n.val * 1024 + h.val * 32 + w.val) * 128 + co.val = ((n.val * 32 + h.val) * 32 + w.val) * 128 + co.val
  omega

/-- The 3x3 weights as three [384, 128] matrices, in the narrower float format. -/
theorem hostOps3_v25 :
    (StableHlo.after (hostOps3 (F := Ideal)) W main_v25 : S3x384x128.Idx → EReal)
      = truncf (F := Ideal) .bf16
          (shapeCast S3x384x128 (W main_arg9 : S3x3x128x128.Idx → EReal) shapeCasts_S3x3x128x128_S3x384x128) bitsLt_bf16_f32 := by
  after_results; rfl

/-- At an index the change of format is the identity. -/
theorem hostOps3_v25_apply (i : S3x384x128.Idx) :
    (StableHlo.after (hostOps3 (F := Ideal)) W main_v25 : S3x384x128.Idx → EReal) i
      = shapeCast S3x384x128 (W main_arg9 : S3x3x128x128.Idx → EReal) shapeCasts_S3x3x128x128_S3x384x128 i := by
  rw [hostOps3_v25]; rfl

/-- The bias as a one-row matrix. -/
theorem hostOps3_v26 :
    (StableHlo.after (hostOps3 (F := Ideal)) W main_v26 : S1x128.Idx → EReal)
      = shapeCast S1x128 (W main_arg10 : S128.Idx → EReal) shapeCasts_S128_S1x128 := by
  after_results; rfl

/-! ## Before region 5: region 4's result as an image -/

/-- The [4, 64, 64, 128] image is region 4's [16384, 128] result reshaped. -/
theorem hostOps5_v43 :
    (StableHlo.after (hostOps5 (F := Ideal)) W main_v43 : S4x64x64x128.Idx → EReal)
      = shapeCast S4x64x64x128 (W main_v42 : S16384x128.Idx → EReal) shapeCasts_S16384x128_S4x64x64x128 := by
  after_results; rfl

/-- Pixel `(n, h, w)` of the image is row `n * 4096 + h * 64 + w` of the matrix. -/
theorem hostOps5_v43_apply (n : Fin 4) (h w : Fin 64) (co : Fin 128) :
    (StableHlo.after (hostOps5 (F := Ideal)) W main_v43 : S4x64x64x128.Idx → EReal) (ix4 n h w co)
      = (W main_v42 : S16384x128.Idx → EReal) (ix2 (⟨n.val * 4096 + h.val * 64 + w.val, by omega⟩ : Fin 16384) co) := by
  rw [hostOps5_v43]
  refine shapeCast_apply (s := S16384x128) (t := S4x64x64x128) _ _ _ _ ?_
  rw [Shape.rowMajor_val_two, Shape.rowMajor_val_four]
  show (n.val * 4096 + h.val * 64 + w.val) * 128 + co.val = ((n.val * 64 + h.val) * 64 + w.val) * 128 + co.val
  omega

/-- The 3x3 weights as three [384, 128] matrices, in the narrower float format. -/
theorem hostOps5_v45 :
    (StableHlo.after (hostOps5 (F := Ideal)) W main_v45 : S3x384x128.Idx → EReal)
      = truncf (F := Ideal) .bf16
          (shapeCast S3x384x128 (W main_arg13 : S3x3x128x128.Idx → EReal) shapeCasts_S3x3x128x128_S3x384x128) bitsLt_bf16_f32 := by
  after_results; rfl

/-- At an index the change of format is the identity. -/
theorem hostOps5_v45_apply (i : S3x384x128.Idx) :
    (StableHlo.after (hostOps5 (F := Ideal)) W main_v45 : S3x384x128.Idx → EReal) i
      = shapeCast S3x384x128 (W main_arg13 : S3x3x128x128.Idx → EReal) shapeCasts_S3x3x128x128_S3x384x128 i := by
  rw [hostOps5_v45]; rfl

/-- The bias as a one-row matrix. -/
theorem hostOps5_v46 :
    (StableHlo.after (hostOps5 (F := Ideal)) W main_v46 : S1x128.Idx → EReal)
      = shapeCast S1x128 (W main_arg14 : S128.Idx → EReal) shapeCasts_S128_S1x128 := by
  after_results; rfl

end Cert.ReferenceIdeal.Hand

end
-- ==== Proof.RefLvl5.lean ====
/-
  Level 5 on the reference's side: what its first two kernel regions leave, traced back to the program's arguments.

  Region 0 writes the 1x1 stage of the coarsest level as a matrix of 1024 pixels by 128 channels, from the input image
  laid out as a matrix of pixels by channels (a reshape: pixel `(n, h, w)` is row `256 n + 16 h + w`), the weights and the
  bias as a one-row matrix; nothing before it writes the weights. So row `256 n + 16 h + w` of its result is the
  specification's `p5` at `(n, h, w)`.
  Region 1 writes the 3x3 convolution of that result, reshaped back to images, with the 3 x 3 x 128 x 128 weights laid
  out as three 384 x 128 matrices and the bias as a one-row matrix; nothing in between writes those arguments, and
  nothing after region 1 writes its result. So the result at the end of the program is the specification's `o5`.
-/
import proofs.«126699_g2000605867469428_pallasbulk_857_3_alg».proof.Proof.RefKeep
import proofs.«126699_g2000605867469428_pallasbulk_857_3_alg».proof.Proof.RefPw0
import proofs.«126699_g2000605867469428_pallasbulk_857_3_alg».proof.Proof.RefHostA
import proofs.«126699_g2000605867469428_pallasbulk_857_3_alg».proof.Proof.RefArgs

noncomputable section

namespace Cert.ReferenceIdeal.Hand

open Idealize.ShloMosaic Idealize.ShloMosaic.TcCoe Idealize.ShloMosaic.ValueIdx
open Cert.ReferenceIdeal Cert.ReferenceIdeal.Gen

variable (m : (ℓ : Loc nD τ sig) → Buf (Elt Ideal) ℓ) (ρ : Dev nD → PrngReg) (c : Dev nD)

/-! ## Congruences -/

/-- Equal coordinates give equal rank-4 indices. -/
theorem ix4_congr {n0 n1 n2 n3 : Nat} {a a' : Fin n0} {b b' : Fin n1} {d d' : Fin n2} {e e' : Fin n3}
    (ha : a = a') (hb : b = b') (hd : d = d') (he : e = e') : ix4 a b d e = ix4 a' b' d' e' := by
  subst ha hb hd he; rfl

/-- The 1x1 stage depends only on its three arguments. -/
theorem pw_congr {K : Nat} {x x' : Fin K → EReal} {wt wt' : Fin K → Fin 128 → EReal} {b b' : Fin 128 → EReal}
    (hx : x = x') (hw : wt = wt') (hb : b = b') (co : Fin 128) : Cert.Spec.pw x wt b co = Cert.Spec.pw x' wt' b' co := by
  subst hx hw hb; rfl

/-- The 3x3 stage depends only on its three arguments. -/
theorem conv_congr {H W : Nat} {x x' : Fin H → Fin W → Fin 128 → EReal} {w3 w3' : Fin 3 → Fin 384 → Fin 128 → EReal}
    {b b' : Fin 128 → EReal} (hx : x = x') (hw : w3 = w3') (hb : b = b') (h : Fin H) (w : Fin W) (co : Fin 128) :
    Cert.Spec.conv x w3 b h w co = Cert.Spec.conv x' w3' b' h w co := by
  subst hx hw hb; rfl

/-! ## Region 0's inputs -/

/-- Row `256 n + 16 h + w` of the pixel matrix region 0 reads is pixel `(n, h, w)` of the input image. -/
theorem v0_at5 (n : Fin 4) (h w : Fin 16) (k : Fin 1024) :
    (Bv1 m ρ c main_v0 : S1024x1024.Idx → EReal) (ix2 (⟨n.val * 256 + h.val * 16 + w.val, by omega⟩ : Fin 1024) k)
      = (rArgs m c).c5 n h w k := by
  refine (hostOps0_v0_apply (B0 m ρ c) _ k).trans ?_
  show (m ((c : Thread nD τ).loc main_arg2) : S4x16x16x1024.Idx → EReal) _
    = (m ((c : Thread nD τ).loc main_arg2) : S4x16x16x1024.Idx → EReal) (ix4 n h w k)
  refine congrArg _ (ix4_congr (Fin.ext ?_) (Fin.ext ?_) (Fin.ext ?_) rfl)
  · show (n.val * 256 + h.val * 16 + w.val) / 256 = n.val
    omega
  · show (n.val * 256 + h.val * 16 + w.val) / 16 % 16 = h.val
    omega
  · show (n.val * 256 + h.val * 16 + w.val) % 16 = w.val
    omega

/-- The 1x1 weights reach region 0 as launched. -/
theorem Bv1_main_arg3 : Bv1 m ρ c main_arg3 = m ((c : Thread nD τ).loc main_arg3) :=
  Bv1_keep m ρ c main_arg3 (by decide)

/-- The bias region 0 reads is the launched bias as a one-row matrix. -/
theorem v1_at5 (co : Fin 128) :
    (Bv1 m ρ c main_v1 : S1x128.Idx → EReal) (ix2 0 co) = (rArgs m c).b5 co :=
  congrFun (hostOps0_v1 (B0 m ρ c)) (ix2 0 co)

/-! ## Region 0's result -/

/-- From region 0's value at the contents it is entered with: row `256 n + 16 h + w` of its result is the
    specification's 1x1 stage of level 5 at `(n, h, w)`. -/
theorem ref_p5_of
    (hfin : ∀ (r : Fin 1024) (co : Fin 128), (Bv2 m ρ c main_v2 : S1024x128.Idx → EReal) (ix2 r co)
      = Cert.Spec.pw (fun k : Fin 1024 => Bv1 m ρ c main_v0 (ix2 r k)) (fun k co' => Bv1 m ρ c main_arg3 (ix2 k co'))
          (fun co' => Bv1 m ρ c main_v1 (ix2 0 co')) co)
    (n : Fin 4) (h w : Fin 16) (co : Fin 128) :
    (Bv2 m ρ c main_v2 : S1024x128.Idx → EReal) (ix2 (⟨n.val * 256 + h.val * 16 + w.val, by omega⟩ : Fin 1024) co)
      = (rArgs m c).p5 n h w co := by
  refine (hfin _ co).trans ?_
  show Cert.Spec.pw _ _ _ co = Cert.Spec.pw ((rArgs m c).c5 n h w) (rArgs m c).w51 (rArgs m c).b5 co
  refine pw_congr (funext fun k => v0_at5 m ρ c n h w k) ?_ (funext fun co' => v1_at5 m ρ c co') co
  funext k co'
  rw [Bv1_main_arg3]
  rfl

/-! ## Region 1's inputs -/

/-- The 3x3 weights reach the stretch before region 1 as launched. -/
theorem Bv2_main_arg5 : Bv2 m ρ c main_arg5 = m ((c : Thread nD τ).loc main_arg5) :=
  (Bv2_keep m ρ c main_arg5 (by decide)).trans (Bv1_keep m ρ c main_arg5 (by decide))

/-- So does the 3x3 bias. -/
theorem Bv2_main_arg6 : Bv2 m ρ c main_arg6 = m ((c : Thread nD τ).loc main_arg6) :=
  (Bv2_keep m ρ c main_arg6 (by decide)).trans (Bv1_keep m ρ c main_arg6 (by decide))

/-- The weights region 1 reads are the launched ones as three 384 x 128 matrices. -/
theorem v5_at5 (dy : Fin 3) (k : Fin 384) (co : Fin 128) :
    (Bv3 m ρ c main_v5 : S3x384x128.Idx → EReal) (ix3 dy k co) = (rArgs m c).w52 dy k co := by
  refine (hostOps1_v5_apply (B2 m ρ c) (ix3 dy k co)).trans ?_
  exact congrArg (fun v : S3x3x128x128.Idx → EReal =>
    shapeCast S3x384x128 v shapeCasts_S3x3x128x128_S3x384x128 (ix3 dy k co)) (Bv2_main_arg5 m ρ c)

/-- The bias region 1 reads is the launched one as a one-row matrix. -/
theorem v6_at5 (co : Fin 128) :
    (Bv3 m ρ c main_v6 : S1x128.Idx → EReal) (ix2 0 co) = (rArgs m c).b52 co := by
  refine (congrFun (hostOps1_v6 (B2 m ρ c)) (ix2 0 co)).trans ?_
  exact congrArg (fun v : S128.Idx → EReal => shapeCast S1x128 v shapeCasts_S128_S1x128 (ix2 0 co)) (Bv2_main_arg6 m ρ c)

/-! ## Region 1's result, at the end of the program -/

/-- Nothing after region 1 writes its result. -/
theorem Bv16_main_v7 : Bv16 m ρ c main_v7 = Bv4 m ρ c main_v7 :=
  (Bv16_keep m ρ c main_v7 (by decide)).trans <| (Bv15_keep m ρ c main_v7 (by decide)).trans <|
  (Bv14_keep m ρ c main_v7 (by decide)).trans <| (Bv13_keep m ρ c main_v7 (by decide)).trans <|
  (Bv12_keep m ρ c main_v7 (by decide)).trans <| (Bv11_keep m ρ c main_v7 (by decide)).trans <|
  (Bv10_keep m ρ c main_v7 (by decide)).trans <| (Bv9_keep m ρ c main_v7 (by decide)).trans <|
  (Bv8_keep m ρ c main_v7 (by decide)).trans <| (Bv7_keep m ρ c main_v7 (by decide)).trans <|
  (Bv6_keep m ρ c main_v7 (by decide)).trans (Bv5_keep m ρ c main_v7 (by decide))

/-- From region 0's result and region 1's value at the contents it is entered with: the first output at the end of the
    program is the specification's 3x3 stage of level 5. -/
theorem ref_o5_of
    (hp5 : ∀ (n : Fin 4) (h w : Fin 16) (co : Fin 128),
      (Bv2 m ρ c main_v2 : S1024x128.Idx → EReal) (ix2 (⟨n.val * 256 + h.val * 16 + w.val, by omega⟩ : Fin 1024) co)
        = (rArgs m c).p5 n h w co)
    (hfin : ∀ (n : Fin 4) (h w : Fin 16) (co : Fin 128), (Bv4 m ρ c main_v7 : S4x16x16x128.Idx → EReal) (ix4 n h w co)
      = Cert.Spec.conv (fun h' w' k => Bv3 m ρ c main_v3 (ix4 n h' w' k)) (fun dy k co' => Bv3 m ρ c main_v5 (ix3 dy k co'))
          (fun co' => Bv3 m ρ c main_v6 (ix2 0 co')) h w co)
    (n : Fin 4) (h w : Fin 16) (co : Fin 128) :
    (Bv16 m ρ c main_v7 : S4x16x16x128.Idx → EReal) (ix4 n h w co) = (rArgs m c).o5 n h w co := by
  rw [Bv16_main_v7]
  refine (hfin n h w co).trans ?_
  show Cert.Spec.conv _ _ _ h w co = Cert.Spec.conv ((rArgs m c).p5 n) (rArgs m c).w52 (rArgs m c).b52 h w co
  refine conv_congr ?_ ?_ ?_ h w co
  · funext h' w' k
    exact (hostOps1_v3_apply (B2 m ρ c) n h' w' k).trans (hp5 n h' w' k)
  · funext dy k co'
    exact v5_at5 m ρ c dy k co'
  · funext co'
    exact v6_at5 m ρ c co'

/-! ## Region 0's result, from its value -/

/-- Row `256 n + 16 h + w` of region 0's result is the specification's 1x1 stage of level 5 at `(n, h, w)`. -/
theorem ref_p5 (n : Fin 4) (h w : Fin 16) (co : Fin 128) :
    (Bv2 m ρ c main_v2 : S1024x128.Idx → EReal) (ix2 (⟨n.val * 256 + h.val * 16 + w.val, by omega⟩ : Fin 1024) co)
      = (rArgs m c).p5 n h w co :=
  ref_p5_of m ρ c (fun r co => (congrFun (Bv2_out m ρ c) (ix2 r co)).trans (final0 (Bv1 m ρ) c r co)) n h w co

end Cert.ReferenceIdeal.Hand

end
-- ==== Proof.RefConv1Value.lean ====
/-
  The arithmetic of the 3x3 convolution kernel at 16x16 pixels, with no memory in it: what each store into the
  column-patch buffer writes at an index, what the buffer therefore holds when each vertical tap's product reads it
  (the column patch of the row above, of the row itself, of the row below, zero rows at the image's edge), one tap's
  product as a sum over the 384 patch positions, and from these the value stored at a pixel and an output channel — the
  convolution of the shared specification. Everything is read at the extended reals, where a change of float format is
  the identity and zero times anything is zero.
-/
import proofs.«126699_g2000605867469428_pallasbulk_857_3_alg».proof.Proof.Gen.ReferenceIdeal.Skeleton
import proofs.«126699_g2000605867469428_pallasbulk_857_3_alg».proof.Proof.Spec
import Idealize.ShloMosaic.Lib.Pipeline.FrameBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Hand.Conv1

open Cert.ReferenceIdeal Cert.ReferenceIdeal.Gen
open Idealize.ShloMosaic Idealize.ShloMosaic.ValueIdx

/-! ## Reading a buffer written by several rectangular stores

The contents a list of stores (last store first) leaves at an index are the payload of the first store of the list whose
rectangle holds the index. For unit-stride rectangles of a rank-3 buffer that is arithmetic on the three coordinates. -/

section Canon
variable {Val : EltTy → Type} [∀ e, Nonempty (Val e)] {e : EltTy} {n0 n1 n2 : ℕ}

/-- A store whose rectangle misses the index on axis 0 is skipped. -/
theorem canon_skip3_0 (o0 o1 o2 m0 m1 m2 : ℕ) (inb) (pay) (L : List (View.Piece Val ⟨3, ![n0, n1, n2]⟩ e))
    (a : Fin n0) (b : Fin n1) (c : Fin n2) (h : a.val < o0 ∨ o0 + m0 ≤ a.val) :
    View.canon (⟨Rect.unit (s := ⟨3, ![n0, n1, n2]⟩) ![o0, o1, o2] ![m0, m1, m2] inb, pay⟩ :: L) (ix3 a b c) = View.canon L (ix3 a b c) :=
  View.canon_cons_of_not_mem _ L (fun hm => by
    have h' : o0 ≤ a.val ∧ a.val < o0 + m0 := (Rect.mem_set_unit (inb := inb) (i := ix3 a b c)).mp hm 0
    omega)

/-- The same on axis 1. -/
theorem canon_skip3_1 (o0 o1 o2 m0 m1 m2 : ℕ) (inb) (pay) (L : List (View.Piece Val ⟨3, ![n0, n1, n2]⟩ e))
    (a : Fin n0) (b : Fin n1) (c : Fin n2) (h : b.val < o1 ∨ o1 + m1 ≤ b.val) :
    View.canon (⟨Rect.unit (s := ⟨3, ![n0, n1, n2]⟩) ![o0, o1, o2] ![m0, m1, m2] inb, pay⟩ :: L) (ix3 a b c) = View.canon L (ix3 a b c) :=
  View.canon_cons_of_not_mem _ L (fun hm => by
    have h' : o1 ≤ b.val ∧ b.val < o1 + m1 := (Rect.mem_set_unit (inb := inb) (i := ix3 a b c)).mp hm 1
    omega)

/-- The same on axis 2. -/
theorem canon_skip3_2 (o0 o1 o2 m0 m1 m2 : ℕ) (inb) (pay) (L : List (View.Piece Val ⟨3, ![n0, n1, n2]⟩ e))
    (a : Fin n0) (b : Fin n1) (c : Fin n2) (h : c.val < o2 ∨ o2 + m2 ≤ c.val) :
    View.canon (⟨Rect.unit (s := ⟨3, ![n0, n1, n2]⟩) ![o0, o1, o2] ![m0, m1, m2] inb, pay⟩ :: L) (ix3 a b c) = View.canon L (ix3 a b c) :=
  View.canon_cons_of_not_mem _ L (fun hm => by
    have h' : o2 ≤ c.val ∧ c.val < o2 + m2 := (Rect.mem_set_unit (inb := inb) (i := ix3 a b c)).mp hm 2
    omega)

/-- A store whose rectangle holds the index gives its payload at the index's position inside the rectangle. -/
theorem canon_hit3 (o0 o1 o2 m0 m1 m2 : ℕ) (inb) (pay : (⟨3, ![m0, m1, m2]⟩ : Shape).Idx → Val e) (L : List (View.Piece Val ⟨3, ![n0, n1, n2]⟩ e))
    (a : Fin n0) (b : Fin n1) (c : Fin n2) (a' : Fin m0) (b' : Fin m1) (c' : Fin m2)
    (h0 : a.val = o0 + a'.val) (h1 : b.val = o1 + b'.val) (h2 : c.val = o2 + c'.val) :
    View.canon (⟨Rect.unit (s := ⟨3, ![n0, n1, n2]⟩) ![o0, o1, o2] ![m0, m1, m2] inb, pay⟩ :: L) (ix3 a b c) = pay (ix3 a' b' c') := by
  have hy : (Rect.unit (s := ⟨3, ![n0, n1, n2]⟩) ![o0, o1, o2] ![m0, m1, m2] inb).emb (ix3 a' b' c') = ix3 a b c := by
    funext ax; apply Fin.ext
    match ax with
    | ⟨0, _⟩ => show o0 + 1 * a'.val = a.val; omega
    | ⟨1, _⟩ => show o1 + 1 * b'.val = b.val; omega
    | ⟨2, _⟩ => show o2 + 1 * c'.val = c.val; omega
  rw [← hy]
  exact View.canon_cons_emb (Rect.unit (s := ⟨3, ![n0, n1, n2]⟩) ![o0, o1, o2] ![m0, m1, m2] inb) pay L (ix3 a' b' c')

end Canon

/-- Skip the newest store: it misses the index on some axis. -/
macro "c1skip" : tactic => `(tactic| first
  | refine (canon_skip3_0 _ _ _ _ _ _ _ _ _ _ _ _ (by omega)).trans ?_
  | refine (canon_skip3_1 _ _ _ _ _ _ _ _ _ _ _ _ (by omega)).trans ?_
  | refine (canon_skip3_2 _ _ _ _ _ _ _ _ _ _ _ _ (by omega)).trans ?_)

/-! ## The stores' payloads at an index

Each store into the column-patch scratch writes either zeros or a copy of a band of image rows, shifted by one column
to the left or to the right or not at all. At the extended reals a change of float format is the identity, so a copy
reads the image itself. -/

section Payloads

/-- Rows of the image loaded as a band of 15 rows, viewed without the leading unit axis. -/
theorem pay5_apply (v : Vec Ideal S1x15x16x128 .bf16) (a : Fin 15) (j : Fin 16) (e : Fin 128) :
    k1_pay5 v (ix3 a j e) = v (ix4 (0 : Fin 1) a j e) := by
  unfold k1_pay5
  (try dsimp only)
  exact shapeCast_apply v _ (ix3 a j e) (ix4 (0 : Fin 1) a j e) (by
    rw [Shape.rowMajor_val_four, Shape.rowMajor_val_three]
    show ((0 * 15 + a.val) * 16 + j.val) * 128 + e.val = (a.val * 16 + j.val) * 128 + e.val
    omega)

/-- The band's columns 0–14 (what goes one column to the right: the left neighbour's channels). -/
theorem pay6_apply (v : Vec Ideal S1x15x16x128 .bf16) (a : Fin 15) (j : Fin 15) (e : Fin 128) :
    k1_pay6 v (ix3 a j e) = v (ix4 (0 : Fin 1) a (⟨j.val, by omega⟩ : Fin 16) e) := by
  unfold k1_pay6
  (try dsimp only)
  rw [shapeCast_self]
  refine (slice3_axis1_apply 0 _ _ a j e (⟨j.val, by omega⟩ : Fin 16) (by simp)).trans ?_
  exact pay5_apply v a _ e

/-- The band itself (the pixel's own channels). -/
theorem pay7_apply (v : Vec Ideal S1x15x16x128 .bf16) (a : Fin 15) (j : Fin 16) (e : Fin 128) :
    k1_pay7 v (ix3 a j e) = v (ix4 (0 : Fin 1) a j e) := by
  unfold k1_pay7
  (try dsimp only)
  rw [shapeCast_self]
  exact pay5_apply v a j e

/-- The band's columns 1–15 (what goes one column to the left: the right neighbour's channels). -/
theorem pay8_apply (v : Vec Ideal S1x15x16x128 .bf16) (a : Fin 15) (j : Fin 15) (e : Fin 128) :
    k1_pay8 v (ix3 a j e) = v (ix4 (0 : Fin 1) a (⟨j.val + 1, by omega⟩ : Fin 16) e) := by
  unfold k1_pay8
  (try dsimp only)
  rw [shapeCast_self]
  refine (slice3_axis1_apply 1 _ _ a j e (⟨j.val + 1, by omega⟩ : Fin 16) (by simp; omega)).trans ?_
  exact pay5_apply v a _ e

/-- The same four for the whole image (the middle tap). -/
theorem pay9_apply (v : Vec Ideal S1x16x16x128 .bf16) (a : Fin 16) (j : Fin 16) (e : Fin 128) :
    k1_pay9 v (ix3 a j e) = v (ix4 (0 : Fin 1) a j e) := by
  unfold k1_pay9
  (try dsimp only)
  exact shapeCast_apply v _ (ix3 a j e) (ix4 (0 : Fin 1) a j e) (by
    rw [Shape.rowMajor_val_four, Shape.rowMajor_val_three]
    show ((0 * 16 + a.val) * 16 + j.val) * 128 + e.val = (a.val * 16 + j.val) * 128 + e.val
    omega)

theorem pay10_apply (v : Vec Ideal S1x16x16x128 .bf16) (a : Fin 16) (j : Fin 15) (e : Fin 128) :
    k1_pay10 v (ix3 a j e) = v (ix4 (0 : Fin 1) a (⟨j.val, by omega⟩ : Fin 16) e) := by
  unfold k1_pay10
  (try dsimp only)
  rw [shapeCast_self]
  refine (slice3_axis1_apply 0 _ _ a j e (⟨j.val, by omega⟩ : Fin 16) (by simp)).trans ?_
  exact pay9_apply v a _ e

theorem pay11_apply (v : Vec Ideal S1x16x16x128 .bf16) (a : Fin 16) (j : Fin 16) (e : Fin 128) :
    k1_pay11 v (ix3 a j e) = v (ix4 (0 : Fin 1) a j e) := by
  unfold k1_pay11
  (try dsimp only)
  rw [shapeCast_self]
  exact pay9_apply v a j e

theorem pay12_apply (v : Vec Ideal S1x16x16x128 .bf16) (a : Fin 16) (j : Fin 15) (e : Fin 128) :
    k1_pay12 v (ix3 a j e) = v (ix4 (0 : Fin 1) a (⟨j.val + 1, by omega⟩ : Fin 16) e) := by
  unfold k1_pay12
  (try dsimp only)
  rw [shapeCast_self]
  refine (slice3_axis1_apply 1 _ _ a j e (⟨j.val + 1, by omega⟩ : Fin 16) (by simp; omega)).trans ?_
  exact pay9_apply v a _ e

/-- And for the band of the last tap. -/
theorem pay16_apply (v : Vec Ideal S1x15x16x128 .bf16) (a : Fin 15) (j : Fin 16) (e : Fin 128) :
    k1_pay16 v (ix3 a j e) = v (ix4 (0 : Fin 1) a j e) := by
  unfold k1_pay16
  (try dsimp only)
  exact shapeCast_apply v _ (ix3 a j e) (ix4 (0 : Fin 1) a j e) (by
    rw [Shape.rowMajor_val_four, Shape.rowMajor_val_three]
    show ((0 * 15 + a.val) * 16 + j.val) * 128 + e.val = (a.val * 16 + j.val) * 128 + e.val
    omega)

theorem pay17_apply (v : Vec Ideal S1x15x16x128 .bf16) (a : Fin 15) (j : Fin 15) (e : Fin 128) :
    k1_pay17 v (ix3 a j e) = v (ix4 (0 : Fin 1) a (⟨j.val, by omega⟩ : Fin 16) e) := by
  unfold k1_pay17
  (try dsimp only)
  rw [shapeCast_self]
  refine (slice3_axis1_apply 0 _ _ a j e (⟨j.val, by omega⟩ : Fin 16) (by simp)).trans ?_
  exact pay16_apply v a _ e

theorem pay18_apply (v : Vec Ideal S1x15x16x128 .bf16) (a : Fin 15) (j : Fin 16) (e : Fin 128) :
    k1_pay18 v (ix3 a j e) = v (ix4 (0 : Fin 1) a j e) := by
  unfold k1_pay18
  (try dsimp only)
  rw [shapeCast_self]
  exact pay16_apply v a j e

theorem pay19_apply (v : Vec Ideal S1x15x16x128 .bf16) (a : Fin 15) (j : Fin 15) (e : Fin 128) :
    k1_pay19 v (ix3 a j e) = v (ix4 (0 : Fin 1) a (⟨j.val + 1, by omega⟩ : Fin 16) e) := by
  unfold k1_pay19
  (try dsimp only)
  rw [shapeCast_self]
  refine (slice3_axis1_apply 1 _ _ a j e (⟨j.val + 1, by omega⟩ : Fin 16) (by simp; omega)).trans ?_
  exact pay16_apply v a _ e

/-- The zero fills. -/
theorem pay1_zero (i : S16x1x128.Idx) : k1_pay1 (F := Ideal) i = (0 : EReal) := by
  unfold k1_pay1
  (try dsimp only)
  rw [shapeCast_self]
  exact Ideal.ofBits_zero_f32

theorem pay2_zero (i : S16x1x128.Idx) : k1_pay2 (F := Ideal) i = (0 : EReal) := by
  unfold k1_pay2
  (try dsimp only)
  rw [shapeCast_self]
  exact Ideal.ofBits_zero_f32

theorem pay4_zero (i : S1x16x384.Idx) : k1_pay4 (F := Ideal) i = (0 : EReal) := by
  unfold k1_pay4
  (try dsimp only)
  rw [shapeCast_self]
  exact Ideal.ofBits_zero_f32

theorem pay15_zero (i : S1x16x384.Idx) : k1_pay15 (F := Ideal) (k1_pay14 (F := Ideal)) i = (0 : EReal) := by
  unfold k1_pay15 k1_pay14
  (try dsimp only)
  rw [shapeCast_self]
  exact Ideal.ofBits_zero_f32

end Payloads

/-! ## One tap's product and the stored value at a pixel -/

section Taps

/-- One tap at a pixel: the patch buffer read as 256 rows of 384 numbers, times the tap's 384 x 128 weights, into a
    zero accumulator, is the sum over the 384 positions of patch times weight. -/
theorem tap_apply (P : FVec Ideal S16x16x384 .f32) (Wt : FVec Ideal S1x384x128 .bf16) (hc : S16x16x384.ShapeCasts S256x384)
    (hb : FTy.bf16.bits < FTy.f32.bits) (hc' : S1x384x128.ShapeCasts S384x128) (h w : Fin 16) (co : Fin 128)
    (r : Fin 256) (hr : r.val = h.val * 16 + w.val) :
    (matmul (F := Ideal) dot_S256x384_S384x128_S256x128_1_0_0_1_n_n none
      (truncf (F := Ideal) .bf16 (shapeCast S256x384 P hc) hb) (shapeCast S384x128 Wt hc')
      (constant (F := Ideal) S256x128 .f32 0x00000000#32) (ix2 r co) : EReal)
    = ∑ k : Fin 384, (P (ix3 h w k) : EReal) * (Wt (ix3 (0 : Fin 1) k co) : EReal) := by
  simp only [matmul]
  rw [Ideal.matmul_constant_zero_apply]
  rw [← Equiv.sum_comp (contrEquiv1 dot_S256x384_S384x128_S256x128_1_0_0_1_n_n 384 rfl rfl).symm]
  refine Finset.sum_congr rfl fun k _ => ?_
  have hl : dot_S256x384_S384x128_S256x128_1_0_0_1_n_n.lhsIdx (ix2 r co)
      ((contrEquiv1 dot_S256x384_S384x128_S256x128_1_0_0_1_n_n 384 rfl rfl).symm k) = ix2 r k := by
    funext a; apply Fin.ext
    match a with
    | ⟨0, _⟩ => rfl
    | ⟨1, _⟩ => exact (DotDims.lhsIdx_val_of_single _ rfl _ _).trans (contrEquiv1_symm_val _ 384 rfl rfl k)
  have hrr : dot_S256x384_S384x128_S256x128_1_0_0_1_n_n.rhsIdx (ix2 r co)
      ((contrEquiv1 dot_S256x384_S384x128_S256x128_1_0_0_1_n_n 384 rfl rfl).symm k) = ix2 k co := by
    funext a; apply Fin.ext
    match a with
    | ⟨0, _⟩ => exact (DotDims.rhsIdx_val_of_single _ rfl _ _).trans (contrEquiv1_symm_val _ 384 rfl rfl k)
    | ⟨1, _⟩ => rfl
  rw [hl, hrr]
  refine congrArg₂ (· * ·) ?_ ?_
  · exact shapeCast_apply P _ (ix2 r k) (ix3 h w k) (by
      rw [Shape.rowMajor_val_three, Shape.rowMajor_val_two]
      show (h.val * 16 + w.val) * 384 + k.val = r.val * 384 + k.val
      rw [hr])
  · exact shapeCast_apply Wt _ (ix2 k co) (ix3 (0 : Fin 1) k co) (by
      rw [Shape.rowMajor_val_three, Shape.rowMajor_val_two]
      show (0 * 384 + k.val) * 128 + co.val = k.val * 128 + co.val
      omega)

/-- The stored value at a pixel and an output channel: zero, plus the three taps' products one after the other, plus
    the bias. -/
theorem pay20_apply (P0 P1 P2 : Vec Ideal S16x16x384 .f32) (W0 W1 W2 : Vec Ideal S1x384x128 .bf16) (b : Vec Ideal S1x128 .f32)
    (h w : Fin 16) (co : Fin 128) :
    k1_pay20 (k1_pay13 (k1_pay3 (F := Ideal)) P0 W0 P1 W1) P2 W2 b (ix4 (0 : Fin 1) h w co)
      = ((((0 : EReal) + ∑ k : Fin 384, (P0 (ix3 h w k) : EReal) * (W0 (ix3 (0 : Fin 1) k co) : EReal))
            + ∑ k : Fin 384, (P1 (ix3 h w k) : EReal) * (W1 (ix3 (0 : Fin 1) k co) : EReal))
          + ∑ k : Fin 384, (P2 (ix3 h w k) : EReal) * (W2 (ix3 (0 : Fin 1) k co) : EReal)) + (b (ix2 (0 : Fin 1) co) : EReal) := by
  unfold k1_pay20
  (try dsimp only)
  refine (shapeCast_apply _ _ (ix4 (0 : Fin 1) h w co) (ix2 (⟨h.val * 16 + w.val, by omega⟩ : Fin 256) co) (by
    rw [Shape.rowMajor_val_two, Shape.rowMajor_val_four]
    show (h.val * 16 + w.val) * 128 + co.val = ((0 * 16 + h.val) * 16 + w.val) * 128 + co.val
    omega)).trans ?_
  refine (addf_apply _ _ _).trans ?_
  refine congrArg₂ (· + ·) ?_ ?_
  · refine (addf_apply _ _ _).trans ?_
    refine congrArg₂ (· + ·) ?_ (tap_apply P2 W2 _ _ _ h w co _ rfl)
    unfold k1_pay13
    (try dsimp only)
    refine (addf_apply _ _ _).trans ?_
    refine congrArg₂ (· + ·) ?_ (tap_apply P1 W1 _ _ _ h w co _ rfl)
    refine (addf_apply _ _ _).trans ?_
    refine congrArg₂ (· + ·) ?_ (tap_apply P0 W0 _ _ _ h w co _ rfl)
    unfold k1_pay3
    exact Ideal.ofBits_zero_f32
  · rw [shapeCast_self]
    exact broadcastTo_1b_ab_apply _ _ _ co

end Taps

/-! ## The column-patch buffer before each tap's product

The stores into the scratch, last store first, as they stand when each tap's product loads the whole buffer. Before
tap 0 they are: the three shifted copies of image rows 0–14 into buffer rows 1–15, the zero row 0, the zero column 15 of
the right-neighbour positions and the zero column 0 of the left-neighbour positions. Tap 1 puts three shifted copies
of the whole image over them; tap 2 then puts a zero row 15 and three shifted copies of image rows 1–15 into buffer rows
0–14. Reading the buffer at a pixel and a position is reading the newest store that holds them. -/

section Patches

variable {F : FTy → Type} [FloatOps F]

/-- Image rows 0–14, the whole image, image rows 1–15: what the three taps load. -/
abbrev rTop : Rect S1x16x16x128 := Rect.unit (s := S1x16x16x128) ![0, 0, 0, 0] S1x15x16x128.size inb_S1x16x16x128_S1x15x16x128_0_0_0_0
abbrev rImg : Rect S1x16x16x128 := Rect.unit (s := S1x16x16x128) ![0, 0, 0, 0] S1x16x16x128.size inb_S1x16x16x128_S1x16x16x128_0_0_0_0
abbrev rBot : Rect S1x16x16x128 := Rect.unit (s := S1x16x16x128) ![0, 1, 0, 0] S1x15x16x128.size inb_S1x16x16x128_S1x15x16x128_0_1_0_0
/-- The whole scratch. -/
abbrev rAll : Rect S16x16x384 := Rect.unit (s := S16x16x384) ![0, 0, 0] S16x16x384.size inb_S16x16x384_S16x16x384_0_0_0

/-- The stores before tap 0's product. -/
def pieces0 (x : Vec F S1x16x16x128 .bf16) : List (View.Piece (Elt F) S16x16x384 .f32) :=
  [⟨Rect.unit (s := S16x16x384) ![1, 0, 256] S15x15x128.size inb_S16x16x384_S15x15x128_1_0_256, k1_pay8 (View.ld x rTop)⟩,
   ⟨Rect.unit (s := S16x16x384) ![1, 0, 128] S15x16x128.size inb_S16x16x384_S15x16x128_1_0_128, k1_pay7 (View.ld x rTop)⟩,
   ⟨Rect.unit (s := S16x16x384) ![1, 1, 0] S15x15x128.size inb_S16x16x384_S15x15x128_1_1_0, k1_pay6 (View.ld x rTop)⟩,
   ⟨Rect.unit (s := S16x16x384) ![0, 0, 0] S1x16x384.size inb_S16x16x384_S1x16x384_0_0_0, k1_pay4⟩,
   ⟨Rect.unit (s := S16x16x384) ![0, 15, 256] S16x1x128.size inb_S16x16x384_S16x1x128_0_15_256, k1_pay2⟩,
   ⟨Rect.unit (s := S16x16x384) ![0, 0, 0] S16x1x128.size inb_S16x16x384_S16x1x128_0_0_0, k1_pay1⟩]

/-- The stores before tap 1's product. -/
def pieces1 (x : Vec F S1x16x16x128 .bf16) : List (View.Piece (Elt F) S16x16x384 .f32) :=
  ⟨Rect.unit (s := S16x16x384) ![0, 0, 256] S16x15x128.size inb_S16x16x384_S16x15x128_0_0_256, k1_pay12 (View.ld x rImg)⟩ ::
  ⟨Rect.unit (s := S16x16x384) ![0, 0, 128] S16x16x128.size inb_S16x16x384_S16x16x128_0_0_128, k1_pay11 (View.ld x rImg)⟩ ::
  ⟨Rect.unit (s := S16x16x384) ![0, 1, 0] S16x15x128.size inb_S16x16x384_S16x15x128_0_1_0, k1_pay10 (View.ld x rImg)⟩ :: pieces0 x

/-- The stores before tap 2's product. -/
def pieces2 (x : Vec F S1x16x16x128 .bf16) : List (View.Piece (Elt F) S16x16x384 .f32) :=
  ⟨Rect.unit (s := S16x16x384) ![0, 0, 256] S15x15x128.size inb_S16x16x384_S15x15x128_0_0_256, k1_pay19 (View.ld x rBot)⟩ ::
  ⟨Rect.unit (s := S16x16x384) ![0, 0, 128] S15x16x128.size inb_S16x16x384_S15x16x128_0_0_128, k1_pay18 (View.ld x rBot)⟩ ::
  ⟨Rect.unit (s := S16x16x384) ![0, 1, 0] S15x15x128.size inb_S16x16x384_S15x15x128_0_1_0, k1_pay17 (View.ld x rBot)⟩ ::
  ⟨Rect.unit (s := S16x16x384) ![15, 0, 0] S1x16x384.size inb_S16x16x384_S1x16x384_15_0_0, k1_pay15 (k1_pay14 (F := F))⟩ :: pieces1 x

end Patches

section PatchValues

/-- A band of 15 image rows starting at row `o`, read at one of its rows, is the image at that row. -/
theorem ld_band_apply (x : Vec Ideal S1x16x16x128 .bf16) (o : ℕ) (inb) (a : Fin 15) (j : Fin 16) (e : Fin 128)
    (a' : Fin 16) (ha : a'.val = o + a.val) :
    View.ld x (Rect.unit (s := S1x16x16x128) ![0, o, 0, 0] S1x15x16x128.size inb) (ix4 (0 : Fin 1) a j e) = x (ix4 (0 : Fin 1) a' j e) := by
  show x _ = x _
  refine congrArg x (funext fun ax => Fin.ext ?_)
  match ax with
  | ⟨0, _⟩ => rfl
  | ⟨1, _⟩ => show o + 1 * a.val = a'.val; omega
  | ⟨2, _⟩ => show 0 + 1 * j.val = j.val; omega
  | ⟨3, _⟩ => show 0 + 1 * e.val = e.val; omega

/-- The whole image read through its whole rectangle. -/
theorem ld_img_apply (x : Vec Ideal S1x16x16x128 .bf16) (a : Fin 16) (j : Fin 16) (e : Fin 128) :
    View.ld x rImg (ix4 (0 : Fin 1) a j e) = x (ix4 (0 : Fin 1) a j e) := by
  show x _ = x _
  refine congrArg x (funext fun ax => Fin.ext ?_)
  match ax with
  | ⟨0, _⟩ => rfl
  | ⟨1, _⟩ => show 0 + 1 * a.val = a.val; omega
  | ⟨2, _⟩ => show 0 + 1 * j.val = j.val; omega
  | ⟨3, _⟩ => show 0 + 1 * e.val = e.val; omega

/-- The image as a function of row, column and channel into the extended reals. -/
abbrev imgOf (x : Vec Ideal S1x16x16x128 .bf16) : Fin 16 → Fin 16 → Fin 128 → EReal :=
  fun h' w' k' => x (ix4 (0 : Fin 1) h' w' k')

/-- Arithmetic on a coordinate written as a literal pair. -/
macro "c1omega" : tactic => `(tactic| first | omega | (simp only [Fin.val_mk]; omega) | (dsimp only; omega))

/-- BEFORE TAP 0 the buffer holds, at buffer row `h`, the column patch of image row `h - 1`, and zeros at row 0. -/
theorem patch0_apply (x : Vec Ideal S1x16x16x128 .bf16) (h w : Fin 16) (k : Fin 384) :
    (View.canon (pieces0 x) (ix3 h w k) : EReal)
      = if hh : 0 < h.val then Cert.Spec.patch (imgOf x) ⟨h.val - 1, by have := h.isLt; omega⟩ w k else 0 := by
  unfold pieces0 Cert.Spec.patch
  have hH := h.isLt; have hW := w.isLt; have hK := k.isLt
  by_cases hh : 0 < h.val
  · rw [dif_pos hh]
    by_cases hk0 : k.val < 128
    · rw [dif_pos hk0]
      by_cases hw : 0 < w.val
      · rw [dif_pos hw]
        c1skip; c1skip
        refine (canon_hit3 _ _ _ _ _ _ _ _ _ _ _ _ (⟨h.val - 1, by omega⟩ : Fin 15) (⟨w.val - 1, by omega⟩ : Fin 15) (⟨k.val, hk0⟩ : Fin 128) (by c1omega) (by c1omega) (by c1omega)).trans ?_
        refine (pay6_apply _ _ _ _).trans ?_
        exact ld_band_apply x 0 _ _ _ _ (⟨h.val - 1, by omega⟩ : Fin 16) (by c1omega)
      · rw [dif_neg hw]
        c1skip; c1skip; c1skip; c1skip; c1skip
        exact (canon_hit3 _ _ _ _ _ _ _ _ _ _ _ _ h (⟨0, by omega⟩ : Fin 1) (⟨k.val, hk0⟩ : Fin 128) (by c1omega) (by c1omega) (by c1omega)).trans (pay1_zero _)
    · rw [dif_neg hk0]
      by_cases hk1 : k.val < 256
      · rw [dif_pos hk1]
        c1skip
        refine (canon_hit3 _ _ _ _ _ _ _ _ _ _ _ _ (⟨h.val - 1, by omega⟩ : Fin 15) w (⟨k.val - 128, by omega⟩ : Fin 128) (by c1omega) (by c1omega) (by c1omega)).trans ?_
        refine (pay7_apply _ _ _ _).trans ?_
        exact ld_band_apply x 0 _ _ _ _ (⟨h.val - 1, by omega⟩ : Fin 16) (by c1omega)
      · rw [dif_neg hk1]
        by_cases hw : w.val + 1 < 16
        · rw [dif_pos hw]
          refine (canon_hit3 _ _ _ _ _ _ _ _ _ _ _ _ (⟨h.val - 1, by omega⟩ : Fin 15) (⟨w.val, by omega⟩ : Fin 15) (⟨k.val - 256, by omega⟩ : Fin 128) (by c1omega) (by c1omega) (by c1omega)).trans ?_
          refine (pay8_apply _ _ _ _).trans ?_
          exact ld_band_apply x 0 _ _ _ _ (⟨h.val - 1, by omega⟩ : Fin 16) (by c1omega)
        · rw [dif_neg hw]
          c1skip; c1skip; c1skip; c1skip
          exact (canon_hit3 _ _ _ _ _ _ _ _ _ _ _ _ h (⟨0, by omega⟩ : Fin 1) (⟨k.val - 256, by omega⟩ : Fin 128) (by c1omega) (by c1omega) (by c1omega)).trans (pay2_zero _)
  · rw [dif_neg hh]
    c1skip; c1skip; c1skip
    exact (canon_hit3 _ _ _ _ _ _ _ _ _ _ _ _ (⟨0, by omega⟩ : Fin 1) w k (by c1omega) (by c1omega) (by c1omega)).trans (pay4_zero _)

end PatchValues

section PatchValues12

/-- BEFORE TAP 1 the buffer holds, at buffer row `h`, the column patch of image row `h`. -/
theorem patch1_apply (x : Vec Ideal S1x16x16x128 .bf16) (h w : Fin 16) (k : Fin 384) :
    (View.canon (pieces1 x) (ix3 h w k) : EReal) = Cert.Spec.patch (imgOf x) h w k := by
  unfold pieces1 pieces0 Cert.Spec.patch
  have hH := h.isLt; have hW := w.isLt; have hK := k.isLt
  by_cases hk0 : k.val < 128
  · rw [dif_pos hk0]
    by_cases hw : 0 < w.val
    · rw [dif_pos hw]
      c1skip; c1skip
      refine (canon_hit3 _ _ _ _ _ _ _ _ _ _ _ _ h (⟨w.val - 1, by omega⟩ : Fin 15) (⟨k.val, hk0⟩ : Fin 128) (by c1omega) (by c1omega) (by c1omega)).trans ?_
      refine (pay10_apply _ _ _ _).trans ?_
      exact ld_img_apply x _ _ _
    · rw [dif_neg hw]
      c1skip; c1skip; c1skip; c1skip; c1skip; c1skip
      by_cases hh : 0 < h.val
      · c1skip; c1skip
        exact (canon_hit3 _ _ _ _ _ _ _ _ _ _ _ _ h (⟨0, by omega⟩ : Fin 1) (⟨k.val, hk0⟩ : Fin 128) (by c1omega) (by c1omega) (by c1omega)).trans (pay1_zero _)
      · exact (canon_hit3 _ _ _ _ _ _ _ _ _ _ _ _ (⟨0, by omega⟩ : Fin 1) w k (by c1omega) (by c1omega) (by c1omega)).trans (pay4_zero _)
  · rw [dif_neg hk0]
    by_cases hk1 : k.val < 256
    · rw [dif_pos hk1]
      c1skip
      refine (canon_hit3 _ _ _ _ _ _ _ _ _ _ _ _ h w (⟨k.val - 128, by omega⟩ : Fin 128) (by c1omega) (by c1omega) (by c1omega)).trans ?_
      refine (pay11_apply _ _ _ _).trans ?_
      exact ld_img_apply x _ _ _
    · rw [dif_neg hk1]
      by_cases hw : w.val + 1 < 16
      · rw [dif_pos hw]
        refine (canon_hit3 _ _ _ _ _ _ _ _ _ _ _ _ h (⟨w.val, by omega⟩ : Fin 15) (⟨k.val - 256, by omega⟩ : Fin 128) (by c1omega) (by c1omega) (by c1omega)).trans ?_
        refine (pay12_apply _ _ _ _).trans ?_
        exact ld_img_apply x _ _ _
      · rw [dif_neg hw]
        c1skip; c1skip; c1skip; c1skip; c1skip; c1skip
        by_cases hh : 0 < h.val
        · c1skip
          exact (canon_hit3 _ _ _ _ _ _ _ _ _ _ _ _ h (⟨0, by omega⟩ : Fin 1) (⟨k.val - 256, by omega⟩ : Fin 128) (by c1omega) (by c1omega) (by c1omega)).trans (pay2_zero _)
        · exact (canon_hit3 _ _ _ _ _ _ _ _ _ _ _ _ (⟨0, by omega⟩ : Fin 1) w k (by c1omega) (by c1omega) (by c1omega)).trans (pay4_zero _)

/-- BEFORE TAP 2 the buffer holds, at buffer row `h`, the column patch of image row `h + 1`, and zeros at row 15. -/
theorem patch2_apply (x : Vec Ideal S1x16x16x128 .bf16) (h w : Fin 16) (k : Fin 384) :
    (View.canon (pieces2 x) (ix3 h w k) : EReal)
      = if hh : h.val + 1 < 16 then Cert.Spec.patch (imgOf x) ⟨h.val + 1, hh⟩ w k else 0 := by
  unfold pieces2 pieces1 pieces0 Cert.Spec.patch
  have hH := h.isLt; have hW := w.isLt; have hK := k.isLt
  by_cases hh : h.val + 1 < 16
  · rw [dif_pos hh]
    by_cases hk0 : k.val < 128
    · rw [dif_pos hk0]
      by_cases hw : 0 < w.val
      · rw [dif_pos hw]
        c1skip; c1skip
        refine (canon_hit3 _ _ _ _ _ _ _ _ _ _ _ _ (⟨h.val, by omega⟩ : Fin 15) (⟨w.val - 1, by omega⟩ : Fin 15) (⟨k.val, hk0⟩ : Fin 128) (by c1omega) (by c1omega) (by c1omega)).trans ?_
        refine (pay17_apply _ _ _ _).trans ?_
        exact ld_band_apply x 1 _ _ _ _ (⟨h.val + 1, hh⟩ : Fin 16) (by c1omega)
      · rw [dif_neg hw]
        c1skip; c1skip; c1skip; c1skip; c1skip; c1skip; c1skip; c1skip; c1skip; c1skip
        by_cases h0 : 0 < h.val
        · c1skip; c1skip
          exact (canon_hit3 _ _ _ _ _ _ _ _ _ _ _ _ h (⟨0, by omega⟩ : Fin 1) (⟨k.val, hk0⟩ : Fin 128) (by c1omega) (by c1omega) (by c1omega)).trans (pay1_zero _)
        · exact (canon_hit3 _ _ _ _ _ _ _ _ _ _ _ _ (⟨0, by omega⟩ : Fin 1) w k (by c1omega) (by c1omega) (by c1omega)).trans (pay4_zero _)
    · rw [dif_neg hk0]
      by_cases hk1 : k.val < 256
      · rw [dif_pos hk1]
        c1skip
        refine (canon_hit3 _ _ _ _ _ _ _ _ _ _ _ _ (⟨h.val, by omega⟩ : Fin 15) w (⟨k.val - 128, by omega⟩ : Fin 128) (by c1omega) (by c1omega) (by c1omega)).trans ?_
        refine (pay18_apply _ _ _ _).trans ?_
        exact ld_band_apply x 1 _ _ _ _ (⟨h.val + 1, hh⟩ : Fin 16) (by c1omega)
      · rw [dif_neg hk1]
        by_cases hw : w.val + 1 < 16
        · rw [dif_pos hw]
          refine (canon_hit3 _ _ _ _ _ _ _ _ _ _ _ _ (⟨h.val, by omega⟩ : Fin 15) (⟨w.val, by omega⟩ : Fin 15) (⟨k.val - 256, by omega⟩ : Fin 128) (by c1omega) (by c1omega) (by c1omega)).trans ?_
          refine (pay19_apply _ _ _ _).trans ?_
          exact ld_band_apply x 1 _ _ _ _ (⟨h.val + 1, hh⟩ : Fin 16) (by c1omega)
        · rw [dif_neg hw]
          c1skip; c1skip; c1skip; c1skip; c1skip; c1skip; c1skip; c1skip; c1skip; c1skip
          by_cases h0 : 0 < h.val
          · c1skip
            exact (canon_hit3 _ _ _ _ _ _ _ _ _ _ _ _ h (⟨0, by omega⟩ : Fin 1) (⟨k.val - 256, by omega⟩ : Fin 128) (by c1omega) (by c1omega) (by c1omega)).trans (pay2_zero _)
          · exact (canon_hit3 _ _ _ _ _ _ _ _ _ _ _ _ (⟨0, by omega⟩ : Fin 1) w k (by c1omega) (by c1omega) (by c1omega)).trans (pay4_zero _)
  · rw [dif_neg hh]
    c1skip; c1skip; c1skip
    exact (canon_hit3 _ _ _ _ _ _ _ _ _ _ _ _ (⟨0, by omega⟩ : Fin 1) w k (by c1omega) (by c1omega) (by c1omega)).trans (pay15_zero _)

end PatchValues12

/-! ## The stored value is the 3x3 convolution -/

section Closing

/-- The whole scratch read through its whole rectangle. -/
theorem rAll_idx (h w : Fin 16) (k : Fin 384) : rAll.toLoadRect.idx (ix3 h w k) = ix3 h w k := by
  funext ax; apply Fin.ext
  match ax with
  | ⟨0, _⟩ => show 0 + 1 * h.val = h.val; omega
  | ⟨1, _⟩ => show 0 + 1 * w.val = w.val; omega
  | ⟨2, _⟩ => show 0 + 1 * k.val = k.val; omega

/-- One tap's weights, loaded as a 1 x 384 x 128 slab of the 3 x 384 x 128 array. -/
theorem ld_w_apply (x1 : Vec Ideal S3x384x128 .bf16) (o : ℕ) (inb) (dy : Fin 3) (hdy : dy.val = o) (k : Fin 384) (co : Fin 128) :
    View.ld x1 (Rect.unit (s := S3x384x128) ![o, 0, 0] S1x384x128.size inb) (ix3 (0 : Fin 1) k co) = x1 (ix3 dy k co) := by
  show x1 _ = x1 _
  refine congrArg x1 (funext fun ax => Fin.ext ?_)
  match ax with
  | ⟨0, _⟩ => show o + 1 * 0 = dy.val; omega
  | ⟨1, _⟩ => show 0 + 1 * k.val = k.val; omega
  | ⟨2, _⟩ => show 0 + 1 * co.val = co.val; omega

/-- The bias, loaded whole. -/
theorem ld_b_apply (x2 : Vec Ideal S1x128 .f32) (inb) (co : Fin 128) :
    View.ld x2 (Rect.unit (s := S1x128) ![0, 0] S1x128.size inb) (ix2 (0 : Fin 1) co) = x2 (ix2 (0 : Fin 1) co) := by
  show x2 _ = x2 _
  refine congrArg x2 (funext fun ax => Fin.ext ?_)
  match ax with
  | ⟨0, _⟩ => rfl
  | ⟨1, _⟩ => show 0 + 1 * co.val = co.val; omega

/-- The weights and the bias as functions into the extended reals. -/
abbrev wOf (x1 : Vec Ideal S3x384x128 .bf16) : Fin 3 → Fin 384 → Fin 128 → EReal := fun dy k co' => x1 (ix3 dy k co')
abbrev bOf (x2 : Vec Ideal S1x128 .f32) : Fin 128 → EReal := fun co' => x2 (ix2 (0 : Fin 1) co')

/-- THE VALUE THE BODY STORES at pixel `(h, w)` and output channel `co`, from the image, the weights and the bias: the
    3x3 convolution there. The first tap reads the patch of the row above (a row of zeros at the first row, and a sum of
    zero products is zero), the second the row itself, the third the row below (zeros at the last row). -/
theorem conv_value (x0 : Vec Ideal S1x16x16x128 .bf16) (x1 : Vec Ideal S3x384x128 .bf16) (x2 : Vec Ideal S1x128 .f32)
    (i0 i1 i2 ib) (h w : Fin 16) (co : Fin 128) :
    (k1_pay20 (k1_pay13 (k1_pay3 (F := Ideal))
        (fun j => View.canon (pieces0 x0) (rAll.toLoadRect.idx j)) (View.ld x1 (Rect.unit (s := S3x384x128) ![0, 0, 0] S1x384x128.size i0))
        (fun j => View.canon (pieces1 x0) (rAll.toLoadRect.idx j)) (View.ld x1 (Rect.unit (s := S3x384x128) ![1, 0, 0] S1x384x128.size i1)))
      (fun j => View.canon (pieces2 x0) (rAll.toLoadRect.idx j)) (View.ld x1 (Rect.unit (s := S3x384x128) ![2, 0, 0] S1x384x128.size i2))
      (View.ld x2 (Rect.unit (s := S1x128) ![0, 0] S1x128.size ib)) (ix4 (0 : Fin 1) h w co) : EReal)
      = Cert.Spec.conv (imgOf x0) (wOf x1) (bOf x2) h w co := by
  rw [pay20_apply]
  unfold Cert.Spec.conv Cert.Spec.tap
  refine congrArg₂ (· + ·) (congrArg₂ (· + ·) (congrArg₂ (· + ·) ?_ ?_) ?_) (ld_b_apply x2 ib co)
  · -- the tap above
    by_cases hh : 0 < h.val
    · rw [dif_pos hh, zero_add]
      refine Finset.sum_congr rfl fun k _ => ?_
      refine congrArg₂ (· * ·) ?_ (ld_w_apply x1 0 i0 0 rfl k co)
      show (View.canon (pieces0 x0) (rAll.toLoadRect.idx (ix3 h w k)) : EReal) = _
      rw [rAll_idx, patch0_apply, dif_pos hh]
    · rw [dif_neg hh, zero_add]
      refine Finset.sum_eq_zero fun k _ => ?_
      have hz : (View.canon (pieces0 x0) (rAll.toLoadRect.idx (ix3 h w k)) : EReal) = 0 := by
        rw [rAll_idx, patch0_apply, dif_neg hh]
      show (View.canon (pieces0 x0) (rAll.toLoadRect.idx (ix3 h w k)) : EReal) * _ = 0
      rw [hz, zero_mul]
  · -- the tap of the row itself
    refine Finset.sum_congr rfl fun k _ => ?_
    refine congrArg₂ (· * ·) ?_ (ld_w_apply x1 1 i1 1 rfl k co)
    show (View.canon (pieces1 x0) (rAll.toLoadRect.idx (ix3 h w k)) : EReal) = _
    rw [rAll_idx, patch1_apply]
  · -- the tap below
    by_cases hh : h.val + 1 < 16
    · rw [dif_pos hh]
      refine Finset.sum_congr rfl fun k _ => ?_
      refine congrArg₂ (· * ·) ?_ (ld_w_apply x1 2 i2 2 rfl k co)
      show (View.canon (pieces2 x0) (rAll.toLoadRect.idx (ix3 h w k)) : EReal) = _
      rw [rAll_idx, patch2_apply, dif_pos hh]
    · rw [dif_neg hh]
      refine Finset.sum_eq_zero fun k _ => ?_
      have hz : (View.canon (pieces2 x0) (rAll.toLoadRect.idx (ix3 h w k)) : EReal) = 0 := by
        rw [rAll_idx, patch2_apply, dif_neg hh]
      show (View.canon (pieces2 x0) (rAll.toLoadRect.idx (ix3 h w k)) : EReal) * _ = 0
      rw [hz, zero_mul]

end Closing

end Cert.ReferenceIdeal.Hand.Conv1
end
-- ==== Proof.RefConv1Final.lean ====
/-
  Region 1 of the reference, read: what its output array holds after the last grid point. Each point stores one
  image's convolution into its block; the blocks of the four points tile the array; so the array ends holding, at
  image n, pixel (h, w) and output channel co, the 3x3 convolution of image n of the input array with the weights and
  the bias as the region found them.
-/
import proofs.«126699_g2000605867469428_pallasbulk_857_3_alg».proof.Proof.RefConv1
import proofs.«126699_g2000605867469428_pallasbulk_857_3_alg».proof.Proof.RefConv1Value
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Hand.Conv1

open Cert.ReferenceIdeal Cert.ReferenceIdeal.Gen Cert.ReferenceIdeal.Hand
open Idealize.ShloMosaic Idealize.ShloMosaic.ValueIdx Idealize.ShloMosaic.TcCoe Idealize.ShloMosaic.Tactic
open Idealize.SL Idealize.SL.Sem
open Idealize.ShloMosaic.Pipeline (Dat Cfg Window)

/-! # Region 1's output array after its last point -/

section Final1

variable (V : (c : Dev nD) → (b : Ref sig .tc) → Buf (Elt Ideal) ((c : Thread nD τ).loc b))

theorem hz4 : (![0, 0, 0, 0] : Fin 4 → Nat) = fun _ => 0 := funext fun a => by fin_cases a <;> rfl

/-- What the body leaves in the output block, at a pixel and an output channel: the convolution of the image, the
    weights and the bias it was handed. The run's pieces are one store of the whole block; its payload is the three
    taps' products over the patch buffer as the earlier stores left it. -/
theorem out1_3_apply (c : Dev nD) (i : grid1.Coords)
    (arg1 : Memref sig .tc .vmem S1x16x16x128 .bf16) (harg1 : arg1.IsWhole)
    (arg2 : Memref sig .tc .vmem S3x384x128 .bf16) (harg2 : arg2.IsWhole)
    (arg3 : Memref sig .tc .vmem S1x128 .f32) (harg3 : arg3.IsWhole)
    (arg4 : Memref sig .tc .vmem S1x16x16x128 .f32) (harg4 : arg4.IsWhole)
    (arg5 : Memref sig .tc .vmem S16x16x384 .f32) (harg5 : arg5.IsWhole)
    (x0 : Vec Ideal S1x16x16x128 .bf16) (x1 : Vec Ideal S3x384x128 .bf16) (x2 : Vec Ideal S1x128 .f32)
    (h w : Fin 16) (co : Fin 128) :
    (out1_3 (F := Ideal) c i arg1 harg1 arg2 harg2 arg3 harg3 arg4 harg4 arg5 harg5 x0 x1 x2 (ix4 (0 : Fin 1) h w co) : EReal)
      = Cert.Spec.conv (imgOf x0) (wOf x1) (bOf x2) h w co := by
  unfold out1_3 kernelRun1
  dsimp only
  sl_unfold_words
  refine (congrFun (View.canon_unit_zero (S := S1x16x16x128) hz4 _ _) _).trans ?_
  simp only [View.readAt_eq_ld, harg1.read_unread, harg2.read_unread, harg3.read_unread, View.readCov_eq_canon']
  exact conv_value x0 x1 x2 _ _ _ _ h w co

end Final1

section Final1b

variable (V : (c : Dev nD) → (b : Ref sig .tc) → Buf (Elt Ideal) ((c : Thread nD τ).loc b))

/-- The printed index maps over the grid: point `t` takes image `t` and writes output image `t`; the weights' and the
    bias's blocks are their whole arrays. -/
theorem idx_facts1 : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)

/-- The image block at point `t` is image `t` of the array. -/
theorem iblk1_0_apply (c : Dev nD) (t : Fin cfg1.N) (n : Fin 4) (hn : n.val = t.val) (h' w' : Fin 16) (k : Fin 128) :
    iblk1 V c 0 t (ix4 (0 : Fin 1) h' w' k) = V c main_v3 (ix4 n h' w' k) := by
  obtain ⟨e0, e1, e2, e3, -⟩ := idx_facts1 t
  show V c main_v3 (((cfg1.win 0).blk t).view.emb (ix4 (0 : Fin 1) h' w' k)) = V c main_v3 (ix4 n h' w' k)
  refine congrArg (V c main_v3) (funext fun a => Fin.ext ?_)
  match a with
  | ⟨0, _⟩ => show win1_0.index t (0 : Fin 4) * 1 + 1 * 0 = n.val; omega
  | ⟨1, _⟩ => show win1_0.index t (1 : Fin 4) * 16 + 1 * h'.val = h'.val; omega
  | ⟨2, _⟩ => show win1_0.index t (2 : Fin 4) * 16 + 1 * w'.val = w'.val; omega
  | ⟨3, _⟩ => show win1_0.index t (3 : Fin 4) * 128 + 1 * k.val = k.val; omega

/-- The weights' block is the whole weight array. -/
theorem iblk1_1_apply (c : Dev nD) (t : Fin cfg1.N) (dy : Fin 3) (k : Fin 384) (co : Fin 128) :
    iblk1 V c 1 t (ix3 dy k co) = V c main_v5 (ix3 dy k co) := by
  obtain ⟨-, -, -, -, e0, e1, e2, -⟩ := idx_facts1 t
  show V c main_v5 (((cfg1.win 1).blk t).view.emb (ix3 dy k co)) = V c main_v5 (ix3 dy k co)
  refine congrArg (V c main_v5) (funext fun a => Fin.ext ?_)
  match a with
  | ⟨0, _⟩ => show win1_1.index t (0 : Fin 3) * 3 + 1 * dy.val = dy.val; omega
  | ⟨1, _⟩ => show win1_1.index t (1 : Fin 3) * 384 + 1 * k.val = k.val; omega
  | ⟨2, _⟩ => show win1_1.index t (2 : Fin 3) * 128 + 1 * co.val = co.val; omega

/-- The bias's block is the whole bias array. -/
theorem iblk1_2_apply (c : Dev nD) (t : Fin cfg1.N) (co : Fin 128) :
    iblk1 V c 2 t (ix2 (0 : Fin 1) co) = V c main_v6 (ix2 (0 : Fin 1) co) := by
  obtain ⟨-, -, -, -, -, -, -, e0, e1, -⟩ := idx_facts1 t
  show V c main_v6 (((cfg1.win 2).blk t).view.emb (ix2 (0 : Fin 1) co)) = V c main_v6 (ix2 (0 : Fin 1) co)
  refine congrArg (V c main_v6) (funext fun a => Fin.ext ?_)
  match a with
  | ⟨0, _⟩ => show win1_2.index t (0 : Fin 2) * 1 + 1 * 0 = 0; omega
  | ⟨1, _⟩ => show win1_2.index t (1 : Fin 2) * 128 + 1 * co.val = co.val; omega

/-- What the output array ends holding: at image `n`, pixel `(h, w)` and channel `co`, the convolution of image `n`. -/
def G1 (c : Dev nD) : S4x16x16x128.Idx → EReal := fun i =>
  Cert.Spec.conv (fun h' w' k => V c main_v3 (ix4 (⟨(i 0).val, (i 0).isLt⟩ : Fin 4) h' w' k))
    (fun dy k co' => V c main_v5 (ix3 dy k co')) (fun co' => V c main_v6 (ix2 (0 : Fin 1) co'))
    (⟨(i 1).val, (i 1).isLt⟩ : Fin 16) (⟨(i 2).val, (i 2).isLt⟩ : Fin 16) (⟨(i 3).val, (i 3).isLt⟩ : Fin 128)

/-- What point `t` leaves in the output block, element by element, is `G1` at the element's place in the array. -/
theorem outAt1_apply (c : Dev nD) (t : Fin cfg1.N) (y : S1x16x16x128.Idx) :
    (outAt1 V c t y : EReal) = G1 V c (((cfg1.win 3).blk t).view.emb y) := by
  obtain ⟨a, h, w, co, rfl⟩ : ∃ (a : Fin 1) (h w : Fin 16) (co : Fin 128), y = ix4 a h w co := ⟨y 0, y 1, y 2, y 3, eq_ix4 y⟩
  obtain rfl : a = 0 := Subsingleton.elim _ _
  have hN : t.val < 4 := lt_of_lt_of_eq t.isLt (show cfg1.N = 4 from N_1)
  obtain ⟨-, -, -, -, -, -, -, -, -, o0, o1, o2, o3⟩ := idx_facts1 t
  have hemb : ((cfg1.win 3).blk t).view.emb (ix4 (0 : Fin 1) h w co) = ix4 (⟨t.val, hN⟩ : Fin 4) h w co := by
    funext ax; apply Fin.ext
    match ax with
    | ⟨0, _⟩ => show win1_3.index t (0 : Fin 4) * 1 + 1 * 0 = t.val; omega
    | ⟨1, _⟩ => show win1_3.index t (1 : Fin 4) * 16 + 1 * h.val = h.val; omega
    | ⟨2, _⟩ => show win1_3.index t (2 : Fin 4) * 16 + 1 * w.val = w.val; omega
    | ⟨3, _⟩ => show win1_3.index t (3 : Fin 4) * 128 + 1 * co.val = co.val; omega
  rw [hemb]
  unfold outAt1
  rw [out1_3_apply]
  have e0 : imgOf (iblk1 V c 0 t) = fun h' w' k => (V c main_v3 (ix4 (⟨t.val, hN⟩ : Fin 4) h' w' k) : EReal) :=
    funext fun h' => funext fun w' => funext fun k => iblk1_0_apply V c t ⟨t.val, hN⟩ rfl h' w' k
  have e1 : wOf (iblk1 V c 1 t) = fun dy k co' => (V c main_v5 (ix3 dy k co') : EReal) :=
    funext fun dy => funext fun k => funext fun co' => iblk1_1_apply V c t dy k co'
  have e2 : bOf (iblk1 V c 2 t) = fun co' => (V c main_v6 (ix2 (0 : Fin 1) co') : EReal) :=
    funext fun co' => iblk1_2_apply V c t co'
  rw [e0, e1, e2]
  rfl

/-- WHAT POINT `t` WRITES BACK is block `t` of `G1`. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  funext j
  exact outAt1_apply V c t j

/-- An index of the output array is in point `t`'s block iff each coordinate is in the block's range on its axis. -/
theorem mem_blk1 (t : Fin cfg1.N) (i : S4x16x16x128.Idx) :
    i ∈ ((cfg1.win 3).blk t).view.set ↔ ∀ a : Fin 4, win1_3.index t a * S1x16x16x128.size a ≤ (i a).val ∧ (i a).val < win1_3.index t a * S1x16x16x128.size a + S1x16x16x128.size a := by
  show i ∈ ((View.whole main_v7).slice (win1_3.rect t)).set ↔ _
  rw [View.set_slice_whole, Rect.mem_set_unit]
  exact Iff.rfl

/-- Every index of the output array is in the block of the point that handles its image. -/
theorem cover1 (i : S4x16x16x128.Idx) : ∃ t : Fin cfg1.N, (cfg1.win 3).flush t = true ∧ i ∈ ((cfg1.win 3).blk t).view.set := by
  have hi0 : (i 0).val < 4 := (i 0).isLt
  have hi1 : (i 1).val < 16 := (i 1).isLt
  have hi2 : (i 2).val < 16 := (i 2).isLt
  have hi3 : (i 3).val < 128 := (i 3).isLt
  obtain ⟨t, ht⟩ : ∃ t : Fin cfg1.N, t.val = (i 0).val := ⟨⟨(i 0).val, by rw [show cfg1.N = 4 from N_1]; exact hi0⟩, rfl⟩
  obtain ⟨-, -, -, -, -, -, -, -, -, o0, o1, o2, o3⟩ := idx_facts1 t
  refine ⟨t, flush1_3 t, ?_⟩
  rw [mem_blk1]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 16 ≤ (i 1).val ∧ (i 1).val < win1_3.index t (1 : Fin 4) * 16 + 16; omega
  | ⟨2, _⟩ => show win1_3.index t (2 : Fin 4) * 16 ≤ (i 2).val ∧ (i 2).val < win1_3.index t (2 : Fin 4) * 16 + 16; omega
  | ⟨3, _⟩ => show win1_3.index t (3 : Fin 4) * 128 ≤ (i 3).val ∧ (i 3).val < win1_3.index t (3 : Fin 4) * 128 + 128; omega

end Final1b

end Cert.ReferenceIdeal.Hand.Conv1

namespace Cert.ReferenceIdeal.Hand

open Cert.ReferenceIdeal Cert.ReferenceIdeal.Gen Cert.ReferenceIdeal.Hand.Conv1
open Idealize.ShloMosaic Idealize.ShloMosaic.ValueIdx Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

/-- THE OUTPUT ARRAY after the region's last point, at image `n`, pixel `(h, w)` and channel `co`: the 3x3 convolution of
    image `n` of the input array with the weights and the bias, as the region found them. -/
theorem final1 (c : Dev nD) (n : Fin 4) (h w : Fin 16) (co : Fin 128) : (dat1 (F := Ideal) V c).arrAt 3 cfg1.N (ValueIdx.ix4 n h w co) = Cert.Spec.conv (fun h' w' k => V c main_v3 (ValueIdx.ix4 n h' w' k)) (fun dy k co' => V c main_v5 (ValueIdx.ix3 dy k co')) (fun co' => V c main_v6 (ValueIdx.ix2 0 co')) h w co := by
  have hfin := (dat1 (F := Ideal) V c).arrAt_eq_of_cover 3 (G1 V c) (fun t _ => flushed1_eq V c t) cover1
  rw [hfin]
  rfl

end Cert.ReferenceIdeal.Hand
end
-- ==== Proof.RefLvl5Out.lean ====
/-
  The reference's first output at the end of the program: region 1's result, which nothing later writes, is the 3x3
  convolution of region 0's result with the launched weights and bias, so it is the specification's `o5`.
-/
import proofs.«126699_g2000605867469428_pallasbulk_857_3_alg».proof.Proof.RefLvl5
import proofs.«126699_g2000605867469428_pallasbulk_857_3_alg».proof.Proof.RefConv1Final

noncomputable section

namespace Cert.ReferenceIdeal.Hand

open Idealize.ShloMosaic Idealize.ShloMosaic.TcCoe Idealize.ShloMosaic.ValueIdx
open Cert.ReferenceIdeal Cert.ReferenceIdeal.Gen

variable (m : (ℓ : Loc nD τ sig) → Buf (Elt Ideal) ℓ) (ρ : Dev nD → PrngReg) (c : Dev nD)

/-- The first output at the end of the program is the specification's 3x3 stage of level 5. -/
theorem ref_o5 (n : Fin 4) (h w : Fin 16) (co : Fin 128) :
    (Bv16 m ρ c main_v7 : S4x16x16x128.Idx → EReal) (ix4 n h w co) = (rArgs m c).o5 n h w co :=
  ref_o5_of m ρ c (ref_p5 m ρ c)
    (fun n h w co => (congrFun (Bv4_out m ρ c) (ix4 n h w co)).trans (final1 (Bv3 m ρ) c n h w co)) n h w co

end Cert.ReferenceIdeal.Hand

end
-- ==== Proof.RefConv3Value.lean ====
import proofs.«126699_g2000605867469428_pallasbulk_857_3_alg».proof.Proof.RefConv3
import proofs.«126699_g2000605867469428_pallasbulk_857_3_alg».proof.Proof.Spec
import Idealize.ShloMosaic.Lib.Pipeline.FrameBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

namespace Conv3

/-! # The value of the 3x3 convolution at 32x32 pixels (pipeline 3)

What the body stores is read index by index at the extended reals: the three whole loads of the patch buffer are the
row above's, the row's own and the row below's column patches (zero outside the image), each product with a tap's
weights is that tap's sum, and the three sums from zero plus the bias are the convolution in the specification's
grouping. The output array after the last point is then that function of the region's input arrays. -/

/-- The 384-deep product of a 1024x384 matrix with a 384x128 one, accumulated into zero, at an entry. -/
theorem mm_apply (A : FVec Ideal S1024x384 .bf16) (B : FVec Ideal S384x128 .bf16) (r : Fin 1024) (co : Fin 128) :
    matmul dot_S1024x384_S384x128_S1024x128_1_0_0_1_n_n none A B (constant (F := Ideal) S1024x128 .f32 0x00000000#32) (ix2 r co)
      = ∑ k : Fin 384, A (ix2 r k) * B (ix2 k co) := by
  refine (Ideal.matmul_constant_zero_apply dot_S1024x384_S384x128_S1024x128_1_0_0_1_n_n none A B (ix2 r co)).trans ?_
  refine (Equiv.sum_comp (contrEquiv1 dot_S1024x384_S384x128_S1024x128_1_0_0_1_n_n 384 rfl rfl).symm _).symm.trans ?_
  refine Finset.sum_congr rfl fun k _ => ?_
  have hl : dot_S1024x384_S384x128_S1024x128_1_0_0_1_n_n.lhsIdx (ix2 r co) ((contrEquiv1 dot_S1024x384_S384x128_S1024x128_1_0_0_1_n_n 384 rfl rfl).symm k) = ix2 r k := by
    funext a; refine Fin.ext ?_
    match a with
    | ⟨0, _⟩ => simp [DotDims.lhsIdx, dot_S1024x384_S384x128_S1024x128_1_0_0_1_n_n]; rfl
    | ⟨1, _⟩ =>
      refine (DotDims.lhsIdx_val_of_single dot_S1024x384_S384x128_S1024x128_1_0_0_1_n_n (cl := (1 : Fin 2)) rfl _ _).trans ?_
      exact contrEquiv1_symm_val _ 384 rfl rfl k
  have hr : dot_S1024x384_S384x128_S1024x128_1_0_0_1_n_n.rhsIdx (ix2 r co) ((contrEquiv1 dot_S1024x384_S384x128_S1024x128_1_0_0_1_n_n 384 rfl rfl).symm k) = ix2 k co := by
    funext a; refine Fin.ext ?_
    match a with
    | ⟨0, _⟩ =>
      refine (DotDims.rhsIdx_val_of_single dot_S1024x384_S384x128_S1024x128_1_0_0_1_n_n (cr := (0 : Fin 2)) rfl _ _).trans ?_
      exact contrEquiv1_symm_val _ 384 rfl rfl k
    | ⟨1, _⟩ => simp [DotDims.rhsIdx, dot_S1024x384_S384x128_S1024x128_1_0_0_1_n_n]; rfl
  rw [hl, hr]

/-! ## The payloads read at an index (extended reals) -/

theorem pay3_apply (j : S1024x128.Idx) : k3_pay3 (F := Ideal) j = 0 := by
  unfold k3_pay3; exact Ideal.ofBits_zero_f32
theorem pay1_apply (j : S32x1x128.Idx) : k3_pay1 (F := Ideal) j = 0 := by
  unfold k3_pay1
  show shapeCast S32x1x128 _ _ j = 0
  rw [shapeCast_self]; exact Ideal.ofBits_zero_f32
theorem pay2_apply (j : S32x1x128.Idx) : k3_pay2 (F := Ideal) j = 0 := by
  unfold k3_pay2
  show shapeCast S32x1x128 _ _ j = 0
  rw [shapeCast_self]; exact Ideal.ofBits_zero_f32
theorem pay4_apply (j : S1x32x384.Idx) : k3_pay4 (F := Ideal) j = 0 := by
  unfold k3_pay4
  show shapeCast S1x32x384 _ _ j = 0
  rw [shapeCast_self]; exact Ideal.ofBits_zero_f32
theorem pay15_apply (j : S1x32x384.Idx) : k3_pay15 (F := Ideal) (k3_pay14 (F := Ideal)) j = 0 := by
  unfold k3_pay15 k3_pay14
  show shapeCast S1x32x384 _ _ j = 0
  rw [shapeCast_self]; exact Ideal.ofBits_zero_f32

/-- Pixel `(h, w)` as a row of the 1024-row matrices the products run over. -/
abbrev row32 (h w : Fin 32) : Fin 1024 := ⟨32 * h.val + w.val, by have := h.isLt; have := w.isLt; omega⟩

theorem lhs_apply (v : Vec Ideal S32x32x384 .f32) (h w : Fin 32) (k : Fin 384) :
    (truncf .bf16 (shapeCast S1024x384 v shapeCasts_S32x32x384_S1024x384) bitsLt_bf16_f32 : FVec Ideal S1024x384 .bf16) (ix2 (row32 h w) k) = v (ix3 h w k) := by
  show shapeCast S1024x384 v shapeCasts_S32x32x384_S1024x384 (ix2 (row32 h w) k) = _
  refine shapeCast_apply v _ (ix2 (row32 h w) k) (ix3 h w k) ?_
  rw [Shape.rowMajor_val_three, Shape.rowMajor_val_two]
  show (h.val * 32 + w.val) * 384 + k.val = (32 * h.val + w.val) * 384 + k.val
  omega

theorem rhs_apply (v : Vec Ideal S1x384x128 .bf16) (k : Fin 384) (co : Fin 128) :
    (shapeCast S384x128 v shapeCasts_S1x384x128_S384x128 : FVec Ideal S384x128 .bf16) (ix2 k co) = v (ix3 (0 : Fin 1) k co) :=
  shapeCast_1ab_ab_apply v _ k co

theorem pay13_apply (v8 : FVec Ideal S1024x128 .f32) (v27 : Vec Ideal S32x32x384 .f32) (v30 : Vec Ideal S1x384x128 .bf16)
    (v48 : Vec Ideal S32x32x384 .f32) (v51 : Vec Ideal S1x384x128 .bf16) (h w : Fin 32) (co : Fin 128) :
    k3_pay13 v8 v27 v30 v48 v51 (ix2 (row32 h w) co)
      = (v8 (ix2 (row32 h w) co) + ∑ k : Fin 384, v27 (ix3 h w k) * v30 (ix3 (0 : Fin 1) k co))
        + ∑ k : Fin 384, v48 (ix3 h w k) * v51 (ix3 (0 : Fin 1) k co) := by
  unfold k3_pay13
  refine congrArg₂ (· + ·) (congrArg₂ (· + ·) rfl ((mm_apply _ _ (row32 h w) co).trans ?_)) ((mm_apply _ _ (row32 h w) co).trans ?_)
  · exact Finset.sum_congr rfl fun k _ => congrArg₂ (· * ·) (lhs_apply v27 h w k) (rhs_apply v30 k co)
  · exact Finset.sum_congr rfl fun k _ => congrArg₂ (· * ·) (lhs_apply v48 h w k) (rhs_apply v51 k co)

theorem pay20_apply (v54 : FVec Ideal S1024x128 .f32) (v73 : Vec Ideal S32x32x384 .f32) (v76 : Vec Ideal S1x384x128 .bf16)
    (v80 : Vec Ideal S1x128 .f32) (h w : Fin 32) (co : Fin 128) :
    k3_pay20 v54 v73 v76 v80 (ix4 (0 : Fin 1) h w co)
      = (v54 (ix2 (row32 h w) co) + ∑ k : Fin 384, v73 (ix3 h w k) * v76 (ix3 (0 : Fin 1) k co)) + v80 (ix2 (0 : Fin 1) co) := by
  unfold k3_pay20
  refine (shapeCast_apply _ shapeCasts_S1024x128_S1x32x32x128 (ix4 (0 : Fin 1) h w co) (ix2 (row32 h w) co) ?_).trans ?_
  · rw [Shape.rowMajor_val_two, Shape.rowMajor_val_four]
    show (32 * h.val + w.val) * 128 + co.val = (((0 : ℕ) * 32 + h.val) * 32 + w.val) * 128 + co.val
    omega
  refine congrArg₂ (· + ·) (congrArg₂ (· + ·) rfl ((mm_apply _ _ (row32 h w) co).trans ?_)) ?_
  · exact Finset.sum_congr rfl fun k _ => congrArg₂ (· * ·) (lhs_apply v73 h w k) (rhs_apply v76 k co)
  · refine (broadcastTo_1b_ab_apply _ broadcasts_S1x128_S1024x128 (row32 h w) co).trans ?_
    rw [shapeCast_self]

/-! ## The image, the column patch and the three fillings of the patch buffer over natural coordinates -/

section Patch
variable (x0 : Vec Ideal S1x32x32x128 .bf16)

/-- The image block as a total function of natural coordinates (zero outside; never read there). -/
def Xn (h w k : ℕ) : EReal :=
  if hh : h < 32 ∧ w < 32 ∧ k < 128 then x0 (ix4 (0 : Fin 1) ⟨h, hh.1⟩ ⟨w, hh.2.1⟩ ⟨k, hh.2.2⟩) else 0

theorem Xn_eq (h w : Fin 32) (k : Fin 128) : Xn x0 h.val w.val k.val = x0 (ix4 (0 : Fin 1) h w k) := by
  unfold Xn; rw [dif_pos ⟨h.isLt, w.isLt, k.isLt⟩]

theorem Xn_congr {p q r p' q' r' : ℕ} (hp : p = p') (hq : q = q') (hr : r = r') : Xn x0 p q r = Xn x0 p' q' r' := by
  subst hp hq hr; rfl

/-- The column patch of pixel `(h, w)` at position `k`: the left neighbour's, the pixel's own and the right
    neighbour's channels side by side, zero outside the image. -/
def patchN (h w k : ℕ) : EReal :=
  if k < 128 then (if 0 < w then Xn x0 h (w - 1) k else 0)
  else if k < 256 then Xn x0 h w (k - 128)
  else (if w + 1 < 32 then Xn x0 h (w + 1) (k - 256) else 0)

/-- The buffer as the first product finds it: the patches of the row above. -/
def g0 (h w k : ℕ) : EReal := if 0 < h then patchN x0 (h - 1) w k else 0
/-- As the second finds it: the patches of the row itself. -/
def g1 (h w k : ℕ) : EReal := patchN x0 h w k
/-- As the third finds it: the patches of the row below. -/
def g2 (h w k : ℕ) : EReal := if h + 1 < 32 then patchN x0 (h + 1) w k else 0

abbrev G0 (y : S32x32x384.Idx) : EReal := g0 x0 (y 0).val (y 1).val (y 2).val
abbrev G1 (y : S32x32x384.Idx) : EReal := g1 x0 (y 0).val (y 1).val (y 2).val
abbrev G2 (y : S32x32x384.Idx) : EReal := g2 x0 (y 0).val (y 1).val (y 2).val

/-! ### The body's three loads of the image -/

abbrev rA : Rect S1x32x32x128 := Rect.unit (s := S1x32x32x128) ![0, 0, 0, 0] S1x31x32x128.size inb_S1x32x32x128_S1x31x32x128_0_0_0_0
abbrev rB : Rect S1x32x32x128 := Rect.unit (s := S1x32x32x128) ![0, 0, 0, 0] S1x32x32x128.size inb_S1x32x32x128_S1x32x32x128_0_0_0_0
abbrev rC : Rect S1x32x32x128 := Rect.unit (s := S1x32x32x128) ![0, 1, 0, 0] S1x31x32x128.size inb_S1x32x32x128_S1x31x32x128_0_1_0_0

theorem ldA_apply (a : Fin 31) (b : Fin 32) (k : Fin 128) :
    View.ld x0 rA (ix4 (0 : Fin 1) a b k) = Xn x0 a.val b.val k.val := by
  unfold Xn; rw [dif_pos ⟨by omega, b.isLt, k.isLt⟩]
  show x0 (rA.idx _) = x0 _
  congr 1; funext d; refine Fin.ext ?_
  match d with
  | ⟨0, _⟩ => show (0 : ℕ) + 1 * 0 = 0; omega
  | ⟨1, _⟩ => show (0 : ℕ) + 1 * a.val = a.val; omega
  | ⟨2, _⟩ => show (0 : ℕ) + 1 * b.val = b.val; omega
  | ⟨3, _⟩ => show (0 : ℕ) + 1 * k.val = k.val; omega

theorem ldB_apply (a : Fin 32) (b : Fin 32) (k : Fin 128) :
    View.ld x0 rB (ix4 (0 : Fin 1) a b k) = Xn x0 a.val b.val k.val := by
  unfold Xn; rw [dif_pos ⟨a.isLt, b.isLt, k.isLt⟩]
  show x0 (rB.idx _) = x0 _
  congr 1; funext d; refine Fin.ext ?_
  match d with
  | ⟨0, _⟩ => show (0 : ℕ) + 1 * 0 = 0; omega
  | ⟨1, _⟩ => show (0 : ℕ) + 1 * a.val = a.val; omega
  | ⟨2, _⟩ => show (0 : ℕ) + 1 * b.val = b.val; omega
  | ⟨3, _⟩ => show (0 : ℕ) + 1 * k.val = k.val; omega

theorem ldC_apply (a : Fin 31) (b : Fin 32) (k : Fin 128) :
    View.ld x0 rC (ix4 (0 : Fin 1) a b k) = Xn x0 (a.val + 1) b.val k.val := by
  unfold Xn; rw [dif_pos ⟨by omega, b.isLt, k.isLt⟩]
  show x0 (rC.idx _) = x0 _
  congr 1; funext d; refine Fin.ext ?_
  match d with
  | ⟨0, _⟩ => show (0 : ℕ) + 1 * 0 = 0; omega
  | ⟨1, _⟩ => show (1 : ℕ) + 1 * a.val = a.val + 1; omega
  | ⟨2, _⟩ => show (0 : ℕ) + 1 * b.val = b.val; omega
  | ⟨3, _⟩ => show (0 : ℕ) + 1 * k.val = k.val; omega

end Patch

/-! ### The copies' payloads at an index -/

theorem pay5_apply (v : Vec Ideal S1x31x32x128 .bf16) (a : Fin 31) (b : Fin 32) (k : Fin 128) :
    k3_pay5 v (ix3 a b k) = v (ix4 (0 : Fin 1) a b k) := by
  unfold k3_pay5; exact shapeCast_1abc_abc_apply v _ a b k
theorem pay6_apply (v : Vec Ideal S1x31x32x128 .bf16) (a : Fin 31) (b : Fin 31) (k : Fin 128) :
    k3_pay6 v (ix3 a b k) = v (ix4 (0 : Fin 1) a ⟨b.val, by omega⟩ k) := by
  unfold k3_pay6
  show shapeCast S31x31x128 _ _ (ix3 a b k) = _
  rw [shapeCast_self]
  refine (extractStridedSlice_apply (s := S31x32x128) (t := S31x31x128) ![0, 0, 0] (k3_pay5 v) slices_S31x32x128_o0_0_0_S31x31x128 (ix3 a b k) (ix3 a ⟨b.val, by omega⟩ k) ?_).trans (pay5_apply v a _ k)
  intro d
  match d with
  | ⟨0, _⟩ => show a.val = 0 + a.val; omega
  | ⟨1, _⟩ => show b.val = 0 + b.val; omega
  | ⟨2, _⟩ => show k.val = 0 + k.val; omega
theorem pay7_apply (v : Vec Ideal S1x31x32x128 .bf16) (a : Fin 31) (b : Fin 32) (k : Fin 128) :
    k3_pay7 v (ix3 a b k) = v (ix4 (0 : Fin 1) a b k) := by
  unfold k3_pay7
  show shapeCast S31x32x128 _ _ (ix3 a b k) = _
  rw [shapeCast_self]; exact pay5_apply v a b k
theorem pay8_apply (v : Vec Ideal S1x31x32x128 .bf16) (a : Fin 31) (b : Fin 31) (k : Fin 128) :
    k3_pay8 v (ix3 a b k) = v (ix4 (0 : Fin 1) a ⟨b.val + 1, by omega⟩ k) := by
  unfold k3_pay8
  show shapeCast S31x31x128 _ _ (ix3 a b k) = _
  rw [shapeCast_self]
  refine (extractStridedSlice_apply (s := S31x32x128) (t := S31x31x128) ![0, 1, 0] (k3_pay5 v) slices_S31x32x128_o0_1_0_S31x31x128 (ix3 a b k) (ix3 a ⟨b.val + 1, by omega⟩ k) ?_).trans (pay5_apply v a _ k)
  intro d
  match d with
  | ⟨0, _⟩ => show a.val = 0 + a.val; omega
  | ⟨1, _⟩ => show b.val + 1 = 1 + b.val; omega
  | ⟨2, _⟩ => show k.val = 0 + k.val; omega

theorem pay9_apply (v : Vec Ideal S1x32x32x128 .bf16) (a : Fin 32) (b : Fin 32) (k : Fin 128) :
    k3_pay9 v (ix3 a b k) = v (ix4 (0 : Fin 1) a b k) := by
  unfold k3_pay9; exact shapeCast_1abc_abc_apply v _ a b k
theorem pay10_apply (v : Vec Ideal S1x32x32x128 .bf16) (a : Fin 32) (b : Fin 31) (k : Fin 128) :
    k3_pay10 v (ix3 a b k) = v (ix4 (0 : Fin 1) a ⟨b.val, by omega⟩ k) := by
  unfold k3_pay10
  show shapeCast S32x31x128 _ _ (ix3 a b k) = _
  rw [shapeCast_self]
  refine (extractStridedSlice_apply (s := S32x32x128) (t := S32x31x128) ![0, 0, 0] (k3_pay9 v) slices_S32x32x128_o0_0_0_S32x31x128 (ix3 a b k) (ix3 a ⟨b.val, by omega⟩ k) ?_).trans (pay9_apply v a _ k)
  intro d
  match d with
  | ⟨0, _⟩ => show a.val = 0 + a.val; omega
  | ⟨1, _⟩ => show b.val = 0 + b.val; omega
  | ⟨2, _⟩ => show k.val = 0 + k.val; omega
theorem pay11_apply (v : Vec Ideal S1x32x32x128 .bf16) (a : Fin 32) (b : Fin 32) (k : Fin 128) :
    k3_pay11 v (ix3 a b k) = v (ix4 (0 : Fin 1) a b k) := by
  unfold k3_pay11
  show shapeCast S32x32x128 _ _ (ix3 a b k) = _
  rw [shapeCast_self]; exact pay9_apply v a b k
theorem pay12_apply (v : Vec Ideal S1x32x32x128 .bf16) (a : Fin 32) (b : Fin 31) (k : Fin 128) :
    k3_pay12 v (ix3 a b k) = v (ix4 (0 : Fin 1) a ⟨b.val + 1, by omega⟩ k) := by
  unfold k3_pay12
  show shapeCast S32x31x128 _ _ (ix3 a b k) = _
  rw [shapeCast_self]
  refine (extractStridedSlice_apply (s := S32x32x128) (t := S32x31x128) ![0, 1, 0] (k3_pay9 v) slices_S32x32x128_o0_1_0_S32x31x128 (ix3 a b k) (ix3 a ⟨b.val + 1, by omega⟩ k) ?_).trans (pay9_apply v a _ k)
  intro d
  match d with
  | ⟨0, _⟩ => show a.val = 0 + a.val; omega
  | ⟨1, _⟩ => show b.val + 1 = 1 + b.val; omega
  | ⟨2, _⟩ => show k.val = 0 + k.val; omega

theorem pay16_apply (v : Vec Ideal S1x31x32x128 .bf16) (a : Fin 31) (b : Fin 32) (k : Fin 128) :
    k3_pay16 v (ix3 a b k) = v (ix4 (0 : Fin 1) a b k) := by
  unfold k3_pay16; exact shapeCast_1abc_abc_apply v _ a b k
theorem pay17_apply (v : Vec Ideal S1x31x32x128 .bf16) (a : Fin 31) (b : Fin 31) (k : Fin 128) :
    k3_pay17 v (ix3 a b k) = v (ix4 (0 : Fin 1) a ⟨b.val, by omega⟩ k) := by
  unfold k3_pay17
  show shapeCast S31x31x128 _ _ (ix3 a b k) = _
  rw [shapeCast_self]
  refine (extractStridedSlice_apply (s := S31x32x128) (t := S31x31x128) ![0, 0, 0] (k3_pay16 v) slices_S31x32x128_o0_0_0_S31x31x128 (ix3 a b k) (ix3 a ⟨b.val, by omega⟩ k) ?_).trans (pay16_apply v a _ k)
  intro d
  match d with
  | ⟨0, _⟩ => show a.val = 0 + a.val; omega
  | ⟨1, _⟩ => show b.val = 0 + b.val; omega
  | ⟨2, _⟩ => show k.val = 0 + k.val; omega
theorem pay18_apply (v : Vec Ideal S1x31x32x128 .bf16) (a : Fin 31) (b : Fin 32) (k : Fin 128) :
    k3_pay18 v (ix3 a b k) = v (ix4 (0 : Fin 1) a b k) := by
  unfold k3_pay18
  show shapeCast S31x32x128 _ _ (ix3 a b k) = _
  rw [shapeCast_self]; exact pay16_apply v a b k
theorem pay19_apply (v : Vec Ideal S1x31x32x128 .bf16) (a : Fin 31) (b : Fin 31) (k : Fin 128) :
    k3_pay19 v (ix3 a b k) = v (ix4 (0 : Fin 1) a ⟨b.val + 1, by omega⟩ k) := by
  unfold k3_pay19
  show shapeCast S31x31x128 _ _ (ix3 a b k) = _
  rw [shapeCast_self]
  refine (extractStridedSlice_apply (s := S31x32x128) (t := S31x31x128) ![0, 1, 0] (k3_pay16 v) slices_S31x32x128_o0_1_0_S31x31x128 (ix3 a b k) (ix3 a ⟨b.val + 1, by omega⟩ k) ?_).trans (pay16_apply v a _ k)
  intro d
  match d with
  | ⟨0, _⟩ => show a.val = 0 + a.val; omega
  | ⟨1, _⟩ => show b.val + 1 = 1 + b.val; omega
  | ⟨2, _⟩ => show k.val = 0 + k.val; omega

/-! ## The patch buffer after each filling, read at an index -/

/-- The canon under a last piece that restricts `G`: `G` on the piece, the earlier pieces' canon off it. -/
theorem canon_cons_of_piece {S : Shape} {e : EltTy} (G : S.Idx → Elt Ideal e) (p : View.Piece (Elt Ideal) S e)
    (L : List (View.Piece (Elt Ideal) S e)) (hp : ∀ x : p.1.shape.Idx, p.2 x = G (p.1.emb x)) (y : S.Idx)
    (hL : y ∉ p.1.set → View.canon L y = G y) : View.canon (p :: L) y = G y := by
  by_cases hm : y ∈ p.1.set
  · obtain ⟨x, rfl⟩ := p.1.exists_idx_of_mem hm
    rw [show p.1.idx x = p.1.emb x from rfl]
    obtain ⟨r, w⟩ := p
    rw [View.canon_cons_emb]; exact hp x
  · rw [View.canon_cons_of_not_mem _ _ hm]; exact hL hm

/-- Off a unit-stride rectangle of the patch buffer, in coordinates. -/
theorem not_mem3 {o0 o1 o2 s0 s1 s2 : ℕ} {inb} {h w : Fin 32} {k : Fin 384}
    (hm : (ix3 h w k : S32x32x384.Idx) ∉ (Rect.unit (s := S32x32x384) ![o0, o1, o2] ![s0, s1, s2] inb).set) :
    ¬((o0 ≤ h.val ∧ h.val < o0 + s0) ∧ (o1 ≤ w.val ∧ w.val < o1 + s1) ∧ (o2 ≤ k.val ∧ k.val < o2 + s2)) := fun hh =>
  hm (Rect.mem_set_unit.mpr fun a => match a with | ⟨0, _⟩ => hh.1 | ⟨1, _⟩ => hh.2.1 | ⟨2, _⟩ => hh.2.2)

section Fill
variable (x0 : Vec Ideal S1x32x32x128 .bf16)

abbrev r1 : Rect S32x32x384 := Rect.unit (s := S32x32x384) ![0, 0, 0] S32x1x128.size inb_S32x32x384_S32x1x128_0_0_0
abbrev r2 : Rect S32x32x384 := Rect.unit (s := S32x32x384) ![0, 31, 256] S32x1x128.size inb_S32x32x384_S32x1x128_0_31_256
abbrev r3 : Rect S32x32x384 := Rect.unit (s := S32x32x384) ![0, 0, 0] S1x32x384.size inb_S32x32x384_S1x32x384_0_0_0
abbrev r4 : Rect S32x32x384 := Rect.unit (s := S32x32x384) ![1, 1, 0] S31x31x128.size inb_S32x32x384_S31x31x128_1_1_0
abbrev r5 : Rect S32x32x384 := Rect.unit (s := S32x32x384) ![1, 0, 128] S31x32x128.size inb_S32x32x384_S31x32x128_1_0_128
abbrev r6 : Rect S32x32x384 := Rect.unit (s := S32x32x384) ![1, 0, 256] S31x31x128.size inb_S32x32x384_S31x31x128_1_0_256
abbrev r7 : Rect S32x32x384 := Rect.unit (s := S32x32x384) ![0, 1, 0] S32x31x128.size inb_S32x32x384_S32x31x128_0_1_0
abbrev r8 : Rect S32x32x384 := Rect.unit (s := S32x32x384) ![0, 0, 128] S32x32x128.size inb_S32x32x384_S32x32x128_0_0_128
abbrev r9 : Rect S32x32x384 := Rect.unit (s := S32x32x384) ![0, 0, 256] S32x31x128.size inb_S32x32x384_S32x31x128_0_0_256
abbrev r10 : Rect S32x32x384 := Rect.unit (s := S32x32x384) ![31, 0, 0] S1x32x384.size inb_S32x32x384_S1x32x384_31_0_0
abbrev r11 : Rect S32x32x384 := Rect.unit (s := S32x32x384) ![0, 1, 0] S31x31x128.size inb_S32x32x384_S31x31x128_0_1_0
abbrev r12 : Rect S32x32x384 := Rect.unit (s := S32x32x384) ![0, 0, 128] S31x32x128.size inb_S32x32x384_S31x32x128_0_0_128
abbrev r13 : Rect S32x32x384 := Rect.unit (s := S32x32x384) ![0, 0, 256] S31x31x128.size inb_S32x32x384_S31x31x128_0_0_256

/-- The stores of the first filling, last first. -/
def LA : List (View.Piece (Elt Ideal) S32x32x384 .f32) :=
  [⟨r6, k3_pay8 (View.ld x0 rA)⟩, ⟨r5, k3_pay7 (View.ld x0 rA)⟩, ⟨r4, k3_pay6 (View.ld x0 rA)⟩,
   ⟨r3, k3_pay4 (F := Ideal)⟩, ⟨r2, k3_pay2 (F := Ideal)⟩, ⟨r1, k3_pay1 (F := Ideal)⟩]
/-- The second filling's stores over the first's. -/
def LB : List (View.Piece (Elt Ideal) S32x32x384 .f32) :=
  ⟨r9, k3_pay12 (View.ld x0 rB)⟩ :: ⟨r8, k3_pay11 (View.ld x0 rB)⟩ :: ⟨r7, k3_pay10 (View.ld x0 rB)⟩ :: LA x0
/-- The third filling's over both. -/
def LC : List (View.Piece (Elt Ideal) S32x32x384 .f32) :=
  ⟨r13, k3_pay19 (View.ld x0 rC)⟩ :: ⟨r12, k3_pay18 (View.ld x0 rC)⟩ :: ⟨r11, k3_pay17 (View.ld x0 rC)⟩
    :: ⟨r10, k3_pay15 (k3_pay14 (F := Ideal))⟩ :: LB x0

theorem piece1 (a : Fin 32) (b : Fin 1) (k : Fin 128) : k3_pay1 (F := Ideal) (ix3 a b k) = g0 x0 (0 + 1 * a.val) (0 + 1 * b.val) (0 + 1 * k.val) := by
  rw [pay1_apply]; unfold g0 patchN
  by_cases ha : 0 < 0 + 1 * a.val
  · rw [if_pos ha, if_pos (by omega), if_neg (by omega)]
  · rw [if_neg ha]
theorem piece2 (a : Fin 32) (b : Fin 1) (k : Fin 128) : k3_pay2 (F := Ideal) (ix3 a b k) = g0 x0 (0 + 1 * a.val) (31 + 1 * b.val) (256 + 1 * k.val) := by
  rw [pay2_apply]; unfold g0 patchN
  by_cases ha : 0 < 0 + 1 * a.val
  · rw [if_pos ha, if_neg (by omega), if_neg (by omega), if_neg (by omega)]
  · rw [if_neg ha]
theorem piece3 (a : Fin 1) (b : Fin 32) (k : Fin 384) : k3_pay4 (F := Ideal) (ix3 a b k) = g0 x0 (0 + 1 * a.val) (0 + 1 * b.val) (0 + 1 * k.val) := by
  rw [pay4_apply]; unfold g0; rw [if_neg (by omega)]
theorem piece4 (a : Fin 31) (b : Fin 31) (k : Fin 128) :
    k3_pay6 (View.ld x0 rA) (ix3 a b k) = g0 x0 (1 + 1 * a.val) (1 + 1 * b.val) (0 + 1 * k.val) := by
  rw [pay6_apply, ldA_apply]; unfold g0 patchN
  rw [if_pos (by omega), if_pos (by omega), if_pos (by omega)]
  exact Xn_congr x0 (by omega) (by show b.val = 1 + 1 * b.val - 1; omega) (by omega)
theorem piece5 (a : Fin 31) (b : Fin 32) (k : Fin 128) :
    k3_pay7 (View.ld x0 rA) (ix3 a b k) = g0 x0 (1 + 1 * a.val) (0 + 1 * b.val) (128 + 1 * k.val) := by
  rw [pay7_apply, ldA_apply]; unfold g0 patchN
  rw [if_pos (by omega), if_neg (by omega), if_pos (by omega)]
  exact Xn_congr x0 (by omega) (by omega) (by omega)
theorem piece6 (a : Fin 31) (b : Fin 31) (k : Fin 128) :
    k3_pay8 (View.ld x0 rA) (ix3 a b k) = g0 x0 (1 + 1 * a.val) (0 + 1 * b.val) (256 + 1 * k.val) := by
  rw [pay8_apply, ldA_apply]; unfold g0 patchN
  rw [if_pos (by omega), if_neg (by omega), if_neg (by omega), if_pos (by omega)]
  exact Xn_congr x0 (by omega) (by show b.val + 1 = 0 + 1 * b.val + 1; omega) (by omega)
theorem piece7 (a : Fin 32) (b : Fin 31) (k : Fin 128) :
    k3_pay10 (View.ld x0 rB) (ix3 a b k) = g1 x0 (0 + 1 * a.val) (1 + 1 * b.val) (0 + 1 * k.val) := by
  rw [pay10_apply, ldB_apply]; unfold g1 patchN
  rw [if_pos (by omega), if_pos (by omega)]
  exact Xn_congr x0 (by omega) (by show b.val = 1 + 1 * b.val - 1; omega) (by omega)
theorem piece8 (a : Fin 32) (b : Fin 32) (k : Fin 128) :
    k3_pay11 (View.ld x0 rB) (ix3 a b k) = g1 x0 (0 + 1 * a.val) (0 + 1 * b.val) (128 + 1 * k.val) := by
  rw [pay11_apply, ldB_apply]; unfold g1 patchN
  rw [if_neg (by omega), if_pos (by omega)]
  exact Xn_congr x0 (by omega) (by omega) (by omega)
theorem piece9 (a : Fin 32) (b : Fin 31) (k : Fin 128) :
    k3_pay12 (View.ld x0 rB) (ix3 a b k) = g1 x0 (0 + 1 * a.val) (0 + 1 * b.val) (256 + 1 * k.val) := by
  rw [pay12_apply, ldB_apply]; unfold g1 patchN
  rw [if_neg (by omega), if_neg (by omega), if_pos (by omega)]
  exact Xn_congr x0 (by omega) (by show b.val + 1 = 0 + 1 * b.val + 1; omega) (by omega)
theorem piece10 (a : Fin 1) (b : Fin 32) (k : Fin 384) :
    k3_pay15 (k3_pay14 (F := Ideal)) (ix3 a b k) = g2 x0 (31 + 1 * a.val) (0 + 1 * b.val) (0 + 1 * k.val) := by
  rw [pay15_apply]; unfold g2; rw [if_neg (by omega)]
theorem piece11 (a : Fin 31) (b : Fin 31) (k : Fin 128) :
    k3_pay17 (View.ld x0 rC) (ix3 a b k) = g2 x0 (0 + 1 * a.val) (1 + 1 * b.val) (0 + 1 * k.val) := by
  rw [pay17_apply, ldC_apply]; unfold g2 patchN
  rw [if_pos (by omega), if_pos (by omega), if_pos (by omega)]
  exact Xn_congr x0 (by omega) (by show b.val = 1 + 1 * b.val - 1; omega) (by omega)
theorem piece12 (a : Fin 31) (b : Fin 32) (k : Fin 128) :
    k3_pay18 (View.ld x0 rC) (ix3 a b k) = g2 x0 (0 + 1 * a.val) (0 + 1 * b.val) (128 + 1 * k.val) := by
  rw [pay18_apply, ldC_apply]; unfold g2 patchN
  rw [if_pos (by omega), if_neg (by omega), if_pos (by omega)]
  exact Xn_congr x0 (by omega) (by omega) (by omega)
theorem piece13 (a : Fin 31) (b : Fin 31) (k : Fin 128) :
    k3_pay19 (View.ld x0 rC) (ix3 a b k) = g2 x0 (0 + 1 * a.val) (0 + 1 * b.val) (256 + 1 * k.val) := by
  rw [pay19_apply, ldC_apply]; unfold g2 patchN
  rw [if_pos (by omega), if_neg (by omega), if_neg (by omega), if_pos (by omega)]
  exact Xn_congr x0 (by omega) (by show b.val + 1 = 0 + 1 * b.val + 1; omega) (by omega)

/-- Off the second and third fillings' copies the column patch is zero: only column 0 of the left slot and column 31
    of the right slot are left. -/
theorem patchN_edge {w k : ℕ} (hc : (k < 128 ∧ w = 0) ∨ (256 ≤ k ∧ w = 31)) (h : ℕ) : patchN x0 h w k = 0 := by
  unfold patchN
  rcases hc with ⟨h1, h2⟩ | ⟨h1, h2⟩
  · rw [if_pos h1, if_neg (by omega)]
  · rw [if_neg (by omega), if_neg (by omega), if_neg (by omega)]

/-- After the first filling every position holds the row above's patch. -/
theorem canonA (h w : Fin 32) (k : Fin 384) : View.canon (LA x0) (ix3 h w k) = g0 x0 h.val w.val k.val := by
  unfold LA
  refine canon_cons_of_piece (S := S32x32x384) (e := .f32) (G0 x0) _ _ (fun x => ?p6) _ fun m6 => ?_
  case p6 =>
    obtain ⟨a, b, c, rfl⟩ : ∃ (a : Fin 31) (b : Fin 31) (c : Fin 128), x = ix3 a b c := ⟨x 0, x 1, x 2, eq_ix3 x⟩
    exact piece6 x0 a b c
  refine canon_cons_of_piece (S := S32x32x384) (e := .f32) (G0 x0) _ _ (fun x => ?p5) _ fun m5 => ?_
  case p5 =>
    obtain ⟨a, b, c, rfl⟩ : ∃ (a : Fin 31) (b : Fin 32) (c : Fin 128), x = ix3 a b c := ⟨x 0, x 1, x 2, eq_ix3 x⟩
    exact piece5 x0 a b c
  refine canon_cons_of_piece (S := S32x32x384) (e := .f32) (G0 x0) _ _ (fun x => ?p4) _ fun m4 => ?_
  case p4 =>
    obtain ⟨a, b, c, rfl⟩ : ∃ (a : Fin 31) (b : Fin 31) (c : Fin 128), x = ix3 a b c := ⟨x 0, x 1, x 2, eq_ix3 x⟩
    exact piece4 x0 a b c
  refine canon_cons_of_piece (S := S32x32x384) (e := .f32) (G0 x0) _ _ (fun x => ?p3) _ fun m3 => ?_
  case p3 =>
    obtain ⟨a, b, c, rfl⟩ : ∃ (a : Fin 1) (b : Fin 32) (c : Fin 384), x = ix3 a b c := ⟨x 0, x 1, x 2, eq_ix3 x⟩
    exact piece3 x0 a b c
  refine canon_cons_of_piece (S := S32x32x384) (e := .f32) (G0 x0) _ _ (fun x => ?p2) _ fun m2 => ?_
  case p2 =>
    obtain ⟨a, b, c, rfl⟩ : ∃ (a : Fin 32) (b : Fin 1) (c : Fin 128), x = ix3 a b c := ⟨x 0, x 1, x 2, eq_ix3 x⟩
    exact piece2 x0 a b c
  refine canon_cons_of_piece (S := S32x32x384) (e := .f32) (G0 x0) _ _ (fun x => ?p1) _ fun m1 => ?_
  case p1 =>
    obtain ⟨a, b, c, rfl⟩ : ∃ (a : Fin 32) (b : Fin 1) (c : Fin 128), x = ix3 a b c := ⟨x 0, x 1, x 2, eq_ix3 x⟩
    exact piece1 x0 a b c
  exfalso
  have n1 := not_mem3 (inb := inb_S32x32x384_S32x1x128_0_0_0) m1; have n2 := not_mem3 (inb := inb_S32x32x384_S32x1x128_0_31_256) m2; have n3 := not_mem3 (inb := inb_S32x32x384_S1x32x384_0_0_0) m3
  have n4 := not_mem3 (inb := inb_S32x32x384_S31x31x128_1_1_0) m4; have n5 := not_mem3 (inb := inb_S32x32x384_S31x32x128_1_0_128) m5; have n6 := not_mem3 (inb := inb_S32x32x384_S31x31x128_1_0_256) m6
  have := h.isLt; have := w.isLt; have := k.isLt
  omega

/-- After the second, the row's own patch. -/
theorem canonB (h w : Fin 32) (k : Fin 384) : View.canon (LB x0) (ix3 h w k) = g1 x0 h.val w.val k.val := by
  unfold LB
  refine canon_cons_of_piece (S := S32x32x384) (e := .f32) (G1 x0) _ _ (fun x => ?p9) _ fun m9 => ?_
  case p9 =>
    obtain ⟨a, b, c, rfl⟩ : ∃ (a : Fin 32) (b : Fin 31) (c : Fin 128), x = ix3 a b c := ⟨x 0, x 1, x 2, eq_ix3 x⟩
    exact piece9 x0 a b c
  refine canon_cons_of_piece (S := S32x32x384) (e := .f32) (G1 x0) _ _ (fun x => ?p8) _ fun m8 => ?_
  case p8 =>
    obtain ⟨a, b, c, rfl⟩ : ∃ (a : Fin 32) (b : Fin 32) (c : Fin 128), x = ix3 a b c := ⟨x 0, x 1, x 2, eq_ix3 x⟩
    exact piece8 x0 a b c
  refine canon_cons_of_piece (S := S32x32x384) (e := .f32) (G1 x0) _ _ (fun x => ?p7) _ fun m7 => ?_
  case p7 =>
    obtain ⟨a, b, c, rfl⟩ : ∃ (a : Fin 32) (b : Fin 31) (c : Fin 128), x = ix3 a b c := ⟨x 0, x 1, x 2, eq_ix3 x⟩
    exact piece7 x0 a b c
  have n7 := not_mem3 (inb := inb_S32x32x384_S32x31x128_0_1_0) m7; have n8 := not_mem3 (inb := inb_S32x32x384_S32x32x128_0_0_128) m8; have n9 := not_mem3 (inb := inb_S32x32x384_S32x31x128_0_0_256) m9
  have := h.isLt; have := w.isLt; have := k.isLt
  have hc : (k.val < 128 ∧ w.val = 0) ∨ (256 ≤ k.val ∧ w.val = 31) := by omega
  rw [canonA]
  show g0 x0 h.val w.val k.val = g1 x0 h.val w.val k.val
  unfold g0 g1
  rw [patchN_edge x0 hc, patchN_edge x0 hc]; exact ite_self 0

/-- After the third, the row below's. -/
theorem canonC (h w : Fin 32) (k : Fin 384) : View.canon (LC x0) (ix3 h w k) = g2 x0 h.val w.val k.val := by
  unfold LC
  refine canon_cons_of_piece (S := S32x32x384) (e := .f32) (G2 x0) _ _ (fun x => ?p13) _ fun m13 => ?_
  case p13 =>
    obtain ⟨a, b, c, rfl⟩ : ∃ (a : Fin 31) (b : Fin 31) (c : Fin 128), x = ix3 a b c := ⟨x 0, x 1, x 2, eq_ix3 x⟩
    exact piece13 x0 a b c
  refine canon_cons_of_piece (S := S32x32x384) (e := .f32) (G2 x0) _ _ (fun x => ?p12) _ fun m12 => ?_
  case p12 =>
    obtain ⟨a, b, c, rfl⟩ : ∃ (a : Fin 31) (b : Fin 32) (c : Fin 128), x = ix3 a b c := ⟨x 0, x 1, x 2, eq_ix3 x⟩
    exact piece12 x0 a b c
  refine canon_cons_of_piece (S := S32x32x384) (e := .f32) (G2 x0) _ _ (fun x => ?p11) _ fun m11 => ?_
  case p11 =>
    obtain ⟨a, b, c, rfl⟩ : ∃ (a : Fin 31) (b : Fin 31) (c : Fin 128), x = ix3 a b c := ⟨x 0, x 1, x 2, eq_ix3 x⟩
    exact piece11 x0 a b c
  refine canon_cons_of_piece (S := S32x32x384) (e := .f32) (G2 x0) _ _ (fun x => ?p10) _ fun m10 => ?_
  case p10 =>
    obtain ⟨a, b, c, rfl⟩ : ∃ (a : Fin 1) (b : Fin 32) (c : Fin 384), x = ix3 a b c := ⟨x 0, x 1, x 2, eq_ix3 x⟩
    exact piece10 x0 a b c
  have n10 := not_mem3 (inb := inb_S32x32x384_S1x32x384_31_0_0) m10; have n11 := not_mem3 (inb := inb_S32x32x384_S31x31x128_0_1_0) m11; have n12 := not_mem3 (inb := inb_S32x32x384_S31x32x128_0_0_128) m12; have n13 := not_mem3 (inb := inb_S32x32x384_S31x31x128_0_0_256) m13
  have := h.isLt; have := w.isLt; have := k.isLt
  have hc : (k.val < 128 ∧ w.val = 0) ∨ (256 ≤ k.val ∧ w.val = 31) := by omega
  rw [canonB]
  show g1 x0 h.val w.val k.val = g2 x0 h.val w.val k.val
  unfold g1 g2
  rw [patchN_edge x0 hc, patchN_edge x0 hc]; exact (ite_self 0).symm

end Fill

/-! ## The stored value is the convolution -/

section Conv
variable (x0 : Vec Ideal S1x32x32x128 .bf16) (x1 : Vec Ideal S3x384x128 .bf16) (x2 : Vec Ideal S1x128 .f32)

/-- The image block, the three taps' weights and the bias as the specification takes them. -/
abbrev Xs : Fin 32 → Fin 32 → Fin 128 → EReal := fun h w k => x0 (ix4 (0 : Fin 1) h w k)
abbrev Ws : Fin 3 → Fin 384 → Fin 128 → EReal := fun dy k co => x1 (ix3 dy k co)
abbrev Bs : Fin 128 → EReal := fun co => x2 (ix2 (0 : Fin 1) co)

/-- Over natural coordinates the column patch is the specification's. -/
theorem patchN_eq (h w : Fin 32) (k : Fin 384) : patchN x0 h.val w.val k.val = Cert.Spec.patch (Xs x0) h w k := by
  unfold patchN Cert.Spec.patch
  by_cases hk0 : k.val < 128
  · rw [if_pos hk0, dif_pos hk0]
    by_cases hw : 0 < w.val
    · rw [if_pos hw, dif_pos hw]; exact Xn_eq x0 h ⟨w.val - 1, by omega⟩ ⟨k.val, hk0⟩
    · rw [if_neg hw, dif_neg hw]
  · rw [if_neg hk0, dif_neg hk0]
    by_cases hk1 : k.val < 256
    · rw [if_pos hk1, dif_pos hk1]; exact Xn_eq x0 h w ⟨k.val - 128, by omega⟩
    · rw [if_neg hk1, dif_neg hk1]
      by_cases hw : w.val + 1 < 32
      · rw [if_pos hw, dif_pos hw]; exact Xn_eq x0 h ⟨w.val + 1, hw⟩ ⟨k.val - 256, by have := k.isLt; omega⟩
      · rw [if_neg hw, dif_neg hw]

abbrev rW0 : Rect S3x384x128 := Rect.unit (s := S3x384x128) ![0, 0, 0] S1x384x128.size inb_S3x384x128_S1x384x128_0_0_0
abbrev rW1 : Rect S3x384x128 := Rect.unit (s := S3x384x128) ![1, 0, 0] S1x384x128.size inb_S3x384x128_S1x384x128_1_0_0
abbrev rW2 : Rect S3x384x128 := Rect.unit (s := S3x384x128) ![2, 0, 0] S1x384x128.size inb_S3x384x128_S1x384x128_2_0_0
abbrev rBias : Rect S1x128 := Rect.unit (s := S1x128) ![0, 0] S1x128.size inb_S1x128_S1x128_0_0
abbrev rOut : Rect S1x32x32x128 := Rect.unit (s := S1x32x32x128) ![0, 0, 0, 0] S1x32x32x128.size inb_S1x32x32x128_S1x32x32x128_0_0_0_0
abbrev bW : LoadRect S32x32x384 := (Rect.unit (s := S32x32x384) ![0, 0, 0] S32x32x384.size inb_S32x32x384_S32x32x384_0_0_0).toLoadRect

theorem ldW0_apply (k : Fin 384) (co : Fin 128) : View.ld x1 rW0 (ix3 (0 : Fin 1) k co) = x1 (ix3 (0 : Fin 3) k co) := by
  show x1 (rW0.idx _) = x1 _
  congr 1; funext d; refine Fin.ext ?_
  match d with
  | ⟨0, _⟩ => show (0 : ℕ) + 1 * 0 = 0; omega
  | ⟨1, _⟩ => show (0 : ℕ) + 1 * k.val = k.val; omega
  | ⟨2, _⟩ => show (0 : ℕ) + 1 * co.val = co.val; omega
theorem ldW1_apply (k : Fin 384) (co : Fin 128) : View.ld x1 rW1 (ix3 (0 : Fin 1) k co) = x1 (ix3 (1 : Fin 3) k co) := by
  show x1 (rW1.idx _) = x1 _
  congr 1; funext d; refine Fin.ext ?_
  match d with
  | ⟨0, _⟩ => show (1 : ℕ) + 1 * 0 = 1; omega
  | ⟨1, _⟩ => show (0 : ℕ) + 1 * k.val = k.val; omega
  | ⟨2, _⟩ => show (0 : ℕ) + 1 * co.val = co.val; omega
theorem ldW2_apply (k : Fin 384) (co : Fin 128) : View.ld x1 rW2 (ix3 (0 : Fin 1) k co) = x1 (ix3 (2 : Fin 3) k co) := by
  show x1 (rW2.idx _) = x1 _
  congr 1; funext d; refine Fin.ext ?_
  match d with
  | ⟨0, _⟩ => show (2 : ℕ) + 1 * 0 = 2; omega
  | ⟨1, _⟩ => show (0 : ℕ) + 1 * k.val = k.val; omega
  | ⟨2, _⟩ => show (0 : ℕ) + 1 * co.val = co.val; omega
theorem ldBias_apply (co : Fin 128) : View.ld x2 rBias (ix2 (0 : Fin 1) co) = x2 (ix2 (0 : Fin 1) co) := by
  show x2 (rBias.idx _) = x2 _
  congr 1; funext d; refine Fin.ext ?_
  match d with
  | ⟨0, _⟩ => show (0 : ℕ) + 1 * 0 = 0; omega
  | ⟨1, _⟩ => show (0 : ℕ) + 1 * co.val = co.val; omega
theorem bW_idx (h w : Fin 32) (k : Fin 384) : bW.idx (ix3 h w k) = ix3 h w k := by
  funext d; refine Fin.ext ?_
  match d with
  | ⟨0, _⟩ => show (0 : ℕ) + 1 * h.val = h.val; omega
  | ⟨1, _⟩ => show (0 : ℕ) + 1 * w.val = w.val; omega
  | ⟨2, _⟩ => show (0 : ℕ) + 1 * k.val = k.val; omega

/-- The value the body stores, with each whole load of the patch buffer read as the canon of the stores before it:
    the three taps' products summed from zero, plus the bias, is the 3x3 convolution. -/
theorem body_val (h w : Fin 32) (co : Fin 128) :
    k3_pay20 (k3_pay13 (k3_pay3 (F := Ideal)) (fun j => View.canon (LA x0) (bW.idx j)) (View.ld x1 rW0)
        (fun j => View.canon (LB x0) (bW.idx j)) (View.ld x1 rW1))
      (fun j => View.canon (LC x0) (bW.idx j)) (View.ld x1 rW2) (View.ld x2 rBias) (ix4 (0 : Fin 1) h w co)
      = Cert.Spec.conv (Xs x0) (Ws x1) (Bs x2) h w co := by
  rw [pay20_apply, pay13_apply, pay3_apply]
  have s0 : (∑ k : Fin 384, View.canon (LA x0) (bW.idx (ix3 h w k)) * View.ld x1 rW0 (ix3 (0 : Fin 1) k co))
      = (if hh : 0 < h.val then Cert.Spec.tap (Xs x0) (Ws x1 0) ⟨h.val - 1, by have := h.isLt; omega⟩ w co else 0) := by
    by_cases hh : 0 < h.val
    · rw [dif_pos hh]; unfold Cert.Spec.tap
      refine Finset.sum_congr rfl fun k _ => congrArg₂ (· * ·) ?_ (ldW0_apply x1 k co)
      rw [bW_idx, canonA]; unfold g0; rw [if_pos hh]
      exact patchN_eq x0 ⟨h.val - 1, by have := h.isLt; omega⟩ w k
    · rw [dif_neg hh]
      refine Finset.sum_eq_zero fun k _ => ?_
      rw [bW_idx, canonA]; unfold g0; rw [if_neg hh, zero_mul]
  have s1 : (∑ k : Fin 384, View.canon (LB x0) (bW.idx (ix3 h w k)) * View.ld x1 rW1 (ix3 (0 : Fin 1) k co))
      = Cert.Spec.tap (Xs x0) (Ws x1 1) h w co := by
    unfold Cert.Spec.tap
    refine Finset.sum_congr rfl fun k _ => congrArg₂ (· * ·) ?_ (ldW1_apply x1 k co)
    rw [bW_idx, canonB]; unfold g1; exact patchN_eq x0 h w k
  have s2 : (∑ k : Fin 384, View.canon (LC x0) (bW.idx (ix3 h w k)) * View.ld x1 rW2 (ix3 (0 : Fin 1) k co))
      = (if hh : h.val + 1 < 32 then Cert.Spec.tap (Xs x0) (Ws x1 2) ⟨h.val + 1, hh⟩ w co else 0) := by
    by_cases hh : h.val + 1 < 32
    · rw [dif_pos hh]; unfold Cert.Spec.tap
      refine Finset.sum_congr rfl fun k _ => congrArg₂ (· * ·) ?_ (ldW2_apply x1 k co)
      rw [bW_idx, canonC]; unfold g2; rw [if_pos hh]
      exact patchN_eq x0 ⟨h.val + 1, hh⟩ w k
    · rw [dif_neg hh]
      refine Finset.sum_eq_zero fun k _ => ?_
      rw [bW_idx, canonC]; unfold g2; rw [if_neg hh, zero_mul]
  rw [s0, s1, s2, zero_add, ldBias_apply]
  rfl

end Conv

/-! ## The run's witness read at an index -/

theorem hz4 : (![0, 0, 0, 0] : Fin 4 → Nat) = fun _ => 0 := funext fun a => by fin_cases a <;> rfl

set_option maxHeartbeats 1000000 in
/-- What the run leaves in the output buffer is the convolution of the three input blocks. -/
theorem out3_val (c : Dev nD) (i : grid3.Coords)
    (arg1 : Memref sig .tc .vmem S1x32x32x128 .bf16) (harg1 : arg1.IsWhole)
    (arg2 : Memref sig .tc .vmem S3x384x128 .bf16) (harg2 : arg2.IsWhole)
    (arg3 : Memref sig .tc .vmem S1x128 .f32) (harg3 : arg3.IsWhole)
    (arg4 : Memref sig .tc .vmem S1x32x32x128 .f32) (harg4 : arg4.IsWhole)
    (arg5 : Memref sig .tc .vmem S32x32x384 .f32) (harg5 : arg5.IsWhole)
    (x0 : Vec Ideal S1x32x32x128 .bf16) (x1 : Vec Ideal S3x384x128 .bf16) (x2 : Vec Ideal S1x128 .f32)
    (h w : Fin 32) (co : Fin 128) :
    out3_3 (F := Ideal) c i arg1 harg1 arg2 harg2 arg3 harg3 arg4 harg4 arg5 harg5 x0 x1 x2 (ix4 (0 : Fin 1) h w co)
      = Cert.Spec.conv (Xs x0) (Ws x1) (Bs x2) h w co := by
  unfold out3_3 kernelRun3
  dsimp only
  sl_unfold_words
  rw [View.canon_unit_zero hz4]
  simp only [View.readAt_eq_ld, harg1.read_unread, harg2.read_unread, harg3.read_unread, View.readCov_eq_canon']
  exact body_val x0 x1 x2 h w co

/-! ## From blocks to the array -/

section Array
variable (V : (c : Dev nD) → (b : Ref sig .tc) → Buf (Elt Ideal) ((c : Thread nD τ).loc b))

/-- The printed index maps, decided over the grid: the image and output windows are at block (t, 0, 0, 0), the weights
    and the bias at their one block. -/
theorem idx_facts3 : ∀ t : Fin cfg3.N,
    win3_0.index t (0 : Fin 4) = t.val ∧ win3_0.index t (1 : Fin 4) = 0 ∧ win3_0.index t (2 : Fin 4) = 0 ∧ win3_0.index t (3 : Fin 4) = 0
    ∧ win3_1.index t (0 : Fin 3) = 0 ∧ win3_1.index t (1 : Fin 3) = 0 ∧ win3_1.index t (2 : Fin 3) = 0
    ∧ win3_2.index t (0 : Fin 2) = 0 ∧ win3_2.index t (1 : Fin 2) = 0
    ∧ win3_3.index t (0 : Fin 4) = t.val ∧ win3_3.index t (1 : Fin 4) = 0 ∧ win3_3.index t (2 : Fin 4) = 0 ∧ win3_3.index t (3 : Fin 4) = 0 :=
  (by decide +kernel : ∀ t : Fin grid3.N, _)

/-- The point as an image number. -/
abbrev imgOf (t : Fin cfg3.N) : Fin 4 := ⟨t.val, lt_of_lt_of_eq t.isLt (show cfg3.N = 4 from N_3)⟩

theorem blk0_apply (c : Dev nD) (t : Fin cfg3.N) (h w : Fin 32) (k : Fin 128) :
    iblk3 V c 0 t (ix4 (0 : Fin 1) h w k) = V c main_v23 (ix4 (imgOf t) h w k) := by
  obtain ⟨e0, e1, e2, e3, -⟩ := idx_facts3 t
  unfold iblk3
  show V c main_v23 (((cfg3.win 0).blk t).view.emb (ix4 (0 : Fin 1) h w k)) = V c main_v23 (ix4 (imgOf t) h w k)
  refine congrArg (V c main_v23) (funext fun a => Fin.ext ?_)
  match a with
  | ⟨0, _⟩ => show win3_0.index t (0 : Fin 4) * 1 + 1 * 0 = t.val; omega
  | ⟨1, _⟩ => show win3_0.index t (1 : Fin 4) * 32 + 1 * h.val = h.val; omega
  | ⟨2, _⟩ => show win3_0.index t (2 : Fin 4) * 32 + 1 * w.val = w.val; omega
  | ⟨3, _⟩ => show win3_0.index t (3 : Fin 4) * 128 + 1 * k.val = k.val; omega

theorem blk1_apply (c : Dev nD) (t : Fin cfg3.N) (dy : Fin 3) (k : Fin 384) (co : Fin 128) :
    iblk3 V c 1 t (ix3 dy k co) = V c main_v25 (ix3 dy k co) := by
  obtain ⟨-, -, -, -, e0, e1, e2, -⟩ := idx_facts3 t
  unfold iblk3
  show V c main_v25 (((cfg3.win 1).blk t).view.emb (ix3 dy k co)) = V c main_v25 (ix3 dy k co)
  refine congrArg (V c main_v25) (funext fun a => Fin.ext ?_)
  match a with
  | ⟨0, _⟩ => show win3_1.index t (0 : Fin 3) * 3 + 1 * dy.val = dy.val; omega
  | ⟨1, _⟩ => show win3_1.index t (1 : Fin 3) * 384 + 1 * k.val = k.val; omega
  | ⟨2, _⟩ => show win3_1.index t (2 : Fin 3) * 128 + 1 * co.val = co.val; omega

theorem blk2_apply (c : Dev nD) (t : Fin cfg3.N) (co : Fin 128) :
    iblk3 V c 2 t (ix2 (0 : Fin 1) co) = V c main_v26 (ix2 (0 : Fin 1) co) := by
  obtain ⟨-, -, -, -, -, -, -, e0, e1, -⟩ := idx_facts3 t
  unfold iblk3
  show V c main_v26 (((cfg3.win 2).blk t).view.emb (ix2 (0 : Fin 1) co)) = V c main_v26 (ix2 (0 : Fin 1) co)
  refine congrArg (V c main_v26) (funext fun a => Fin.ext ?_)
  match a with
  | ⟨0, _⟩ => show win3_2.index t (0 : Fin 2) * 1 + 1 * 0 = 0; omega
  | ⟨1, _⟩ => show win3_2.index t (1 : Fin 2) * 128 + 1 * co.val = co.val; omega

/-- The output array as one function of the region's input arrays: image `n`'s convolution. -/
def G3 (c : Dev nD) : S4x32x32x128.Idx → EReal := fun i =>
  Cert.Spec.conv (fun h' w' k => V c main_v23 (ix4 (i 0 : Fin 4) h' w' k)) (fun dy k co' => V c main_v25 (ix3 dy k co'))
    (fun co' => V c main_v26 (ix2 (0 : Fin 1) co')) (i 1 : Fin 32) (i 2 : Fin 32) (i 3 : Fin 128)

/-- What point `t` writes back is block `t` of that function. -/
theorem flushed3_eq (c : Dev nD) (t : Fin cfg3.N) :
    (dat3 (F := Ideal) V c).flushed 3 t = ((cfg3.win 3).blk t).view.read (Elt Ideal) (G3 V c) := by
  show (cfg3.win 3).cut (grid3.coords t) ((dat3 (F := Ideal) V c).after 3 t) = _
  rw [after3_3]
  unfold outsAt3
  funext j
  obtain ⟨u, h, w, co, rfl⟩ : ∃ (u : Fin 1) (h w : Fin 32) (co : Fin 128), j = ix4 u h w co := ⟨j 0, j 1, j 2, j 3, eq_ix4 j⟩
  obtain rfl : u = 0 := Subsingleton.elim _ _
  obtain ⟨-, -, -, -, -, -, -, -, -, e0, e1, e2, e3⟩ := idx_facts3 t
  refine (out3_val c (grid3.coords t) (ms3_0 t) (hs3_0 t) (ms3_1 t) (hs3_1 t) (ms3_2 t) (hs3_2 t) (ms3_3 t) (hs3_3 t) scM3 (Memref.isWhole_whole _)
    (iblk3 V c 0 t) (iblk3 V c 1 t) (iblk3 V c 2 t) h w co).trans ?_
  have hX : Xs (iblk3 V c 0 t) = fun h' w' k => V c main_v23 (ix4 (imgOf t) h' w' k) := by
    funext h' w' k; exact blk0_apply V c t h' w' k
  have hW : Ws (iblk3 V c 1 t) = fun dy k co' => V c main_v25 (ix3 dy k co') := by
    funext dy k co'; exact blk1_apply V c t dy k co'
  have hB : Bs (iblk3 V c 2 t) = fun co' => V c main_v26 (ix2 (0 : Fin 1) co') := by
    funext co'; exact blk2_apply V c t co'
  rw [hX, hW, hB]
  show _ = G3 V c (((cfg3.win 3).blk t).view.emb (ix4 (0 : Fin 1) h w co))
  have hi : ((cfg3.win 3).blk t).view.emb (ix4 (0 : Fin 1) h w co) = ix4 (imgOf t) h w co := by
    funext a; refine Fin.ext ?_
    match a with
    | ⟨0, _⟩ => show win3_3.index t (0 : Fin 4) * 1 + 1 * 0 = t.val; omega
    | ⟨1, _⟩ => show win3_3.index t (1 : Fin 4) * 32 + 1 * h.val = h.val; omega
    | ⟨2, _⟩ => show win3_3.index t (2 : Fin 4) * 32 + 1 * w.val = w.val; omega
    | ⟨3, _⟩ => show win3_3.index t (3 : Fin 4) * 128 + 1 * co.val = co.val; omega
  rw [hi]
  rfl

/-- An index of the output array is in point `t`'s block iff each coordinate is in the block's range on its axis. -/
theorem mem_blk3 (t : Fin cfg3.N) (i : S4x32x32x128.Idx) :
    i ∈ ((cfg3.win 3).blk t).view.set ↔ ∀ a : Fin 4, win3_3.index t a * S1x32x32x128.size a ≤ (i a).val ∧ (i a).val < win3_3.index t a * S1x32x32x128.size a + S1x32x32x128.size a := by
  show i ∈ ((View.whole main_v27).slice (win3_3.rect t)).set ↔ _
  rw [View.set_slice_whole, Rect.mem_set_unit]
  exact Iff.rfl

/-- Every index is in the block of the point of its image. -/
theorem cover3 (i : S4x32x32x128.Idx) :
    ∃ t : Fin cfg3.N, (cfg3.win 3).flush t = true ∧ i ∈ ((cfg3.win 3).blk t).view.set := by
  have h0 : (i 0).val < 4 := (i 0).isLt
  have h1 : (i 1).val < 32 := (i 1).isLt
  have h2 : (i 2).val < 32 := (i 2).isLt
  have h3 : (i 3).val < 128 := (i 3).isLt
  let t : Fin cfg3.N := ⟨(i 0).val, lt_of_lt_of_eq h0 (show 4 = cfg3.N from N_3.symm)⟩
  obtain ⟨-, -, -, -, -, -, -, -, -, e0, e1, e2, e3⟩ := idx_facts3 t
  have et : t.val = (i 0).val := rfl
  refine ⟨t, flush3_3 t, ?_⟩
  rw [mem_blk3]
  intro a
  match a with
  | ⟨0, _⟩ => show win3_3.index t (0 : Fin 4) * 1 ≤ (i 0).val ∧ (i 0).val < win3_3.index t (0 : Fin 4) * 1 + 1; omega
  | ⟨1, _⟩ => show win3_3.index t (1 : Fin 4) * 32 ≤ (i 1).val ∧ (i 1).val < win3_3.index t (1 : Fin 4) * 32 + 32; omega
  | ⟨2, _⟩ => show win3_3.index t (2 : Fin 4) * 32 ≤ (i 2).val ∧ (i 2).val < win3_3.index t (2 : Fin 4) * 32 + 32; omega
  | ⟨3, _⟩ => show win3_3.index t (3 : Fin 4) * 128 ≤ (i 3).val ∧ (i 3).val < win3_3.index t (3 : Fin 4) * 128 + 128; omega

end Array

end Conv3

open Conv3 in
/-- THE OUTPUT ARRAY after the last point, at an index: the 3x3 convolution of image `n` of the region's input. -/
theorem final3 (V : (c : Dev nD) → (b : Ref sig .tc) → Buf (Elt Ideal) ((c : Thread nD τ).loc b))
    (c : Dev nD) (n : Fin 4) (h w : Fin 32) (co : Fin 128) :
    (dat3 (F := Ideal) V c).arrAt 3 cfg3.N (ValueIdx.ix4 n h w co)
      = Cert.Spec.conv (fun h' w' k => V c main_v23 (ValueIdx.ix4 n h' w' k)) (fun dy k co' => V c main_v25 (ValueIdx.ix3 dy k co'))
          (fun co' => V c main_v26 (ValueIdx.ix2 0 co')) h w co := by
  rw [(dat3 (F := Ideal) V c).arrAt_eq_of_cover 3 (G3 V c) (fun t _ => flushed3_eq V c t) (cover3)]
  rfl

end Cert.ReferenceIdeal.Hand

end
-- ==== Proof.RefHostB.lean ====
/-
  What the reference's host operations between its kernel regions leave in the buffers the regions read, part B: the two
  groups of three consecutive stretches that upsample a coarse image by two along its columns before a finer level adds it.

  Each group builds a table of column numbers with integer operations, gathers the coarse image's columns along that
  table and reshapes the result, and reshapes the finer level's input to a matrix of pixels by channels. The table is
  the floor division (the quotient rounded toward minus infinity) of `w * W` by `2 * W` (`W` the coarse width, `w` the fine column), followed by the wrap of a
  negative index by `+ W`. The floor division is the quotient rounded toward zero, less one exactly when the signs of
  dividend and divisor differ and the remainder is not zero. For `0 ≤ w < 2 * W` the dividend is never negative and the
  divisor is positive, so the correction never applies (at `w = 0` the signs differ, zero against one, but the remainder is
  zero), the quotient is `w / 2`, it is not negative, and the wrap leaves it. These are finitely many closed words (32
  and 64 of them): the table's entries are computed once, entry by entry.

  A gather along one axis with a table of start indices reads, on that axis, the table's entry for the result's coordinate,
  taken as a signed number and clamped into the axis; `w / 2` is already inside, so the clamp does nothing. The other axes
  are copied. Reshapes keep the row-major position. All results hold for an arbitrary valuation of the buffers on entry.
-/
import proofs.«126699_g2000605867469428_pallasbulk_857_3_alg».proof.Proof.Gen.ReferenceIdeal.Launch
import Idealize.ShloMosaic.Lib.ValueIdx
import Idealize.ShloMosaic.Lib.Pipeline.Value

noncomputable section

namespace Cert.ReferenceIdeal.Hand

open Idealize.ShloMosaic Idealize.ShloMosaic.TcCoe Idealize.ShloMosaic.ValueIdx
open Cert.ReferenceIdeal.Gen

/-! ## The integer operations, named -/

/-- The floor division of a vector of words by one word, as the reference spells it: the quotient rounded toward zero,
    less one where the signs differ and the remainder is not zero. -/
def floorDivVec {s : Shape} (hb : S_.BroadcastsInDim s ![]) (x : IVec s 32) (d : IVec S_ 32) : IVec s 32 :=
  select
    (andi (cmpi .ne (signi x) (broadcastInDim s ![] hb (signi d)))
      (cmpi .ne (Host.remsi x (broadcastInDim s ![] hb d)) (broadcastInDim s ![] hb (constantI S_ 32 0#32))))
    (subi (Host.divsi x (broadcastInDim s ![] hb d)) (broadcastInDim s ![] hb (constantI S_ 32 1#32)))
    (Host.divsi x (broadcastInDim s ![] hb d))

/-- The wrap of a negative index: `x + n` where `x < 0`, else `x`. -/
def wrapVec {s : Shape} (hb : S_.BroadcastsInDim s ![]) (n : BitVec 32) (x : IVec s 32) : IVec s 32 :=
  select (cmpi .slt x (broadcastInDim s ![] hb (constantI S_ 32 0#32))) (addi x (broadcastInDim s ![] hb (constantI S_ 32 n))) x

/-- The table of the first group: for the 32 fine columns, `(w * 16) floordiv 32`, wrapped by 16. -/
def tbl32 : IVec S32 32 :=
  wrapVec bcast_S_S32 16#32
    (floorDivVec bcast_S_S32 (muli (iotaInDim S32 32 0) (broadcastInDim S32 ![] bcast_S_S32 (constantI S_ 32 16#32)))
      (constantI S_ 32 32#32))

/-- The table of the second group: for the 64 fine columns, `(w * 32) floordiv 64`, wrapped by 32. -/
def tbl64 : IVec S64 32 :=
  wrapVec bcast_S_S64 32#32
    (floorDivVec bcast_S_S64 (muli (iotaInDim S64 32 0) (broadcastInDim S64 ![] bcast_S_S64 (constantI S_ 32 32#32)))
      (constantI S_ 32 64#32))

/-- Entry `w` of the first table is the word `w / 2`: 32 closed words, each computed. -/
theorem tbl32_apply : ∀ w : Fin 32, tbl32 (ix1 w) = BitVec.ofNat 32 (w.val / 2) := by
  decide +kernel

/-- Read as a signed number and clamped into the 16 coarse columns it is the number `w / 2`. -/
theorem tbl32_clamp : ∀ w : Fin 32, min (tbl32 (ix1 w)).toInt.toNat (16 - 1) = w.val / 2 := by
  decide +kernel

/-- Entry `w` of the second table is the word `w / 2`: 64 closed words, each computed. -/
theorem tbl64_apply : ∀ w : Fin 64, tbl64 (ix1 w) = BitVec.ofNat 32 (w.val / 2) := by
  decide +kernel

/-- Read as a signed number and clamped into the 32 coarse columns it is the number `w / 2`. -/
theorem tbl64_clamp : ∀ w : Fin 64, min (tbl64 (ix1 w)).toInt.toNat (32 - 1) = w.val / 2 := by
  decide +kernel

/-! ## The gather along the column axis, read at an index -/

local notation "G16" => gather_S4x16x16x128_S32x1_S4x16x32x128_013_2_n_n_2_1_4161128
local notation "G32" => gather_S4x32x32x128_S64x1_S4x32x64x128_013_2_n_n_2_1_4321128

/-- An operand axis the start indices do not name starts at zero. -/
theorem G16_start_zero (j : S4x16x32x128.Idx) (idx : IVec S32x1 32) (a : Fin S4x16x16x128.rank)
    (ha : a ∉ GatherDims.startIndexMap G16) : GatherDims.start G16 j idx a = 0 := by
  unfold GatherDims.start; rw [dif_neg ha]

/-- The batch axis is copied. -/
theorem G16_off0 (j : S4x16x32x128.Idx) :
    GatherDims.offCoord G16 j (⟨0, by decide⟩ : Fin S4x16x16x128.rank) = (j (⟨0, by decide⟩ : Fin S4x16x32x128.rank)).val := by
  unfold GatherDims.offCoord
  rw [dif_pos (by decide)]
  refine congrArg (fun k => (j k).val) ?_; decide

/-- The row axis is copied. -/
theorem G16_off1 (j : S4x16x32x128.Idx) :
    GatherDims.offCoord G16 j (⟨1, by decide⟩ : Fin S4x16x16x128.rank) = (j (⟨1, by decide⟩ : Fin S4x16x32x128.rank)).val := by
  unfold GatherDims.offCoord
  rw [dif_pos (by decide)]
  refine congrArg (fun k => (j k).val) ?_; decide

/-- The channel axis is copied. -/
theorem G16_off3 (j : S4x16x32x128.Idx) :
    GatherDims.offCoord G16 j (⟨3, by decide⟩ : Fin S4x16x16x128.rank) = (j (⟨3, by decide⟩ : Fin S4x16x32x128.rank)).val := by
  unfold GatherDims.offCoord
  rw [dif_pos (by decide)]
  refine congrArg (fun k => (j k).val) ?_; decide

/-- The column axis starts at the table's entry for the result's column, signed and clamped. -/
theorem G16_start2 (n : Fin 4) (h : Fin 16) (w : Fin 32) (co : Fin 128) (idx : IVec S32x1 32) :
    GatherDims.start G16 (ix4 n h w co) idx (⟨2, by decide⟩ : Fin S4x16x16x128.rank)
      = min (idx (ix2 w (0 : Fin 1))).toInt.toNat (16 - 1) := by
  unfold GatherDims.start
  rw [dif_pos (by decide)]
  have hsi : GatherDims.siIdx G16 (ix4 n h w co)
      ⟨List.idxOf (⟨2, by decide⟩ : Fin S4x16x16x128.rank) (GatherDims.startIndexMap G16), by decide⟩ = ix2 w (0 : Fin 1) := by
    funext b; refine Fin.ext ?_
    match b with
    | ⟨0, _⟩ => rfl
    | ⟨1, _⟩ => rfl
  rw [hsi]; rfl

/-- THE FIRST GATHER AT AN INDEX: image, row and channel copied, the column the table's entry (signed, clamped). -/
theorem gather16_apply {α : Type} (x : S4x16x16x128.Idx → α) (idx : IVec S32x1 32) (n : Fin 4) (h : Fin 16) (w : Fin 32)
    (co : Fin 128) (c : Fin 16) (hc : min (idx (ix2 w (0 : Fin 1))).toInt.toNat (16 - 1) = c.val) :
    Host.gather G16 x idx (ix4 n h w co) = x (ix4 n h c co) := by
  unfold Host.gather
  refine congrArg x (funext fun a => Fin.ext ?_)
  show GatherDims.start G16 (ix4 n h w co) idx a + GatherDims.batchCoord G16 (ix4 n h w co) a
    + GatherDims.offCoord G16 (ix4 n h w co) a = _
  rw [GatherDims.batchCoord_eq_zero _ _ _ List.not_mem_nil, Nat.add_zero]
  match a with
  | ⟨0, _⟩ =>
    show GatherDims.start G16 (ix4 n h w co) idx (⟨0, by decide⟩ : Fin S4x16x16x128.rank)
      + GatherDims.offCoord G16 (ix4 n h w co) (⟨0, by decide⟩ : Fin S4x16x16x128.rank) = n.val
    rw [G16_start_zero _ _ _ (by decide), G16_off0, Nat.zero_add]
  | ⟨1, _⟩ =>
    show GatherDims.start G16 (ix4 n h w co) idx (⟨1, by decide⟩ : Fin S4x16x16x128.rank)
      + GatherDims.offCoord G16 (ix4 n h w co) (⟨1, by decide⟩ : Fin S4x16x16x128.rank) = h.val
    rw [G16_start_zero _ _ _ (by decide), G16_off1, Nat.zero_add]
  | ⟨2, _⟩ =>
    show GatherDims.start G16 (ix4 n h w co) idx (⟨2, by decide⟩ : Fin S4x16x16x128.rank)
      + GatherDims.offCoord G16 (ix4 n h w co) (⟨2, by decide⟩ : Fin S4x16x16x128.rank) = c.val
    rw [GatherDims.offCoord_eq_zero _ _ _ (by decide), Nat.add_zero, G16_start2, hc]
  | ⟨3, _⟩ =>
    show GatherDims.start G16 (ix4 n h w co) idx (⟨3, by decide⟩ : Fin S4x16x16x128.rank)
      + GatherDims.offCoord G16 (ix4 n h w co) (⟨3, by decide⟩ : Fin S4x16x16x128.rank) = co.val
    rw [G16_start_zero _ _ _ (by decide), G16_off3, Nat.zero_add]

/-- An operand axis the start indices do not name starts at zero. -/
theorem G32_start_zero (j : S4x32x64x128.Idx) (idx : IVec S64x1 32) (a : Fin S4x32x32x128.rank)
    (ha : a ∉ GatherDims.startIndexMap G32) : GatherDims.start G32 j idx a = 0 := by
  unfold GatherDims.start; rw [dif_neg ha]

/-- The batch axis is copied. -/
theorem G32_off0 (j : S4x32x64x128.Idx) :
    GatherDims.offCoord G32 j (⟨0, by decide⟩ : Fin S4x32x32x128.rank) = (j (⟨0, by decide⟩ : Fin S4x32x64x128.rank)).val := by
  unfold GatherDims.offCoord
  rw [dif_pos (by decide)]
  refine congrArg (fun k => (j k).val) ?_; decide

/-- The row axis is copied. -/
theorem G32_off1 (j : S4x32x64x128.Idx) :
    GatherDims.offCoord G32 j (⟨1, by decide⟩ : Fin S4x32x32x128.rank) = (j (⟨1, by decide⟩ : Fin S4x32x64x128.rank)).val := by
  unfold GatherDims.offCoord
  rw [dif_pos (by decide)]
  refine congrArg (fun k => (j k).val) ?_; decide

/-- The channel axis is copied. -/
theorem G32_off3 (j : S4x32x64x128.Idx) :
    GatherDims.offCoord G32 j (⟨3, by decide⟩ : Fin S4x32x32x128.rank) = (j (⟨3, by decide⟩ : Fin S4x32x64x128.rank)).val := by
  unfold GatherDims.offCoord
  rw [dif_pos (by decide)]
  refine congrArg (fun k => (j k).val) ?_; decide

/-- The column axis starts at the table's entry for the result's column, signed and clamped. -/
theorem G32_start2 (n : Fin 4) (h : Fin 32) (w : Fin 64) (co : Fin 128) (idx : IVec S64x1 32) :
    GatherDims.start G32 (ix4 n h w co) idx (⟨2, by decide⟩ : Fin S4x32x32x128.rank)
      = min (idx (ix2 w (0 : Fin 1))).toInt.toNat (32 - 1) := by
  unfold GatherDims.start
  rw [dif_pos (by decide)]
  have hsi : GatherDims.siIdx G32 (ix4 n h w co)
      ⟨List.idxOf (⟨2, by decide⟩ : Fin S4x32x32x128.rank) (GatherDims.startIndexMap G32), by decide⟩ = ix2 w (0 : Fin 1) := by
    funext b; refine Fin.ext ?_
    match b with
    | ⟨0, _⟩ => rfl
    | ⟨1, _⟩ => rfl
  rw [hsi]; rfl

/-- THE SECOND GATHER AT AN INDEX: image, row and channel copied, the column the table's entry (signed, clamped). -/
theorem gather32_apply {α : Type} (x : S4x32x32x128.Idx → α) (idx : IVec S64x1 32) (n : Fin 4) (h : Fin 32) (w : Fin 64)
    (co : Fin 128) (c : Fin 32) (hc : min (idx (ix2 w (0 : Fin 1))).toInt.toNat (32 - 1) = c.val) :
    Host.gather G32 x idx (ix4 n h w co) = x (ix4 n h c co) := by
  unfold Host.gather
  refine congrArg x (funext fun a => Fin.ext ?_)
  show GatherDims.start G32 (ix4 n h w co) idx a + GatherDims.batchCoord G32 (ix4 n h w co) a
    + GatherDims.offCoord G32 (ix4 n h w co) a = _
  rw [GatherDims.batchCoord_eq_zero _ _ _ List.not_mem_nil, Nat.add_zero]
  match a with
  | ⟨0, _⟩ =>
    show GatherDims.start G32 (ix4 n h w co) idx (⟨0, by decide⟩ : Fin S4x32x32x128.rank)
      + GatherDims.offCoord G32 (ix4 n h w co) (⟨0, by decide⟩ : Fin S4x32x32x128.rank) = n.val
    rw [G32_start_zero _ _ _ (by decide), G32_off0, Nat.zero_add]
  | ⟨1, _⟩ =>
    show GatherDims.start G32 (ix4 n h w co) idx (⟨1, by decide⟩ : Fin S4x32x32x128.rank)
      + GatherDims.offCoord G32 (ix4 n h w co) (⟨1, by decide⟩ : Fin S4x32x32x128.rank) = h.val
    rw [G32_start_zero _ _ _ (by decide), G32_off1, Nat.zero_add]
  | ⟨2, _⟩ =>
    show GatherDims.start G32 (ix4 n h w co) idx (⟨2, by decide⟩ : Fin S4x32x32x128.rank)
      + GatherDims.offCoord G32 (ix4 n h w co) (⟨2, by decide⟩ : Fin S4x32x32x128.rank) = c.val
    rw [GatherDims.offCoord_eq_zero _ _ _ (by decide), Nat.add_zero, G32_start2, hc]
  | ⟨3, _⟩ =>
    show GatherDims.start G32 (ix4 n h w co) idx (⟨3, by decide⟩ : Fin S4x32x32x128.rank)
      + GatherDims.offCoord G32 (ix4 n h w co) (⟨3, by decide⟩ : Fin S4x32x32x128.rank) = co.val
    rw [G32_start_zero _ _ _ (by decide), G32_off3, Nat.zero_add]

/-! ## The first group, stretch by stretch, for any valuation on entry -/

section First

variable (V : Valuation τ sig (Elt Ideal))

/-- The dividends: the fine column numbers times 16. -/
theorem hostOps2_v10 :
    (StableHlo.after (hostOps2 (F := Ideal)) V main_v10 : S32.Idx → BitVec 32)
      = muli (iotaInDim S32 32 0) (broadcastInDim S32 ![] bcast_S_S32 (constantI S_ 32 16#32)) := by
  after_results

/-- The divisor: 32. -/
theorem hostOps2_c0 :
    (StableHlo.after (hostOps2 (F := Ideal)) V main_c_0 : S_.Idx → BitVec 32) = constantI S_ 32 32#32 := by
  after_results

set_option maxHeartbeats 1000000 in
/-- The floor division. -/
theorem hostOps2_1_v11 :
    (StableHlo.after (hostOps2_1 (F := Ideal)) V main_v11 : S32.Idx → BitVec 32)
      = floorDivVec bcast_S_S32 (V main_v10 : S32.Idx → BitVec 32) (V main_c_0 : S_.Idx → BitVec 32) := by
  after_results_simp
  rfl

/-- The wrap. -/
theorem hostOps2_2_v16 :
    (StableHlo.after (hostOps2_2 (F := Ideal)) V main_v16 : S32.Idx → BitVec 32)
      = wrapVec bcast_S_S32 16#32 (V main_v11 : S32.Idx → BitVec 32) := by
  after_results
  rfl

/-- The gathered image, reshaped to [64, 32, 128]. -/
theorem hostOps2_2_v19 :
    (StableHlo.after (hostOps2_2 (F := Ideal)) V main_v19 : S64x32x128.Idx → EReal)
      = shapeCast S64x32x128
          (Host.gather G16 (V main_v3 : S4x16x16x128.Idx → EReal)
            (broadcastInDim S32x1 ![0] bcast_S32_S32x1_0 (wrapVec bcast_S_S32 16#32 (V main_v11 : S32.Idx → BitVec 32))))
          shapeCasts_S4x16x32x128_S64x32x128 := by
  after_results
  rfl

/-- The middle level's input as a matrix of pixels by channels. -/
theorem hostOps2_2_v20 :
    (StableHlo.after (hostOps2_2 (F := Ideal)) V main_v20 : S4096x512.Idx → EReal)
      = shapeCast S4096x512 (V main_arg1 : S4x32x32x512.Idx → EReal) shapeCasts_S4x32x32x512_S4096x512 := by
  after_results
  rfl

/-- The bias as a one-row matrix. -/
theorem hostOps2_2_v21 :
    (StableHlo.after (hostOps2_2 (F := Ideal)) V main_v21 : S1x128.Idx → EReal)
      = shapeCast S1x128 (V main_arg8 : S128.Idx → EReal) shapeCasts_S128_S1x128 := by
  after_results
  rfl

end First

/-! ## The first group composed: from the valuation before its first stretch -/

section FirstComposed

variable (W : Valuation τ sig (Elt Ideal))

set_option maxHeartbeats 1000000 in
/-- The first two stretches write integer buffers only: the coarse image is as it was. -/
theorem hostOps2_1_keeps_v3 :
    StableHlo.after (hostOps2_1 (F := Ideal)) (StableHlo.after (hostOps2 (F := Ideal)) W) main_v3 = W main_v3 := by
  after_results_simp

set_option maxHeartbeats 1000000 in
/-- … and so is the middle level's input. -/
theorem hostOps2_1_keeps_arg1 :
    StableHlo.after (hostOps2_1 (F := Ideal)) (StableHlo.after (hostOps2 (F := Ideal)) W) main_arg1 = W main_arg1 := by
  after_results_simp

set_option maxHeartbeats 1000000 in
/-- … and its bias. -/
theorem hostOps2_1_keeps_arg8 :
    StableHlo.after (hostOps2_1 (F := Ideal)) (StableHlo.after (hostOps2 (F := Ideal)) W) main_arg8 = W main_arg8 := by
  after_results_simp

/-- The table the three stretches build is `tbl32`, whatever the valuation. -/
theorem hostOps2_v16 :
    (StableHlo.after (hostOps2_2 (F := Ideal)) (StableHlo.after (hostOps2_1 (F := Ideal)) (StableHlo.after (hostOps2 (F := Ideal)) W))
        main_v16 : S32.Idx → BitVec 32) = tbl32 := by
  rw [hostOps2_2_v16, hostOps2_1_v11, hostOps2_v10, hostOps2_c0]; rfl

/-- Its entry for fine column `w` is `w / 2`. -/
theorem hostOps2_v16_apply (w : Fin 32) :
    (StableHlo.after (hostOps2_2 (F := Ideal)) (StableHlo.after (hostOps2_1 (F := Ideal)) (StableHlo.after (hostOps2 (F := Ideal)) W))
        main_v16 : S32.Idx → BitVec 32) (ix1 w) = BitVec.ofNat 32 (w.val / 2) := by
  rw [hostOps2_v16]; exact tbl32_apply w

/-- THE UPSAMPLED COLUMNS: row `q` of the [64, 32, 128] array is row `q % 16` of image `q / 16`, and its column `w` is
    the coarse column `w / 2`. -/
theorem hostOps2_v19_apply (q : Fin 64) (w : Fin 32) (co : Fin 128) :
    (StableHlo.after (hostOps2_2 (F := Ideal)) (StableHlo.after (hostOps2_1 (F := Ideal)) (StableHlo.after (hostOps2 (F := Ideal)) W))
        main_v19 : S64x32x128.Idx → EReal) (ix3 q w co)
      = (W main_v3 : S4x16x16x128.Idx → EReal)
          (ix4 (⟨q.val / 16, by omega⟩ : Fin 4) (⟨q.val % 16, by omega⟩ : Fin 16) (⟨w.val / 2, by omega⟩ : Fin 16) co) := by
  rw [hostOps2_2_v19, hostOps2_1_v11, hostOps2_v10, hostOps2_c0, hostOps2_1_keeps_v3]
  refine (shapeCast_apply (s := S4x16x32x128) (t := S64x32x128) _ _ (ix3 q w co)
    (ix4 (⟨q.val / 16, by omega⟩ : Fin 4) (⟨q.val % 16, by omega⟩ : Fin 16) w co) ?_).trans ?_
  · rw [Shape.rowMajor_val_three, Shape.rowMajor_val_four]
    show ((q.val / 16 * 16 + q.val % 16) * 32 + w.val) * 128 + co.val = (q.val * 32 + w.val) * 128 + co.val
    omega
  · refine gather16_apply _ _ _ _ _ _ (⟨w.val / 2, by omega⟩ : Fin 16) ?_
    rw [broadcastInDim_apply (s := S32) (t := S32x1) _ _ _ (ix2 w (0 : Fin 1)) (ix1 w) (fun a => match a with | ⟨0, _⟩ => rfl)]
    exact tbl32_clamp w

/-- Row `r` of the middle level's [4096, 512] matrix is pixel `(r / 1024, r / 32 % 32, r % 32)` of its input. -/
theorem hostOps2_v20_apply (r : Fin 4096) (k : Fin 512) :
    (StableHlo.after (hostOps2_2 (F := Ideal)) (StableHlo.after (hostOps2_1 (F := Ideal)) (StableHlo.after (hostOps2 (F := Ideal)) W))
        main_v20 : S4096x512.Idx → EReal) (ix2 r k)
      = (W main_arg1 : S4x32x32x512.Idx → EReal)
          (ix4 (⟨r.val / 1024, by omega⟩ : Fin 4) (⟨r.val / 32 % 32, by omega⟩ : Fin 32) (⟨r.val % 32, by omega⟩ : Fin 32) k) := by
  rw [hostOps2_2_v20, hostOps2_1_keeps_arg1]
  refine shapeCast_apply (s := S4x32x32x512) (t := S4096x512) _ _ _ _ ?_
  rw [Shape.rowMajor_val_two, Shape.rowMajor_val_four]
  show ((r.val / 1024 * 32 + r.val / 32 % 32) * 32 + r.val % 32) * 512 + k.val = r.val * 512 + k.val
  omega

/-- The middle level's bias as a one-row matrix. -/
theorem hostOps2_v21 :
    (StableHlo.after (hostOps2_2 (F := Ideal)) (StableHlo.after (hostOps2_1 (F := Ideal)) (StableHlo.after (hostOps2 (F := Ideal)) W))
        main_v21 : S1x128.Idx → EReal) = shapeCast S1x128 (W main_arg8 : S128.Idx → EReal) shapeCasts_S128_S1x128 := by
  rw [hostOps2_2_v21, hostOps2_1_keeps_arg8]

end FirstComposed

/-! ## The second group, stretch by stretch, for any valuation on entry -/

section Second

variable (V : Valuation τ sig (Elt Ideal))

/-- The dividends: the fine column numbers times 32. -/
theorem hostOps4_v30 :
    (StableHlo.after (hostOps4 (F := Ideal)) V main_v30 : S64.Idx → BitVec 32)
      = muli (iotaInDim S64 32 0) (broadcastInDim S64 ![] bcast_S_S64 (constantI S_ 32 32#32)) := by
  after_results

/-- The divisor: 64. -/
theorem hostOps4_c4 :
    (StableHlo.after (hostOps4 (F := Ideal)) V main_c_4 : S_.Idx → BitVec 32) = constantI S_ 32 64#32 := by
  after_results

set_option maxHeartbeats 1000000 in
/-- The floor division. -/
theorem hostOps4_1_v31 :
    (StableHlo.after (hostOps4_1 (F := Ideal)) V main_v31 : S64.Idx → BitVec 32)
      = floorDivVec bcast_S_S64 (V main_v30 : S64.Idx → BitVec 32) (V main_c_4 : S_.Idx → BitVec 32) := by
  after_results_simp
  rfl

/-- The wrap. -/
theorem hostOps4_2_v36 :
    (StableHlo.after (hostOps4_2 (F := Ideal)) V main_v36 : S64.Idx → BitVec 32)
      = wrapVec bcast_S_S64 32#32 (V main_v31 : S64.Idx → BitVec 32) := by
  after_results
  rfl

/-- The gathered image, reshaped to [128, 64, 128]. -/
theorem hostOps4_2_v39 :
    (StableHlo.after (hostOps4_2 (F := Ideal)) V main_v39 : S128x64x128.Idx → EReal)
      = shapeCast S128x64x128
          (Host.gather G32 (V main_v23 : S4x32x32x128.Idx → EReal)
            (broadcastInDim S64x1 ![0] bcast_S64_S64x1_0 (wrapVec bcast_S_S64 32#32 (V main_v31 : S64.Idx → BitVec 32))))
          shapeCasts_S4x32x64x128_S128x64x128 := by
  after_results
  rfl

/-- The finest level's input as a matrix of pixels by channels. -/
theorem hostOps4_2_v40 :
    (StableHlo.after (hostOps4_2 (F := Ideal)) V main_v40 : S16384x256.Idx → EReal)
      = shapeCast S16384x256 (V main_arg0 : S4x64x64x256.Idx → EReal) shapeCasts_S4x64x64x256_S16384x256 := by
  after_results
  rfl

/-- The bias as a one-row matrix. -/
theorem hostOps4_2_v41 :
    (StableHlo.after (hostOps4_2 (F := Ideal)) V main_v41 : S1x128.Idx → EReal)
      = shapeCast S1x128 (V main_arg12 : S128.Idx → EReal) shapeCasts_S128_S1x128 := by
  after_results
  rfl

end Second

/-! ## The second group composed: from the valuation before its first stretch -/

section SecondComposed

variable (W : Valuation τ sig (Elt Ideal))

set_option maxHeartbeats 1000000 in
/-- The first two stretches write integer buffers only: the coarse image is as it was. -/
theorem hostOps4_1_keeps_v23 :
    StableHlo.after (hostOps4_1 (F := Ideal)) (StableHlo.after (hostOps4 (F := Ideal)) W) main_v23 = W main_v23 := by
  after_results_simp

set_option maxHeartbeats 1000000 in
/-- … and so is the finest level's input. -/
theorem hostOps4_1_keeps_arg0 :
    StableHlo.after (hostOps4_1 (F := Ideal)) (StableHlo.after (hostOps4 (F := Ideal)) W) main_arg0 = W main_arg0 := by
  after_results_simp

set_option maxHeartbeats 1000000 in
/-- … and its bias. -/
theorem hostOps4_1_keeps_arg12 :
    StableHlo.after (hostOps4_1 (F := Ideal)) (StableHlo.after (hostOps4 (F := Ideal)) W) main_arg12 = W main_arg12 := by
  after_results_simp

/-- The table the three stretches build is `tbl64`, whatever the valuation. -/
theorem hostOps4_v36 :
    (StableHlo.after (hostOps4_2 (F := Ideal)) (StableHlo.after (hostOps4_1 (F := Ideal)) (StableHlo.after (hostOps4 (F := Ideal)) W))
        main_v36 : S64.Idx → BitVec 32) = tbl64 := by
  rw [hostOps4_2_v36, hostOps4_1_v31, hostOps4_v30, hostOps4_c4]; rfl

/-- Its entry for fine column `w` is `w / 2`. -/
theorem hostOps4_v36_apply (w : Fin 64) :
    (StableHlo.after (hostOps4_2 (F := Ideal)) (StableHlo.after (hostOps4_1 (F := Ideal)) (StableHlo.after (hostOps4 (F := Ideal)) W))
        main_v36 : S64.Idx → BitVec 32) (ix1 w) = BitVec.ofNat 32 (w.val / 2) := by
  rw [hostOps4_v36]; exact tbl64_apply w

/-- THE UPSAMPLED COLUMNS: row `q` of the [128, 64, 128] array is row `q % 32` of image `q / 32`, and its column `w` is
    the coarse column `w / 2`. -/
theorem hostOps4_v39_apply (q : Fin 128) (w : Fin 64) (co : Fin 128) :
    (StableHlo.after (hostOps4_2 (F := Ideal)) (StableHlo.after (hostOps4_1 (F := Ideal)) (StableHlo.after (hostOps4 (F := Ideal)) W))
        main_v39 : S128x64x128.Idx → EReal) (ix3 q w co)
      = (W main_v23 : S4x32x32x128.Idx → EReal)
          (ix4 (⟨q.val / 32, by omega⟩ : Fin 4) (⟨q.val % 32, by omega⟩ : Fin 32) (⟨w.val / 2, by omega⟩ : Fin 32) co) := by
  rw [hostOps4_2_v39, hostOps4_1_v31, hostOps4_v30, hostOps4_c4, hostOps4_1_keeps_v23]
  refine (shapeCast_apply (s := S4x32x64x128) (t := S128x64x128) _ _ (ix3 q w co)
    (ix4 (⟨q.val / 32, by omega⟩ : Fin 4) (⟨q.val % 32, by omega⟩ : Fin 32) w co) ?_).trans ?_
  · rw [Shape.rowMajor_val_three, Shape.rowMajor_val_four]
    show ((q.val / 32 * 32 + q.val % 32) * 64 + w.val) * 128 + co.val = (q.val * 64 + w.val) * 128 + co.val
    omega
  · refine gather32_apply _ _ _ _ _ _ (⟨w.val / 2, by omega⟩ : Fin 32) ?_
    rw [broadcastInDim_apply (s := S64) (t := S64x1) _ _ _ (ix2 w (0 : Fin 1)) (ix1 w) (fun a => match a with | ⟨0, _⟩ => rfl)]
    exact tbl64_clamp w

/-- Row `r` of the finest level's [16384, 256] matrix is pixel `(r / 4096, r / 64 % 64, r % 64)` of its input. -/
theorem hostOps4_v40_apply (r : Fin 16384) (k : Fin 256) :
    (StableHlo.after (hostOps4_2 (F := Ideal)) (StableHlo.after (hostOps4_1 (F := Ideal)) (StableHlo.after (hostOps4 (F := Ideal)) W))
        main_v40 : S16384x256.Idx → EReal) (ix2 r k)
      = (W main_arg0 : S4x64x64x256.Idx → EReal)
          (ix4 (⟨r.val / 4096, by omega⟩ : Fin 4) (⟨r.val / 64 % 64, by omega⟩ : Fin 64) (⟨r.val % 64, by omega⟩ : Fin 64) k) := by
  rw [hostOps4_2_v40, hostOps4_1_keeps_arg0]
  refine shapeCast_apply (s := S4x64x64x256) (t := S16384x256) _ _ _ _ ?_
  rw [Shape.rowMajor_val_two, Shape.rowMajor_val_four]
  show ((r.val / 4096 * 64 + r.val / 64 % 64) * 64 + r.val % 64) * 256 + k.val = r.val * 256 + k.val
  omega

/-- The finest level's bias as a one-row matrix. -/
theorem hostOps4_v41 :
    (StableHlo.after (hostOps4_2 (F := Ideal)) (StableHlo.after (hostOps4_1 (F := Ideal)) (StableHlo.after (hostOps4 (F := Ideal)) W))
        main_v41 : S1x128.Idx → EReal) = shapeCast S1x128 (W main_arg12 : S128.Idx → EReal) shapeCasts_S128_S1x128 := by
  rw [hostOps4_2_v41, hostOps4_1_keeps_arg12]

end SecondComposed

end Cert.ReferenceIdeal.Hand

end
-- ==== Proof.RefLvl4.lean ====
/-
  Level 4 on the reference's side: what the reference's run leaves in the two buffers of the middle level, read index by
  index as the pyramid's functions of the argument arrays.

  * `ref_p4`: region 2's output (4096 rows of 128 channels, row 1024 n + 32 h + w for pixel (h, w) of image n) is the
    level-4 sum. The region computes the 1x1 convolution of its pixel rows plus a coarse image's entry at row r / 64,
    pixel r % 32. Its pixel rows are the level-4 input reshaped, its weights are the argument itself, its bias is the
    argument as one row; the coarse image is the level-5 sum gathered along the width at w / 2 and reshaped to 64 rows of
    32 pixels, so row r / 64 = 16 n + h / 2 is row h / 2 of image n: the nearest-neighbour upsampling.
  * `ref_o4`: region 3's output, which no later item writes, is the 3x3 convolution of region 2's output reshaped to
    images, with the level's 3x3 weights reshaped to three 384 x 128 matrices and its bias as one row.

  A buffer that an item does not write is carried through it unchanged; the argument buffers are written by no item.
-/
import proofs.«126699_g2000605867469428_pallasbulk_857_3_alg».proof.Proof.RefRun
import proofs.«126699_g2000605867469428_pallasbulk_857_3_alg».proof.Proof.RefKeep
import proofs.«126699_g2000605867469428_pallasbulk_857_3_alg».proof.Proof.RefArgs
import proofs.«126699_g2000605867469428_pallasbulk_857_3_alg».proof.Proof.RefLvl5
import proofs.«126699_g2000605867469428_pallasbulk_857_3_alg».proof.Proof.RefPw2
import proofs.«126699_g2000605867469428_pallasbulk_857_3_alg».proof.Proof.RefConv3Value
import proofs.«126699_g2000605867469428_pallasbulk_857_3_alg».proof.Proof.RefHostA
import proofs.«126699_g2000605867469428_pallasbulk_857_3_alg».proof.Proof.RefHostB
import Idealize.ShloMosaic.Lib.ValueIdx

noncomputable section

namespace Cert.ReferenceIdeal.Hand

open Idealize.ShloMosaic Idealize.ShloMosaic.TcCoe Idealize.ShloMosaic.ValueIdx
open Cert.ReferenceIdeal Cert.ReferenceIdeal.Gen

variable (m : (ℓ : Loc nD τ sig) → Buf (Elt Ideal) ℓ) (ρ : Dev nD → PrngReg) (c : Dev nD)

namespace R4

/-! ## Buffers carried unchanged from the launch -/

/-- A buffer written by nothing up to the end of region 1 is, there, what the launch memory holds. -/
theorem kept4 (b : Ref sig .tc) (h0 : b ∉ hostOps0_W) (h2 : b ≠ main_v2) (h1 : b ∉ hostOps1_W) (h4 : b ≠ main_v7) :
    Bv4 m ρ c b = m ((c : Thread nD τ).loc b) :=
  (Bv4_keep m ρ c b h4).trans <| (Bv3_keep m ρ c b h1).trans <| (Bv2_keep m ρ c b h2).trans <| (Bv1_keep m ρ c b h0)

/-- The same when region 2 is entered. -/
theorem kept7 (b : Ref sig .tc) (h0 : b ∉ hostOps0_W) (h2 : b ≠ main_v2) (h1 : b ∉ hostOps1_W) (h4 : b ≠ main_v7)
    (h5 : b ∉ hostOps2_W) (h6 : b ∉ hostOps2_1_W) (h7 : b ∉ hostOps2_2_W) : Bv7 m ρ c b = m ((c : Thread nD τ).loc b) :=
  (Bv7_keep m ρ c b h7).trans <| (Bv6_keep m ρ c b h6).trans <| (Bv5_keep m ρ c b h5).trans (kept4 m ρ c b h0 h2 h1 h4)

/-- The same when region 2 is left. -/
theorem kept8 (b : Ref sig .tc) (h0 : b ∉ hostOps0_W) (h2 : b ≠ main_v2) (h1 : b ∉ hostOps1_W) (h4 : b ≠ main_v7)
    (h5 : b ∉ hostOps2_W) (h6 : b ∉ hostOps2_1_W) (h7 : b ∉ hostOps2_2_W) (h8 : b ≠ main_v22) :
    Bv8 m ρ c b = m ((c : Thread nD τ).loc b) :=
  (Bv8_keep m ρ c b h8).trans (kept7 m ρ c b h0 h2 h1 h4 h5 h6 h7)

/-! ## Region 2's four inputs -/

/-- The pixel rows: row `1024 n + 32 h + w` is pixel `(h, w)` of image `n` of the level-4 input. -/
theorem rows_c4 (n : Fin 4) (h w : Fin 32) (k : Fin 512) :
    Bv7 m ρ c main_v20 (ix2 (⟨n.val * 1024 + h.val * 32 + w.val, by have := n.isLt; have := h.isLt; have := w.isLt; omega⟩ : Fin 4096) k)
      = (rArgs m c).c4 n h w k := by
  have hn := n.isLt; have hh := h.isLt; have hw := w.isLt
  refine (hostOps2_v20_apply (B4 m ρ c) _ k).trans ?_
  show (Bv4 m ρ c main_arg1 : S4x32x32x512.Idx → EReal) _ = _
  rw [kept4 m ρ c main_arg1 (by decide) (by decide) (by decide) (by decide)]
  show (m ((c : Thread nD τ).loc main_arg1) : S4x32x32x512.Idx → EReal) _
    = (m ((c : Thread nD τ).loc main_arg1) : S4x32x32x512.Idx → EReal) (ix4 n h w k)
  refine congrArg (m ((c : Thread nD τ).loc main_arg1) : S4x32x32x512.Idx → EReal) (funext fun a => ?_)
  match a with
  | ⟨0, _⟩ => exact Fin.ext (by show (n.val * 1024 + h.val * 32 + w.val) / 1024 = n.val; omega)
  | ⟨1, _⟩ => exact Fin.ext (by show (n.val * 1024 + h.val * 32 + w.val) / 32 % 32 = h.val; omega)
  | ⟨2, _⟩ => exact Fin.ext (by show (n.val * 1024 + h.val * 32 + w.val) % 32 = w.val; omega)
  | ⟨3, _⟩ => rfl

/-- The 1x1 weights are the argument's. -/
theorem weights_w41 (k : Fin 512) (co : Fin 128) : Bv7 m ρ c main_arg7 (ix2 k co) = (rArgs m c).w41 k co :=
  congrFun (kept7 m ρ c main_arg7 (by decide) (by decide) (by decide) (by decide) (by decide) (by decide) (by decide)) _

/-- The bias row is the argument's bias. -/
theorem bias_b4 (co : Fin 128) : Bv7 m ρ c main_v21 (ix2 0 co) = (rArgs m c).b4 co := by
  refine (congrFun (hostOps2_v21 (B4 m ρ c)) _).trans ?_
  show shapeCast S1x128 (Bv4 m ρ c main_arg8 : S128.Idx → EReal) shapeCasts_S128_S1x128 (ix2 0 co) = _
  rw [kept4 m ρ c main_arg8 (by decide) (by decide) (by decide) (by decide)]
  rfl

/-- The coarse image: row `16 n + q`, pixel `w` is the level-5 sum of image `n` at `(q, w / 2)`. -/
theorem coarse_p5 (n : Fin 4) (q : Fin 16) (w : Fin 32) (co : Fin 128) :
    Bv7 m ρ c main_v19 (ix3 (⟨n.val * 16 + q.val, by have := n.isLt; have := q.isLt; omega⟩ : Fin 64) w co)
      = (rArgs m c).p5 n q (⟨w.val / 2, by have := w.isLt; omega⟩ : Fin 16) co := by
  have hn := n.isLt; have hq := q.isLt; have hw := w.isLt
  refine (hostOps2_v19_apply (B4 m ρ c) _ w co).trans ?_
  show (Bv4 m ρ c main_v3 : S4x16x16x128.Idx → EReal) _ = _
  rw [Bv4_keep m ρ c main_v3 (by decide)]
  refine Eq.trans ?_ (ref_p5 m ρ c n q (⟨w.val / 2, by omega⟩ : Fin 16) co)
  refine Eq.trans ?_ (hostOps1_v3_apply (B2 m ρ c) n q (⟨w.val / 2, by omega⟩ : Fin 16) co)
  refine congrArg (Bv3 m ρ c main_v3 : S4x16x16x128.Idx → EReal) (funext fun a => ?_)
  match a with
  | ⟨0, _⟩ => exact Fin.ext (by show (n.val * 16 + q.val) / 16 = n.val; omega)
  | ⟨1, _⟩ => exact Fin.ext (by show (n.val * 16 + q.val) % 16 = q.val; omega)
  | ⟨2, _⟩ => rfl
  | ⟨3, _⟩ => rfl

end R4

open R4

/-! ## Region 2's output is the level-4 sum -/

/-- Row `1024 n + 32 h + w` of region 2's output is the level-4 sum of image `n` at pixel `(h, w)`. -/
theorem ref_p4 (n : Fin 4) (h w : Fin 32) (co : Fin 128) :
    (Bv8 m ρ c main_v22 : S4096x128.Idx → EReal)
        (ix2 (⟨n.val * 1024 + h.val * 32 + w.val, by have := n.isLt; have := h.isLt; have := w.isLt; omega⟩ : Fin 4096) co)
      = (rArgs m c).p4 n h w co := by
  have hn := n.isLt; have hh := h.isLt; have hw := w.isLt
  refine (congrFun (Bv8_out m ρ c) _).trans ?_
  refine (final2 (Bv7 m ρ) c _ co).trans ?_
  unfold Cert.Spec.Args.p4
  refine congrArg₂ (· + ·) ?_ ?_
  · unfold Cert.Spec.pw
    refine congrArg₂ (· + ·) (Finset.sum_congr rfl fun k _ => congrArg₂ (· * ·) (rows_c4 m ρ c n h w k) (weights_w41 m ρ c k co))
      (bias_b4 m ρ c co)
  · unfold Cert.Spec.up2
    refine Eq.trans ?_ (coarse_p5 m ρ c n (⟨h.val / 2, by omega⟩ : Fin 16) w co)
    refine congrArg (Bv7 m ρ c main_v19 : S64x32x128.Idx → EReal) (funext fun a => ?_)
    match a with
    | ⟨0, _⟩ => exact Fin.ext (by show (n.val * 1024 + h.val * 32 + w.val) / 64 = n.val * 16 + h.val / 2; omega)
    | ⟨1, _⟩ => exact Fin.ext (by show (n.val * 1024 + h.val * 32 + w.val) % 32 = w.val; omega)
    | ⟨2, _⟩ => rfl

namespace R4

/-! ## Region 3's three inputs -/

/-- Region 3's input image is region 2's output reshaped: the level-4 sum. -/
theorem image_p4 (n : Fin 4) (h w : Fin 32) (k : Fin 128) : Bv9 m ρ c main_v23 (ix4 n h w k) = (rArgs m c).p4 n h w k :=
  (hostOps3_v23_apply (B8 m ρ c) n h w k).trans (ref_p4 m ρ c n h w k)

/-- The 3x3 weights as three 384 x 128 matrices. -/
theorem weights_w42 (dy : Fin 3) (k : Fin 384) (co : Fin 128) : Bv9 m ρ c main_v25 (ix3 dy k co) = (rArgs m c).w42 dy k co := by
  refine (hostOps3_v25_apply (B8 m ρ c) (ix3 dy k co)).trans ?_
  show shapeCast S3x384x128 (Bv8 m ρ c main_arg9 : S3x3x128x128.Idx → EReal) shapeCasts_S3x3x128x128_S3x384x128 (ix3 dy k co) = _
  rw [kept8 m ρ c main_arg9 (by decide) (by decide) (by decide) (by decide) (by decide) (by decide) (by decide) (by decide)]
  rfl

/-- The 3x3 bias as one row. -/
theorem bias_b42 (co : Fin 128) : Bv9 m ρ c main_v26 (ix2 0 co) = (rArgs m c).b42 co := by
  refine (congrFun (hostOps3_v26 (B8 m ρ c)) _).trans ?_
  show shapeCast S1x128 (Bv8 m ρ c main_arg10 : S128.Idx → EReal) shapeCasts_S128_S1x128 (ix2 0 co) = _
  rw [kept8 m ρ c main_arg10 (by decide) (by decide) (by decide) (by decide) (by decide) (by decide) (by decide) (by decide)]
  rfl

/-- Region 3's output is written by no later item. -/
theorem kept_o4 : Bv16 m ρ c main_v27 = Bv10 m ρ c main_v27 :=
  (Bv16_keep m ρ c main_v27 (by decide)).trans <| (Bv15_keep m ρ c main_v27 (by decide)).trans <|
    (Bv14_keep m ρ c main_v27 (by decide)).trans <| (Bv13_keep m ρ c main_v27 (by decide)).trans <|
    (Bv12_keep m ρ c main_v27 (by decide)).trans <| (Bv11_keep m ρ c main_v27 (by decide))

end R4

open R4

/-! ## Region 3's output is the level-4 output -/

/-- Region 3's output at image `n`, pixel `(h, w)` is the 3x3 convolution of the level-4 sum. -/
theorem ref_o4 (n : Fin 4) (h w : Fin 32) (co : Fin 128) :
    (Bv16 m ρ c main_v27 : S4x32x32x128.Idx → EReal) (ix4 n h w co) = (rArgs m c).o4 n h w co := by
  rw [kept_o4 m ρ c]
  refine (congrFun (Bv10_out m ρ c) _).trans ?_
  refine (final3 (Bv9 m ρ) c n h w co).trans ?_
  unfold Cert.Spec.Args.o4
  have hx : (fun (h' w' : Fin 32) (k : Fin 128) => Bv9 m ρ c main_v23 (ix4 n h' w' k)) = (rArgs m c).p4 n :=
    funext fun h' => funext fun w' => funext fun k => image_p4 m ρ c n h' w' k
  have hw3 : (fun (dy : Fin 3) (k : Fin 384) (co' : Fin 128) => Bv9 m ρ c main_v25 (ix3 dy k co')) = (rArgs m c).w42 :=
    funext fun dy => funext fun k => funext fun co' => weights_w42 m ρ c dy k co'
  have hb : (fun co' : Fin 128 => Bv9 m ρ c main_v26 (ix2 0 co')) = (rArgs m c).b42 :=
    funext fun co' => bias_b42 m ρ c co'
  rw [hx, hw3, hb]

end Cert.ReferenceIdeal.Hand

end
-- ==== Proof.RefConv5Value.lean ====
/-
  The value of the 3x3 convolution region at 64x64 pixels: the region's output array, after its last grid point, is at
  every index the 3x3 convolution (stride 1, zero padding 1) of the image the region found in its input array with the
  weights and the bias it found — `Cert.Spec.conv`.

  The steps. (1) Each store of the body into its column patch buffer, read at an index: a zero, or an entry of the
  image block shifted by one column to either side. (2) The buffer as each of the three contractions reads it: a list
  of stores read one store at a time, newest first — a cell inside the newest store's box reads that store, a cell
  outside it on some axis reads the earlier ones. Before the first contraction row `h` holds the column patch of image
  row `h - 1` (zero in row 0), before the second that of row `h`, before the third that of row `h + 1` (zero in row 63);
  the two border strips — the left neighbour's slot at column 0, the right neighbour's at column 63 — are never
  overwritten after the first zeroing and a column patch is zero there too. (3) A contraction read at a pixel is the
  sum over the 384 patch positions of patch times weight; a tap whose patch row is zero contributes a sum of zeros. (4)
  The block a grid point writes back is the block of one function of the arrays, and the four blocks cover the array.
-/
import proofs.«126699_g2000605867469428_pallasbulk_857_3_alg».proof.Proof.RefConv5
import proofs.«126699_g2000605867469428_pallasbulk_857_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)
open scoped BigOperators

namespace Conv5

/-! ## The contraction at an index -/

/-- One tap's contraction into the zero splat, at row `r` and output channel `co`: the sum over the 384 patch
    positions of the row's patch value times the weight. -/
theorem mm_apply (lhs : FVec Ideal S4096x384 .bf16) (rhs : FVec Ideal S384x128 .bf16) (r : Fin 4096) (co : Fin 128) :
    matmul dot_S4096x384_S384x128_S4096x128_1_0_0_1_n_n none lhs rhs (constant (F := Ideal) S4096x128 .f32 0x00000000#32) (ix2 r co)
      = ∑ k : Fin 384, lhs (ix2 r k) * rhs (ix2 k co) := by
  refine (Ideal.matmul_constant_zero_apply dot_S4096x384_S384x128_S4096x128_1_0_0_1_n_n none lhs rhs (ix2 r co)).trans ?_
  rw [← Equiv.sum_comp (contrEquiv1 dot_S4096x384_S384x128_S4096x128_1_0_0_1_n_n 384 rfl rfl).symm]
  refine Finset.sum_congr rfl fun k _ => ?_
  have hl : dot_S4096x384_S384x128_S4096x128_1_0_0_1_n_n.lhsIdx (ix2 r co)
      ((contrEquiv1 dot_S4096x384_S384x128_S4096x128_1_0_0_1_n_n 384 rfl rfl).symm k) = ix2 r k := by
    funext a; apply Fin.ext
    match a with
    | ⟨0, _⟩ => rfl
    | ⟨1, _⟩ =>
      exact (DotDims.lhsIdx_val_of_single _ (cl := (1 : Fin 2)) rfl _ _).trans (contrEquiv1_symm_val dot_S4096x384_S384x128_S4096x128_1_0_0_1_n_n 384 rfl rfl k)
  have hr : dot_S4096x384_S384x128_S4096x128_1_0_0_1_n_n.rhsIdx (ix2 r co)
      ((contrEquiv1 dot_S4096x384_S384x128_S4096x128_1_0_0_1_n_n 384 rfl rfl).symm k) = ix2 k co := by
    funext a; apply Fin.ext
    match a with
    | ⟨0, _⟩ =>
      exact (DotDims.rhsIdx_val_of_single _ (cr := (0 : Fin 2)) rfl _ _).trans (contrEquiv1_symm_val dot_S4096x384_S384x128_S4096x128_1_0_0_1_n_n 384 rfl rfl k)
    | ⟨1, _⟩ => rfl
  rw [hl, hr]

/-! ## The zero payloads -/

theorem zero_word : (Scalar.ofBits .f32 0x00000000#32 : Ideal .f32) = 0 := Ideal.ofBits_zero_f32

theorem pay1_apply (j : S64x1x128.Idx) : k5_pay1 (F := Ideal) j = 0 := by
  unfold k5_pay1; rw [shapeCast_self]; exact zero_word
theorem pay2_apply (j : S64x1x128.Idx) : k5_pay2 (F := Ideal) j = 0 := by
  unfold k5_pay2; rw [shapeCast_self]; exact zero_word
theorem pay3_apply (j : S4096x128.Idx) : k5_pay3 (F := Ideal) j = 0 := zero_word
theorem pay4_apply (j : S1x64x384.Idx) : k5_pay4 (F := Ideal) j = 0 := by
  unfold k5_pay4; rw [shapeCast_self]; exact zero_word
theorem pay15_apply (j : S1x64x384.Idx) : k5_pay15 (k5_pay14 (F := Ideal)) j = 0 := by
  unfold k5_pay15; rw [shapeCast_self]; exact zero_word

/-! ## The shifted copies at an index -/

/-- The image rows a tap copies, widened: rows `0..R-1` of the loaded slab at `(a, b, c)`. -/
theorem pay5_apply (X : Vec Ideal S1x63x64x128 .bf16) (a : Fin 63) (b : Fin 64) (c : Fin 128) :
    k5_pay5 X (ix3 a b c) = X (ix4 (0 : Fin 1) a b c) := by
  unfold k5_pay5
  exact shapeCast_1abc_abc_apply X shapeCasts_S1x63x64x128_S63x64x128 a b c
theorem pay9_apply (X : Vec Ideal S1x64x64x128 .bf16) (a : Fin 64) (b : Fin 64) (c : Fin 128) :
    k5_pay9 X (ix3 a b c) = X (ix4 (0 : Fin 1) a b c) := by
  unfold k5_pay9
  exact shapeCast_1abc_abc_apply X shapeCasts_S1x64x64x128_S64x64x128 a b c
theorem pay16_apply (X : Vec Ideal S1x63x64x128 .bf16) (a : Fin 63) (b : Fin 64) (c : Fin 128) :
    k5_pay16 X (ix3 a b c) = X (ix4 (0 : Fin 1) a b c) := by
  unfold k5_pay16
  exact shapeCast_1abc_abc_apply X shapeCasts_S1x63x64x128_S63x64x128 a b c

/-- The copy for the left neighbour's slot drops the last column: at `(a, b, c)` the slab at column `b`. -/
theorem pay6_apply (X : Vec Ideal S1x63x64x128 .bf16) (a : Fin 63) (b : Fin 63) (c : Fin 128) (b' : Fin 64) (hb : b'.val = b.val) :
    k5_pay6 X (ix3 a b c) = X (ix4 (0 : Fin 1) a b' c) := by
  unfold k5_pay6; rw [shapeCast_self]
  exact (slice3_axis1_apply 0 (k5_pay5 X) slices_S63x64x128_o0_0_0_S63x63x128 a b c b' (by omega)).trans (pay5_apply X a b' c)
/-- The copy for the pixel's own slot is the slab. -/
theorem pay7_apply (X : Vec Ideal S1x63x64x128 .bf16) (a : Fin 63) (b : Fin 64) (c : Fin 128) :
    k5_pay7 X (ix3 a b c) = X (ix4 (0 : Fin 1) a b c) := by
  unfold k5_pay7; rw [shapeCast_self]; exact pay5_apply X a b c
/-- The copy for the right neighbour's slot drops the first column: at `(a, b, c)` the slab at column `b + 1`. -/
theorem pay8_apply (X : Vec Ideal S1x63x64x128 .bf16) (a : Fin 63) (b : Fin 63) (c : Fin 128) (b' : Fin 64) (hb : b'.val = b.val + 1) :
    k5_pay8 X (ix3 a b c) = X (ix4 (0 : Fin 1) a b' c) := by
  unfold k5_pay8; rw [shapeCast_self]
  exact (slice3_axis1_apply 1 (k5_pay5 X) slices_S63x64x128_o0_1_0_S63x63x128 a b c b' (by omega)).trans (pay5_apply X a b' c)

theorem pay10_apply (X : Vec Ideal S1x64x64x128 .bf16) (a : Fin 64) (b : Fin 63) (c : Fin 128) (b' : Fin 64) (hb : b'.val = b.val) :
    k5_pay10 X (ix3 a b c) = X (ix4 (0 : Fin 1) a b' c) := by
  unfold k5_pay10; rw [shapeCast_self]
  exact (slice3_axis1_apply 0 (k5_pay9 X) slices_S64x64x128_o0_0_0_S64x63x128 a b c b' (by omega)).trans (pay9_apply X a b' c)
theorem pay11_apply (X : Vec Ideal S1x64x64x128 .bf16) (a : Fin 64) (b : Fin 64) (c : Fin 128) :
    k5_pay11 X (ix3 a b c) = X (ix4 (0 : Fin 1) a b c) := by
  unfold k5_pay11; rw [shapeCast_self]; exact pay9_apply X a b c
theorem pay12_apply (X : Vec Ideal S1x64x64x128 .bf16) (a : Fin 64) (b : Fin 63) (c : Fin 128) (b' : Fin 64) (hb : b'.val = b.val + 1) :
    k5_pay12 X (ix3 a b c) = X (ix4 (0 : Fin 1) a b' c) := by
  unfold k5_pay12; rw [shapeCast_self]
  exact (slice3_axis1_apply 1 (k5_pay9 X) slices_S64x64x128_o0_1_0_S64x63x128 a b c b' (by omega)).trans (pay9_apply X a b' c)

theorem pay17_apply (X : Vec Ideal S1x63x64x128 .bf16) (a : Fin 63) (b : Fin 63) (c : Fin 128) (b' : Fin 64) (hb : b'.val = b.val) :
    k5_pay17 X (ix3 a b c) = X (ix4 (0 : Fin 1) a b' c) := by
  unfold k5_pay17; rw [shapeCast_self]
  exact (slice3_axis1_apply 0 (k5_pay16 X) slices_S63x64x128_o0_0_0_S63x63x128 a b c b' (by omega)).trans (pay16_apply X a b' c)
theorem pay18_apply (X : Vec Ideal S1x63x64x128 .bf16) (a : Fin 63) (b : Fin 64) (c : Fin 128) :
    k5_pay18 X (ix3 a b c) = X (ix4 (0 : Fin 1) a b c) := by
  unfold k5_pay18; rw [shapeCast_self]; exact pay16_apply X a b c
theorem pay19_apply (X : Vec Ideal S1x63x64x128 .bf16) (a : Fin 63) (b : Fin 63) (c : Fin 128) (b' : Fin 64) (hb : b'.val = b.val + 1) :
    k5_pay19 X (ix3 a b c) = X (ix4 (0 : Fin 1) a b' c) := by
  unfold k5_pay19; rw [shapeCast_self]
  exact (slice3_axis1_apply 1 (k5_pay16 X) slices_S63x64x128_o0_1_0_S63x63x128 a b c b' (by omega)).trans (pay16_apply X a b' c)

/-! ## A list of stores into the patch buffer read one store at a time, newest first -/

section Walk
variable {Val : EltTy → Type} [∀ e, Nonempty (Val e)]

/-- A cell inside the newest store's box reads that store's value at the cell's position within the box. -/
theorem canon_hit {o0 o1 o2 s0 s1 s2 : ℕ}
    (inb : ∀ a, (![o0, o1, o2] : Fin 3 → ℕ) a + (![s0, s1, s2] : Fin 3 → ℕ) a ≤ S64x64x384.size a)
    (v : (⟨3, ![s0, s1, s2]⟩ : Shape).Idx → Val .f32) (L : List (View.Piece Val S64x64x384 .f32))
    (h w : Fin 64) (k : Fin 384)
    (h0 : o0 ≤ h.val ∧ h.val < o0 + s0) (h1 : o1 ≤ w.val ∧ w.val < o1 + s1) (h2 : o2 ≤ k.val ∧ k.val < o2 + s2) :
    View.canon ((⟨Rect.unit (s := S64x64x384) ![o0, o1, o2] ![s0, s1, s2] inb, v⟩ : View.Piece Val S64x64x384 .f32) :: L) (ix3 h w k)
      = v (ix3 ⟨h.val - o0, by omega⟩ ⟨w.val - o1, by omega⟩ ⟨k.val - o2, by omega⟩) := by
  have hy : (Rect.unit (s := S64x64x384) ![o0, o1, o2] ![s0, s1, s2] inb).emb
      (ix3 (⟨h.val - o0, by omega⟩ : Fin s0) (⟨w.val - o1, by omega⟩ : Fin s1) (⟨k.val - o2, by omega⟩ : Fin s2)) = ix3 h w k := by
    funext d; apply Fin.ext
    match d with
    | ⟨0, _⟩ => show o0 + 1 * (h.val - o0) = h.val; omega
    | ⟨1, _⟩ => show o1 + 1 * (w.val - o1) = w.val; omega
    | ⟨2, _⟩ => show o2 + 1 * (k.val - o2) = k.val; omega
  rw [← hy]
  exact View.canon_cons_emb (Rect.unit (s := S64x64x384) ![o0, o1, o2] ![s0, s1, s2] inb) v L _

/-- A cell outside the newest store's box on one axis reads what the earlier stores left. -/
theorem canon_miss {o0 o1 o2 s0 s1 s2 : ℕ}
    (inb : ∀ a, (![o0, o1, o2] : Fin 3 → ℕ) a + (![s0, s1, s2] : Fin 3 → ℕ) a ≤ S64x64x384.size a)
    (v : (⟨3, ![s0, s1, s2]⟩ : Shape).Idx → Val .f32) (L : List (View.Piece Val S64x64x384 .f32))
    (h w : Fin 64) (k : Fin 384)
    (hm : (h.val < o0 ∨ o0 + s0 ≤ h.val) ∨ (w.val < o1 ∨ o1 + s1 ≤ w.val) ∨ (k.val < o2 ∨ o2 + s2 ≤ k.val)) :
    View.canon ((⟨Rect.unit (s := S64x64x384) ![o0, o1, o2] ![s0, s1, s2] inb, v⟩ : View.Piece Val S64x64x384 .f32) :: L) (ix3 h w k)
      = View.canon L (ix3 h w k) := by
  refine View.canon_cons_of_not_mem _ L ?_
  rw [Rect.mem_set_unit]
  intro hall
  have e0 : o0 ≤ h.val ∧ h.val < o0 + s0 := hall 0
  have e1 : o1 ≤ w.val ∧ w.val < o1 + s1 := hall 1
  have e2 : o2 ≤ k.val ∧ k.val < o2 + s2 := hall 2
  omega

end Walk

/-! ## Loads of the image block, the weights and the bias at an index -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The image block as a function of row, column and channel. -/
abbrev img (x : Vec Ideal S1x64x64x128 .bf16) : Fin 64 → Fin 64 → Fin 128 → EReal := fun h w k => x (ix4 (0 : Fin 1) h w k)

theorem img_congr (x : Vec Ideal S1x64x64x128 .bf16) {a a' b b' : Fin 64} {c c' : Fin 128}
    (ha : a.val = a'.val) (hb : b.val = b'.val) (hc : c.val = c'.val) :
    x (ix4 (0 : Fin 1) a b c) = x (ix4 (0 : Fin 1) a' b' c') := by
  obtain rfl := Fin.ext ha; obtain rfl := Fin.ext hb; obtain rfl := Fin.ext hc; rfl

/-- Rows 0..62 of the block. -/
theorem ld_top_apply (x : Vec Ideal S1x64x64x128 .bf16) (a : Fin 63) (b : Fin 64) (c : Fin 128) (a' : Fin 64) (ha : a'.val = a.val) :
    (View.ld x rx5_top : Vec Ideal S1x63x64x128 .bf16) (ix4 (0 : Fin 1) a b c) = x (ix4 (0 : Fin 1) a' b c) := by
  refine congrArg x (funext fun d => Fin.ext ?_)
  match d with
  | ⟨0, _⟩ => rfl
  | ⟨1, _⟩ => show 0 + 1 * a.val = a'.val; omega
  | ⟨2, _⟩ => show 0 + 1 * b.val = b.val; omega
  | ⟨3, _⟩ => show 0 + 1 * c.val = c.val; omega
/-- Rows 1..63 of the block. -/
theorem ld_bot_apply (x : Vec Ideal S1x64x64x128 .bf16) (a : Fin 63) (b : Fin 64) (c : Fin 128) (a' : Fin 64) (ha : a'.val = a.val + 1) :
    (View.ld x rx5_bot : Vec Ideal S1x63x64x128 .bf16) (ix4 (0 : Fin 1) a b c) = x (ix4 (0 : Fin 1) a' b c) := by
  refine congrArg x (funext fun d => Fin.ext ?_)
  match d with
  | ⟨0, _⟩ => rfl
  | ⟨1, _⟩ => show 1 + 1 * a.val = a'.val; omega
  | ⟨2, _⟩ => show 0 + 1 * b.val = b.val; omega
  | ⟨3, _⟩ => show 0 + 1 * c.val = c.val; omega
/-- The whole block. -/
theorem ld_all_eq (x : Vec Ideal S1x64x64x128 .bf16) : (View.ld x rx5_all : Vec Ideal S1x64x64x128 .bf16) = x :=
  View.ld_unit_zero hz4 inb_S1x64x64x128_S1x64x64x128_0_0_0_0 x

/-! ## The patch buffer at each of the three contractions -/

local macro "fin_arith" : tactic => `(tactic| first | rfl | omega | (dsimp only; omega))

/-- On the two border strips — the left neighbour's slot at column 0, the right neighbour's at column 63 — a column
    patch is zero. -/
theorem patch_border (X : Fin 64 → Fin 64 → Fin 128 → EReal) (h w : Fin 64) (k : Fin 384)
    (hb : (k.val < 128 ∧ w.val = 0) ∨ (256 ≤ k.val ∧ w.val = 63)) : Cert.Spec.patch X h w k = 0 := by
  unfold Cert.Spec.patch
  rcases hb with ⟨hk, hw⟩ | ⟨hk, hw⟩
  · rw [dif_pos hk, dif_neg (by omega)]
  · rw [dif_neg (by omega), dif_neg (by omega), dif_neg (by omega)]

/-- Before the first contraction: zero in row 0, and in row `h ≥ 1` the column patch of image row `h - 1`. -/
theorem patch0_apply (x : Vec Ideal S1x64x64x128 .bf16) (h w : Fin 64) (k : Fin 384) :
    View.canon (pieces5_0 x) (ix3 h w k)
      = if hh : 0 < h.val then Cert.Spec.patch (img x) ⟨h.val - 1, by omega⟩ w k else 0 := by
  unfold pieces5_0
  by_cases hh : 0 < h.val
  · rw [dif_pos hh]
    unfold Cert.Spec.patch
    by_cases hk0 : k.val < 128
    · rw [dif_pos hk0]
      by_cases hw : 0 < w.val
      · rw [dif_pos hw]
        refine (canon_miss _ _ _ h w k (by omega)).trans ?_
        refine (canon_miss _ _ _ h w k (by omega)).trans ?_
        refine (canon_hit _ _ _ h w k (by omega) (by omega) (by omega)).trans ?_
        refine (pay6_apply _ _ _ _ ⟨w.val - 1, by omega⟩ (by fin_arith)).trans ?_
        refine (ld_top_apply x _ _ _ ⟨h.val - 1, by omega⟩ (by fin_arith)).trans ?_
        exact img_congr x (by fin_arith) (by fin_arith) (by fin_arith)
      · rw [dif_neg hw]
        refine (canon_miss _ _ _ h w k (by omega)).trans ?_
        refine (canon_miss _ _ _ h w k (by omega)).trans ?_
        refine (canon_miss _ _ _ h w k (by omega)).trans ?_
        refine (canon_miss _ _ _ h w k (by omega)).trans ?_
        refine (canon_miss _ _ _ h w k (by omega)).trans ?_
        exact (canon_hit _ _ _ h w k (by omega) (by omega) (by omega)).trans (pay1_apply _)
    · rw [dif_neg hk0]
      by_cases hk1 : k.val < 256
      · rw [dif_pos hk1]
        refine (canon_miss _ _ _ h w k (by omega)).trans ?_
        refine (canon_hit _ _ _ h w k (by omega) (by omega) (by omega)).trans ?_
        refine (pay7_apply _ _ _ _).trans ?_
        refine (ld_top_apply x _ _ _ ⟨h.val - 1, by omega⟩ (by fin_arith)).trans ?_
        exact img_congr x (by fin_arith) (by fin_arith) (by fin_arith)
      · rw [dif_neg hk1]
        by_cases hw : w.val + 1 < 64
        · rw [dif_pos hw]
          refine (canon_hit _ _ _ h w k (by omega) (by omega) (by omega)).trans ?_
          refine (pay8_apply _ _ _ _ ⟨w.val + 1, hw⟩ (by fin_arith)).trans ?_
          refine (ld_top_apply x _ _ _ ⟨h.val - 1, by omega⟩ (by fin_arith)).trans ?_
          exact img_congr x (by fin_arith) (by fin_arith) (by fin_arith)
        · rw [dif_neg hw]
          refine (canon_miss _ _ _ h w k (by omega)).trans ?_
          refine (canon_miss _ _ _ h w k (by omega)).trans ?_
          refine (canon_miss _ _ _ h w k (by omega)).trans ?_
          refine (canon_miss _ _ _ h w k (by omega)).trans ?_
          exact (canon_hit _ _ _ h w k (by omega) (by omega) (by omega)).trans (pay2_apply _)
  · rw [dif_neg hh]
    refine (canon_miss _ _ _ h w k (by omega)).trans ?_
    refine (canon_miss _ _ _ h w k (by omega)).trans ?_
    refine (canon_miss _ _ _ h w k (by omega)).trans ?_
    exact (canon_hit _ _ _ h w k (by omega) (by omega) (by omega)).trans (pay4_apply _)

/-- On the border strips the buffer holds zero before the first contraction. -/
theorem patch0_border (x : Vec Ideal S1x64x64x128 .bf16) (h w : Fin 64) (k : Fin 384)
    (hb : (k.val < 128 ∧ w.val = 0) ∨ (256 ≤ k.val ∧ w.val = 63)) : View.canon (pieces5_0 x) (ix3 h w k) = 0 := by
  rw [patch0_apply]
  by_cases hh : 0 < h.val
  · rw [dif_pos hh]; exact patch_border _ _ w k hb
  · rw [dif_neg hh]

/-- Before the second contraction: in every row the column patch of that image row. -/
theorem patch1_apply (x : Vec Ideal S1x64x64x128 .bf16) (h w : Fin 64) (k : Fin 384) :
    View.canon (pieces5_1 x) (ix3 h w k) = Cert.Spec.patch (img x) h w k := by
  unfold pieces5_1
  by_cases hb : (k.val < 128 ∧ w.val = 0) ∨ (256 ≤ k.val ∧ w.val = 63)
  · refine (canon_miss _ _ _ h w k (by omega)).trans ?_
    refine (canon_miss _ _ _ h w k (by omega)).trans ?_
    refine (canon_miss _ _ _ h w k (by omega)).trans ?_
    rw [patch0_border x h w k hb, patch_border _ h w k hb]
  · unfold Cert.Spec.patch
    by_cases hk0 : k.val < 128
    · rw [dif_pos hk0, dif_pos (by omega)]
      refine (canon_miss _ _ _ h w k (by omega)).trans ?_
      refine (canon_miss _ _ _ h w k (by omega)).trans ?_
      refine (canon_hit _ _ _ h w k (by omega) (by omega) (by omega)).trans ?_
      refine (pay10_apply _ _ _ _ ⟨w.val - 1, by omega⟩ (by fin_arith)).trans ?_
      rw [ld_all_eq]
      exact img_congr x (by fin_arith) (by fin_arith) (by fin_arith)
    · rw [dif_neg hk0]
      by_cases hk1 : k.val < 256
      · rw [dif_pos hk1]
        refine (canon_miss _ _ _ h w k (by omega)).trans ?_
        refine (canon_hit _ _ _ h w k (by omega) (by omega) (by omega)).trans ?_
        refine (pay11_apply _ _ _ _).trans ?_
        rw [ld_all_eq]
        exact img_congr x (by fin_arith) (by fin_arith) (by fin_arith)
      · rw [dif_neg hk1, dif_pos (by omega)]
        refine (canon_hit _ _ _ h w k (by omega) (by omega) (by omega)).trans ?_
        refine (pay12_apply _ _ _ _ ⟨w.val + 1, by omega⟩ (by fin_arith)).trans ?_
        rw [ld_all_eq]
        exact img_congr x (by fin_arith) (by fin_arith) (by fin_arith)

/-- Before the third contraction: zero in row 63, and in row `h ≤ 62` the column patch of image row `h + 1`. -/
theorem patch2_apply (x : Vec Ideal S1x64x64x128 .bf16) (h w : Fin 64) (k : Fin 384) :
    View.canon (pieces5_2 x) (ix3 h w k)
      = if hh : h.val + 1 < 64 then Cert.Spec.patch (img x) ⟨h.val + 1, hh⟩ w k else 0 := by
  unfold pieces5_2
  by_cases hh : h.val + 1 < 64
  · rw [dif_pos hh]
    by_cases hb : (k.val < 128 ∧ w.val = 0) ∨ (256 ≤ k.val ∧ w.val = 63)
    · refine (canon_miss _ _ _ h w k (by omega)).trans ?_
      refine (canon_miss _ _ _ h w k (by omega)).trans ?_
      refine (canon_miss _ _ _ h w k (by omega)).trans ?_
      refine (canon_miss _ _ _ h w k (by omega)).trans ?_
      rw [patch1_apply, patch_border _ h w k hb, patch_border _ _ w k hb]
    · unfold Cert.Spec.patch
      by_cases hk0 : k.val < 128
      · rw [dif_pos hk0, dif_pos (by omega)]
        refine (canon_miss _ _ _ h w k (by omega)).trans ?_
        refine (canon_miss _ _ _ h w k (by omega)).trans ?_
        refine (canon_hit _ _ _ h w k (by omega) (by omega) (by omega)).trans ?_
        refine (pay17_apply _ _ _ _ ⟨w.val - 1, by omega⟩ (by fin_arith)).trans ?_
        refine (ld_bot_apply x _ _ _ ⟨h.val + 1, hh⟩ (by fin_arith)).trans ?_
        exact img_congr x (by fin_arith) (by fin_arith) (by fin_arith)
      · rw [dif_neg hk0]
        by_cases hk1 : k.val < 256
        · rw [dif_pos hk1]
          refine (canon_miss _ _ _ h w k (by omega)).trans ?_
          refine (canon_hit _ _ _ h w k (by omega) (by omega) (by omega)).trans ?_
          refine (pay18_apply _ _ _ _).trans ?_
          refine (ld_bot_apply x _ _ _ ⟨h.val + 1, hh⟩ (by fin_arith)).trans ?_
          exact img_congr x (by fin_arith) (by fin_arith) (by fin_arith)
        · rw [dif_neg hk1, dif_pos (by omega)]
          refine (canon_hit _ _ _ h w k (by omega) (by omega) (by omega)).trans ?_
          refine (pay19_apply _ _ _ _ ⟨w.val + 1, by omega⟩ (by fin_arith)).trans ?_
          refine (ld_bot_apply x _ _ _ ⟨h.val + 1, hh⟩ (by fin_arith)).trans ?_
          exact img_congr x (by fin_arith) (by fin_arith) (by fin_arith)
  · rw [dif_neg hh]
    refine (canon_miss _ _ _ h w k (by omega)).trans ?_
    refine (canon_miss _ _ _ h w k (by omega)).trans ?_
    refine (canon_miss _ _ _ h w k (by omega)).trans ?_
    exact (canon_hit _ _ _ h w k (by omega) (by omega) (by omega)).trans (pay15_apply _)

/-! ## The stored block at an index -/

theorem patch5_0_eq (x : Vec Ideal S1x64x64x128 .bf16) : patch5_0 x = View.canon (pieces5_0 x) :=
  View.ld_unit_zero hz3 inb_S64x64x384_S64x64x384_0_0_0 (View.canon (pieces5_0 x))
theorem patch5_1_eq (x : Vec Ideal S1x64x64x128 .bf16) : patch5_1 x = View.canon (pieces5_1 x) :=
  View.ld_unit_zero hz3 inb_S64x64x384_S64x64x384_0_0_0 (View.canon (pieces5_1 x))
theorem patch5_2_eq (x : Vec Ideal S1x64x64x128 .bf16) : patch5_2 x = View.canon (pieces5_2 x) :=
  View.ld_unit_zero hz3 inb_S64x64x384_S64x64x384_0_0_0 (View.canon (pieces5_2 x))

/-- One tap's weights, loaded as a one-tap slab, at an index: the weights' block at that tap. -/
theorem ld_w0_apply (wt : Vec Ideal S3x384x128 .bf16) (k : Fin 384) (co : Fin 128) :
    (View.ld wt rw5_0 : FVec Ideal S1x384x128 .bf16) (ix3 (0 : Fin 1) k co) = wt (ix3 (0 : Fin 3) k co) := by
  refine congrArg wt (funext fun d => Fin.ext ?_)
  match d with
  | ⟨0, _⟩ => rfl
  | ⟨1, _⟩ => show 0 + 1 * k.val = k.val; omega
  | ⟨2, _⟩ => show 0 + 1 * co.val = co.val; omega
theorem ld_w1_apply (wt : Vec Ideal S3x384x128 .bf16) (k : Fin 384) (co : Fin 128) :
    (View.ld wt rw5_1 : FVec Ideal S1x384x128 .bf16) (ix3 (0 : Fin 1) k co) = wt (ix3 (1 : Fin 3) k co) := by
  refine congrArg wt (funext fun d => Fin.ext ?_)
  match d with
  | ⟨0, _⟩ => rfl
  | ⟨1, _⟩ => show 0 + 1 * k.val = k.val; omega
  | ⟨2, _⟩ => show 0 + 1 * co.val = co.val; omega
theorem ld_w2_apply (wt : Vec Ideal S3x384x128 .bf16) (k : Fin 384) (co : Fin 128) :
    (View.ld wt rw5_2 : FVec Ideal S1x384x128 .bf16) (ix3 (0 : Fin 1) k co) = wt (ix3 (2 : Fin 3) k co) := by
  refine congrArg wt (funext fun d => Fin.ext ?_)
  match d with
  | ⟨0, _⟩ => rfl
  | ⟨1, _⟩ => show 0 + 1 * k.val = k.val; omega
  | ⟨2, _⟩ => show 0 + 1 * co.val = co.val; omega
theorem ld_b_eq (b : Vec Ideal S1x128 .f32) : (View.ld b rb5 : Vec Ideal S1x128 .f32) = b :=
  View.ld_unit_zero hz2 inb_S1x128_S1x128_0_0 b

/-- One tap's contraction as the body spells it — the patch buffer flattened to 4096 rows and narrowed, the tap's
    weights with their unit axis dropped, into the zero splat — at pixel `(h, w)` and output channel `co`, over the
    factors the caller names: the patch at the pixel (`hP`) and the tap's weights into the channel (`hW`). -/
theorem tap_sum (P : FVec Ideal S64x64x384 .f32) (Wd : FVec Ideal S1x384x128 .bf16) (h w : Fin 64) (co : Fin 128)
    (Pf Wf : Fin 384 → EReal) (hP : ∀ k, P (ix3 h w k) = Pf k) (hW : ∀ k, Wd (ix3 (0 : Fin 1) k co) = Wf k) :
    matmul dot_S4096x384_S384x128_S4096x128_1_0_0_1_n_n none
        (truncf .bf16 (shapeCast S4096x384 P shapeCasts_S64x64x384_S4096x384) bitsLt_bf16_f32)
        (shapeCast S384x128 Wd shapeCasts_S1x384x128_S384x128) (constant (F := Ideal) S4096x128 .f32 0x00000000#32)
        (ix2 (⟨h.val * 64 + w.val, by omega⟩ : Fin 4096) co)
      = ∑ k : Fin 384, Pf k * Wf k := by
  refine (mm_apply _ _ _ co).trans (Finset.sum_congr rfl fun k _ => ?_)
  refine congrArg₂ (· * ·) ?_ ?_
  · refine (shapeCast_apply P shapeCasts_S64x64x384_S4096x384 (ix2 (⟨h.val * 64 + w.val, by omega⟩ : Fin 4096) k) (ix3 h w k) ?_).trans (hP k)
    rw [Shape.rowMajor_val_three, Shape.rowMajor_val_two]
    show (h.val * 64 + w.val) * 384 + k.val = (h.val * 64 + w.val) * 384 + k.val
    rfl
  · exact (shapeCast_1ab_ab_apply Wd shapeCasts_S1x384x128_S384x128 k co).trans (hW k)

/-- The first two taps summed onto the running value, as one vector. -/
theorem pay13_eq (v8 : FVec Ideal S4096x128 .f32) (P0 : FVec Ideal S64x64x384 .f32) (W0 : FVec Ideal S1x384x128 .bf16)
    (P1 : FVec Ideal S64x64x384 .f32) (W1 : FVec Ideal S1x384x128 .bf16) :
    k5_pay13 v8 P0 W0 P1 W1
      = addf (addf v8 (matmul dot_S4096x384_S384x128_S4096x128_1_0_0_1_n_n none
            (truncf .bf16 (shapeCast S4096x384 P0 shapeCasts_S64x64x384_S4096x384) bitsLt_bf16_f32)
            (shapeCast S384x128 W0 shapeCasts_S1x384x128_S384x128) (constant (F := Ideal) S4096x128 .f32 0x00000000#32)))
          (matmul dot_S4096x384_S384x128_S4096x128_1_0_0_1_n_n none
            (truncf .bf16 (shapeCast S4096x384 P1 shapeCasts_S64x64x384_S4096x384) bitsLt_bf16_f32)
            (shapeCast S384x128 W1 shapeCasts_S1x384x128_S384x128) (constant (F := Ideal) S4096x128 .f32 0x00000000#32)) := rfl

theorem pay13_apply (v8 : FVec Ideal S4096x128 .f32) (P0 : FVec Ideal S64x64x384 .f32) (W0 : FVec Ideal S1x384x128 .bf16)
    (P1 : FVec Ideal S64x64x384 .f32) (W1 : FVec Ideal S1x384x128 .bf16) (h w : Fin 64) (co : Fin 128)
    (Pf0 Wf0 Pf1 Wf1 : Fin 384 → EReal) (hP0 : ∀ k, P0 (ix3 h w k) = Pf0 k) (hW0 : ∀ k, W0 (ix3 (0 : Fin 1) k co) = Wf0 k)
    (hP1 : ∀ k, P1 (ix3 h w k) = Pf1 k) (hW1 : ∀ k, W1 (ix3 (0 : Fin 1) k co) = Wf1 k) :
    k5_pay13 v8 P0 W0 P1 W1 (ix2 (⟨h.val * 64 + w.val, by omega⟩ : Fin 4096) co)
      = (v8 (ix2 (⟨h.val * 64 + w.val, by omega⟩ : Fin 4096) co) + ∑ k : Fin 384, Pf0 k * Wf0 k) + ∑ k : Fin 384, Pf1 k * Wf1 k := by
  rw [pay13_eq, addf_apply, addf_apply, tap_sum P0 W0 h w co Pf0 Wf0 hP0 hW0, tap_sum P1 W1 h w co Pf1 Wf1 hP1 hW1]

/-- The third tap and the bias added, reshaped to the output block, as one vector. -/
theorem pay20_eq (v54 : FVec Ideal S4096x128 .f32) (P : FVec Ideal S64x64x384 .f32) (Wd : FVec Ideal S1x384x128 .bf16)
    (b : FVec Ideal S1x128 .f32) :
    k5_pay20 v54 P Wd b
      = shapeCast S1x64x64x128 (addf (addf v54 (matmul dot_S4096x384_S384x128_S4096x128_1_0_0_1_n_n none
            (truncf .bf16 (shapeCast S4096x384 P shapeCasts_S64x64x384_S4096x384) bitsLt_bf16_f32)
            (shapeCast S384x128 Wd shapeCasts_S1x384x128_S384x128) (constant (F := Ideal) S4096x128 .f32 0x00000000#32)))
          (broadcastTo S4096x128 (shapeCast S1x128 b shapeCasts_S1x128_S1x128) broadcasts_S1x128_S4096x128)) shapeCasts_S4096x128_S1x64x64x128 := rfl

theorem pay20_apply (v54 : FVec Ideal S4096x128 .f32) (P : FVec Ideal S64x64x384 .f32) (Wd : FVec Ideal S1x384x128 .bf16)
    (b : FVec Ideal S1x128 .f32) (h w : Fin 64) (co : Fin 128)
    (Pf Wf : Fin 384 → EReal) (hP : ∀ k, P (ix3 h w k) = Pf k) (hW : ∀ k, Wd (ix3 (0 : Fin 1) k co) = Wf k) :
    k5_pay20 v54 P Wd b (ix4 (0 : Fin 1) h w co)
      = (v54 (ix2 (⟨h.val * 64 + w.val, by omega⟩ : Fin 4096) co) + ∑ k : Fin 384, Pf k * Wf k) + b (ix2 (0 : Fin 1) co) := by
  rw [pay20_eq]
  rw [shapeCast_apply _ shapeCasts_S4096x128_S1x64x64x128 (ix4 (0 : Fin 1) h w co) (ix2 (⟨h.val * 64 + w.val, by omega⟩ : Fin 4096) co) (by
    rw [Shape.rowMajor_val_two, Shape.rowMajor_val_four]
    show (h.val * 64 + w.val) * 128 + co.val = (((0 : ℕ) * 64 + h.val) * 64 + w.val) * 128 + co.val
    omega)]
  rw [addf_apply, addf_apply, tap_sum P Wd h w co Pf Wf hP hW, broadcastTo_1b_ab_apply, shapeCast_self]

/-- THE OUTPUT BLOCK AT A PIXEL: the 3x3 convolution of the image block there. -/
theorem out5_3_apply (x : Vec Ideal S1x64x64x128 .bf16) (wt : Vec Ideal S3x384x128 .bf16) (b : Vec Ideal S1x128 .f32)
    (h w : Fin 64) (co : Fin 128) :
    out5_3 x wt b (ix4 (0 : Fin 1) h w co)
      = Cert.Spec.conv (img x) (fun dy k co' => wt (ix3 dy k co')) (fun co' => b (ix2 (0 : Fin 1) co')) h w co := by
  unfold out5_3
  rw [View.canon_unit_zero hz4]
  refine (pay20_apply _ _ _ _ h w co
    (fun k => if hh : h.val + 1 < 64 then Cert.Spec.patch (img x) ⟨h.val + 1, hh⟩ w k else 0) (fun k => wt (ix3 (2 : Fin 3) k co))
    (fun k => (congrFun (patch5_2_eq x) _).trans (patch2_apply x h w k)) (fun k => ld_w2_apply wt k co)).trans ?_
  rw [pay13_apply _ _ _ _ _ h w co
    (fun k => if hh : 0 < h.val then Cert.Spec.patch (img x) ⟨h.val - 1, by omega⟩ w k else 0) (fun k => wt (ix3 (0 : Fin 3) k co))
    (fun k => Cert.Spec.patch (img x) h w k) (fun k => wt (ix3 (1 : Fin 3) k co))
    (fun k => (congrFun (patch5_0_eq x) _).trans (patch0_apply x h w k)) (fun k => ld_w0_apply wt k co)
    (fun k => (congrFun (patch5_1_eq x) _).trans (patch1_apply x h w k)) (fun k => ld_w1_apply wt k co),
    pay3_apply, ld_b_eq]
  unfold Cert.Spec.conv Cert.Spec.tap
  by_cases h0 : 0 < h.val <;> by_cases h1 : h.val + 1 < 64 <;>
    simp only [dif_pos, dif_neg, h0, h1, not_false_eq_true, zero_add, add_zero, zero_mul, Finset.sum_const_zero]

/-! # From the blocks to the array -/

variable (V : (c : Dev nD) → (b : Ref sig .tc) → Buf (Elt Ideal) ((c : Thread nD τ).loc b))

/-- The printed index maps, decided over the four grid points: the image and the output move one image per point, the
    weights and the bias stay. -/
theorem idx_facts5 : ∀ t : Fin cfg5.N,
    win5_0.index t (0 : Fin 4) = t.val ∧ win5_0.index t (1 : Fin 4) = 0 ∧ win5_0.index t (2 : Fin 4) = 0 ∧ win5_0.index t (3 : Fin 4) = 0
    ∧ win5_1.index t (0 : Fin 3) = 0 ∧ win5_1.index t (1 : Fin 3) = 0 ∧ win5_1.index t (2 : Fin 3) = 0
    ∧ win5_2.index t (0 : Fin 2) = 0 ∧ win5_2.index t (1 : Fin 2) = 0
    ∧ win5_3.index t (0 : Fin 4) = t.val ∧ win5_3.index t (1 : Fin 4) = 0 ∧ win5_3.index t (2 : Fin 4) = 0 ∧ win5_3.index t (3 : Fin 4) = 0 :=
  (by decide +kernel : ∀ t : Fin grid5.N, _)

/-- The output array after the region, as one function of the region-entry arrays: at image `n`, pixel `(h, w)` and
    channel `co` the 3x3 convolution of image `n`. -/
def G5 (c : Dev nD) : S4x64x64x128.Idx → EReal := fun i =>
  Cert.Spec.conv (fun h' w' k => V c main_v43 (ix4 (⟨(i 0).val, (i 0).isLt⟩ : Fin 4) h' w' k))
    (fun dy k co' => V c main_v45 (ix3 dy k co')) (fun co' => V c main_v46 (ix2 (0 : Fin 1) co'))
    (⟨(i 1).val, (i 1).isLt⟩ : Fin 64) (⟨(i 2).val, (i 2).isLt⟩ : Fin 64) (⟨(i 3).val, (i 3).isLt⟩ : Fin 128)

/-- The image window's block at point `t` is image `t` of the array. -/
theorem blk5_0_read (c : Dev nD) (t : Fin cfg5.N) (n : Fin 4) (hn : n.val = t.val) (h w : Fin 64) (k : Fin 128) :
    iblk5 V c 0 t (ix4 (0 : Fin 1) h w k) = V c main_v43 (ix4 n h w k) := by
  obtain ⟨e0, e1, e2, e3, -⟩ := idx_facts5 t
  show V c main_v43 (((cfg5.win 0).blk t).view.emb (ix4 (0 : Fin 1) h w k)) = V c main_v43 (ix4 n h w k)
  refine congrArg (V c main_v43) (funext fun a => Fin.ext ?_)
  match a with
  | ⟨0, _⟩ => show win5_0.index t (0 : Fin 4) * 1 + 1 * 0 = n.val; omega
  | ⟨1, _⟩ => show win5_0.index t (1 : Fin 4) * 64 + 1 * h.val = h.val; omega
  | ⟨2, _⟩ => show win5_0.index t (2 : Fin 4) * 64 + 1 * w.val = w.val; omega
  | ⟨3, _⟩ => show win5_0.index t (3 : Fin 4) * 128 + 1 * k.val = k.val; omega

/-- The weights' window's block is the whole array at every point. -/
theorem blk5_1_read (c : Dev nD) (t : Fin cfg5.N) (dy : Fin 3) (k : Fin 384) (co : Fin 128) :
    iblk5 V c 1 t (ix3 dy k co) = V c main_v45 (ix3 dy k co) := by
  obtain ⟨-, -, -, -, e0, e1, e2, -⟩ := idx_facts5 t
  show V c main_v45 (((cfg5.win 1).blk t).view.emb (ix3 dy k co)) = V c main_v45 (ix3 dy k co)
  refine congrArg (V c main_v45) (funext fun a => Fin.ext ?_)
  match a with
  | ⟨0, _⟩ => show win5_1.index t (0 : Fin 3) * 3 + 1 * dy.val = dy.val; omega
  | ⟨1, _⟩ => show win5_1.index t (1 : Fin 3) * 384 + 1 * k.val = k.val; omega
  | ⟨2, _⟩ => show win5_1.index t (2 : Fin 3) * 128 + 1 * co.val = co.val; omega

/-- The bias's window's block likewise. -/
theorem blk5_2_read (c : Dev nD) (t : Fin cfg5.N) (u : Fin 1) (co : Fin 128) :
    iblk5 V c 2 t (ix2 u co) = V c main_v46 (ix2 u co) := by
  obtain ⟨-, -, -, -, -, -, -, e0, e1, -⟩ := idx_facts5 t
  show V c main_v46 (((cfg5.win 2).blk t).view.emb (ix2 u co)) = V c main_v46 (ix2 u co)
  refine congrArg (V c main_v46) (funext fun a => Fin.ext ?_)
  match a with
  | ⟨0, _⟩ => show win5_2.index t (0 : Fin 2) * 1 + 1 * u.val = u.val; omega
  | ⟨1, _⟩ => show win5_2.index t (1 : Fin 2) * 128 + 1 * co.val = co.val; omega

/-- WHAT POINT `t` WRITES BACK is block `t` of `G5`. -/
theorem flushed5_eq (c : Dev nD) (t : Fin cfg5.N) :
    (dat5 V c).flushed 3 t = ((cfg5.win 3).blk t).view.read (Elt Ideal) (G5 V c) := by
  show (cfg5.win 3).cut (grid5.coords t) ((dat5 V c).after 3 t) = _
  rw [after5_3]
  obtain ⟨-, -, -, -, -, -, -, -, -, e0, e1, e2, e3⟩ := idx_facts5 t
  have hN : grid5.N = 4 := N_5
  have ht : t.val < 4 := by have h' : t.val < grid5.N := t.isLt; omega
  funext j
  obtain ⟨u, h, w, co, rfl⟩ : ∃ (u : Fin 1) (h w : Fin 64) (co : Fin 128), j = ix4 u h w co := ⟨j 0, j 1, j 2, j 3, eq_ix4 j⟩
  obtain rfl : u = 0 := Subsingleton.elim _ _
  refine (out5_3_apply (iblk5 V c 0 t) (iblk5 V c 1 t) (iblk5 V c 2 t) h w co).trans ?_
  have ex : img (iblk5 V c 0 t) = fun h' w' k => V c main_v43 (ix4 (⟨t.val, ht⟩ : Fin 4) h' w' k) :=
    funext fun h' => funext fun w' => funext fun k => blk5_0_read V c t ⟨t.val, ht⟩ rfl h' w' k
  have ew : (fun dy k co' => iblk5 V c 1 t (ix3 dy k co')) = fun (dy : Fin 3) (k : Fin 384) (co' : Fin 128) => V c main_v45 (ix3 dy k co') :=
    funext fun dy => funext fun k => funext fun co' => blk5_1_read V c t dy k co'
  have eb : (fun co' => iblk5 V c 2 t (ix2 (0 : Fin 1) co')) = fun (co' : Fin 128) => V c main_v46 (ix2 (0 : Fin 1) co') :=
    funext fun co' => blk5_2_read V c t 0 co'
  rw [ex, ew, eb]
  show _ = G5 V c (((cfg5.win 3).blk t).view.emb (ix4 (0 : Fin 1) h w co))
  unfold G5
  have hi0 : ((((cfg5.win 3).blk t).view.emb (ix4 (0 : Fin 1) h w co)) 0).val = t.val := by
    show win5_3.index t (0 : Fin 4) * 1 + 1 * 0 = t.val; omega
  have hi1 : ((((cfg5.win 3).blk t).view.emb (ix4 (0 : Fin 1) h w co)) 1).val = h.val := by
    show win5_3.index t (1 : Fin 4) * 64 + 1 * h.val = h.val; omega
  have hi2 : ((((cfg5.win 3).blk t).view.emb (ix4 (0 : Fin 1) h w co)) 2).val = w.val := by
    show win5_3.index t (2 : Fin 4) * 64 + 1 * w.val = w.val; omega
  have hi3 : ((((cfg5.win 3).blk t).view.emb (ix4 (0 : Fin 1) h w co)) 3).val = co.val := by
    show win5_3.index t (3 : Fin 4) * 128 + 1 * co.val = co.val; omega
  simp only [hi0, hi1, hi2, hi3]

/-- An index of the output array is in point `t`'s block iff each coordinate is in the block's range on its axis. -/
theorem mem_blk5 (t : Fin cfg5.N) (i : S4x64x64x128.Idx) :
    i ∈ ((cfg5.win 3).blk t).view.set ↔ ∀ a : Fin 4, win5_3.index t a * S1x64x64x128.size a ≤ (i a).val ∧ (i a).val < win5_3.index t a * S1x64x64x128.size a + S1x64x64x128.size a := by
  show i ∈ ((View.whole main_v47).slice (win5_3.rect t)).set ↔ _
  rw [View.set_slice_whole, Rect.mem_set_unit]
  exact Iff.rfl

/-- Every index of the output array is in some point's block: image `n` is point `n`'s. -/
theorem cover5 (i : S4x64x64x128.Idx) :
    ∃ t : Fin cfg5.N, (cfg5.win 3).flush t = true ∧ i ∈ ((cfg5.win 3).blk t).view.set := by
  have hN : grid5.N = 4 := N_5
  have hi0 : (i 0).val < 4 := (i 0).isLt
  have hi1 : (i 1).val < 64 := (i 1).isLt
  have hi2 : (i 2).val < 64 := (i 2).isLt
  have hi3 : (i 3).val < 128 := (i 3).isLt
  refine ⟨⟨(i 0).val, by show (i 0).val < grid5.N; omega⟩, flush5_3 _, ?_⟩
  rw [mem_blk5]
  obtain ⟨-, -, -, -, -, -, -, -, -, e0, e1, e2, e3⟩ := idx_facts5 ⟨(i 0).val, by show (i 0).val < grid5.N; omega⟩
  intro a
  match a with
  | ⟨0, _⟩ => show win5_3.index _ (0 : Fin 4) * 1 ≤ (i 0).val ∧ (i 0).val < win5_3.index _ (0 : Fin 4) * 1 + 1; rw [e0]; show (i 0).val * 1 ≤ (i 0).val ∧ (i 0).val < (i 0).val * 1 + 1; omega
  | ⟨1, _⟩ => show win5_3.index _ (1 : Fin 4) * 64 ≤ (i 1).val ∧ (i 1).val < win5_3.index _ (1 : Fin 4) * 64 + 64; rw [e1]; omega
  | ⟨2, _⟩ => show win5_3.index _ (2 : Fin 4) * 64 ≤ (i 2).val ∧ (i 2).val < win5_3.index _ (2 : Fin 4) * 64 + 64; rw [e2]; omega
  | ⟨3, _⟩ => show win5_3.index _ (3 : Fin 4) * 128 ≤ (i 3).val ∧ (i 3).val < win5_3.index _ (3 : Fin 4) * 128 + 128; rw [e3]; omega

end Conv5

open Conv5

variable (V : (c : Dev nD) → (b : Ref sig .tc) → Buf (Elt Ideal) ((c : Thread nD τ).loc b))

/-- THE OUTPUT ARRAY after the region's last point, at an index: the 3x3 convolution (stride 1, zero padding 1) of the
    image the region found in its input array, with the weights and the bias it found. -/
theorem final5 (c : Dev nD) (n : Fin 4) (h w : Fin 64) (co : Fin 128) :
    (dat5 (F := Ideal) V c).arrAt 3 cfg5.N (ValueIdx.ix4 n h w co)
      = Cert.Spec.conv (fun h' w' k => V c main_v43 (ValueIdx.ix4 n h' w' k)) (fun dy k co' => V c main_v45 (ValueIdx.ix3 dy k co'))
          (fun co' => V c main_v46 (ValueIdx.ix2 0 co')) h w co := by
  have e := (dat5 (F := Ideal) V c).arrAt_eq_of_cover 3 (G5 V c) (fun t _ => flushed5_eq V c t) (cover5)
  exact (congrFun e (ValueIdx.ix4 n h w co)).trans rfl

end Cert.ReferenceIdeal.Hand

end
-- ==== Proof.RefLvl3.lean ====
/-
  The reference program's finest level, read off its run: the matrix region 4 leaves is the specification's level 3 after
  its 1x1 stage, and the image region 5 leaves is the specification's third output.

  Region 4 leaves, at row n * 4096 + h * 64 + w, the contraction of that row of the pixel matrix with the weights, plus
  the bias, plus the coarse image at row r / 128, pixel r % 64. The pixel matrix is the finest input image reshaped, so
  the row is pixel (n, h, w); the weights are an argument no item writes; the bias is the argument as a one-row
  matrix; the coarse image is the level-4 image with every pixel repeated along the row, reshaped, so row r / 128 =
  n * 32 + h / 2 at pixel w reads the level-4 image at (n, h / 2, w / 2), which is region 2's matrix at row
  n * 1024 + (h / 2) * 32 + w / 2: the specification's level 4 there. Region 5 convolves region 4's matrix, reshaped to
  an image, with its taps' weights and bias, both arguments no item writes.
-/
import proofs.«126699_g2000605867469428_pallasbulk_857_3_alg».proof.Proof.RefRun
import proofs.«126699_g2000605867469428_pallasbulk_857_3_alg».proof.Proof.RefKeep
import proofs.«126699_g2000605867469428_pallasbulk_857_3_alg».proof.Proof.RefArgs
import proofs.«126699_g2000605867469428_pallasbulk_857_3_alg».proof.Proof.RefPw4
import proofs.«126699_g2000605867469428_pallasbulk_857_3_alg».proof.Proof.RefConv5
import proofs.«126699_g2000605867469428_pallasbulk_857_3_alg».proof.Proof.RefConv5Value
import proofs.«126699_g2000605867469428_pallasbulk_857_3_alg».proof.Proof.RefHostA
import proofs.«126699_g2000605867469428_pallasbulk_857_3_alg».proof.Proof.RefHostB
import proofs.«126699_g2000605867469428_pallasbulk_857_3_alg».proof.Proof.Levels
import Idealize.ShloMosaic.Lib.ValueIdx
import Idealize.ShloMosaic.Lib.Pipeline.Value

set_option maxRecDepth 16384

noncomputable section

namespace Cert.ReferenceIdeal.Hand

open Idealize.ShloMosaic Idealize.ShloMosaic.TcCoe Idealize.ShloMosaic.ValueIdx
open Cert.ReferenceIdeal Cert.ReferenceIdeal.Gen

/-! ## The specification's level 3 from its parts -/

/-- Level 3 after its 1x1 stage, from the contraction's operands and the residual read off level 4. -/
theorem p3_of_parts (a : Cert.Spec.Args) (n : Fin 4) (h w : Fin 64) (co : Fin 128)
    (x : Fin 256 → EReal) (wt : Fin 256 → Fin 128 → EReal) (b : Fin 128 → EReal) (res : EReal)
    (hx : ∀ k, x k = a.c3 n h w k) (hw : ∀ k co', wt k co' = a.w31 k co') (hb : ∀ co', b co' = a.b3 co')
    (hres : res = a.p4 n ⟨h.val / 2, by omega⟩ ⟨w.val / 2, by omega⟩ co) :
    Cert.Spec.pw x wt b co + res = a.p3 n h w co := by
  have ex : x = a.c3 n h w := funext hx
  have ew : wt = a.w31 := funext fun k => funext (hw k)
  have eb : b = a.b3 := funext hb
  rw [ex, ew, eb, hres]
  rfl

/-- Level 3's output from the image, the taps' weights and the bias. -/
theorem o3_of_parts (a : Cert.Spec.Args) (n : Fin 4) (h w : Fin 64) (co : Fin 128)
    (x : Fin 64 → Fin 64 → Fin 128 → EReal) (w3 : Fin 3 → Fin 384 → Fin 128 → EReal) (b : Fin 128 → EReal)
    (hx : ∀ h' w' k, x h' w' k = a.p3 n h' w' k) (hw : ∀ dy k co', w3 dy k co' = a.w32 dy k co') (hb : ∀ co', b co' = a.b32 co') :
    Cert.Spec.conv x w3 b h w co = a.o3 n h w co := by
  have ex : x = a.p3 n := funext fun h' => funext fun w' => funext (hx h' w')
  have ew : w3 = a.w32 := funext fun dy => funext fun k => funext (hw dy k)
  have eb : b = a.b32 := funext hb
  rw [ex, ew, eb]
  rfl

/-- Two rank-4 indices with equal coordinates are equal. -/
theorem ix4_congr_l3 {n0 n1 n2 n3 : ℕ} {a a' : Fin n0} {b b' : Fin n1} {c c' : Fin n2} (d : Fin n3)
    (ha : a = a') (hb : b = b') (hc : c = c') : ix4 a b c d = ix4 a' b' c' d := by
  subst ha hb hc; rfl

variable (m : (ℓ : Loc nD τ sig) → Buf (Elt Ideal) ℓ) (ρ : Dev nD → PrngReg) (c : Dev nD)

/-! ## Buffers no item writes -/

/-- A buffer that no item up to region 3 writes holds its launch contents when region 3 ends, -/
theorem keep10_l3 (b : Ref sig .tc) (h0 : b ∉ hostOps0_W) (h1 : b ∉ hostOps1_W) (h2 : b ∉ hostOps2_W) (h2a : b ∉ hostOps2_1_W)
    (h2b : b ∉ hostOps2_2_W) (h3 : b ∉ hostOps3_W) (n0 : b ≠ main_v2) (n1 : b ≠ main_v7) (n2 : b ≠ main_v22) (n3 : b ≠ main_v27) :
    Bv10 m ρ c b = Bv0 m ρ c b :=
  (Bv10_keep m ρ c b n3).trans <| (Bv9_keep m ρ c b h3).trans <| (Bv8_keep m ρ c b n2).trans <| (Bv7_keep m ρ c b h2b).trans <|
    (Bv6_keep m ρ c b h2a).trans <| (Bv5_keep m ρ c b h2).trans <| (Bv4_keep m ρ c b n1).trans <| (Bv3_keep m ρ c b h1).trans <|
    (Bv2_keep m ρ c b n0).trans (Bv1_keep m ρ c b h0)

/-- when region 4 is entered, -/
theorem keep13_l3 (b : Ref sig .tc) (h0 : b ∉ hostOps0_W) (h1 : b ∉ hostOps1_W) (h2 : b ∉ hostOps2_W) (h2a : b ∉ hostOps2_1_W)
    (h2b : b ∉ hostOps2_2_W) (h3 : b ∉ hostOps3_W) (h4 : b ∉ hostOps4_W) (h4a : b ∉ hostOps4_1_W) (h4b : b ∉ hostOps4_2_W)
    (n0 : b ≠ main_v2) (n1 : b ≠ main_v7) (n2 : b ≠ main_v22) (n3 : b ≠ main_v27) :
    Bv13 m ρ c b = Bv0 m ρ c b :=
  (Bv13_keep m ρ c b h4b).trans <| (Bv12_keep m ρ c b h4a).trans <| (Bv11_keep m ρ c b h4).trans
    (keep10_l3 m ρ c b h0 h1 h2 h2a h2b h3 n0 n1 n2 n3)

/-- and when it ends. -/
theorem keep14_l3 (b : Ref sig .tc) (h0 : b ∉ hostOps0_W) (h1 : b ∉ hostOps1_W) (h2 : b ∉ hostOps2_W) (h2a : b ∉ hostOps2_1_W)
    (h2b : b ∉ hostOps2_2_W) (h3 : b ∉ hostOps3_W) (h4 : b ∉ hostOps4_W) (h4a : b ∉ hostOps4_1_W) (h4b : b ∉ hostOps4_2_W)
    (n0 : b ≠ main_v2) (n1 : b ≠ main_v7) (n2 : b ≠ main_v22) (n3 : b ≠ main_v27) (n4 : b ≠ main_v42) :
    Bv14 m ρ c b = Bv0 m ρ c b :=
  (Bv14_keep m ρ c b n4).trans (keep13_l3 m ρ c b h0 h1 h2 h2a h2b h3 h4 h4a h4b n0 n1 n2 n3)

/-- The finest input image when region 3 ends is the launch's. -/
theorem arg0_at10 : Bv10 m ρ c main_arg0 = m ((c : Thread nD τ).loc main_arg0) :=
  keep10_l3 m ρ c main_arg0 (by decide) (by decide) (by decide) (by decide) (by decide) (by decide) (by decide) (by decide) (by decide) (by decide)

/-- The level's bias vector likewise. -/
theorem arg12_at10 : Bv10 m ρ c main_arg12 = m ((c : Thread nD τ).loc main_arg12) :=
  keep10_l3 m ρ c main_arg12 (by decide) (by decide) (by decide) (by decide) (by decide) (by decide) (by decide) (by decide) (by decide) (by decide)

/-- The level's 1x1 weights when region 4 is entered are the launch's. -/
theorem arg11_at13 : Bv13 m ρ c main_arg11 = m ((c : Thread nD τ).loc main_arg11) :=
  keep13_l3 m ρ c main_arg11 (by decide) (by decide) (by decide) (by decide) (by decide) (by decide) (by decide) (by decide) (by decide)
    (by decide) (by decide) (by decide) (by decide)

/-- The level's 3x3 weights and its second bias when region 4 ends are the launch's. -/
theorem arg13_at14 : Bv14 m ρ c main_arg13 = m ((c : Thread nD τ).loc main_arg13) :=
  keep14_l3 m ρ c main_arg13 (by decide) (by decide) (by decide) (by decide) (by decide) (by decide) (by decide) (by decide) (by decide)
    (by decide) (by decide) (by decide) (by decide) (by decide)
theorem arg14_at14 : Bv14 m ρ c main_arg14 = m ((c : Thread nD τ).loc main_arg14) :=
  keep14_l3 m ρ c main_arg14 (by decide) (by decide) (by decide) (by decide) (by decide) (by decide) (by decide) (by decide) (by decide)
    (by decide) (by decide) (by decide) (by decide) (by decide)

/-! ## Level 3 after its 1x1 stage -/

/-- The level-4 image as region 4's host stretches read it is region 2's matrix: the stretch before region 3 reshaped it,
    and region 3 only read it. -/
theorem v23_at10 (n : Fin 4) (h w : Fin 32) (co : Fin 128) :
    (Bv10 m ρ c main_v23 : S4x32x32x128.Idx → EReal) (ix4 n h w co)
      = (Bv8 m ρ c main_v22 : S4096x128.Idx → EReal) (ix2 (⟨n.val * 1024 + h.val * 32 + w.val, by omega⟩ : Fin 4096) co) :=
  (congrFun (Bv10_keep m ρ c main_v23 (by decide)) _).trans (hostOps3_v23_apply (B8 m ρ c) n h w co)

/-- Region 4's matrix at row `n * 4096 + h * 64 + w` is the specification's level 3 at pixel `(n, h, w)`, given that
    region 2's matrix is the specification's level 4. -/
theorem ref_p3_of
    (hp4 : ∀ (n : Fin 4) (h w : Fin 32) (co : Fin 128),
      (Bv8 m ρ c main_v22 : S4096x128.Idx → EReal) (ix2 (⟨n.val * 1024 + h.val * 32 + w.val, by omega⟩ : Fin 4096) co)
        = (rArgs m c).p4 n h w co)
    (n : Fin 4) (h w : Fin 64) (co : Fin 128) :
    (Bv14 m ρ c main_v42 : S16384x128.Idx → EReal) (ix2 (⟨n.val * 4096 + h.val * 64 + w.val, by omega⟩ : Fin 16384) co)
      = (rArgs m c).p3 n h w co := by
  refine (congrFun (Bv14_out m ρ c) _).trans ?_
  refine (final4 (Bv13 m ρ) c _ co).trans ?_
  refine p3_of_parts (rArgs m c) n h w co _ _ _ _ (fun k => ?_) (fun k co' => ?_) (fun co' => ?_) ?_
  · -- the row of the pixel matrix is the pixel's channels
    refine (hostOps4_v40_apply (B10 m ρ c) _ k).trans ?_
    refine (congrFun (arg0_at10 m ρ c) _).trans ?_
    show (m ((c : Thread nD τ).loc main_arg0) : S4x64x64x256.Idx → EReal) _
      = (m ((c : Thread nD τ).loc main_arg0) : S4x64x64x256.Idx → EReal) (ix4 n h w k)
    refine congrArg _ (ix4_congr_l3 k (Fin.ext ?_) (Fin.ext ?_) (Fin.ext ?_))
    · show (n.val * 4096 + h.val * 64 + w.val) / 4096 = n.val; omega
    · show (n.val * 4096 + h.val * 64 + w.val) / 64 % 64 = h.val; omega
    · show (n.val * 4096 + h.val * 64 + w.val) % 64 = w.val; omega
  · -- the weights
    exact congrFun (arg11_at13 m ρ c) _
  · -- the bias
    refine (congrFun (hostOps4_v41 (B10 m ρ c)) _).trans ?_
    show shapeCast S1x128 (Bv10 m ρ c main_arg12 : S128.Idx → EReal) shapeCasts_S128_S1x128 (ix2 0 co')
      = shapeCast S1x128 (m ((c : Thread nD τ).loc main_arg12) : S128.Idx → EReal) shapeCasts_S128_S1x128 (ix2 0 co')
    rw [arg12_at10 m ρ c]
  · -- the coarse image is level 4, each pixel read twice in each direction
    refine (hostOps4_v39_apply (B10 m ρ c) _ _ co).trans ?_
    refine Eq.trans (congrArg (Bv10 m ρ c main_v23 : S4x32x32x128.Idx → EReal)
      (ix4_congr_l3 (a' := n) (b' := (⟨h.val / 2, by omega⟩ : Fin 32)) (c' := (⟨w.val / 2, by omega⟩ : Fin 32)) co
        (Fin.ext ?_) (Fin.ext ?_) (Fin.ext ?_))) ?_
    · show (n.val * 4096 + h.val * 64 + w.val) / 128 / 32 = n.val; omega
    · show (n.val * 4096 + h.val * 64 + w.val) / 128 % 32 = h.val / 2; omega
    · show (n.val * 4096 + h.val * 64 + w.val) % 64 / 2 = w.val / 2; omega
    · exact (v23_at10 m ρ c n _ _ co).trans (hp4 n _ _ co)

/-! ## Level 3's output -/

/-- Region 5's image at pixel `(n, h, w)` is the specification's third output, given that region 2's matrix is the
    specification's level 4. -/
theorem ref_o3_of
    (hp4 : ∀ (n : Fin 4) (h w : Fin 32) (co : Fin 128),
      (Bv8 m ρ c main_v22 : S4096x128.Idx → EReal) (ix2 (⟨n.val * 1024 + h.val * 32 + w.val, by omega⟩ : Fin 4096) co)
        = (rArgs m c).p4 n h w co)
    (n : Fin 4) (h w : Fin 64) (co : Fin 128) :
    (Bv16 m ρ c main_v47 : S4x64x64x128.Idx → EReal) (ix4 n h w co) = (rArgs m c).o3 n h w co := by
  refine (congrFun (Bv16_out m ρ c) _).trans ?_
  refine (final5 (Bv15 m ρ) c n h w co).trans ?_
  refine o3_of_parts (rArgs m c) n h w co _ _ _ (fun h' w' k => ?_) (fun dy k co' => ?_) (fun co' => ?_)
  · -- the image is region 4's matrix reshaped
    exact (hostOps5_v43_apply (B14 m ρ c) n h' w' k).trans (ref_p3_of m ρ c hp4 n h' w' k)
  · -- the taps' weights
    refine (hostOps5_v45_apply (B14 m ρ c) _).trans ?_
    show shapeCast S3x384x128 (Bv14 m ρ c main_arg13 : S3x3x128x128.Idx → EReal) shapeCasts_S3x3x128x128_S3x384x128 (ix3 dy k co')
      = shapeCast S3x384x128 (m ((c : Thread nD τ).loc main_arg13) : S3x3x128x128.Idx → EReal) shapeCasts_S3x3x128x128_S3x384x128 (ix3 dy k co')
    rw [arg13_at14 m ρ c]
  · -- the bias
    refine (congrFun (hostOps5_v46 (B14 m ρ c)) _).trans ?_
    show shapeCast S1x128 (Bv14 m ρ c main_arg14 : S128.Idx → EReal) shapeCasts_S128_S1x128 (ix2 0 co')
      = shapeCast S1x128 (m ((c : Thread nD τ).loc main_arg14) : S128.Idx → EReal) shapeCasts_S128_S1x128 (ix2 0 co')
    rw [arg14_at14 m ρ c]

end Cert.ReferenceIdeal.Hand

end
-- ==== Proof.lean ====
/-
  Two programs for one feature pyramid are shown to compute the same three images at the ideal instance, where every float
  is an extended real and every rounding is the identity.

  The kernel is one launch over the four images of the batch: for each image it computes all three levels in one body —
  a 1x1 convolution per level, the level above upsampled by two and added below the top, and a 3x3 convolution of each
  sum built from a column patch (the three horizontal neighbours' channels side by side), three 384-wide contractions and
  two row shifts. The reference computes the same levels as six launches, one stage at a time over the whole batch, with
  host reshapes and a column gather between them; its 3x3 stage rebuilds the column patch in a scratch buffer once per
  vertical tap, with the out-of-image row zeroed, and accumulates the three contractions.

  Both are read as the functions of Proof/Spec.lean and Proof/Levels.lean: index by index each result is
  ((tap 0 of the row above + tap 1 of the row) + tap 2 of the row below) + bias of the level's 1x1 sum, the absent rows
  contributing zero. The two groupings of that sum differ only by commutativity and by zero summands (zero times a weight
  is zero on the extended reals), so no finiteness is used.

  The kernel's frames are the generated ones. The reference has no generated frame: its run is assembled in
  Proof/RefRun.lean from one record per launch (Proof/RefPw*.lean, Proof/RefConv*.lean), and its frame is that run with
  the results dropped. The one rewrite of the idealization (a bf16 round trip removed) is its rule's statement.
-/
import proofs.«126699_g2000605867469428_pallasbulk_857_3_alg».proof.Defs
import proofs.«126699_g2000605867469428_pallasbulk_857_3_alg».proof.Proof.Gen.Kernel
import proofs.«126699_g2000605867469428_pallasbulk_857_3_alg».proof.Proof.Gen.Kernel.Skeleton
import proofs.«126699_g2000605867469428_pallasbulk_857_3_alg».proof.Proof.Gen.Kernel.Launch
import proofs.«126699_g2000605867469428_pallasbulk_857_3_alg».proof.Proof.Gen.Kernel.Points
import proofs.«126699_g2000605867469428_pallasbulk_857_3_alg».proof.Proof.Gen.Kernel.Frame
import proofs.«126699_g2000605867469428_pallasbulk_857_3_alg».proof.Proof.Gen.KernelIdeal
import proofs.«126699_g2000605867469428_pallasbulk_857_3_alg».proof.Proof.Gen.KernelIdeal.Skeleton
import proofs.«126699_g2000605867469428_pallasbulk_857_3_alg».proof.Proof.Gen.KernelIdeal.Launch
import proofs.«126699_g2000605867469428_pallasbulk_857_3_alg».proof.Proof.Gen.KernelIdeal.Points
import proofs.«126699_g2000605867469428_pallasbulk_857_3_alg».proof.Proof.Gen.KernelIdeal.Frame
import proofs.«126699_g2000605867469428_pallasbulk_857_3_alg».proof.Proof.Gen.KernelIdeal.Value
import proofs.«126699_g2000605867469428_pallasbulk_857_3_alg».proof.Proof.Gen.ReferenceIdeal
import proofs.«126699_g2000605867469428_pallasbulk_857_3_alg».proof.Proof.Gen.ReferenceIdeal.Skeleton
import proofs.«126699_g2000605867469428_pallasbulk_857_3_alg».proof.Proof.Gen.ReferenceIdeal.Launch
import proofs.«126699_g2000605867469428_pallasbulk_857_3_alg».proof.Proof.Gen.ReferenceIdeal.Regions
import proofs.«126699_g2000605867469428_pallasbulk_857_3_alg».proof.Proof.Gen.ReferenceIdeal.Points
import proofs.«126699_g2000605867469428_pallasbulk_857_3_alg».proof.Proof.Gen.Pre_finite_inputs
import proofs.«126699_g2000605867469428_pallasbulk_857_3_alg».proof.Proof.KernFinal
import proofs.«126699_g2000605867469428_pallasbulk_857_3_alg».proof.Proof.RefRun
import proofs.«126699_g2000605867469428_pallasbulk_857_3_alg».proof.Proof.RefKeep
import proofs.«126699_g2000605867469428_pallasbulk_857_3_alg».proof.Proof.RefArgs
import proofs.«126699_g2000605867469428_pallasbulk_857_3_alg».proof.Proof.RefLvl5
import proofs.«126699_g2000605867469428_pallasbulk_857_3_alg».proof.Proof.RefLvl5Out
import proofs.«126699_g2000605867469428_pallasbulk_857_3_alg».proof.Proof.RefLvl4
import proofs.«126699_g2000605867469428_pallasbulk_857_3_alg».proof.Proof.RefLvl3
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's frame at the word level: generated. -/
theorem frame_k : Cert.frame_Kernel := fun m ρ _ => Cert.Kernel.Gen.frame m ρ

/-- The idealized kernel's frame: generated. -/
theorem frame_ki : Cert.frame_KernelIdeal := fun m ρ _ => Cert.KernelIdeal.Gen.frame m ρ

/-- The reference's frame: its run ends with every unscoped buffer at the last boundary's contents, and no item of the
    program writes an argument. -/
theorem frame_ri : Cert.frame_ReferenceIdeal := fun m ρ _ =>
  (θ_run Cert.ReferenceIdeal.defs _ _).mono (fun r h c => by
    open Cert.ReferenceIdeal Cert.ReferenceIdeal.Gen Cert.ReferenceIdeal.Hand in
    exact ⟨(h c _ (mem_uc main_arg0 (by decide))).trans (Bv16_untouched m ρ c main_arg0 (by decide) (by decide) (by decide) (by decide) (by decide) (by decide) (by decide) (by decide) (by decide) (by decide) (by decide) (by decide) (by decide) (by decide) (by decide) (by decide)),
      (h c _ (mem_uc main_arg1 (by decide))).trans (Bv16_untouched m ρ c main_arg1 (by decide) (by decide) (by decide) (by decide) (by decide) (by decide) (by decide) (by decide) (by decide) (by decide) (by decide) (by decide) (by decide) (by decide) (by decide) (by decide)),
      (h c _ (mem_uc main_arg2 (by decide))).trans (Bv16_untouched m ρ c main_arg2 (by decide) (by decide) (by decide) (by decide) (by decide) (by decide) (by decide) (by decide) (by decide) (by decide) (by decide) (by decide) (by decide) (by decide) (by decide) (by decide)),
      (h c _ (mem_uc main_arg3 (by decide))).trans (Bv16_untouched m ρ c main_arg3 (by decide) (by decide) (by decide) (by decide) (by decide) (by decide) (by decide) (by decide) (by decide) (by decide) (by decide) (by decide) (by decide) (by decide) (by decide) (by decide)),
      (h c _ (mem_uc main_arg4 (by decide))).trans (Bv16_untouched m ρ c main_arg4 (by decide) (by decide) (by decide) (by decide) (by decide) (by decide) (by decide) (by decide) (by decide) (by decide) (by decide) (by decide) (by decide) (by decide) (by decide) (by decide)),
      (h c _ (mem_uc main_arg5 (by decide))).trans (Bv16_untouched m ρ c main_arg5 (by decide) (by decide) (by decide) (by decide) (by decide) (by decide) (by decide) (by decide) (by decide) (by decide) (by decide) (by decide) (by decide) (by decide) (by decide) (by decide)),
      (h c _ (mem_uc main_arg6 (by decide))).trans (Bv16_untouched m ρ c main_arg6 (by decide) (by decide) (by decide) (by decide) (by decide) (by decide) (by decide) (by decide) (by decide) (by decide) (by decide) (by decide) (by decide) (by decide) (by decide) (by decide)),
      (h c _ (mem_uc main_arg7 (by decide))).trans (Bv16_untouched m ρ c main_arg7 (by decide) (by decide) (by decide) (by decide) (by decide) (by decide) (by decide) (by decide) (by decide) (by decide) (by decide) (by decide) (by decide) (by decide) (by decide) (by decide)),
      (h c _ (mem_uc main_arg8 (by decide))).trans (Bv16_untouched m ρ c main_arg8 (by decide) (by decide) (by decide) (by decide) (by decide) (by decide) (by decide) (by decide) (by decide) (by decide) (by decide) (by decide) (by decide) (by decide) (by decide) (by decide)),
      (h c _ (mem_uc main_arg9 (by decide))).trans (Bv16_untouched m ρ c main_arg9 (by decide) (by decide) (by decide) (by decide) (by decide) (by decide) (by decide) (by decide) (by decide) (by decide) (by decide) (by decide) (by decide) (by decide) (by decide) (by decide)),
      (h c _ (mem_uc main_arg10 (by decide))).trans (Bv16_untouched m ρ c main_arg10 (by decide) (by decide) (by decide) (by decide) (by decide) (by decide) (by decide) (by decide) (by decide) (by decide) (by decide) (by decide) (by decide) (by decide) (by decide) (by decide)),
      (h c _ (mem_uc main_arg11 (by decide))).trans (Bv16_untouched m ρ c main_arg11 (by decide) (by decide) (by decide) (by decide) (by decide) (by decide) (by decide) (by decide) (by decide) (by decide) (by decide) (by decide) (by decide) (by decide) (by decide) (by decide)),
      (h c _ (mem_uc main_arg12 (by decide))).trans (Bv16_untouched m ρ c main_arg12 (by decide) (by decide) (by decide) (by decide) (by decide) (by decide) (by decide) (by decide) (by decide) (by decide) (by decide) (by decide) (by decide) (by decide) (by decide) (by decide)),
      (h c _ (mem_uc main_arg13 (by decide))).trans (Bv16_untouched m ρ c main_arg13 (by decide) (by decide) (by decide) (by decide) (by decide) (by decide) (by decide) (by decide) (by decide) (by decide) (by decide) (by decide) (by decide) (by decide) (by decide) (by decide)),
      (h c _ (mem_uc main_arg14 (by decide))).trans (Bv16_untouched m ρ c main_arg14 (by decide) (by decide) (by decide) (by decide) (by decide) (by decide) (by decide) (by decide) (by decide) (by decide) (by decide) (by decide) (by decide) (by decide) (by decide) (by decide))⟩)
    (Cert.ReferenceIdeal.Hand.run_all (F := Ideal) m ρ)

/-- The idealization's one rewrite: a round trip through bf16 removed. -/
theorem preserves : Cert.preserves_Kernel_KernelIdeal :=
  IdealRules.truncf_extf.statement _ .f32 .bf16

/-- The two programs' argument arrays, curried, are the same once the memories agree on the arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Hand.rArgs m' c = Cert.KernelIdeal.Hand.kArgs m c := by
  obtain ⟨e0, e1, e2, e3, e4, e5, e6, e7, e8, e9, e10, e11, e12, e13, e14⟩ := hagree
  unfold Cert.ReferenceIdeal.Hand.rArgs Cert.KernelIdeal.Hand.kArgs
  rw [e0, e1, e2, e3, e4, e5, e6, e7, e8, e9, e10, e11, e12, e13, e14]

/-- At the ideal instance the two programs, from memories agreeing on the arguments, end with equal results: each result
    of the reference, threaded back through its launches and host stretches, and each output block of the kernel are the
    same function of the arguments (`Cert.Spec.Args.o3 / o4 / o5`). -/
theorem algebraic : Cert.algebraic_KernelIdeal_ReferenceIdeal := by
  intro m ρ m' ρ' _ hagree
  refine ⟨fun c => (Cert.KernelIdeal.Gen.dats (F := Ideal) m 0 c).arrAt 15 Cert.KernelIdeal.cfg0.N,
    fun c => (Cert.KernelIdeal.Gen.dats (F := Ideal) m 0 c).arrAt 16 Cert.KernelIdeal.cfg0.N,
    fun c => (Cert.KernelIdeal.Gen.dats (F := Ideal) m 0 c).arrAt 17 Cert.KernelIdeal.cfg0.N,
    Cert.KernelIdeal.Value.run_blocks (F := Ideal) m ρ, ?_⟩
  refine (θ_run Cert.ReferenceIdeal.defs _ _).mono (fun r h c => ?_) (Cert.ReferenceIdeal.Hand.run_all (F := Ideal) m' ρ')
  have ha := args_eq m m' c (hagree c)
  open Cert.ReferenceIdeal Cert.ReferenceIdeal.Gen Cert.ReferenceIdeal.Hand in
  refine ⟨?_, ?_, ?_, (h c _ (mem_uc main_arg0 (by decide))).trans (Bv16_untouched m' ρ' c main_arg0 (by decide) (by decide) (by decide) (by decide) (by decide) (by decide) (by decide) (by decide) (by decide) (by decide) (by decide) (by decide) (by decide) (by decide) (by decide) (by decide)),
    (h c _ (mem_uc main_arg1 (by decide))).trans (Bv16_untouched m' ρ' c main_arg1 (by decide) (by decide) (by decide) (by decide) (by decide) (by decide) (by decide) (by decide) (by decide) (by decide) (by decide) (by decide) (by decide) (by decide) (by decide) (by decide)),
    (h c _ (mem_uc main_arg2 (by decide))).trans (Bv16_untouched m' ρ' c main_arg2 (by decide) (by decide) (by decide) (by decide) (by decide) (by decide) (by decide) (by decide) (by decide) (by decide) (by decide) (by decide) (by decide) (by decide) (by decide) (by decide)),
    (h c _ (mem_uc main_arg3 (by decide))).trans (Bv16_untouched m' ρ' c main_arg3 (by decide) (by decide) (by decide) (by decide) (by decide) (by decide) (by decide) (by decide) (by decide) (by decide) (by decide) (by decide) (by decide) (by decide) (by decide) (by decide)),
    (h c _ (mem_uc main_arg4 (by decide))).trans (Bv16_untouched m' ρ' c main_arg4 (by decide) (by decide) (by decide) (by decide) (by decide) (by decide) (by decide) (by decide) (by decide) (by decide) (by decide) (by decide) (by decide) (by decide) (by decide) (by decide)),
    (h c _ (mem_uc main_arg5 (by decide))).trans (Bv16_untouched m' ρ' c main_arg5 (by decide) (by decide) (by decide) (by decide) (by decide) (by decide) (by decide) (by decide) (by decide) (by decide) (by decide) (by decide) (by decide) (by decide) (by decide) (by decide)),
    (h c _ (mem_uc main_arg6 (by decide))).trans (Bv16_untouched m' ρ' c main_arg6 (by decide) (by decide) (by decide) (by decide) (by decide) (by decide) (by decide) (by decide) (by decide) (by decide) (by decide) (by decide) (by decide) (by decide) (by decide) (by decide)),
    (h c _ (mem_uc main_arg7 (by decide))).trans (Bv16_untouched m' ρ' c main_arg7 (by decide) (by decide) (by decide) (by decide) (by decide) (by decide) (by decide) (by decide) (by decide) (by decide) (by decide) (by decide) (by decide) (by decide) (by decide) (by decide)),
    (h c _ (mem_uc main_arg8 (by decide))).trans (Bv16_untouched m' ρ' c main_arg8 (by decide) (by decide) (by decide) (by decide) (by decide) (by decide) (by decide) (by decide) (by decide) (by decide) (by decide) (by decide) (by decide) (by decide) (by decide) (by decide)),
    (h c _ (mem_uc main_arg9 (by decide))).trans (Bv16_untouched m' ρ' c main_arg9 (by decide) (by decide) (by decide) (by decide) (by decide) (by decide) (by decide) (by decide) (by decide) (by decide) (by decide) (by decide) (by decide) (by decide) (by decide) (by decide)),
    (h c _ (mem_uc main_arg10 (by decide))).trans (Bv16_untouched m' ρ' c main_arg10 (by decide) (by decide) (by decide) (by decide) (by decide) (by decide) (by decide) (by decide) (by decide) (by decide) (by decide) (by decide) (by decide) (by decide) (by decide) (by decide)),
    (h c _ (mem_uc main_arg11 (by decide))).trans (Bv16_untouched m' ρ' c main_arg11 (by decide) (by decide) (by decide) (by decide) (by decide) (by decide) (by decide) (by decide) (by decide) (by decide) (by decide) (by decide) (by decide) (by decide) (by decide) (by decide)),
    (h c _ (mem_uc main_arg12 (by decide))).trans (Bv16_untouched m' ρ' c main_arg12 (by decide) (by decide) (by decide) (by decide) (by decide) (by decide) (by decide) (by decide) (by decide) (by decide) (by decide) (by decide) (by decide) (by decide) (by decide) (by decide)),
    (h c _ (mem_uc main_arg13 (by decide))).trans (Bv16_untouched m' ρ' c main_arg13 (by decide) (by decide) (by decide) (by decide) (by decide) (by decide) (by decide) (by decide) (by decide) (by decide) (by decide) (by decide) (by decide) (by decide) (by decide) (by decide)),
    (h c _ (mem_uc main_arg14 (by decide))).trans (Bv16_untouched m' ρ' c main_arg14 (by decide) (by decide) (by decide) (by decide) (by decide) (by decide) (by decide) (by decide) (by decide) (by decide) (by decide) (by decide) (by decide) (by decide) (by decide) (by decide))⟩
  · refine (h c _ (mem_uc main_v47 (by decide))).trans ?_
    funext i
    obtain ⟨n, hh, w, co, rfl⟩ : ∃ (n : Fin 4) (hh w : Fin 64) (co : Fin 128), i = ix4 n hh w co := ⟨i 0, i 1, i 2, i 3, eq_ix4 i⟩
    exact (ref_o3_of m' ρ' c (ref_p4 m' ρ' c) n hh w co).trans ((congrArg (fun a => a.o3 n hh w co) ha).trans (Cert.KernelIdeal.Hand.kern15 m c n hh w co).symm)
  · refine (h c _ (mem_uc main_v27 (by decide))).trans ?_
    funext i
    obtain ⟨n, hh, w, co, rfl⟩ : ∃ (n : Fin 4) (hh w : Fin 32) (co : Fin 128), i = ix4 n hh w co := ⟨i 0, i 1, i 2, i 3, eq_ix4 i⟩
    exact (ref_o4 m' ρ' c n hh w co).trans ((congrArg (fun a => a.o4 n hh w co) ha).trans (Cert.KernelIdeal.Hand.kern16 m c n hh w co).symm)
  · refine (h c _ (mem_uc main_v7 (by decide))).trans ?_
    funext i
    obtain ⟨n, hh, w, co, rfl⟩ : ∃ (n : Fin 4) (hh w : Fin 16) (co : Fin 128), i = ix4 n hh w co := ⟨i 0, i 1, i 2, i 3, eq_ix4 i⟩
    exact (ref_o5 m' ρ' c n hh w co).trans ((congrArg (fun a => a.o5 n hh w co) ha).trans (Cert.KernelIdeal.Hand.kern17 m c n hh w co).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
